-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x16 : Shape := ⟨2, ![1000000, 16]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x16 .f32) (main_arg2 : FVec F S1000000x16 .f32) : IVec S_ 1 :=
  let main_v0 : FVec F S1000000x16 .f32 := Host.absf main_arg1
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S1000000x16 .f32 := Host.absf main_arg2
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384 : Shape := ⟨1, ![16384]⟩
abbrev S1000000x16 : Shape := ⟨2, ![1000000, 16]⟩
abbrev S125000x128 : Shape := ⟨2, ![125000, 128]⟩
abbrev S16x16384 : Shape := ⟨2, ![16, 16384]⟩
abbrev S512 : Shape := ⟨1, ![512]⟩
abbrev S256 : Shape := ⟨1, ![256]⟩
abbrev S256x128 : Shape := ⟨2, ![256, 128]⟩
abbrev S16x512 : Shape := ⟨2, ![16, 512]⟩
abbrev S2 : Shape := ⟨1, ![2]⟩
abbrev S_ : Shape := ⟨0, ![]⟩
abbrev S16 : Shape := ⟨1, ![16]⟩
abbrev S1 : Shape := ⟨1, ![1]⟩
abbrev S1x16 : Shape := ⟨2, ![1, 16]⟩
abbrev S16384x16 : Shape := ⟨2, ![16384, 16]⟩

abbrev nBuf : Table → Nat
  | .hbm => 7
  | .local .scVector .vmem => 6
  | _ => 0

abbrev bufTy : (tb : Table) → Fin (nBuf tb) → BufTy
  | .hbm, ⟨0, _⟩ => ⟨S16384, .i32⟩
  | .hbm, ⟨1, _⟩ => ⟨S1000000x16, .f32⟩
  | .hbm, ⟨2, _⟩ => ⟨S1000000x16, .f32⟩
  | .hbm, ⟨3, _⟩ => ⟨S125000x128, .f32⟩
  | .hbm, ⟨4, _⟩ => ⟨S125000x128, .f32⟩
  | .hbm, ⟨5, _⟩ => ⟨S16x16384, .f32⟩
  | .hbm, ⟨6, _⟩ => ⟨S16384x16, .f32⟩
  | .local .scVector .vmem, ⟨0, _⟩ => ⟨S512, .i32⟩
  | .local .scVector .vmem, ⟨1, _⟩ => ⟨S256, .i32⟩
  | .local .scVector .vmem, ⟨2, _⟩ => ⟨S256, .i32⟩
  | .local .scVector .vmem, ⟨3, _⟩ => ⟨S256x128, .f32⟩
  | .local .scVector .vmem, ⟨4, _⟩ => ⟨S256x128, .f32⟩
  | .local .scVector .vmem, ⟨5, _⟩ => ⟨S16x512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off2 (k0_t1 : Fin k0_t1_loop.trips) (c0_i32_37 : BitVec 32) : Fin 1 → Nat :=
  let c0_i32_0 : BitVec 32 := 0#32
  let c1_i32 : BitVec 32 := 1#32
  let arg13 : BitVec 32 := Scf.iv c0_i32_0 c1_i32 k0_t1
  let c16_i32_36 : BitVec 32 := 16#32
  let v31 : BitVec 32 := Scalar.muli arg13 c16_i32_36
  let v32 : BitVec 32 := Scalar.addi c0_i32_37 v31
  let v33 : Index := Scalar.indexCast v32
  ![v33.toNat]
def k0_off3 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c16_i32_38 : BitVec 32 := 16#32
  let v37 : BitVec 32 := Scalar.muli arg13 c16_i32_38
  let v38 : Index := Scalar.indexCast v37
  ![v38.toNat]
@[reducible] def k0_t2_loop : Scf.Loop 32 :=
  let c0_i32_15 : BitVec 32 := 0#32
  let c16_i32_16 : BitVec 32 := 16#32
  let v17 : BitVec 32 := Scalar.addi c0_i32_15 c16_i32_16
  let c1_i32_17 : BitVec 32 := 1#32
  ⟨c0_i32_15, v17, c1_i32_17⟩
def k0_off4 (k0_t2 : Fin k0_t2_loop.trips) : Fin 1 → Nat :=
  let c0_i32_37 : BitVec 32 := 0#32
  let c0_i32_15 : BitVec 32 := 0#32
  let c1_i32_17 : BitVec 32 := 1#32
  let arg13 : BitVec 32 := Scf.iv c0_i32_15 c1_i32_17 k0_t2
  let c16_i32_36 : BitVec 32 := 16#32
  let v31 : BitVec 32 := Scalar.muli arg13 c16_i32_36
  let v32 : BitVec 32 := Scalar.addi c0_i32_37 v31
  let v33 : Index := Scalar.indexCast v32
  ![v33.toNat]

def k0_chk1 (v41 : IVec S16 32) (v43 : IVec S16 32) : Prop :=
  (∀ a x, ((![v41, v43] : Fin 2 → IVec S16 32) a x).toNat < S256x128.size a)
instance k0_chk1.dec : ∀ (v41 : IVec S16 32) (v43 : IVec S16 32), Decidable (k0_chk1 v41 v43) := fun v41 v43 => decidable_of_iff' _ (Iff.of_eq (k0_chk1.eq_1 v41 v43))
theorem k0_idx1_inb : ∀ (v41 : IVec S16 32) (v43 : IVec S16 32) (k0_hw1 : k0_chk1 v41 v43), ∀ a x, ((![v41, v43] : Fin 2 → IVec S16 32) a x).toNat < S256x128.size a := fun v41 v43 k0_hw1 => k0_hw1

def k0_chk2 (v41 : IVec S16 32) (v46 : IVec S16 32) : Prop :=
  (∀ a x, ((![v41, v46] : Fin 2 → IVec S16 32) a x).toNat < S256x128.size a)
instance k0_chk2.dec : ∀ (v41 : IVec S16 32) (v46 : IVec S16 32), Decidable (k0_chk2 v41 v46) := fun v41 v46 => decidable_of_iff' _ (Iff.of_eq (k0_chk2.eq_1 v41 v46))
theorem k0_idx2_inb : ∀ (v41 : IVec S16 32) (v46 : IVec S16 32) (k0_hw2 : k0_chk2 v41 v46), ∀ a x, ((![v41, v46] : Fin 2 → IVec S16 32) a x).toNat < S256x128.size a := fun v41 v46 k0_hw2 => k0_hw2
def k0_off5 (k0_t2 : Fin k0_t2_loop.trips) : Fin 2 → Nat :=
  let c0_i32_44 : BitVec 32 := 0#32
  let v51 : Index := Scalar.indexCast c0_i32_44
  let c0_i32_43 : BitVec 32 := 0#32
  let c0_i32_15 : BitVec 32 := 0#32
  let c1_i32_17 : BitVec 32 := 1#32
  let arg13 : BitVec 32 := Scf.iv c0_i32_15 c1_i32_17 k0_t2
  let c16_i32_42 : BitVec 32 := 16#32
  let v49 : BitVec 32 := Scalar.muli arg13 c16_i32_42
  let v50 : BitVec 32 := Scalar.addi c0_i32_43 v49
  let v52 : Index := Scalar.indexCast v50
  ![0, v52.toNat]

def k0_chk3 (v41 : IVec S16 32) (v55 : IVec S16 32) : Prop :=
  (∀ a x, ((![v41, v55] : Fin 2 → IVec S16 32) a x).toNat < S256x128.size a)
instance k0_chk3.dec : ∀ (v41 : IVec S16 32) (v55 : IVec S16 32), Decidable (k0_chk3 v41 v55) := fun v41 v55 => decidable_of_iff' _ (Iff.of_eq (k0_chk3.eq_1 v41 v55))
theorem k0_idx3_inb : ∀ (v41 : IVec S16 32) (v55 : IVec S16 32) (k0_hw3 : k0_chk3 v41 v55), ∀ a x, ((![v41, v55] : Fin 2 → IVec S16 32) a x).toNat < S256x128.size a := fun v41 v55 k0_hw3 => k0_hw3

def k0_chk4 (v41 : IVec S16 32) (v58 : IVec S16 32) : Prop :=
  (∀ a x, ((![v41, v58] : Fin 2 → IVec S16 32) a x).toNat < S256x128.size a)
instance k0_chk4.dec : ∀ (v41 : IVec S16 32) (v58 : IVec S16 32), Decidable (k0_chk4 v41 v58) := fun v41 v58 => decidable_of_iff' _ (Iff.of_eq (k0_chk4.eq_1 v41 v58))
theorem k0_idx4_inb : ∀ (v41 : IVec S16 32) (v58 : IVec S16 32) (k0_hw4 : k0_chk4 v41 v58), ∀ a x, ((![v41, v58] : Fin 2 → IVec S16 32) a x).toNat < S256x128.size a := fun v41 v58 k0_hw4 => k0_hw4
def k0_off6 (k0_t2 : Fin k0_t2_loop.trips) : Fin 2 → Nat :=
  let c1_i32_49 : BitVec 32 := 1#32
  let v63 : Index := Scalar.indexCast c1_i32_49
  let c0_i32_48 : BitVec 32 := 0#32
  let c0_i32_15 : BitVec 32 := 0#32
  let c1_i32_17 : BitVec 32 := 1#32
  let arg13 : BitVec 32 := Scf.iv c0_i32_15 c1_i32_17 k0_t2
  let c16_i32_47 : BitVec 32 := 16#32
  let v61 : BitVec 32 := Scalar.muli arg13 c16_i32_47
  let v62 : BitVec 32 := Scalar.addi c0_i32_48 v61
  let v64 : Index := Scalar.indexCast v62
  ![1, v64.toNat]

def k0_chk5 (v41 : IVec S16 32) (v67 : IVec S16 32) : Prop :=
  (∀ a x, ((![v41, v67] : Fin 2 → IVec S16 32) a x).toNat < S256x128.size a)
instance k0_chk5.dec : ∀ (v41 : IVec S16 32) (v67 : IVec S16 32), Decidable (k0_chk5 v41 v67) := fun v41 v67 => decidable_of_iff' _ (Iff.of_eq (k0_chk5.eq_1 v41 v67))
theorem k0_idx5_inb : ∀ (v41 : IVec S16 32) (v67 : IVec S16 32) (k0_hw5 : k0_chk5 v41 v67), ∀ a x, ((![v41, v67] : Fin 2 → IVec S16 32) a x).toNat < S256x128.size a := fun v41 v67 k0_hw5 => k0_hw5

def k0_chk6 (v41 : IVec S16 32) (v70 : IVec S16 32) : Prop :=
  (∀ a x, ((![v41, v70] : Fin 2 → IVec S16 32) a x).toNat < S256x128.size a)
instance k0_chk6.dec : ∀ (v41 : IVec S16 32) (v70 : IVec S16 32), Decidable (k0_chk6 v41 v70) := fun v41 v70 => decidable_of_iff' _ (Iff.of_eq (k0_chk6.eq_1 v41 v70))
theorem k0_idx6_inb : ∀ (v41 : IVec S16 32) (v70 : IVec S16 32) (k0_hw6 : k0_chk6 v41 v70), ∀ a x, ((![v41, v70] : Fin 2 → IVec S16 32) a x).toNat < S256x128.size a := fun v41 v70 k0_hw6 => k0_hw6
def k0_off7 (k0_t2 : Fin k0_t2_loop.trips) : Fin 2 → Nat :=
  let c2_i32_54 : BitVec 32 := 2#32
  let v75 : Index := Scalar.indexCast c2_i32_54
  let c0_i32_53 : BitVec 32 := 0#32
  let c0_i32_15 : BitVec 32 := 0#32
  let c1_i32_17 : BitVec 32 := 1#32
  let arg13 : BitVec 32 := Scf.iv c0_i32_15 c1_i32_17 k0_t2
  let c16_i32_52 : BitVec 32 := 16#32
  let v73 : BitVec 32 := Scalar.muli arg13 c16_i32_52
  let v74 : BitVec 32 := Scalar.addi c0_i32_53 v73
  let v76 : Index := Scalar.indexCast v74
  ![2, v76.toNat]

def k0_chk7 (v41 : IVec S16 32) (v79 : IVec S16 32) : Prop :=
  (∀ a x, ((![v41, v79] : Fin 2 → IVec S16 32) a x).toNat < S256x128.size a)
instance k0_chk7.dec : ∀ (v41 : IVec S16 32) (v79 : IVec S16 32), Decidable (k0_chk7 v41 v79) := fun v41 v79 => decidable_of_iff' _ (Iff.of_eq (k0_chk7.eq_1 v41 v79))
theorem k0_idx7_inb : ∀ (v41 : IVec S16 32) (v79 : IVec S16 32) (k0_hw7 : k0_chk7 v41 v79), ∀ a x, ((![v41, v79] : Fin 2 → IVec S16 32) a x).toNat < S256x128.size a := fun v41 v79 k0_hw7 => k0_hw7

def k0_chk8 (v41 : IVec S16 32) (v82 : IVec S16 32) : Prop :=
  (∀ a x, ((![v41, v82] : Fin 2 → IVec S16 32) a x).toNat < S256x128.size a)
instance k0_chk8.dec : ∀ (v41 : IVec S16 32) (v82 : IVec S16 32), Decidable (k0_chk8 v41 v82) := fun v41 v82 => decidable_of_iff' _ (Iff.of_eq (k0_chk8.eq_1 v41 v82))
theorem k0_idx8_inb : ∀ (v41 : IVec S16 32) (v82 : IVec S16 32) (k0_hw8 : k0_chk8 v41 v82), ∀ a x, ((![v41, v82] : Fin 2 → IVec S16 32) a x).toNat < S256x128.size a := fun v41 v82 k0_hw8 => k0_hw8
def k0_off8 (k0_t2 : Fin k0_t2_loop.trips) : Fin 2 → Nat :=
  let c3_i32_58 : BitVec 32 := 3#32
  let v87 : Index := Scalar.indexCast c3_i32_58
  let c0_i32_57 : BitVec 32 := 0#32
  let c0_i32_15 : BitVec 32 := 0#32
  let c1_i32_17 : BitVec 32 := 1#32
  let arg13 : BitVec 32 := Scf.iv c0_i32_15 c1_i32_17 k0_t2
  let c16_i32_56 : BitVec 32 := 16#32
  let v85 : BitVec 32 := Scalar.muli arg13 c16_i32_56
  let v86 : BitVec 32 := Scalar.addi c0_i32_57 v85
  let v88 : Index := Scalar.indexCast v86
  ![3, v88.toNat]

def k0_chk9 (v41 : IVec S16 32) (v91 : IVec S16 32) : Prop :=
  (∀ a x, ((![v41, v91] : Fin 2 → IVec S16 32) a x).toNat < S256x128.size a)
instance k0_chk9.dec : ∀ (v41 : IVec S16 32) (v91 : IVec S16 32), Decidable (k0_chk9 v41 v91) := fun v41 v91 => decidable_of_iff' _ (Iff.of_eq (k0_chk9.eq_1 v41 v91))
theorem k0_idx9_inb : ∀ (v41 : IVec S16 32) (v91 : IVec S16 32) (k0_hw9 : k0_chk9 v41 v91), ∀ a x, ((![v41, v91] : Fin 2 → IVec S16 32) a x).toNat < S256x128.size a := fun v41 v91 k0_hw9 => k0_hw9

def k0_chk10 (v41 : IVec S16 32) (v94 : IVec S16 32) : Prop :=
  (∀ a x, ((![v41, v94] : Fin 2 → IVec S16 32) a x).toNat < S256x128.size a)
instance k0_chk10.dec : ∀ (v41 : IVec S16 32) (v94 : IVec S16 32), Decidable (k0_chk10 v41 v94) := fun v41 v94 => decidable_of_iff' _ (Iff.of_eq (k0_chk10.eq_1 v41 v94))
theorem k0_idx10_inb : ∀ (v41 : IVec S16 32) (v94 : IVec S16 32) (k0_hw10 : k0_chk10 v41 v94), ∀ a x, ((![v41, v94] : Fin 2 → IVec S16 32) a x).toNat < S256x128.size a := fun v41 v94 k0_hw10 => k0_hw10
def k0_off9 (k0_t2 : Fin k0_t2_loop.trips) : Fin 2 → Nat :=
  let c4_i32_62 : BitVec 32 := 4#32
  let v99 : Index := Scalar.indexCast c4_i32_62
  let c0_i32_61 : BitVec 32 := 0#32
  let c0_i32_15 : BitVec 32 := 0#32
  let c1_i32_17 : BitVec 32 := 1#32
  let arg13 : BitVec 32 := Scf.iv c0_i32_15 c1_i32_17 k0_t2
  let c16_i32_60 : BitVec 32 := 16#32
  let v97 : BitVec 32 := Scalar.muli arg13 c16_i32_60
  let v98 : BitVec 32 := Scalar.addi c0_i32_61 v97
  let v100 : Index := Scalar.indexCast v98
  ![4, v100.toNat]

def k0_chk11 (v41 : IVec S16 32) (v103 : IVec S16 32) : Prop :=
  (∀ a x, ((![v41, v103] : Fin 2 → IVec S16 32) a x).toNat < S256x128.size a)
instance k0_chk11.dec : ∀ (v41 : IVec S16 32) (v103 : IVec S16 32), Decidable (k0_chk11 v41 v103) := fun v41 v103 => decidable_of_iff' _ (Iff.of_eq (k0_chk11.eq_1 v41 v103))
theorem k0_idx11_inb : ∀ (v41 : IVec S16 32) (v103 : IVec S16 32) (k0_hw11 : k0_chk11 v41 v103), ∀ a x, ((![v41, v103] : Fin 2 → IVec S16 32) a x).toNat < S256x128.size a := fun v41 v103 k0_hw11 => k0_hw11

def k0_chk12 (v41 : IVec S16 32) (v106 : IVec S16 32) : Prop :=
  (∀ a x, ((![v41, v106] : Fin 2 → IVec S16 32) a x).toNat < S256x128.size a)
instance k0_chk12.dec : ∀ (v41 : IVec S16 32) (v106 : IVec S16 32), Decidable (k0_chk12 v41 v106) := fun v41 v106 => decidable_of_iff' _ (Iff.of_eq (k0_chk12.eq_1 v41 v106))
theorem k0_idx12_inb : ∀ (v41 : IVec S16 32) (v106 : IVec S16 32) (k0_hw12 : k0_chk12 v41 v106), ∀ a x, ((![v41, v106] : Fin 2 → IVec S16 32) a x).toNat < S256x128.size a := fun v41 v106 k0_hw12 => k0_hw12
def k0_off10 (k0_t2 : Fin k0_t2_loop.trips) : Fin 2 → Nat :=
  let c5_i32_66 : BitVec 32 := 5#32
  let v111 : Index := Scalar.indexCast c5_i32_66
  let c0_i32_65 : BitVec 32 := 0#32
  let c0_i32_15 : BitVec 32 := 0#32
  let c1_i32_17 : BitVec 32 := 1#32
  let arg13 : BitVec 32 := Scf.iv c0_i32_15 c1_i32_17 k0_t2
  let c16_i32_64 : BitVec 32 := 16#32
  let v109 : BitVec 32 := Scalar.muli arg13 c16_i32_64
  let v110 : BitVec 32 := Scalar.addi c0_i32_65 v109
  let v112 : Index := Scalar.indexCast v110
  ![5, v112.toNat]

def k0_chk13 (v41 : IVec S16 32) (v115 : IVec S16 32) : Prop :=
  (∀ a x, ((![v41, v115] : Fin 2 → IVec S16 32) a x).toNat < S256x128.size a)
instance k0_chk13.dec : ∀ (v41 : IVec S16 32) (v115 : IVec S16 32), Decidable (k0_chk13 v41 v115) := fun v41 v115 => decidable_of_iff' _ (Iff.of_eq (k0_chk13.eq_1 v41 v115))
theorem k0_idx13_inb : ∀ (v41 : IVec S16 32) (v115 : IVec S16 32) (k0_hw13 : k0_chk13 v41 v115), ∀ a x, ((![v41, v115] : Fin 2 → IVec S16 32) a x).toNat < S256x128.size a := fun v41 v115 k0_hw13 => k0_hw13

def k0_chk14 (v41 : IVec S16 32) (v118 : IVec S16 32) : Prop :=
  (∀ a x, ((![v41, v118] : Fin 2 → IVec S16 32) a x).toNat < S256x128.size a)
instance k0_chk14.dec : ∀ (v41 : IVec S16 32) (v118 : IVec S16 32), Decidable (k0_chk14 v41 v118) := fun v41 v118 => decidable_of_iff' _ (Iff.of_eq (k0_chk14.eq_1 v41 v118))
theorem k0_idx14_inb : ∀ (v41 : IVec S16 32) (v118 : IVec S16 32) (k0_hw14 : k0_chk14 v41 v118), ∀ a x, ((![v41, v118] : Fin 2 → IVec S16 32) a x).toNat < S256x128.size a := fun v41 v118 k0_hw14 => k0_hw14
def k0_off11 (k0_t2 : Fin k0_t2_loop.trips) : Fin 2 → Nat :=
  let c6_i32_70 : BitVec 32 := 6#32
  let v123 : Index := Scalar.indexCast c6_i32_70
  let c0_i32_69 : BitVec 32 := 0#32
  let c0_i32_15 : BitVec 32 := 0#32
  let c1_i32_17 : BitVec 32 := 1#32
  let arg13 : BitVec 32 := Scf.iv c0_i32_15 c1_i32_17 k0_t2
  let c16_i32_68 : BitVec 32 := 16#32
  let v121 : BitVec 32 := Scalar.muli arg13 c16_i32_68
  let v122 : BitVec 32 := Scalar.addi c0_i32_69 v121
  let v124 : Index := Scalar.indexCast v122
  ![6, v124.toNat]

def k0_chk15 (v41 : IVec S16 32) (v127 : IVec S16 32) : Prop :=
  (∀ a x, ((![v41, v127] : Fin 2 → IVec S16 32) a x).toNat < S256x128.size a)
instance k0_chk15.dec : ∀ (v41 : IVec S16 32) (v127 : IVec S16 32), Decidable (k0_chk15 v41 v127) := fun v41 v127 => decidable_of_iff' _ (Iff.of_eq (k0_chk15.eq_1 v41 v127))
theorem k0_idx15_inb : ∀ (v41 : IVec S16 32) (v127 : IVec S16 32) (k0_hw15 : k0_chk15 v41 v127), ∀ a x, ((![v41, v127] : Fin 2 → IVec S16 32) a x).toNat < S256x128.size a := fun v41 v127 k0_hw15 => k0_hw15

def k0_chk16 (v41 : IVec S16 32) (v130 : IVec S16 32) : Prop :=
  (∀ a x, ((![v41, v130] : Fin 2 → IVec S16 32) a x).toNat < S256x128.size a)
instance k0_chk16.dec : ∀ (v41 : IVec S16 32) (v130 : IVec S16 32), Decidable (k0_chk16 v41 v130) := fun v41 v130 => decidable_of_iff' _ (Iff.of_eq (k0_chk16.eq_1 v41 v130))
theorem k0_idx16_inb : ∀ (v41 : IVec S16 32) (v130 : IVec S16 32) (k0_hw16 : k0_chk16 v41 v130), ∀ a x, ((![v41, v130] : Fin 2 → IVec S16 32) a x).toNat < S256x128.size a := fun v41 v130 k0_hw16 => k0_hw16
def k0_off12 (k0_t2 : Fin k0_t2_loop.trips) : Fin 2 → Nat :=
  let c7_i32_75 : BitVec 32 := 7#32
  let v135 : Index := Scalar.indexCast c7_i32_75
  let c0_i32_74 : BitVec 32 := 0#32
  let c0_i32_15 : BitVec 32 := 0#32
  let c1_i32_17 : BitVec 32 := 1#32
  let arg13 : BitVec 32 := Scf.iv c0_i32_15 c1_i32_17 k0_t2
  let c16_i32_73 : BitVec 32 := 16#32
  let v133 : BitVec 32 := Scalar.muli arg13 c16_i32_73
  let v134 : BitVec 32 := Scalar.addi c0_i32_74 v133
  let v136 : Index := Scalar.indexCast v134
  ![7, v136.toNat]

def k0_chk17 (v41 : IVec S16 32) (v139 : IVec S16 32) : Prop :=
  (∀ a x, ((![v41, v139] : Fin 2 → IVec S16 32) a x).toNat < S256x128.size a)
instance k0_chk17.dec : ∀ (v41 : IVec S16 32) (v139 : IVec S16 32), Decidable (k0_chk17 v41 v139) := fun v41 v139 => decidable_of_iff' _ (Iff.of_eq (k0_chk17.eq_1 v41 v139))
theorem k0_idx17_inb : ∀ (v41 : IVec S16 32) (v139 : IVec S16 32) (k0_hw17 : k0_chk17 v41 v139), ∀ a x, ((![v41, v139] : Fin 2 → IVec S16 32) a x).toNat < S256x128.size a := fun v41 v139 k0_hw17 => k0_hw17

def k0_chk18 (v41 : IVec S16 32) (v142 : IVec S16 32) : Prop :=
  (∀ a x, ((![v41, v142] : Fin 2 → IVec S16 32) a x).toNat < S256x128.size a)
instance k0_chk18.dec : ∀ (v41 : IVec S16 32) (v142 : IVec S16 32), Decidable (k0_chk18 v41 v142) := fun v41 v142 => decidable_of_iff' _ (Iff.of_eq (k0_chk18.eq_1 v41 v142))
theorem k0_idx18_inb : ∀ (v41 : IVec S16 32) (v142 : IVec S16 32) (k0_hw18 : k0_chk18 v41 v142), ∀ a x, ((![v41, v142] : Fin 2 → IVec S16 32) a x).toNat < S256x128.size a := fun v41 v142 k0_hw18 => k0_hw18
def k0_off13 (k0_t2 : Fin k0_t2_loop.trips) : Fin 2 → Nat :=
  let c8_i32_79 : BitVec 32 := 8#32
  let v147 : Index := Scalar.indexCast c8_i32_79
  let c0_i32_78 : BitVec 32 := 0#32
  let c0_i32_15 : BitVec 32 := 0#32
  let c1_i32_17 : BitVec 32 := 1#32
  let arg13 : BitVec 32 := Scf.iv c0_i32_15 c1_i32_17 k0_t2
  let c16_i32_77 : BitVec 32 := 16#32
  let v145 : BitVec 32 := Scalar.muli arg13 c16_i32_77
  let v146 : BitVec 32 := Scalar.addi c0_i32_78 v145
  let v148 : Index := Scalar.indexCast v146
  ![8, v148.toNat]

def k0_chk19 (v41 : IVec S16 32) (v151 : IVec S16 32) : Prop :=
  (∀ a x, ((![v41, v151] : Fin 2 → IVec S16 32) a x).toNat < S256x128.size a)
instance k0_chk19.dec : ∀ (v41 : IVec S16 32) (v151 : IVec S16 32), Decidable (k0_chk19 v41 v151) := fun v41 v151 => decidable_of_iff' _ (Iff.of_eq (k0_chk19.eq_1 v41 v151))
theorem k0_idx19_inb : ∀ (v41 : IVec S16 32) (v151 : IVec S16 32) (k0_hw19 : k0_chk19 v41 v151), ∀ a x, ((![v41, v151] : Fin 2 → IVec S16 32) a x).toNat < S256x128.size a := fun v41 v151 k0_hw19 => k0_hw19

def k0_chk20 (v41 : IVec S16 32) (v154 : IVec S16 32) : Prop :=
  (∀ a x, ((![v41, v154] : Fin 2 → IVec S16 32) a x).toNat < S256x128.size a)
instance k0_chk20.dec : ∀ (v41 : IVec S16 32) (v154 : IVec S16 32), Decidable (k0_chk20 v41 v154) := fun v41 v154 => decidable_of_iff' _ (Iff.of_eq (k0_chk20.eq_1 v41 v154))
theorem k0_idx20_inb : ∀ (v41 : IVec S16 32) (v154 : IVec S16 32) (k0_hw20 : k0_chk20 v41 v154), ∀ a x, ((![v41, v154] : Fin 2 → IVec S16 32) a x).toNat < S256x128.size a := fun v41 v154 k0_hw20 => k0_hw20
def k0_off14 (k0_t2 : Fin k0_t2_loop.trips) : Fin 2 → Nat :=
  let c9_i32_83 : BitVec 32 := 9#32
  let v159 : Index := Scalar.indexCast c9_i32_83
  let c0_i32_82 : BitVec 32 := 0#32
  let c0_i32_15 : BitVec 32 := 0#32
  let c1_i32_17 : BitVec 32 := 1#32
  let arg13 : BitVec 32 := Scf.iv c0_i32_15 c1_i32_17 k0_t2
  let c16_i32_81 : BitVec 32 := 16#32
  let v157 : BitVec 32 := Scalar.muli arg13 c16_i32_81
  let v158 : BitVec 32 := Scalar.addi c0_i32_82 v157
  let v160 : Index := Scalar.indexCast v158
  ![9, v160.toNat]

def k0_chk21 (v41 : IVec S16 32) (v163 : IVec S16 32) : Prop :=
  (∀ a x, ((![v41, v163] : Fin 2 → IVec S16 32) a x).toNat < S256x128.size a)
instance k0_chk21.dec : ∀ (v41 : IVec S16 32) (v163 : IVec S16 32), Decidable (k0_chk21 v41 v163) := fun v41 v163 => decidable_of_iff' _ (Iff.of_eq (k0_chk21.eq_1 v41 v163))
theorem k0_idx21_inb : ∀ (v41 : IVec S16 32) (v163 : IVec S16 32) (k0_hw21 : k0_chk21 v41 v163), ∀ a x, ((![v41, v163] : Fin 2 → IVec S16 32) a x).toNat < S256x128.size a := fun v41 v163 k0_hw21 => k0_hw21

def k0_chk22 (v41 : IVec S16 32) (v166 : IVec S16 32) : Prop :=
  (∀ a x, ((![v41, v166] : Fin 2 → IVec S16 32) a x).toNat < S256x128.size a)
instance k0_chk22.dec : ∀ (v41 : IVec S16 32) (v166 : IVec S16 32), Decidable (k0_chk22 v41 v166) := fun v41 v166 => decidable_of_iff' _ (Iff.of_eq (k0_chk22.eq_1 v41 v166))
theorem k0_idx22_inb : ∀ (v41 : IVec S16 32) (v166 : IVec S16 32) (k0_hw22 : k0_chk22 v41 v166), ∀ a x, ((![v41, v166] : Fin 2 → IVec S16 32) a x).toNat < S256x128.size a := fun v41 v166 k0_hw22 => k0_hw22
def k0_off15 (k0_t2 : Fin k0_t2_loop.trips) : Fin 2 → Nat :=
  let c10_i32_87 : BitVec 32 := 10#32
  let v171 : Index := Scalar.indexCast c10_i32_87
  let c0_i32_86 : BitVec 32 := 0#32
  let c0_i32_15 : BitVec 32 := 0#32
  let c1_i32_17 : BitVec 32 := 1#32
  let arg13 : BitVec 32 := Scf.iv c0_i32_15 c1_i32_17 k0_t2
  let c16_i32_85 : BitVec 32 := 16#32
  let v169 : BitVec 32 := Scalar.muli arg13 c16_i32_85
  let v170 : BitVec 32 := Scalar.addi c0_i32_86 v169
  let v172 : Index := Scalar.indexCast v170
  ![10, v172.toNat]

def k0_chk23 (v41 : IVec S16 32) (v175 : IVec S16 32) : Prop :=
  (∀ a x, ((![v41, v175] : Fin 2 → IVec S16 32) a x).toNat < S256x128.size a)
instance k0_chk23.dec : ∀ (v41 : IVec S16 32) (v175 : IVec S16 32), Decidable (k0_chk23 v41 v175) := fun v41 v175 => decidable_of_iff' _ (Iff.of_eq (k0_chk23.eq_1 v41 v175))
theorem k0_idx23_inb : ∀ (v41 : IVec S16 32) (v175 : IVec S16 32) (k0_hw23 : k0_chk23 v41 v175), ∀ a x, ((![v41, v175] : Fin 2 → IVec S16 32) a x).toNat < S256x128.size a := fun v41 v175 k0_hw23 => k0_hw23

def k0_chk24 (v41 : IVec S16 32) (v178 : IVec S16 32) : Prop :=
  (∀ a x, ((![v41, v178] : Fin 2 → IVec S16 32) a x).toNat < S256x128.size a)
instance k0_chk24.dec : ∀ (v41 : IVec S16 32) (v178 : IVec S16 32), Decidable (k0_chk24 v41 v178) := fun v41 v178 => decidable_of_iff' _ (Iff.of_eq (k0_chk24.eq_1 v41 v178))
theorem k0_idx24_inb : ∀ (v41 : IVec S16 32) (v178 : IVec S16 32) (k0_hw24 : k0_chk24 v41 v178), ∀ a x, ((![v41, v178] : Fin 2 → IVec S16 32) a x).toNat < S256x128.size a := fun v41 v178 k0_hw24 => k0_hw24
def k0_off16 (k0_t2 : Fin k0_t2_loop.trips) : Fin 2 → Nat :=
  let c11_i32_91 : BitVec 32 := 11#32
  let v183 : Index := Scalar.indexCast c11_i32_91
  let c0_i32_90 : BitVec 32 := 0#32
  let c0_i32_15 : BitVec 32 := 0#32
  let c1_i32_17 : BitVec 32 := 1#32
  let arg13 : BitVec 32 := Scf.iv c0_i32_15 c1_i32_17 k0_t2
  let c16_i32_89 : BitVec 32 := 16#32
  let v181 : BitVec 32 := Scalar.muli arg13 c16_i32_89
  let v182 : BitVec 32 := Scalar.addi c0_i32_90 v181
  let v184 : Index := Scalar.indexCast v182
  ![11, v184.toNat]

def k0_chk25 (v41 : IVec S16 32) (v187 : IVec S16 32) : Prop :=
  (∀ a x, ((![v41, v187] : Fin 2 → IVec S16 32) a x).toNat < S256x128.size a)
instance k0_chk25.dec : ∀ (v41 : IVec S16 32) (v187 : IVec S16 32), Decidable (k0_chk25 v41 v187) := fun v41 v187 => decidable_of_iff' _ (Iff.of_eq (k0_chk25.eq_1 v41 v187))
theorem k0_idx25_inb : ∀ (v41 : IVec S16 32) (v187 : IVec S16 32) (k0_hw25 : k0_chk25 v41 v187), ∀ a x, ((![v41, v187] : Fin 2 → IVec S16 32) a x).toNat < S256x128.size a := fun v41 v187 k0_hw25 => k0_hw25

def k0_chk26 (v41 : IVec S16 32) (v190 : IVec S16 32) : Prop :=
  (∀ a x, ((![v41, v190] : Fin 2 → IVec S16 32) a x).toNat < S256x128.size a)
instance k0_chk26.dec : ∀ (v41 : IVec S16 32) (v190 : IVec S16 32), Decidable (k0_chk26 v41 v190) := fun v41 v190 => decidable_of_iff' _ (Iff.of_eq (k0_chk26.eq_1 v41 v190))
theorem k0_idx26_inb : ∀ (v41 : IVec S16 32) (v190 : IVec S16 32) (k0_hw26 : k0_chk26 v41 v190), ∀ a x, ((![v41, v190] : Fin 2 → IVec S16 32) a x).toNat < S256x128.size a := fun v41 v190 k0_hw26 => k0_hw26
def k0_off17 (k0_t2 : Fin k0_t2_loop.trips) : Fin 2 → Nat :=
  let c12_i32_95 : BitVec 32 := 12#32
  let v195 : Index := Scalar.indexCast c12_i32_95
  let c0_i32_94 : BitVec 32 := 0#32
  let c0_i32_15 : BitVec 32 := 0#32
  let c1_i32_17 : BitVec 32 := 1#32
  let arg13 : BitVec 32 := Scf.iv c0_i32_15 c1_i32_17 k0_t2
  let c16_i32_93 : BitVec 32 := 16#32
  let v193 : BitVec 32 := Scalar.muli arg13 c16_i32_93
  let v194 : BitVec 32 := Scalar.addi c0_i32_94 v193
  let v196 : Index := Scalar.indexCast v194
  ![12, v196.toNat]

def k0_chk27 (v41 : IVec S16 32) (v199 : IVec S16 32) : Prop :=
  (∀ a x, ((![v41, v199] : Fin 2 → IVec S16 32) a x).toNat < S256x128.size a)
instance k0_chk27.dec : ∀ (v41 : IVec S16 32) (v199 : IVec S16 32), Decidable (k0_chk27 v41 v199) := fun v41 v199 => decidable_of_iff' _ (Iff.of_eq (k0_chk27.eq_1 v41 v199))
theorem k0_idx27_inb : ∀ (v41 : IVec S16 32) (v199 : IVec S16 32) (k0_hw27 : k0_chk27 v41 v199), ∀ a x, ((![v41, v199] : Fin 2 → IVec S16 32) a x).toNat < S256x128.size a := fun v41 v199 k0_hw27 => k0_hw27

def k0_chk28 (v41 : IVec S16 32) (v202 : IVec S16 32) : Prop :=
  (∀ a x, ((![v41, v202] : Fin 2 → IVec S16 32) a x).toNat < S256x128.size a)
instance k0_chk28.dec : ∀ (v41 : IVec S16 32) (v202 : IVec S16 32), Decidable (k0_chk28 v41 v202) := fun v41 v202 => decidable_of_iff' _ (Iff.of_eq (k0_chk28.eq_1 v41 v202))
theorem k0_idx28_inb : ∀ (v41 : IVec S16 32) (v202 : IVec S16 32) (k0_hw28 : k0_chk28 v41 v202), ∀ a x, ((![v41, v202] : Fin 2 → IVec S16 32) a x).toNat < S256x128.size a := fun v41 v202 k0_hw28 => k0_hw28
def k0_off18 (k0_t2 : Fin k0_t2_loop.trips) : Fin 2 → Nat :=
  let c13_i32_99 : BitVec 32 := 13#32
  let v207 : Index := Scalar.indexCast c13_i32_99
  let c0_i32_98 : BitVec 32 := 0#32
  let c0_i32_15 : BitVec 32 := 0#32
  let c1_i32_17 : BitVec 32 := 1#32
  let arg13 : BitVec 32 := Scf.iv c0_i32_15 c1_i32_17 k0_t2
  let c16_i32_97 : BitVec 32 := 16#32
  let v205 : BitVec 32 := Scalar.muli arg13 c16_i32_97
  let v206 : BitVec 32 := Scalar.addi c0_i32_98 v205
  let v208 : Index := Scalar.indexCast v206
  ![13, v208.toNat]

def k0_chk29 (v41 : IVec S16 32) (v211 : IVec S16 32) : Prop :=
  (∀ a x, ((![v41, v211] : Fin 2 → IVec S16 32) a x).toNat < S256x128.size a)
instance k0_chk29.dec : ∀ (v41 : IVec S16 32) (v211 : IVec S16 32), Decidable (k0_chk29 v41 v211) := fun v41 v211 => decidable_of_iff' _ (Iff.of_eq (k0_chk29.eq_1 v41 v211))
theorem k0_idx29_inb : ∀ (v41 : IVec S16 32) (v211 : IVec S16 32) (k0_hw29 : k0_chk29 v41 v211), ∀ a x, ((![v41, v211] : Fin 2 → IVec S16 32) a x).toNat < S256x128.size a := fun v41 v211 k0_hw29 => k0_hw29

def k0_chk30 (v41 : IVec S16 32) (v214 : IVec S16 32) : Prop :=
  (∀ a x, ((![v41, v214] : Fin 2 → IVec S16 32) a x).toNat < S256x128.size a)
instance k0_chk30.dec : ∀ (v41 : IVec S16 32) (v214 : IVec S16 32), Decidable (k0_chk30 v41 v214) := fun v41 v214 => decidable_of_iff' _ (Iff.of_eq (k0_chk30.eq_1 v41 v214))
theorem k0_idx30_inb : ∀ (v41 : IVec S16 32) (v214 : IVec S16 32) (k0_hw30 : k0_chk30 v41 v214), ∀ a x, ((![v41, v214] : Fin 2 → IVec S16 32) a x).toNat < S256x128.size a := fun v41 v214 k0_hw30 => k0_hw30
def k0_off19 (k0_t2 : Fin k0_t2_loop.trips) : Fin 2 → Nat :=
  let c14_i32_103 : BitVec 32 := 14#32
  let v219 : Index := Scalar.indexCast c14_i32_103
  let c0_i32_102 : BitVec 32 := 0#32
  let c0_i32_15 : BitVec 32 := 0#32
  let c1_i32_17 : BitVec 32 := 1#32
  let arg13 : BitVec 32 := Scf.iv c0_i32_15 c1_i32_17 k0_t2
  let c16_i32_101 : BitVec 32 := 16#32
  let v217 : BitVec 32 := Scalar.muli arg13 c16_i32_101
  let v218 : BitVec 32 := Scalar.addi c0_i32_102 v217
  let v220 : Index := Scalar.indexCast v218
  ![14, v220.toNat]

def k0_chk31 (v41 : IVec S16 32) (v223 : IVec S16 32) : Prop :=
  (∀ a x, ((![v41, v223] : Fin 2 → IVec S16 32) a x).toNat < S256x128.size a)
instance k0_chk31.dec : ∀ (v41 : IVec S16 32) (v223 : IVec S16 32), Decidable (k0_chk31 v41 v223) := fun v41 v223 => decidable_of_iff' _ (Iff.of_eq (k0_chk31.eq_1 v41 v223))
theorem k0_idx31_inb : ∀ (v41 : IVec S16 32) (v223 : IVec S16 32) (k0_hw31 : k0_chk31 v41 v223), ∀ a x, ((![v41, v223] : Fin 2 → IVec S16 32) a x).toNat < S256x128.size a := fun v41 v223 k0_hw31 => k0_hw31

def k0_chk32 (v41 : IVec S16 32) (v226 : IVec S16 32) : Prop :=
  (∀ a x, ((![v41, v226] : Fin 2 → IVec S16 32) a x).toNat < S256x128.size a)
instance k0_chk32.dec : ∀ (v41 : IVec S16 32) (v226 : IVec S16 32), Decidable (k0_chk32 v41 v226) := fun v41 v226 => decidable_of_iff' _ (Iff.of_eq (k0_chk32.eq_1 v41 v226))
theorem k0_idx32_inb : ∀ (v41 : IVec S16 32) (v226 : IVec S16 32) (k0_hw32 : k0_chk32 v41 v226), ∀ a x, ((![v41, v226] : Fin 2 → IVec S16 32) a x).toNat < S256x128.size a := fun v41 v226 k0_hw32 => k0_hw32
def k0_off20 (k0_t2 : Fin k0_t2_loop.trips) : Fin 2 → Nat :=
  let c15_i32_107 : BitVec 32 := 15#32
  let v231 : Index := Scalar.indexCast c15_i32_107
  let c0_i32_106 : BitVec 32 := 0#32
  let c0_i32_15 : BitVec 32 := 0#32
  let c1_i32_17 : BitVec 32 := 1#32
  let arg13 : BitVec 32 := Scf.iv c0_i32_15 c1_i32_17 k0_t2
  let c16_i32_105 : BitVec 32 := 16#32
  let v229 : BitVec 32 := Scalar.muli arg13 c16_i32_105
  let v230 : BitVec 32 := Scalar.addi c0_i32_106 v229
  let v232 : Index := Scalar.indexCast v230
  ![15, v232.toNat]
@[reducible] def k0_t3_loop : Scf.Loop 32 :=
  let c0_i32_32 : BitVec 32 := 0#32
  let c16_i32_33 : BitVec 32 := 16#32
  let v30 : BitVec 32 := Scalar.addi c0_i32_32 c16_i32_33
  let c1_i32_34 : BitVec 32 := 1#32
  ⟨c0_i32_32, v30, c1_i32_34⟩
def k0_off21 (k0_t3 : Fin k0_t3_loop.trips) : Fin 1 → Nat :=
  let c256_i32 : BitVec 32 := 256#32
  let c0_i32_32 : BitVec 32 := 0#32
  let c1_i32_34 : BitVec 32 := 1#32
  let arg13 : BitVec 32 := Scf.iv c0_i32_32 c1_i32_34 k0_t3
  let c16_i32_36 : BitVec 32 := 16#32
  let v31 : BitVec 32 := Scalar.muli arg13 c16_i32_36
  let v32 : BitVec 32 := Scalar.addi c256_i32 v31
  let v33 : Index := Scalar.indexCast v32
  ![v33.toNat]

def k0_chk33 (v41 : IVec S16 32) (v43 : IVec S16 32) : Prop :=
  (∀ a x, ((![v41, v43] : Fin 2 → IVec S16 32) a x).toNat < S256x128.size a)
instance k0_chk33.dec : ∀ (v41 : IVec S16 32) (v43 : IVec S16 32), Decidable (k0_chk33 v41 v43) := fun v41 v43 => decidable_of_iff' _ (Iff.of_eq (k0_chk33.eq_1 v41 v43))
theorem k0_idx33_inb : ∀ (v41 : IVec S16 32) (v43 : IVec S16 32) (k0_hw33 : k0_chk33 v41 v43), ∀ a x, ((![v41, v43] : Fin 2 → IVec S16 32) a x).toNat < S256x128.size a := fun v41 v43 k0_hw33 => k0_hw33

def k0_chk34 (v41 : IVec S16 32) (v46 : IVec S16 32) : Prop :=
  (∀ a x, ((![v41, v46] : Fin 2 → IVec S16 32) a x).toNat < S256x128.size a)
instance k0_chk34.dec : ∀ (v41 : IVec S16 32) (v46 : IVec S16 32), Decidable (k0_chk34 v41 v46) := fun v41 v46 => decidable_of_iff' _ (Iff.of_eq (k0_chk34.eq_1 v41 v46))
theorem k0_idx34_inb : ∀ (v41 : IVec S16 32) (v46 : IVec S16 32) (k0_hw34 : k0_chk34 v41 v46), ∀ a x, ((![v41, v46] : Fin 2 → IVec S16 32) a x).toNat < S256x128.size a := fun v41 v46 k0_hw34 => k0_hw34
def k0_off22 (k0_t3 : Fin k0_t3_loop.trips) : Fin 2 → Nat :=
  let c0_i32_43 : BitVec 32 := 0#32
  let v51 : Index := Scalar.indexCast c0_i32_43
  let c256_i32_42 : BitVec 32 := 256#32
  let c0_i32_32 : BitVec 32 := 0#32
  let c1_i32_34 : BitVec 32 := 1#32
  let arg13 : BitVec 32 := Scf.iv c0_i32_32 c1_i32_34 k0_t3
  let c16_i32_41 : BitVec 32 := 16#32
  let v49 : BitVec 32 := Scalar.muli arg13 c16_i32_41
  let v50 : BitVec 32 := Scalar.addi c256_i32_42 v49
  let v52 : Index := Scalar.indexCast v50
  ![0, v52.toNat]

def k0_chk35 (v41 : IVec S16 32) (v55 : IVec S16 32) : Prop :=
  (∀ a x, ((![v41, v55] : Fin 2 → IVec S16 32) a x).toNat < S256x128.size a)
instance k0_chk35.dec : ∀ (v41 : IVec S16 32) (v55 : IVec S16 32), Decidable (k0_chk35 v41 v55) := fun v41 v55 => decidable_of_iff' _ (Iff.of_eq (k0_chk35.eq_1 v41 v55))
theorem k0_idx35_inb : ∀ (v41 : IVec S16 32) (v55 : IVec S16 32) (k0_hw35 : k0_chk35 v41 v55), ∀ a x, ((![v41, v55] : Fin 2 → IVec S16 32) a x).toNat < S256x128.size a := fun v41 v55 k0_hw35 => k0_hw35

def k0_chk36 (v41 : IVec S16 32) (v58 : IVec S16 32) : Prop :=
  (∀ a x, ((![v41, v58] : Fin 2 → IVec S16 32) a x).toNat < S256x128.size a)
instance k0_chk36.dec : ∀ (v41 : IVec S16 32) (v58 : IVec S16 32), Decidable (k0_chk36 v41 v58) := fun v41 v58 => decidable_of_iff' _ (Iff.of_eq (k0_chk36.eq_1 v41 v58))
theorem k0_idx36_inb : ∀ (v41 : IVec S16 32) (v58 : IVec S16 32) (k0_hw36 : k0_chk36 v41 v58), ∀ a x, ((![v41, v58] : Fin 2 → IVec S16 32) a x).toNat < S256x128.size a := fun v41 v58 k0_hw36 => k0_hw36
def k0_off23 (k0_t3 : Fin k0_t3_loop.trips) : Fin 2 → Nat :=
  let c1_i32_48 : BitVec 32 := 1#32
  let v63 : Index := Scalar.indexCast c1_i32_48
  let c256_i32_47 : BitVec 32 := 256#32
  let c0_i32_32 : BitVec 32 := 0#32
  let c1_i32_34 : BitVec 32 := 1#32
  let arg13 : BitVec 32 := Scf.iv c0_i32_32 c1_i32_34 k0_t3
  let c16_i32_46 : BitVec 32 := 16#32
  let v61 : BitVec 32 := Scalar.muli arg13 c16_i32_46
  let v62 : BitVec 32 := Scalar.addi c256_i32_47 v61
  let v64 : Index := Scalar.indexCast v62
  ![1, v64.toNat]

def k0_chk37 (v41 : IVec S16 32) (v67 : IVec S16 32) : Prop :=
  (∀ a x, ((![v41, v67] : Fin 2 → IVec S16 32) a x).toNat < S256x128.size a)
instance k0_chk37.dec : ∀ (v41 : IVec S16 32) (v67 : IVec S16 32), Decidable (k0_chk37 v41 v67) := fun v41 v67 => decidable_of_iff' _ (Iff.of_eq (k0_chk37.eq_1 v41 v67))
theorem k0_idx37_inb : ∀ (v41 : IVec S16 32) (v67 : IVec S16 32) (k0_hw37 : k0_chk37 v41 v67), ∀ a x, ((![v41, v67] : Fin 2 → IVec S16 32) a x).toNat < S256x128.size a := fun v41 v67 k0_hw37 => k0_hw37

def k0_chk38 (v41 : IVec S16 32) (v70 : IVec S16 32) : Prop :=
  (∀ a x, ((![v41, v70] : Fin 2 → IVec S16 32) a x).toNat < S256x128.size a)
instance k0_chk38.dec : ∀ (v41 : IVec S16 32) (v70 : IVec S16 32), Decidable (k0_chk38 v41 v70) := fun v41 v70 => decidable_of_iff' _ (Iff.of_eq (k0_chk38.eq_1 v41 v70))
theorem k0_idx38_inb : ∀ (v41 : IVec S16 32) (v70 : IVec S16 32) (k0_hw38 : k0_chk38 v41 v70), ∀ a x, ((![v41, v70] : Fin 2 → IVec S16 32) a x).toNat < S256x128.size a := fun v41 v70 k0_hw38 => k0_hw38
def k0_off24 (k0_t3 : Fin k0_t3_loop.trips) : Fin 2 → Nat :=
  let c2_i32_53 : BitVec 32 := 2#32
  let v75 : Index := Scalar.indexCast c2_i32_53
  let c256_i32_52 : BitVec 32 := 256#32
  let c0_i32_32 : BitVec 32 := 0#32
  let c1_i32_34 : BitVec 32 := 1#32
  let arg13 : BitVec 32 := Scf.iv c0_i32_32 c1_i32_34 k0_t3
  let c16_i32_51 : BitVec 32 := 16#32
  let v73 : BitVec 32 := Scalar.muli arg13 c16_i32_51
  let v74 : BitVec 32 := Scalar.addi c256_i32_52 v73
  let v76 : Index := Scalar.indexCast v74
  ![2, v76.toNat]

def k0_chk39 (v41 : IVec S16 32) (v79 : IVec S16 32) : Prop :=
  (∀ a x, ((![v41, v79] : Fin 2 → IVec S16 32) a x).toNat < S256x128.size a)
instance k0_chk39.dec : ∀ (v41 : IVec S16 32) (v79 : IVec S16 32), Decidable (k0_chk39 v41 v79) := fun v41 v79 => decidable_of_iff' _ (Iff.of_eq (k0_chk39.eq_1 v41 v79))
theorem k0_idx39_inb : ∀ (v41 : IVec S16 32) (v79 : IVec S16 32) (k0_hw39 : k0_chk39 v41 v79), ∀ a x, ((![v41, v79] : Fin 2 → IVec S16 32) a x).toNat < S256x128.size a := fun v41 v79 k0_hw39 => k0_hw39

def k0_chk40 (v41 : IVec S16 32) (v82 : IVec S16 32) : Prop :=
  (∀ a x, ((![v41, v82] : Fin 2 → IVec S16 32) a x).toNat < S256x128.size a)
instance k0_chk40.dec : ∀ (v41 : IVec S16 32) (v82 : IVec S16 32), Decidable (k0_chk40 v41 v82) := fun v41 v82 => decidable_of_iff' _ (Iff.of_eq (k0_chk40.eq_1 v41 v82))
theorem k0_idx40_inb : ∀ (v41 : IVec S16 32) (v82 : IVec S16 32) (k0_hw40 : k0_chk40 v41 v82), ∀ a x, ((![v41, v82] : Fin 2 → IVec S16 32) a x).toNat < S256x128.size a := fun v41 v82 k0_hw40 => k0_hw40
def k0_off25 (k0_t3 : Fin k0_t3_loop.trips) : Fin 2 → Nat :=
  let c3_i32_57 : BitVec 32 := 3#32
  let v87 : Index := Scalar.indexCast c3_i32_57
  let c256_i32_56 : BitVec 32 := 256#32
  let c0_i32_32 : BitVec 32 := 0#32
  let c1_i32_34 : BitVec 32 := 1#32
  let arg13 : BitVec 32 := Scf.iv c0_i32_32 c1_i32_34 k0_t3
  let c16_i32_55 : BitVec 32 := 16#32
  let v85 : BitVec 32 := Scalar.muli arg13 c16_i32_55
  let v86 : BitVec 32 := Scalar.addi c256_i32_56 v85
  let v88 : Index := Scalar.indexCast v86
  ![3, v88.toNat]

def k0_chk41 (v41 : IVec S16 32) (v91 : IVec S16 32) : Prop :=
  (∀ a x, ((![v41, v91] : Fin 2 → IVec S16 32) a x).toNat < S256x128.size a)
instance k0_chk41.dec : ∀ (v41 : IVec S16 32) (v91 : IVec S16 32), Decidable (k0_chk41 v41 v91) := fun v41 v91 => decidable_of_iff' _ (Iff.of_eq (k0_chk41.eq_1 v41 v91))
theorem k0_idx41_inb : ∀ (v41 : IVec S16 32) (v91 : IVec S16 32) (k0_hw41 : k0_chk41 v41 v91), ∀ a x, ((![v41, v91] : Fin 2 → IVec S16 32) a x).toNat < S256x128.size a := fun v41 v91 k0_hw41 => k0_hw41

def k0_chk42 (v41 : IVec S16 32) (v94 : IVec S16 32) : Prop :=
  (∀ a x, ((![v41, v94] : Fin 2 → IVec S16 32) a x).toNat < S256x128.size a)
instance k0_chk42.dec : ∀ (v41 : IVec S16 32) (v94 : IVec S16 32), Decidable (k0_chk42 v41 v94) := fun v41 v94 => decidable_of_iff' _ (Iff.of_eq (k0_chk42.eq_1 v41 v94))
theorem k0_idx42_inb : ∀ (v41 : IVec S16 32) (v94 : IVec S16 32) (k0_hw42 : k0_chk42 v41 v94), ∀ a x, ((![v41, v94] : Fin 2 → IVec S16 32) a x).toNat < S256x128.size a := fun v41 v94 k0_hw42 => k0_hw42
def k0_off26 (k0_t3 : Fin k0_t3_loop.trips) : Fin 2 → Nat :=
  let c4_i32_61 : BitVec 32 := 4#32
  let v99 : Index := Scalar.indexCast c4_i32_61
  let c256_i32_60 : BitVec 32 := 256#32
  let c0_i32_32 : BitVec 32 := 0#32
  let c1_i32_34 : BitVec 32 := 1#32
  let arg13 : BitVec 32 := Scf.iv c0_i32_32 c1_i32_34 k0_t3
  let c16_i32_59 : BitVec 32 := 16#32
  let v97 : BitVec 32 := Scalar.muli arg13 c16_i32_59
  let v98 : BitVec 32 := Scalar.addi c256_i32_60 v97
  let v100 : Index := Scalar.indexCast v98
  ![4, v100.toNat]

def k0_chk43 (v41 : IVec S16 32) (v103 : IVec S16 32) : Prop :=
  (∀ a x, ((![v41, v103] : Fin 2 → IVec S16 32) a x).toNat < S256x128.size a)
instance k0_chk43.dec : ∀ (v41 : IVec S16 32) (v103 : IVec S16 32), Decidable (k0_chk43 v41 v103) := fun v41 v103 => decidable_of_iff' _ (Iff.of_eq (k0_chk43.eq_1 v41 v103))
theorem k0_idx43_inb : ∀ (v41 : IVec S16 32) (v103 : IVec S16 32) (k0_hw43 : k0_chk43 v41 v103), ∀ a x, ((![v41, v103] : Fin 2 → IVec S16 32) a x).toNat < S256x128.size a := fun v41 v103 k0_hw43 => k0_hw43

def k0_chk44 (v41 : IVec S16 32) (v106 : IVec S16 32) : Prop :=
  (∀ a x, ((![v41, v106] : Fin 2 → IVec S16 32) a x).toNat < S256x128.size a)
instance k0_chk44.dec : ∀ (v41 : IVec S16 32) (v106 : IVec S16 32), Decidable (k0_chk44 v41 v106) := fun v41 v106 => decidable_of_iff' _ (Iff.of_eq (k0_chk44.eq_1 v41 v106))
theorem k0_idx44_inb : ∀ (v41 : IVec S16 32) (v106 : IVec S16 32) (k0_hw44 : k0_chk44 v41 v106), ∀ a x, ((![v41, v106] : Fin 2 → IVec S16 32) a x).toNat < S256x128.size a := fun v41 v106 k0_hw44 => k0_hw44
def k0_off27 (k0_t3 : Fin k0_t3_loop.trips) : Fin 2 → Nat :=
  let c5_i32_65 : BitVec 32 := 5#32
  let v111 : Index := Scalar.indexCast c5_i32_65
  let c256_i32_64 : BitVec 32 := 256#32
  let c0_i32_32 : BitVec 32 := 0#32
  let c1_i32_34 : BitVec 32 := 1#32
  let arg13 : BitVec 32 := Scf.iv c0_i32_32 c1_i32_34 k0_t3
  let c16_i32_63 : BitVec 32 := 16#32
  let v109 : BitVec 32 := Scalar.muli arg13 c16_i32_63
  let v110 : BitVec 32 := Scalar.addi c256_i32_64 v109
  let v112 : Index := Scalar.indexCast v110
  ![5, v112.toNat]

def k0_chk45 (v41 : IVec S16 32) (v115 : IVec S16 32) : Prop :=
  (∀ a x, ((![v41, v115] : Fin 2 → IVec S16 32) a x).toNat < S256x128.size a)
instance k0_chk45.dec : ∀ (v41 : IVec S16 32) (v115 : IVec S16 32), Decidable (k0_chk45 v41 v115) := fun v41 v115 => decidable_of_iff' _ (Iff.of_eq (k0_chk45.eq_1 v41 v115))
theorem k0_idx45_inb : ∀ (v41 : IVec S16 32) (v115 : IVec S16 32) (k0_hw45 : k0_chk45 v41 v115), ∀ a x, ((![v41, v115] : Fin 2 → IVec S16 32) a x).toNat < S256x128.size a := fun v41 v115 k0_hw45 => k0_hw45

def k0_chk46 (v41 : IVec S16 32) (v118 : IVec S16 32) : Prop :=
  (∀ a x, ((![v41, v118] : Fin 2 → IVec S16 32) a x).toNat < S256x128.size a)
instance k0_chk46.dec : ∀ (v41 : IVec S16 32) (v118 : IVec S16 32), Decidable (k0_chk46 v41 v118) := fun v41 v118 => decidable_of_iff' _ (Iff.of_eq (k0_chk46.eq_1 v41 v118))
theorem k0_idx46_inb : ∀ (v41 : IVec S16 32) (v118 : IVec S16 32) (k0_hw46 : k0_chk46 v41 v118), ∀ a x, ((![v41, v118] : Fin 2 → IVec S16 32) a x).toNat < S256x128.size a := fun v41 v118 k0_hw46 => k0_hw46
def k0_off28 (k0_t3 : Fin k0_t3_loop.trips) : Fin 2 → Nat :=
  let c6_i32_69 : BitVec 32 := 6#32
  let v123 : Index := Scalar.indexCast c6_i32_69
  let c256_i32_68 : BitVec 32 := 256#32
  let c0_i32_32 : BitVec 32 := 0#32
  let c1_i32_34 : BitVec 32 := 1#32
  let arg13 : BitVec 32 := Scf.iv c0_i32_32 c1_i32_34 k0_t3
  let c16_i32_67 : BitVec 32 := 16#32
  let v121 : BitVec 32 := Scalar.muli arg13 c16_i32_67
  let v122 : BitVec 32 := Scalar.addi c256_i32_68 v121
  let v124 : Index := Scalar.indexCast v122
  ![6, v124.toNat]

def k0_chk47 (v41 : IVec S16 32) (v127 : IVec S16 32) : Prop :=
  (∀ a x, ((![v41, v127] : Fin 2 → IVec S16 32) a x).toNat < S256x128.size a)
instance k0_chk47.dec : ∀ (v41 : IVec S16 32) (v127 : IVec S16 32), Decidable (k0_chk47 v41 v127) := fun v41 v127 => decidable_of_iff' _ (Iff.of_eq (k0_chk47.eq_1 v41 v127))
theorem k0_idx47_inb : ∀ (v41 : IVec S16 32) (v127 : IVec S16 32) (k0_hw47 : k0_chk47 v41 v127), ∀ a x, ((![v41, v127] : Fin 2 → IVec S16 32) a x).toNat < S256x128.size a := fun v41 v127 k0_hw47 => k0_hw47

def k0_chk48 (v41 : IVec S16 32) (v130 : IVec S16 32) : Prop :=
  (∀ a x, ((![v41, v130] : Fin 2 → IVec S16 32) a x).toNat < S256x128.size a)
instance k0_chk48.dec : ∀ (v41 : IVec S16 32) (v130 : IVec S16 32), Decidable (k0_chk48 v41 v130) := fun v41 v130 => decidable_of_iff' _ (Iff.of_eq (k0_chk48.eq_1 v41 v130))
theorem k0_idx48_inb : ∀ (v41 : IVec S16 32) (v130 : IVec S16 32) (k0_hw48 : k0_chk48 v41 v130), ∀ a x, ((![v41, v130] : Fin 2 → IVec S16 32) a x).toNat < S256x128.size a := fun v41 v130 k0_hw48 => k0_hw48
def k0_off29 (k0_t3 : Fin k0_t3_loop.trips) : Fin 2 → Nat :=
  let c7_i32_74 : BitVec 32 := 7#32
  let v135 : Index := Scalar.indexCast c7_i32_74
  let c256_i32_73 : BitVec 32 := 256#32
  let c0_i32_32 : BitVec 32 := 0#32
  let c1_i32_34 : BitVec 32 := 1#32
  let arg13 : BitVec 32 := Scf.iv c0_i32_32 c1_i32_34 k0_t3
  let c16_i32_72 : BitVec 32 := 16#32
  let v133 : BitVec 32 := Scalar.muli arg13 c16_i32_72
  let v134 : BitVec 32 := Scalar.addi c256_i32_73 v133
  let v136 : Index := Scalar.indexCast v134
  ![7, v136.toNat]

def k0_chk49 (v41 : IVec S16 32) (v139 : IVec S16 32) : Prop :=
  (∀ a x, ((![v41, v139] : Fin 2 → IVec S16 32) a x).toNat < S256x128.size a)
instance k0_chk49.dec : ∀ (v41 : IVec S16 32) (v139 : IVec S16 32), Decidable (k0_chk49 v41 v139) := fun v41 v139 => decidable_of_iff' _ (Iff.of_eq (k0_chk49.eq_1 v41 v139))
theorem k0_idx49_inb : ∀ (v41 : IVec S16 32) (v139 : IVec S16 32) (k0_hw49 : k0_chk49 v41 v139), ∀ a x, ((![v41, v139] : Fin 2 → IVec S16 32) a x).toNat < S256x128.size a := fun v41 v139 k0_hw49 => k0_hw49

def k0_chk50 (v41 : IVec S16 32) (v142 : IVec S16 32) : Prop :=
  (∀ a x, ((![v41, v142] : Fin 2 → IVec S16 32) a x).toNat < S256x128.size a)
instance k0_chk50.dec : ∀ (v41 : IVec S16 32) (v142 : IVec S16 32), Decidable (k0_chk50 v41 v142) := fun v41 v142 => decidable_of_iff' _ (Iff.of_eq (k0_chk50.eq_1 v41 v142))
theorem k0_idx50_inb : ∀ (v41 : IVec S16 32) (v142 : IVec S16 32) (k0_hw50 : k0_chk50 v41 v142), ∀ a x, ((![v41, v142] : Fin 2 → IVec S16 32) a x).toNat < S256x128.size a := fun v41 v142 k0_hw50 => k0_hw50
def k0_off30 (k0_t3 : Fin k0_t3_loop.trips) : Fin 2 → Nat :=
  let c8_i32_78 : BitVec 32 := 8#32
  let v147 : Index := Scalar.indexCast c8_i32_78
  let c256_i32_77 : BitVec 32 := 256#32
  let c0_i32_32 : BitVec 32 := 0#32
  let c1_i32_34 : BitVec 32 := 1#32
  let arg13 : BitVec 32 := Scf.iv c0_i32_32 c1_i32_34 k0_t3
  let c16_i32_76 : BitVec 32 := 16#32
  let v145 : BitVec 32 := Scalar.muli arg13 c16_i32_76
  let v146 : BitVec 32 := Scalar.addi c256_i32_77 v145
  let v148 : Index := Scalar.indexCast v146
  ![8, v148.toNat]

def k0_chk51 (v41 : IVec S16 32) (v151 : IVec S16 32) : Prop :=
  (∀ a x, ((![v41, v151] : Fin 2 → IVec S16 32) a x).toNat < S256x128.size a)
instance k0_chk51.dec : ∀ (v41 : IVec S16 32) (v151 : IVec S16 32), Decidable (k0_chk51 v41 v151) := fun v41 v151 => decidable_of_iff' _ (Iff.of_eq (k0_chk51.eq_1 v41 v151))
theorem k0_idx51_inb : ∀ (v41 : IVec S16 32) (v151 : IVec S16 32) (k0_hw51 : k0_chk51 v41 v151), ∀ a x, ((![v41, v151] : Fin 2 → IVec S16 32) a x).toNat < S256x128.size a := fun v41 v151 k0_hw51 => k0_hw51

def k0_chk52 (v41 : IVec S16 32) (v154 : IVec S16 32) : Prop :=
  (∀ a x, ((![v41, v154] : Fin 2 → IVec S16 32) a x).toNat < S256x128.size a)
instance k0_chk52.dec : ∀ (v41 : IVec S16 32) (v154 : IVec S16 32), Decidable (k0_chk52 v41 v154) := fun v41 v154 => decidable_of_iff' _ (Iff.of_eq (k0_chk52.eq_1 v41 v154))
theorem k0_idx52_inb : ∀ (v41 : IVec S16 32) (v154 : IVec S16 32) (k0_hw52 : k0_chk52 v41 v154), ∀ a x, ((![v41, v154] : Fin 2 → IVec S16 32) a x).toNat < S256x128.size a := fun v41 v154 k0_hw52 => k0_hw52
def k0_off31 (k0_t3 : Fin k0_t3_loop.trips) : Fin 2 → Nat :=
  let c9_i32_82 : BitVec 32 := 9#32
  let v159 : Index := Scalar.indexCast c9_i32_82
  let c256_i32_81 : BitVec 32 := 256#32
  let c0_i32_32 : BitVec 32 := 0#32
  let c1_i32_34 : BitVec 32 := 1#32
  let arg13 : BitVec 32 := Scf.iv c0_i32_32 c1_i32_34 k0_t3
  let c16_i32_80 : BitVec 32 := 16#32
  let v157 : BitVec 32 := Scalar.muli arg13 c16_i32_80
  let v158 : BitVec 32 := Scalar.addi c256_i32_81 v157
  let v160 : Index := Scalar.indexCast v158
  ![9, v160.toNat]

def k0_chk53 (v41 : IVec S16 32) (v163 : IVec S16 32) : Prop :=
  (∀ a x, ((![v41, v163] : Fin 2 → IVec S16 32) a x).toNat < S256x128.size a)
instance k0_chk53.dec : ∀ (v41 : IVec S16 32) (v163 : IVec S16 32), Decidable (k0_chk53 v41 v163) := fun v41 v163 => decidable_of_iff' _ (Iff.of_eq (k0_chk53.eq_1 v41 v163))
theorem k0_idx53_inb : ∀ (v41 : IVec S16 32) (v163 : IVec S16 32) (k0_hw53 : k0_chk53 v41 v163), ∀ a x, ((![v41, v163] : Fin 2 → IVec S16 32) a x).toNat < S256x128.size a := fun v41 v163 k0_hw53 => k0_hw53

def k0_chk54 (v41 : IVec S16 32) (v166 : IVec S16 32) : Prop :=
  (∀ a x, ((![v41, v166] : Fin 2 → IVec S16 32) a x).toNat < S256x128.size a)
instance k0_chk54.dec : ∀ (v41 : IVec S16 32) (v166 : IVec S16 32), Decidable (k0_chk54 v41 v166) := fun v41 v166 => decidable_of_iff' _ (Iff.of_eq (k0_chk54.eq_1 v41 v166))
theorem k0_idx54_inb : ∀ (v41 : IVec S16 32) (v166 : IVec S16 32) (k0_hw54 : k0_chk54 v41 v166), ∀ a x, ((![v41, v166] : Fin 2 → IVec S16 32) a x).toNat < S256x128.size a := fun v41 v166 k0_hw54 => k0_hw54
def k0_off32 (k0_t3 : Fin k0_t3_loop.trips) : Fin 2 → Nat :=
  let c10_i32_86 : BitVec 32 := 10#32
  let v171 : Index := Scalar.indexCast c10_i32_86
  let c256_i32_85 : BitVec 32 := 256#32
  let c0_i32_32 : BitVec 32 := 0#32
  let c1_i32_34 : BitVec 32 := 1#32
  let arg13 : BitVec 32 := Scf.iv c0_i32_32 c1_i32_34 k0_t3
  let c16_i32_84 : BitVec 32 := 16#32
  let v169 : BitVec 32 := Scalar.muli arg13 c16_i32_84
  let v170 : BitVec 32 := Scalar.addi c256_i32_85 v169
  let v172 : Index := Scalar.indexCast v170
  ![10, v172.toNat]

def k0_chk55 (v41 : IVec S16 32) (v175 : IVec S16 32) : Prop :=
  (∀ a x, ((![v41, v175] : Fin 2 → IVec S16 32) a x).toNat < S256x128.size a)
instance k0_chk55.dec : ∀ (v41 : IVec S16 32) (v175 : IVec S16 32), Decidable (k0_chk55 v41 v175) := fun v41 v175 => decidable_of_iff' _ (Iff.of_eq (k0_chk55.eq_1 v41 v175))
theorem k0_idx55_inb : ∀ (v41 : IVec S16 32) (v175 : IVec S16 32) (k0_hw55 : k0_chk55 v41 v175), ∀ a x, ((![v41, v175] : Fin 2 → IVec S16 32) a x).toNat < S256x128.size a := fun v41 v175 k0_hw55 => k0_hw55

def k0_chk56 (v41 : IVec S16 32) (v178 : IVec S16 32) : Prop :=
  (∀ a x, ((![v41, v178] : Fin 2 → IVec S16 32) a x).toNat < S256x128.size a)
instance k0_chk56.dec : ∀ (v41 : IVec S16 32) (v178 : IVec S16 32), Decidable (k0_chk56 v41 v178) := fun v41 v178 => decidable_of_iff' _ (Iff.of_eq (k0_chk56.eq_1 v41 v178))
theorem k0_idx56_inb : ∀ (v41 : IVec S16 32) (v178 : IVec S16 32) (k0_hw56 : k0_chk56 v41 v178), ∀ a x, ((![v41, v178] : Fin 2 → IVec S16 32) a x).toNat < S256x128.size a := fun v41 v178 k0_hw56 => k0_hw56
def k0_off33 (k0_t3 : Fin k0_t3_loop.trips) : Fin 2 → Nat :=
  let c11_i32_90 : BitVec 32 := 11#32
  let v183 : Index := Scalar.indexCast c11_i32_90
  let c256_i32_89 : BitVec 32 := 256#32
  let c0_i32_32 : BitVec 32 := 0#32
  let c1_i32_34 : BitVec 32 := 1#32
  let arg13 : BitVec 32 := Scf.iv c0_i32_32 c1_i32_34 k0_t3
  let c16_i32_88 : BitVec 32 := 16#32
  let v181 : BitVec 32 := Scalar.muli arg13 c16_i32_88
  let v182 : BitVec 32 := Scalar.addi c256_i32_89 v181
  let v184 : Index := Scalar.indexCast v182
  ![11, v184.toNat]

def k0_chk57 (v41 : IVec S16 32) (v187 : IVec S16 32) : Prop :=
  (∀ a x, ((![v41, v187] : Fin 2 → IVec S16 32) a x).toNat < S256x128.size a)
instance k0_chk57.dec : ∀ (v41 : IVec S16 32) (v187 : IVec S16 32), Decidable (k0_chk57 v41 v187) := fun v41 v187 => decidable_of_iff' _ (Iff.of_eq (k0_chk57.eq_1 v41 v187))
theorem k0_idx57_inb : ∀ (v41 : IVec S16 32) (v187 : IVec S16 32) (k0_hw57 : k0_chk57 v41 v187), ∀ a x, ((![v41, v187] : Fin 2 → IVec S16 32) a x).toNat < S256x128.size a := fun v41 v187 k0_hw57 => k0_hw57

def k0_chk58 (v41 : IVec S16 32) (v190 : IVec S16 32) : Prop :=
  (∀ a x, ((![v41, v190] : Fin 2 → IVec S16 32) a x).toNat < S256x128.size a)
instance k0_chk58.dec : ∀ (v41 : IVec S16 32) (v190 : IVec S16 32), Decidable (k0_chk58 v41 v190) := fun v41 v190 => decidable_of_iff' _ (Iff.of_eq (k0_chk58.eq_1 v41 v190))
theorem k0_idx58_inb : ∀ (v41 : IVec S16 32) (v190 : IVec S16 32) (k0_hw58 : k0_chk58 v41 v190), ∀ a x, ((![v41, v190] : Fin 2 → IVec S16 32) a x).toNat < S256x128.size a := fun v41 v190 k0_hw58 => k0_hw58
def k0_off34 (k0_t3 : Fin k0_t3_loop.trips) : Fin 2 → Nat :=
  let c12_i32_94 : BitVec 32 := 12#32
  let v195 : Index := Scalar.indexCast c12_i32_94
  let c256_i32_93 : BitVec 32 := 256#32
  let c0_i32_32 : BitVec 32 := 0#32
  let c1_i32_34 : BitVec 32 := 1#32
  let arg13 : BitVec 32 := Scf.iv c0_i32_32 c1_i32_34 k0_t3
  let c16_i32_92 : BitVec 32 := 16#32
  let v193 : BitVec 32 := Scalar.muli arg13 c16_i32_92
  let v194 : BitVec 32 := Scalar.addi c256_i32_93 v193
  let v196 : Index := Scalar.indexCast v194
  ![12, v196.toNat]

def k0_chk59 (v41 : IVec S16 32) (v199 : IVec S16 32) : Prop :=
  (∀ a x, ((![v41, v199] : Fin 2 → IVec S16 32) a x).toNat < S256x128.size a)
instance k0_chk59.dec : ∀ (v41 : IVec S16 32) (v199 : IVec S16 32), Decidable (k0_chk59 v41 v199) := fun v41 v199 => decidable_of_iff' _ (Iff.of_eq (k0_chk59.eq_1 v41 v199))
theorem k0_idx59_inb : ∀ (v41 : IVec S16 32) (v199 : IVec S16 32) (k0_hw59 : k0_chk59 v41 v199), ∀ a x, ((![v41, v199] : Fin 2 → IVec S16 32) a x).toNat < S256x128.size a := fun v41 v199 k0_hw59 => k0_hw59

def k0_chk60 (v41 : IVec S16 32) (v202 : IVec S16 32) : Prop :=
  (∀ a x, ((![v41, v202] : Fin 2 → IVec S16 32) a x).toNat < S256x128.size a)
instance k0_chk60.dec : ∀ (v41 : IVec S16 32) (v202 : IVec S16 32), Decidable (k0_chk60 v41 v202) := fun v41 v202 => decidable_of_iff' _ (Iff.of_eq (k0_chk60.eq_1 v41 v202))
theorem k0_idx60_inb : ∀ (v41 : IVec S16 32) (v202 : IVec S16 32) (k0_hw60 : k0_chk60 v41 v202), ∀ a x, ((![v41, v202] : Fin 2 → IVec S16 32) a x).toNat < S256x128.size a := fun v41 v202 k0_hw60 => k0_hw60
def k0_off35 (k0_t3 : Fin k0_t3_loop.trips) : Fin 2 → Nat :=
  let c13_i32_98 : BitVec 32 := 13#32
  let v207 : Index := Scalar.indexCast c13_i32_98
  let c256_i32_97 : BitVec 32 := 256#32
  let c0_i32_32 : BitVec 32 := 0#32
  let c1_i32_34 : BitVec 32 := 1#32
  let arg13 : BitVec 32 := Scf.iv c0_i32_32 c1_i32_34 k0_t3
  let c16_i32_96 : BitVec 32 := 16#32
  let v205 : BitVec 32 := Scalar.muli arg13 c16_i32_96
  let v206 : BitVec 32 := Scalar.addi c256_i32_97 v205
  let v208 : Index := Scalar.indexCast v206
  ![13, v208.toNat]

def k0_chk61 (v41 : IVec S16 32) (v211 : IVec S16 32) : Prop :=
  (∀ a x, ((![v41, v211] : Fin 2 → IVec S16 32) a x).toNat < S256x128.size a)
instance k0_chk61.dec : ∀ (v41 : IVec S16 32) (v211 : IVec S16 32), Decidable (k0_chk61 v41 v211) := fun v41 v211 => decidable_of_iff' _ (Iff.of_eq (k0_chk61.eq_1 v41 v211))
theorem k0_idx61_inb : ∀ (v41 : IVec S16 32) (v211 : IVec S16 32) (k0_hw61 : k0_chk61 v41 v211), ∀ a x, ((![v41, v211] : Fin 2 → IVec S16 32) a x).toNat < S256x128.size a := fun v41 v211 k0_hw61 => k0_hw61

def k0_chk62 (v41 : IVec S16 32) (v214 : IVec S16 32) : Prop :=
  (∀ a x, ((![v41, v214] : Fin 2 → IVec S16 32) a x).toNat < S256x128.size a)
instance k0_chk62.dec : ∀ (v41 : IVec S16 32) (v214 : IVec S16 32), Decidable (k0_chk62 v41 v214) := fun v41 v214 => decidable_of_iff' _ (Iff.of_eq (k0_chk62.eq_1 v41 v214))
theorem k0_idx62_inb : ∀ (v41 : IVec S16 32) (v214 : IVec S16 32) (k0_hw62 : k0_chk62 v41 v214), ∀ a x, ((![v41, v214] : Fin 2 → IVec S16 32) a x).toNat < S256x128.size a := fun v41 v214 k0_hw62 => k0_hw62
def k0_off36 (k0_t3 : Fin k0_t3_loop.trips) : Fin 2 → Nat :=
  let c14_i32_102 : BitVec 32 := 14#32
  let v219 : Index := Scalar.indexCast c14_i32_102
  let c256_i32_101 : BitVec 32 := 256#32
  let c0_i32_32 : BitVec 32 := 0#32
  let c1_i32_34 : BitVec 32 := 1#32
  let arg13 : BitVec 32 := Scf.iv c0_i32_32 c1_i32_34 k0_t3
  let c16_i32_100 : BitVec 32 := 16#32
  let v217 : BitVec 32 := Scalar.muli arg13 c16_i32_100
  let v218 : BitVec 32 := Scalar.addi c256_i32_101 v217
  let v220 : Index := Scalar.indexCast v218
  ![14, v220.toNat]

def k0_chk63 (v41 : IVec S16 32) (v223 : IVec S16 32) : Prop :=
  (∀ a x, ((![v41, v223] : Fin 2 → IVec S16 32) a x).toNat < S256x128.size a)
instance k0_chk63.dec : ∀ (v41 : IVec S16 32) (v223 : IVec S16 32), Decidable (k0_chk63 v41 v223) := fun v41 v223 => decidable_of_iff' _ (Iff.of_eq (k0_chk63.eq_1 v41 v223))
theorem k0_idx63_inb : ∀ (v41 : IVec S16 32) (v223 : IVec S16 32) (k0_hw63 : k0_chk63 v41 v223), ∀ a x, ((![v41, v223] : Fin 2 → IVec S16 32) a x).toNat < S256x128.size a := fun v41 v223 k0_hw63 => k0_hw63

def k0_chk64 (v41 : IVec S16 32) (v226 : IVec S16 32) : Prop :=
  (∀ a x, ((![v41, v226] : Fin 2 → IVec S16 32) a x).toNat < S256x128.size a)
instance k0_chk64.dec : ∀ (v41 : IVec S16 32) (v226 : IVec S16 32), Decidable (k0_chk64 v41 v226) := fun v41 v226 => decidable_of_iff' _ (Iff.of_eq (k0_chk64.eq_1 v41 v226))
theorem k0_idx64_inb : ∀ (v41 : IVec S16 32) (v226 : IVec S16 32) (k0_hw64 : k0_chk64 v41 v226), ∀ a x, ((![v41, v226] : Fin 2 → IVec S16 32) a x).toNat < S256x128.size a := fun v41 v226 k0_hw64 => k0_hw64
def k0_off37 (k0_t3 : Fin k0_t3_loop.trips) : Fin 2 → Nat :=
  let c15_i32_106 : BitVec 32 := 15#32
  let v231 : Index := Scalar.indexCast c15_i32_106
  let c256_i32_105 : BitVec 32 := 256#32
  let c0_i32_32 : BitVec 32 := 0#32
  let c1_i32_34 : BitVec 32 := 1#32
  let arg13 : BitVec 32 := Scf.iv c0_i32_32 c1_i32_34 k0_t3
  let c16_i32_104 : BitVec 32 := 16#32
  let v229 : BitVec 32 := Scalar.muli arg13 c16_i32_104
  let v230 : BitVec 32 := Scalar.addi c256_i32_105 v229
  let v232 : Index := Scalar.indexCast v230
  ![15, v232.toNat]
def k0_off38 (i : grid0.Coords) : Fin 2 → Nat :=
  let c0_i32_36_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1000000x16_S125000x128 : S1000000x16.ShapeCasts S125000x128
  h_S16 : 0 < S16.numel
  iota_S16_d0_w32_scVector : S16.Iotas .scVector 32 [0]
  inb_S125000x128_S125000x128_0_0 : ∀ a, (![0, 0] : Fin 2 → Nat) a + S125000x128.size a ≤ S125000x128.size a
  inb_S2_S1_0 : ∀ a, (![0] : Fin 1 → Nat) a + S1.size a ≤ S2.size a
  squeezes_S1_S_ : S1.Squeezes S_
  gathers_S125000x128_S256x128 : S125000x128.Gathers 0 S256x128
  inb_S2_S1_1 : ∀ a, (![1] : Fin 1 → Nat) a + S1.size a ≤ S2.size a
  h_S256x128 : 0 < S256x128.numel
  h_S1x16 : 0 < S1x16.numel
  shapeCasts_S1x16_S16 : S1x16.ShapeCasts S16
  shapeCasts_S16_S1x16 : S16.ShapeCasts S1x16
  transposes_S16x16384_S16384x16_1_0 : S16x16384.Transposes [1, 0] S16384x16
  hcc0_scratch6 : 0 + S2.numel ≤ 4
  hcc0_scoped0 : 2 + S_.numel ≤ 4
  hcc0_scoped1 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ (r : Fin 2), ∀ a, (k0_off2 k0_t1 (BitVec.ofNat 32 (256 * r.val))) a + S16.size a ≤ S512.size a
  k0_off3_inb : ∀ k0_t1 : Fin k0_t1_loop.trips, ∀ a, (k0_off3 k0_t1) a + S16.size a ≤ S256.size a
  k0_t2_ok : k0_t2_loop.OK
  k0_off4_inb : ∀ k0_t2 : Fin k0_t2_loop.trips, ∀ a, (k0_off4 k0_t2) a + S16.size a ≤ S512.size a
  k0_off5_inb : ∀ k0_t2 : Fin k0_t2_loop.trips, ∀ a, (k0_off5 k0_t2) a + S1x16.size a ≤ S16x512.size a
  k0_off6_inb : ∀ k0_t2 : Fin k0_t2_loop.trips, ∀ a, (k0_off6 k0_t2) a + S1x16.size a ≤ S16x512.size a
  k0_off7_inb : ∀ k0_t2 : Fin k0_t2_loop.trips, ∀ a, (k0_off7 k0_t2) a + S1x16.size a ≤ S16x512.size a
  k0_off8_inb : ∀ k0_t2 : Fin k0_t2_loop.trips, ∀ a, (k0_off8 k0_t2) a + S1x16.size a ≤ S16x512.size a
  k0_off9_inb : ∀ k0_t2 : Fin k0_t2_loop.trips, ∀ a, (k0_off9 k0_t2) a + S1x16.size a ≤ S16x512.size a
  k0_off10_inb : ∀ k0_t2 : Fin k0_t2_loop.trips, ∀ a, (k0_off10 k0_t2) a + S1x16.size a ≤ S16x512.size a
  k0_off11_inb : ∀ k0_t2 : Fin k0_t2_loop.trips, ∀ a, (k0_off11 k0_t2) a + S1x16.size a ≤ S16x512.size a
  k0_off12_inb : ∀ k0_t2 : Fin k0_t2_loop.trips, ∀ a, (k0_off12 k0_t2) a + S1x16.size a ≤ S16x512.size a
  k0_off13_inb : ∀ k0_t2 : Fin k0_t2_loop.trips, ∀ a, (k0_off13 k0_t2) a + S1x16.size a ≤ S16x512.size a
  k0_off14_inb : ∀ k0_t2 : Fin k0_t2_loop.trips, ∀ a, (k0_off14 k0_t2) a + S1x16.size a ≤ S16x512.size a
  k0_off15_inb : ∀ k0_t2 : Fin k0_t2_loop.trips, ∀ a, (k0_off15 k0_t2) a + S1x16.size a ≤ S16x512.size a
  k0_off16_inb : ∀ k0_t2 : Fin k0_t2_loop.trips, ∀ a, (k0_off16 k0_t2) a + S1x16.size a ≤ S16x512.size a
  k0_off17_inb : ∀ k0_t2 : Fin k0_t2_loop.trips, ∀ a, (k0_off17 k0_t2) a + S1x16.size a ≤ S16x512.size a
  k0_off18_inb : ∀ k0_t2 : Fin k0_t2_loop.trips, ∀ a, (k0_off18 k0_t2) a + S1x16.size a ≤ S16x512.size a
  k0_off19_inb : ∀ k0_t2 : Fin k0_t2_loop.trips, ∀ a, (k0_off19 k0_t2) a + S1x16.size a ≤ S16x512.size a
  k0_off20_inb : ∀ k0_t2 : Fin k0_t2_loop.trips, ∀ a, (k0_off20 k0_t2) a + S1x16.size a ≤ S16x512.size a
  k0_t3_ok : k0_t3_loop.OK
  k0_off21_inb : ∀ k0_t3 : Fin k0_t3_loop.trips, ∀ a, (k0_off21 k0_t3) a + S16.size a ≤ S512.size a
  k0_off22_inb : ∀ k0_t3 : Fin k0_t3_loop.trips, ∀ a, (k0_off22 k0_t3) a + S1x16.size a ≤ S16x512.size a
  k0_off23_inb : ∀ k0_t3 : Fin k0_t3_loop.trips, ∀ a, (k0_off23 k0_t3) a + S1x16.size a ≤ S16x512.size a
  k0_off24_inb : ∀ k0_t3 : Fin k0_t3_loop.trips, ∀ a, (k0_off24 k0_t3) a + S1x16.size a ≤ S16x512.size a
  k0_off25_inb : ∀ k0_t3 : Fin k0_t3_loop.trips, ∀ a, (k0_off25 k0_t3) a + S1x16.size a ≤ S16x512.size a
  k0_off26_inb : ∀ k0_t3 : Fin k0_t3_loop.trips, ∀ a, (k0_off26 k0_t3) a + S1x16.size a ≤ S16x512.size a
  k0_off27_inb : ∀ k0_t3 : Fin k0_t3_loop.trips, ∀ a, (k0_off27 k0_t3) a + S1x16.size a ≤ S16x512.size a
  k0_off28_inb : ∀ k0_t3 : Fin k0_t3_loop.trips, ∀ a, (k0_off28 k0_t3) a + S1x16.size a ≤ S16x512.size a
  k0_off29_inb : ∀ k0_t3 : Fin k0_t3_loop.trips, ∀ a, (k0_off29 k0_t3) a + S1x16.size a ≤ S16x512.size a
  k0_off30_inb : ∀ k0_t3 : Fin k0_t3_loop.trips, ∀ a, (k0_off30 k0_t3) a + S1x16.size a ≤ S16x512.size a
  k0_off31_inb : ∀ k0_t3 : Fin k0_t3_loop.trips, ∀ a, (k0_off31 k0_t3) a + S1x16.size a ≤ S16x512.size a
  k0_off32_inb : ∀ k0_t3 : Fin k0_t3_loop.trips, ∀ a, (k0_off32 k0_t3) a + S1x16.size a ≤ S16x512.size a
  k0_off33_inb : ∀ k0_t3 : Fin k0_t3_loop.trips, ∀ a, (k0_off33 k0_t3) a + S1x16.size a ≤ S16x512.size a
  k0_off34_inb : ∀ k0_t3 : Fin k0_t3_loop.trips, ∀ a, (k0_off34 k0_t3) a + S1x16.size a ≤ S16x512.size a
  k0_off35_inb : ∀ k0_t3 : Fin k0_t3_loop.trips, ∀ a, (k0_off35 k0_t3) a + S1x16.size a ≤ S16x512.size a
  k0_off36_inb : ∀ k0_t3 : Fin k0_t3_loop.trips, ∀ a, (k0_off36 k0_t3) a + S1x16.size a ≤ S16x512.size a
  k0_off37_inb : ∀ k0_t3 : Fin k0_t3_loop.trips, ∀ a, (k0_off37 k0_t3) a + S1x16.size a ≤ S16x512.size a
  k0_off38_inb : ∀ i : grid0.Coords, ∀ a, (k0_off38 i) a + S16x512.size a ≤ S16x16384.size a

variable [Facts₀]

abbrev cc0_scratch6 : DmaSems sig S2 := SemArray.consecutive 0 S2 hcc0_scratch6
abbrev cc0_scoped0 : DmaSems sig S_ := SemArray.consecutive 2 S_ hcc0_scoped0
abbrev cc0_scoped1 : DmaSems sig S_ := SemArray.consecutive 3 S_ hcc0_scoped1

class Facts : Prop extends Facts₀ where

variable [Facts]
-- ==== ReferenceIdeal.lean ====
abbrev S16384 : Shape := ⟨1, ![16384]⟩
abbrev S1000000x16 : Shape := ⟨2, ![1000000, 16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 50
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x16, .f32⟩
  | .hbm, ⟨2, _⟩ => ⟨S1000000x16, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x16, .f32⟩
  | .hbm, ⟨22, _⟩ => ⟨S16384x16, .i1⟩
  | .hbm, ⟨23, _⟩ => ⟨S_, .f32⟩
  | .hbm, ⟨24, _⟩ => ⟨S16384x16, .f32⟩
  | .hbm, ⟨25, _⟩ => ⟨S16384x16, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x16, .f32⟩
  | .hbm, ⟨45, _⟩ => ⟨S16384x16, .i1⟩
  | .hbm, ⟨46, _⟩ => ⟨S_, .f32⟩
  | .hbm, ⟨47, _⟩ => ⟨S16384x16, .f32⟩
  | .hbm, ⟨48, _⟩ => ⟨S16384x16, .f32⟩
  | .hbm, ⟨49, _⟩ => ⟨S16384x16, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x16_0 : S16384.BroadcastsInDim S16384x16 (![0] : Fin 1 → Fin S16384x16.rank)
  bcast_S_S16384x16 : S_.BroadcastsInDim S16384x16 (![] : Fin 0 → Fin S16384x16.rank)
  gather_S1000000x16_S16384x1_S16384x16_1_0_n_n_0_1_116_wf : GatherDims.WF S1000000x16 S16384x1 S16384x16 [1] [0] [] [0] [] 1 ![1, 16]

variable [Facts₀]

def gather_S1000000x16_S16384x1_S16384x16_1_0_n_n_0_1_116 : GatherDims S1000000x16 S16384x1 S16384x16 where
  offsetDims := [1]
  collapsedSliceDims := [0]
  operandBatchingDims := []
  startIndicesBatchingDims := []
  startIndexMap := [0]
  indexVectorDim := 1
  sliceSizes := ![1, 16]
  wf := gather_S1000000x16_S16384x1_S16384x16_1_0_n_n_0_1_116_wf

class Facts : Prop extends Facts₀ where

variable [Facts]
-- ==== Proof.Spec.lean ====
/-
  The function both programs compute.  For every batch position `j` and coordinate `c` the result is
  `A[id j, c] + B[id j, c]`: row `id j` of each of the two position tables, added coordinate by coordinate.
  The row an identifier names is read as a signed integer and clamped into the table; on identifiers that
  name a row (`InRange`) the clamp does nothing.
-/
import Idealize.ShloMosaic.PureOps
import Idealize.ShloMosaic.Lib.ValueIdx

noncomputable section

namespace Cert.Spec

open Idealize.ShloMosaic Idealize.ShloMosaic.ValueIdx

abbrev S16384 : Shape := ⟨1, ![16384]⟩
abbrev S1000000x16 : Shape := ⟨2, ![1000000, 16]⟩
abbrev S16384x16 : Shape := ⟨2, ![16384, 16]⟩

/-- Every identifier names a row of the tables. -/
def InRange (ids : IVec S16384 32) : Prop :=
  ∀ j : Fin 16384, 0 ≤ (ids (ix1 j)).toInt ∧ (ids (ix1 j)).toInt ≤ 999999

/-- The table row identifier `j` names: its signed value, clamped into `[0, 999999]`. -/
def row (ids : IVec S16384 32) (j : Fin 16384) : Fin 1000000 :=
  ⟨min (ids (ix1 j)).toInt.toNat 999999, by omega⟩

/-- Row `id j` of one table, laid out at batch position `j`. -/
def rows {α : Type} (ids : IVec S16384 32) (A : S1000000x16.Idx → α) : S16384x16.Idx → α :=
  fun i => A (ix2 (row ids (i 0)) (i 1))

/-- The looked-up rows of the two tables, added. -/
def lookupSum {F : FTy → Type} [FloatOps F] (ids : IVec S16384 32) (A B : FVec F S1000000x16 .f32) :
    FVec F S16384x16 .f32 :=
  addf (rows ids A) (rows ids B)

theorem row_val_of_inRange {ids : IVec S16384 32} (h : InRange ids) (j : Fin 16384) :
    (row ids j).val = (ids (ix1 j)).toNat := by
  have := h j
  show min (ids (ix1 j)).toInt.toNat 999999 = _
  have h1 : (ids (ix1 j)).toInt = ((ids (ix1 j)).toNat : Int) := by
    rw [BitVec.toInt_eq_toNat_cond]; split
    · rfl
    · rename_i hlt; exfalso; have := BitVec.toInt_eq_toNat_cond (ids (ix1 j)); omega
  omega

end Cert.Spec

end
-- ==== Proof.CommonK.lean ====
/-
  Names shared by the proof of the lookup kernel's run: the program as the launch theorem reads it, the ghost
  state (the launch handshakes' rounds beside the transfer counters), the arrays as the TensorCore and as a
  vector subcore address them, and the slices a subcore copies: its 512 identifiers and its 16 × 512 block of the
  transposed result.
-/
import proofs.«209984_g46995532152932_cont_8to1c4_465_20_alg».proof.Kernel
import proofs.«209984_g46995532152932_cont_8to1c4_465_20_alg».proof.Proof.Gen.Kernel
import proofs.«209984_g46995532152932_cont_8to1c4_465_20_alg».proof.Proof.Gen.Kernel.Skeleton
import proofs.«209984_g46995532152932_cont_8to1c4_465_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The identifiers, the two reshaped tables, the transposed result and the result, as locations of device `d`. -/
abbrev idLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

/-- The same arrays as a vector subcore's memrefs. -/
abbrev idV : Memref sig .scVector .hbm S16384 .i32 := Memref.whole main_arg0_scv
abbrev aV : Memref sig .scVector .hbm S125000x128 .f32 := Memref.whole main_v0_scv
abbrev bV : Memref sig .scVector .hbm S125000x128 .f32 := Memref.whole main_v1_scv
abbrev oV : Memref sig .scVector .hbm S16x16384 .f32 := Memref.whole main_v2_scv
/-- A subcore's scratch: its identifiers, the two row lists, the two gathered blocks, its block of the result. -/
abbrev sId : Memref sig .scVector .vmem S512 .i32 := Memref.whole cc0_scratch0
abbrev sR0 : Memref sig .scVector .vmem S256 .i32 := Memref.whole cc0_scratch1
abbrev sR1 : Memref sig .scVector .vmem S256 .i32 := Memref.whole cc0_scratch2
abbrev sA : Memref sig .scVector .vmem S256x128 .f32 := Memref.whole cc0_scratch3
abbrev sB : Memref sig .scVector .vmem S256x128 .f32 := Memref.whole cc0_scratch4
abbrev sO : Memref sig .scVector .vmem S16x512 .f32 := Memref.whole cc0_scratch5

abbrev cV (L : grid0.Coords) : Fin τ.nSC := (L 0).castLE hcore0
abbrev jV (L : grid0.Coords) : Fin τ.nSub := (L 1).castLE hsub0

/-- The subcore's 512 identifiers and its block of the transposed result, as the kernel slices them. -/
abbrev idSl (L : grid0.Coords) : Memref sig .scVector .hbm S512 .i32 :=
  (idV).slice (Rect.unit (s := S16384) (k0_off1 L) S512.size (k0_off1_inb L)) (fun _ => rfl)
abbrev oSl (L : grid0.Coords) : Memref sig .scVector .hbm S16x512 .f32 :=
  (oV).slice (Rect.unit (s := S16x16384) (k0_off38 L) S16x512.size (k0_off38_inb L)) (fun _ => rfl)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KernelRun

end
-- ==== Proof.IfaceK.lean ====
/-
  What one vector subcore's task takes and gives back, and the statement of its run.
  Subcore (c, s) works on the 512 batch positions starting at 1024·s + 512·c.  It reads the identifiers and the two
  reshaped tables (a read share of each) and owns its 16 × 512 block of the transposed result, which it leaves at
  `TA[id j / 8, (id j mod 8)·16 + c] + TB[same]` for every coordinate c and batch position j of the block — row id j of
  each original table, since a 128-wide row of a reshaped table holds eight consecutive 16-wide rows.
-/
import proofs.«209984_g46995532152932_cont_8to1c4_465_20_alg».proof.Proof.CommonK

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The entry of the transposed result at coordinate `c`, batch position `j`: the two reshaped tables read at the
    row and lane identifier `j` names, added. -/
def outAt [FloatOps F] (ids : IVec S16384 32) (TA TB : FVec F S125000x128 .f32) (c : Fin 16) (j : Fin 16384) : F .f32 :=
  FloatOps.addf
    (TA (ix2 (⟨(Cert.Spec.row ids j).val / 8, by have := (Cert.Spec.row ids j).isLt; omega⟩ : Fin 125000)
      (⟨((Cert.Spec.row ids j).val % 8) * 16 + c.val, by have := c.isLt; omega⟩ : Fin 128)))
    (TB (ix2 (⟨(Cert.Spec.row ids j).val / 8, by have := (Cert.Spec.row ids j).isLt; omega⟩ : Fin 125000)
      (⟨((Cert.Spec.row ids j).val % 8) * 16 + c.val, by have := c.isLt; omega⟩ : Fin 128)))

/-- The transposed result holds the looked-up sums on the entries of `S`. -/
def OutOK [FloatOps F] (ids : IVec S16384 32) (TA TB : FVec F S125000x128 .f32) (S : Finset S16x16384.Idx)
    (f : FVec F S16x16384 .f32) : Prop :=
  ∀ (c : Fin 16) (j : Fin 16384), ix2 c j ∈ S → f (ix2 c j) = outAt ids TA TB c j

/-- The entries of the transposed result subcore `L` writes: its block, as the kernel slices it. -/
abbrev oSet (L : grid0.Coords) : Finset S16x16384.Idx := (oSl L).view.set

variable (ids : IVec S16384 32) (TA TB : FVec F S125000x128 .f32)

/-- What the task on subcore `L` of device `d` takes: a read share `q` of the identifiers and of the two reshaped
    tables, and its block of the transposed result at the contents `fO`. -/
def goRes (d : Dev nD) (L : grid0.Coords) (q : PosShare TreeShare) (fO : Buf (Elt F) (oLoc d)) : sProp 𝕄 :=
  iprop((idLoc d ↦{q} ids) ∗ (aLoc d ↦{q} TA) ∗ (bLoc d ↦{q} TB) ∗ (oLoc d ↦[oSet L]{fullShare} fO))

/-- What it gives back: the shares, and its block holding the looked-up sums. -/
def tdRes [FloatOps F] (d : Dev nD) (L : grid0.Coords) (q : PosShare TreeShare) : sProp 𝕄 :=
  iprop((idLoc d ↦{q} ids) ∗ (aLoc d ↦{q} TA) ∗ (bLoc d ↦{q} TB)
    ∗ ∃ f : Buf (Elt F) (oLoc d), (oLoc d ↦[oSet L]{fullShare} f) ∗ ⌜OutOK ids TA TB (oSet L) f⌝)

/-- The task's run, at every subcore of the grid: from what it takes, its scoped storage and what its thread owes
    the launch, to what it gives back, waiting only on its own copies. -/
def TileRun [FloatOps F] : Prop :=
  ∀ (d : Dev nD) (L : grid0.Coords) (q : PosShare TreeShare) (fO : Buf (Elt F) (oLoc d))
    (O : CellTallies nD τ sig (HIx 1)) (W : Waits sig (HIx 1)), (∀ g, O g none = 0) →
    iprop(levAts (K (F := F)).L (K (F := F)).lev ∗ emp ∗ goRes ids TA TB d L q fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__tile_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1)
          fun _ => iprop(tdRes ids TA TB d L q ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KernelRun

end
-- ==== Proof.HostValue.lean ====
/-
  The host side of the value, at an index.

  Each table of 1000000 rows of 16 is reshaped, row-major, to 125000 rows of 128: element `(n, c)`
  sits at row `n / 8`, column `(n % 8) * 16 + c`, because `(n / 8) * 128 + (n % 8) * 16 + c = n * 16 + c`.
  The result is filled transposed, coordinate by batch position, and transposed at the end.  So a
  transposed array that holds, at `(c, j)`, the sum of the two reshaped tables' entries for row
  `row ids j` and coordinate `c`, is after the transposition the looked-up sum of the specification.
-/
import proofs.«209984_g46995532152932_cont_8to1c4_465_20_alg».proof.Proof.Spec
import Idealize.ShloMosaic.PureOps
import Idealize.ShloMosaic.Lib.ValueIdx
import Idealize.ShloMosaic.Lib.Pipeline.Value
import Idealize.ShloMosaic.Lib.ValueLayout

namespace Cert.HostValue

open Idealize.ShloMosaic Idealize.ShloMosaic.ValueIdx

abbrev S125000x128 : Shape := ⟨2, ![125000, 128]⟩
abbrev S16x16384 : Shape := ⟨2, ![16, 16384]⟩

/-- The row-major reshape of a table, read at the position of element `(n, c)`. -/
theorem reshape_apply {α : Type} (A : Cert.Spec.S1000000x16.Idx → α)
    (h : Cert.Spec.S1000000x16.ShapeCasts S125000x128) (n : Fin 1000000) (c : Fin 16) :
    shapeCast S125000x128 A h (ix2 ⟨n.val / 8, by omega⟩ ⟨(n.val % 8) * 16 + c.val, by omega⟩) = A (ix2 n c) :=
  shapeCast_apply A h _ _ (by
    rw [Shape.rowMajor_val_two, Shape.rowMajor_val_two]
    show n.val * 16 + c.val = (n.val / 8) * 128 + ((n.val % 8) * 16 + c.val)
    omega)

/-- The transposition read at `(j, c)` is the operand at `(c, j)`. -/
theorem transpose_apply {α : Type} (X : S16x16384.Idx → α)
    (h : S16x16384.Transposes [1, 0] Cert.Spec.S16384x16) (j : Fin 16384) (c : Fin 16) :
    transpose Cert.Spec.S16384x16 [1, 0] X h (ix2 j c) = X (ix2 c j) :=
  Idealize.ShloMosaic.transpose_apply [1, 0] X h _ _ (fun b => match b with | ⟨0, _⟩ => rfl | ⟨1, _⟩ => rfl)

/-- A transposed array holding the sums of the reshaped tables' entries is, transposed back, the
    looked-up sum. -/
theorem result_eq {F : FTy → Type} [FloatOps F] (ids : IVec Cert.Spec.S16384 32)
    (A B : FVec F Cert.Spec.S1000000x16 .f32)
    (hA : Cert.Spec.S1000000x16.ShapeCasts S125000x128)
    (hT : S16x16384.Transposes [1, 0] Cert.Spec.S16384x16)
    (X : FVec F S16x16384 .f32)
    (hX : ∀ (c : Fin 16) (j : Fin 16384), X (ix2 c j) =
      FloatOps.addf
        (shapeCast S125000x128 A hA
          (ix2 ⟨(Cert.Spec.row ids j).val / 8, by omega⟩ ⟨((Cert.Spec.row ids j).val % 8) * 16 + c.val, by omega⟩))
        (shapeCast S125000x128 B hA
          (ix2 ⟨(Cert.Spec.row ids j).val / 8, by omega⟩ ⟨((Cert.Spec.row ids j).val % 8) * 16 + c.val, by omega⟩))) :
    transpose Cert.Spec.S16384x16 [1, 0] X hT = Cert.Spec.lookupSum ids A B := by
  funext i
  obtain ⟨j, c, rfl⟩ : ∃ (j : Fin 16384) (c : Fin 16), i = ix2 j c := ⟨i 0, i 1, eq_ix2 i⟩
  rw [transpose_apply X hT j c, hX c j, reshape_apply A hA (Cert.Spec.row ids j) c,
    reshape_apply B hA (Cert.Spec.row ids j) c]
  rfl

end Cert.HostValue
-- ==== Proof.PreDecode.lean ====
/-
  The precondition read back, and the word arithmetic of the index computation.

  The precondition is a conjunction of three "all elements satisfy" reductions.  Only the
  integer one is opened here: every identifier, read as a signed integer, lies in
  `[0, 999999]`.  For a 32-bit word `x` in that range the second part computes the
  quantities the index arithmetic forms from it: `x >>ₛ 3` is `x / 8`, `(x &&& 7) * 16 + c`
  is `(x % 8) * 16 + c`, and `(x / 8) * 128 + ((x % 8) * 16 + c) = x * 16 + c`.
-/
import proofs.«209984_g46995532152932_cont_8to1c4_465_20_alg».proof.Proof.Spec
import proofs.«209984_g46995532152932_cont_8to1c4_465_20_alg».proof.Proof.Gen.Pre_input_domain
import Idealize.ShloMosaic.Lib.ReduceAll

namespace Cert.PreDecode

open Idealize.ShloMosaic Idealize.ShloMosaic.ValueIdx
open Cert.Pre_input_domain.Gen

/-- The rank-0 shape has one index. -/
instance : Subsingleton Cert.Pre_input_domain.S_.Idx := ⟨fun a b => funext fun d => d.elim0⟩

/-- The precondition gives: every identifier, read signed, lies in `[0, 999999]`. -/
theorem inRange_of_pre {F : FTy → Type} [FloatOps F] (ids : IVec Cert.Pre_input_domain.S16384 32)
    (A B : FVec F Cert.Pre_input_domain.S1000000x16 .f32)
    (h : Cert.Pre_input_domain.fn (F := F) ids A B = fun _ => 1#1) : Cert.Spec.InRange ids := by
  intro j
  have h0 := congrFun h ValueIdx.ix0
  dsimp only [Cert.Pre_input_domain.fn] at h0
  have h1 := (IntOp.andi_eq_one.1 h0).2
  have h2 := Host.reduce_andi_all _ _ _ _ _ h1 (ix1 j)
  obtain ⟨hge, hle⟩ := IntOp.andi_eq_one.1 h2
  have hge' := IntOp.cmpi_sge.1 hge
  have hle' := IntOp.cmpi_sle.1 hle
  exact ⟨hge', hle'⟩

/-! ## Words in range

For a 32-bit word `x` whose signed value lies in `[0, 999999]` the signed and the unsigned readings
agree, the arithmetic shift by 3 is division by 8, and masking with 7 is the remainder modulo 8. -/

/-- A word whose signed value lies in `[0, 999999]` has the same unsigned value. -/
theorem toNat_le_of_range (x : BitVec 32) (h : 0 ≤ x.toInt ∧ x.toInt ≤ 999999) : x.toNat ≤ 999999 := by
  have h1 := BitVec.toInt_eq_toNat_cond x
  have h2 := x.isLt
  by_cases hc : 2 * x.toNat < 2 ^ 32
  · rw [if_pos hc] at h1; omega
  · rw [if_neg hc] at h1; omega

/-- The identifiers of a table in range, read unsigned. -/
theorem toNat_le_of_inRange {ids : IVec Cert.Spec.S16384 32} (h : Cert.Spec.InRange ids) (j : Fin 16384) :
    (ids (ix1 j)).toNat ≤ 999999 :=
  toNat_le_of_range _ (h j)

/-- (a) The arithmetic shift by 3 of a word in range is its unsigned value divided by 8. -/
theorem shrsi_three_toNat (u : ArithUnit) (x : BitVec 32) (hx : x.toNat ≤ 999999) :
    (IntOp.shrsi u x 3#32).toNat = x.toNat / 8 := by
  have hmsb : x.msb = false := BitVec.msb_eq_false_iff_two_mul_lt.2 (by omega)
  have e : IntOp.shrsi u x 3#32 = x >>> 3 := by
    unfold IntOp.shrsi
    rw [if_pos (by decide)]
    show x.sshiftRight 3 = x >>> 3
    exact BitVec.sshiftRight_eq_of_msb_false hmsb
  rw [e, BitVec.toNat_ushiftRight, Nat.shiftRight_eq_div_pow]

/-- (a) The quotient is below 125000. -/
theorem shrsi_three_lt (u : ArithUnit) (x : BitVec 32) (hx : x.toNat ≤ 999999) :
    (IntOp.shrsi u x 3#32).toNat < 125000 := by
  rw [shrsi_three_toNat u x hx]; omega

/-- (a) Read signed, the shifted word is the same natural number. -/
theorem shrsi_three_toInt (u : ArithUnit) (x : BitVec 32) (hx : x.toNat ≤ 999999) :
    (IntOp.shrsi u x 3#32).toInt = ((x.toNat / 8 : Nat) : Int) := by
  have h := shrsi_three_lt u x hx
  rw [BitVec.toInt_eq_toNat_of_lt (by omega), shrsi_three_toNat u x hx]

/-- (b) `(x &&& 7) * 16 + c` for `c < 16`: the remainder of `x` modulo 8, times 16, plus `c`. -/
theorem lane_toNat (x : BitVec 32) (c : Nat) (hc : c < 16) :
    (IntOp.addi (IntOp.muli (IntOp.andi x 7#32) 16#32) (BitVec.ofNat 32 c)).toNat = (x.toNat % 8) * 16 + c := by
  show ((x &&& 7#32) * 16#32 + BitVec.ofNat 32 c).toNat = _
  have hand : x.toNat &&& 7 = x.toNat % 8 := Nat.and_two_pow_sub_one_eq_mod x.toNat 3
  rw [BitVec.toNat_add, BitVec.toNat_mul, BitVec.toNat_and, BitVec.toNat_ofNat, BitVec.toNat_ofNat, BitVec.toNat_ofNat]
  rw [Nat.mod_eq_of_lt (by decide : 7 < 2 ^ 32), hand]
  omega

/-- (b) The lane is below 128. -/
theorem lane_lt (x : BitVec 32) (c : Nat) (hc : c < 16) :
    (IntOp.addi (IntOp.muli (IntOp.andi x 7#32) 16#32) (BitVec.ofNat 32 c)).toNat < 128 := by
  rw [lane_toNat x c hc]; omega

/-- (c) Row `n / 8` of 128 lanes, lane `(n % 8) * 16 + c`: element `n * 16 + c`. -/
theorem flat_index (n c : Nat) : (n / 8) * 128 + ((n % 8) * 16 + c) = n * 16 + c := by omega

/-! ## The same facts, at an index of the vector operations

The vector operations apply the scalar ones index by index, and a broadcast constant is that constant
at every index; `s` is any shape (the kernel's vectors have 16 lanes). -/

section Pointwise
variable {s : Shape}

theorem shrsi_three_apply_toNat (v : IVec s 32) (l : s.Idx) (hx : (v l).toNat ≤ 999999) :
    (shrsi v (broadcast s 3#32) l).toNat = (v l).toNat / 8 :=
  shrsi_three_toNat .vector (v l) hx

theorem shrsi_three_apply_lt (v : IVec s 32) (l : s.Idx) (hx : (v l).toNat ≤ 999999) :
    (shrsi v (broadcast s 3#32) l).toNat < 125000 :=
  shrsi_three_lt .vector (v l) hx

theorem shrsi_three_apply_toInt (v : IVec s 32) (l : s.Idx) (hx : (v l).toNat ≤ 999999) :
    (shrsi v (broadcast s 3#32) l).toInt = (((v l).toNat / 8 : Nat) : Int) :=
  shrsi_three_toInt .vector (v l) hx

theorem lane_apply_toNat (v : IVec s 32) (l : s.Idx) (c : Nat) (hc : c < 16) :
    (addi (muli (andi v (broadcast s 7#32)) (broadcast s 16#32)) (broadcast s (BitVec.ofNat 32 c)) l).toNat
      = ((v l).toNat % 8) * 16 + c :=
  lane_toNat (v l) c hc

theorem lane_apply_lt (v : IVec s 32) (l : s.Idx) (c : Nat) (hc : c < 16) :
    (addi (muli (andi v (broadcast s 7#32)) (broadcast s 16#32)) (broadcast s (BitVec.ofNat 32 c)) l).toNat < 128 :=
  lane_lt (v l) c hc

end Pointwise

-- a literal constant such as `14#32` is `BitVec.ofNat 32 14`, so the lane facts apply to it as stated
example (v : IVec Cert.Spec.S16384 32) (l : Cert.Spec.S16384.Idx) :
    (addi (muli (andi v (broadcast _ 7#32)) (broadcast _ 16#32)) (broadcast _ 14#32) l).toNat
      = ((v l).toNat % 8) * 16 + 14 :=
  lane_apply_toNat v l 14 (by decide)

end Cert.PreDecode
-- ==== Proof.LaunchPayK.lean ====
/-
  What the launch handshakes carry for the lookup kernel, one subcore's task as the launch theorem asks for it, and
  how a SparseCore's operands are dealt to its sixteen subcores and gathered back.

  The identifiers and the two reshaped tables are only read: the TensorCore deals each SparseCore a read share of
  each, and the SparseCore's sequencer deals each of its subcores a share of that.  The transposed result is
  written: subcore (c, i) owns its own 16 × 512 block of it, and hands it back holding the looked-up sums.
-/
import proofs.«209984_g46995532152932_cont_8to1c4_465_20_alg».proof.Proof.IfaceK
import proofs.«209984_g46995532152932_cont_8to1c4_465_20_alg».proof.Proof.HostValue
import proofs.«209984_g46995532152932_cont_8to1c4_465_20_alg».proof.Proof.PreDecode

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ)

/-! ## The launch contents: the identifiers, and the two tables as the kernel reads them (reshaped) -/

theorem bound_zero : grid0.bound 0 = 2 := rfl
theorem bound_one : grid0.bound 1 = 16 := rfl

/-- Subcore `i` of SparseCore `c`, as a point of the kernel's grid. -/
abbrev LL (c : Fin 2) (i : Fin 16) : grid0.Coords := coordsV (Fin.cast bound_zero.symm c) (Fin.cast bound_one.symm i)

abbrev idsOf (d : Dev nD) : IVec S16384 32 := m (idLoc d)
abbrev TA (d : Dev nD) : FVec F S125000x128 .f32 :=
  shapeCast S125000x128 (m ((SparseCore.T d).loc main_arg1)) shapeCasts_S1000000x16_S125000x128
abbrev TB (d : Dev nD) : FVec F S125000x128 .f32 :=
  shapeCast S125000x128 (m ((SparseCore.T d).loc main_arg2)) shapeCasts_S1000000x16_S125000x128

/-- SparseCore `c`'s read share of an array the two SparseCores read whole. -/
abbrev qC (c : Fin 2) : PosShare TreeShare := shareTok fullShare 2 c

variable [FloatOps F]

/-! ## What the handshakes carry -/

/-- What SparseCore `c` is started with: its read shares, and its sixteen blocks of the transposed result. -/
def stRes (d : Dev nD) (c : Fin 2) : sProp 𝕄 :=
  iprop((idLoc d ↦{qC c} idsOf m d) ∗ (aLoc d ↦{qC c} TA m d) ∗ (bLoc d ↦{qC c} TB m d)
    ∗ bigSep Finset.univ fun i : Fin 16 => oLoc d ↦[oSet (LL c i)]{fullShare} m (oLoc d))

/-- What it hands back: the shares, and each block holding the looked-up sums. -/
def dnRes (d : Dev nD) (c : Fin 2) : sProp 𝕄 :=
  iprop((idLoc d ↦{qC c} idsOf m d) ∗ (aLoc d ↦{qC c} TA m d) ∗ (bLoc d ↦{qC c} TB m d)
    ∗ bigSep Finset.univ fun i : Fin 16 => iprop(∃ f : Buf (Elt F) (oLoc d),
        (oLoc d ↦[oSet (LL c i)]{fullShare} f) ∗ ⌜OutOK (idsOf m d) (TA m d) (TB m d) (oSet (LL c i)) f⌝))

/-- What subcore `i` of SparseCore `c` is handed, and hands back. -/
def goT (d : Dev nD) (c : Fin 2) (i : Fin 16) : sProp 𝕄 :=
  goRes (idsOf m d) (TA m d) (TB m d) d (LL c i) (shareTok (qC c) 16 i) (m (oLoc d))
def tdT (d : Dev nD) (c : Fin 2) (i : Fin 16) : sProp 𝕄 :=
  tdRes (idsOf m d) (TA m d) (TB m d) d (LL c i) (shareTok (qC c) 16 i)

instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance
instance goT_storable (d : Dev nD) (c : Fin 2) (i : Fin 16) : BI.Storable (upEmb : UEmb _ 𝕄) (goT m d c i) := by
  unfold goT goRes; infer_instance
instance tdT_storable (d : Dev nD) (c : Fin 2) (i : Fin 16) : BI.Storable (upEmb : UEmb _ 𝕄) (tdT m d c i) := by
  unfold tdT tdRes; infer_instance

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => (inferInstance : BI.Storable (upEmb : UEmb _ 𝕄) (stRes m d (Fin.cast nCore_zero c)))
  dn q d c := match q with | 0 => (inferInstance : BI.Storable (upEmb : UEmb _ 𝕄) (dnRes m d (Fin.cast nCore_zero c)))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

theorem P_st (d : Dev nD) (c : Fin ((K (F := F)).nCore 0)) : (P m).st 0 d c = stRes m d (Fin.cast nCore_zero c) := rfl
theorem P_dn (d : Dev nD) (c : Fin ((K (F := F)).nCore 0)) : (P m).dn 0 d c = dnRes m d (Fin.cast nCore_zero c) := rfl
theorem P_go (d : Dev nD) (c : Fin ((K (F := F)).nCore 0)) (i : Fin ((K (F := F)).nSub 0)) :
    (P m).go 0 d c i = goT m d (Fin.cast nCore_zero c) (Fin.cast nSub_zero i) := rfl
theorem P_td (d : Dev nD) (c : Fin ((K (F := F)).nCore 0)) (i : Fin ((K (F := F)).nSub 0)) :
    (P m).td 0 d c i = tdT m d (Fin.cast nCore_zero c) (Fin.cast nSub_zero i) := rfl
theorem P_x (q : Fin 1) (thr : Thread nD τ) : (P m).x q thr = iprop(emp) := rfl

/-! ## One subcore's task, as the launch theorem asks for it -/

theorem defs₀_vector (c : Fin τ.nSC) (s : Fin τ.nSub) :
    defs₀ (F := F) (.scVector c s) 0 ()
      = SparseCore.onTile hcore0 hsub0 (fun c s => cc0__tile_body (coordsV c s)
          idV (Memref.isWhole_whole _) aV (Memref.isWhole_whole _) bV (Memref.isWhole_whole _) oV (Memref.isWhole_whole _)
          sId (Memref.isWhole_whole _) sR0 (Memref.isWhole_whole _) sR1 (Memref.isWhole_whole _) sA (Memref.isWhole_whole _)
          sB (Memref.isWhole_whole _) sO (Memref.isWhole_whole _) cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : ∀ d, TileRun (idsOf m d) (TA m d) (TB m d)) :
    (K (F := F)).TileObl (D (F := F)) 𝒱 (P m) v₀ 0 := by
  intro d c i O W hO _ _
  simp only [show (P m).ox = fun _ _ => 0 from rfl, add_zero]
  rw [P_go, P_td, P_x]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  exact (hb d d (coordsV ⟨_, hc.1⟩ ⟨_, hc.2⟩) (shareTok (qC (Fin.cast nCore_zero c)) 16 (Fin.cast nSub_zero i)) (m (oLoc d)) O W hO).trans
    (wp_mono frame _ _ fun _ => obl_post)

/-! ## A SparseCore's operands dealt to its subcores, and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stRes m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnRes m d (Fin.cast nCore_zero c)))
  generalize Fin.cast nCore_zero c = c'
  rw [bigSep_tasks (F := F) (fun i => goT m d c' i), bigSep_tasks (F := F) (fun i => tdT m d c' i)]
  unfold goT tdT goRes tdRes stRes dnRes
  rw [bigSep_sep', bigSep_sep', bigSep_sep', bigSep_sep', bigSep_sep', bigSep_sep']
  iintro ⟨Hi, Ha, Hb, Ho⟩
  ihave Hi' := (pointsTo_toks_split (qC c') 16) $$ Hi
  icases Hi' with ⟨Hir, Hit⟩
  ihave Ha' := (pointsTo_toks_split (qC c') 16) $$ Ha
  icases Ha' with ⟨Har, Hat⟩
  ihave Hb' := (pointsTo_toks_split (qC c') 16) $$ Hb
  icases Hb' with ⟨Hbr, Hbt⟩
  imodintro
  isplitl [Hit Hat Hbt Ho]
  · isplitl [Hit]; · iexact Hit
    isplitl [Hat]; · iexact Hat
    isplitl [Hbt]; · iexact Hbt
    iexact Ho
  iintro ⟨Hit, Hat, Hbt, Ho⟩
  isplitl [Hir Hit]
  · iapply (pointsTo_toks_join (qC c') 16); isplitl [Hir]; · iexact Hir
    iexact Hit
  isplitl [Har Hat]
  · iapply (pointsTo_toks_join (qC c') 16); isplitl [Har]; · iexact Har
    iexact Hat
  isplitl [Hbr Hbt]
  · iapply (pointsTo_toks_join (qC c') 16); isplitl [Hbr]; · iexact Hbr
    iexact Hbt
  iexact Ho

end Cert.Proof.KernelRun

end
-- ==== Proof.LaunchMainK.lean ====
/-
  The lookup kernel's run: @main on the TensorCore around the one SparseCore call, and the claim read off the final
  memory.

  The transposed result is 16 rows of 16384 columns; subcore (c, i) owns the 512 columns from 1024·i + 512·c.  These
  32 column ranges are pairwise disjoint and cover every column, so the whole array is the 32 blocks, and 32 blocks
  each holding the looked-up sums are the whole array holding them.
-/
import proofs.«209984_g46995532152932_cont_8to1c4_465_20_alg».proof.Proof.LaunchPayK
import proofs.«209984_g46995532152932_cont_8to1c4_465_20_alg».proof.Proof.HostValue
import proofs.«209984_g46995532152932_cont_8to1c4_465_20_alg».proof.Proof.PreDecode

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The 32 blocks of the transposed result -/

theorem oSet_eq (L : grid0.Coords) :
    oSet L = (Rect.unit (s := S16x16384) (k0_off38 L) S16x512.size (k0_off38_inb L)).set := by
  show ((View.whole (main_v2_scv : Ref sig .scVector)).slice _).set = _
  rw [View.set_slice]; exact Finset.map_refl

/-- Block `L` is the columns `1024·L₁ + 512·L₀ ≤ j < … + 512`, every row. -/
theorem mem_oSet (L : grid0.Coords) (x : S16x16384.Idx) :
    x ∈ oSet L ↔ 1024 * (L 1).val + 512 * (L 0).val ≤ (x 1).val ∧ (x 1).val < 1024 * (L 1).val + 512 * (L 0).val + 512 := by
  rw [oSet_eq, Rect.mem_set_unit, k0_off38_eq]
  constructor
  · intro h; exact h 1
  · intro h a
    match a with
    | ⟨0, _⟩ => exact ⟨Nat.zero_le _, by have := idx2_lt0 x; show (x 0).val < 0 + 16; omega⟩
    | ⟨1, _⟩ => exact h

theorem LL_zero (c : Fin 2) (i : Fin 16) : ((LL c i) 0).val = c.val := rfl
theorem LL_one (c : Fin 2) (i : Fin 16) : ((LL c i) 1).val = i.val := rfl

abbrev blk (p : Fin 2 × Fin 16) : Finset S16x16384.Idx := oSet (LL p.1 p.2)

theorem blk_disjoint : ∀ p ∈ (Finset.univ : Finset (Fin 2 × Fin 16)), ∀ p' ∈ (Finset.univ : Finset (Fin 2 × Fin 16)),
    p ≠ p' → Disjoint (blk p) (blk p') := by
  intro p _ p' _ hne
  rw [Finset.disjoint_left]
  intro x hx hx'
  rw [mem_oSet, LL_zero, LL_one] at hx hx'
  apply hne
  have h1 := p.1.isLt; have h2 := p'.1.isLt; have h3 := p.2.isLt; have h4 := p'.2.isLt
  have : p.1.val = p'.1.val ∧ p.2.val = p'.2.val := by omega
  exact Prod.ext (Fin.ext this.1) (Fin.ext this.2)

theorem blk_cover : (Finset.univ : Finset (Fin 2 × Fin 16)).biUnion blk = Finset.univ := by
  ext x
  simp only [Finset.mem_biUnion, Finset.mem_univ, true_and, iff_true]
  have hj := idx2_lt1 x
  refine ⟨(⟨((x 1).val / 512) % 2, by omega⟩, ⟨(x 1).val / 1024, by omega⟩), ?_⟩
  rw [mem_oSet, LL_zero, LL_one]
  show 1024 * ((x 1).val / 1024) + 512 * (((x 1).val / 512) % 2) ≤ (x 1).val
    ∧ (x 1).val < 1024 * ((x 1).val / 1024) + 512 * (((x 1).val / 512) % 2) + 512
  omega

/-- The whole transposed result is its 32 blocks, SparseCore by SparseCore. -/
theorem oPts_blocks (d : Dev nD) (f : Buf (Elt F) (oLoc d)) :
    (oLoc d ↦{fullShare} f : sProp 𝕄)
      = iprop((bigSep Finset.univ fun i : Fin 16 => oLoc d ↦[oSet (LL 0 i)]{fullShare} f)
          ∗ bigSep Finset.univ fun i : Fin 16 => oLoc d ↦[oSet (LL 1 i)]{fullShare} f) := by
  rw [← bigSep_univ_two (fun c : Fin 2 => bigSep Finset.univ fun i : Fin 16 => (oLoc d ↦[oSet (LL c i)]{fullShare} f : sProp 𝕄)),
    ← bigSep_univ_prod (fun p : Fin 2 × Fin 16 => (oLoc d ↦[blk p]{fullShare} f : sProp 𝕄)),
    ← pointsTo_biUnion Finset.univ (ℓ := oLoc d) blk blk_disjoint, blk_cover]
  try rfl

omit m in
theorem flip_pure {φ : Prop} {A : sProp 𝕄} : iprop(A ∗ ⌜φ⌝) ⊢ (iprop(⌜φ⌝ ∗ A) : sProp 𝕄) := by
  iintro ⟨H, %h⟩
  isplitr
  · ipureintro; exact h
  · iexact H

variable [FloatOps F]

theorem flip_all (d : Dev nD) (fs : Fin 2 × Fin 16 → Buf (Elt F) (oLoc d)) :
    (bigSep Finset.univ fun p : Fin 2 × Fin 16 =>
        (iprop((oLoc d ↦[blk p]{fullShare} fs p) ∗ ⌜OutOK (idsOf m d) (TA m d) (TB m d) (blk p) (fs p)⌝) : sProp 𝕄))
      ⊢ bigSep Finset.univ fun p : Fin 2 × Fin 16 =>
        (iprop(⌜OutOK (idsOf m d) (TA m d) (TB m d) (blk p) (fs p)⌝ ∗ (oLoc d ↦[blk p]{fullShare} fs p)) : sProp 𝕄) :=
  bigSep_mono fun p _ => flip_pure

/-- Blocks that each hold the looked-up sums are the whole array holding them. -/
theorem oBlocks_join (d : Dev nD) :
    iprop((bigSep Finset.univ fun i : Fin 16 => iprop(∃ f : Buf (Elt F) (oLoc d),
            (oLoc d ↦[oSet (LL 0 i)]{fullShare} f) ∗ ⌜OutOK (idsOf m d) (TA m d) (TB m d) (oSet (LL 0 i)) f⌝))
        ∗ bigSep Finset.univ fun i : Fin 16 => iprop(∃ f : Buf (Elt F) (oLoc d),
            (oLoc d ↦[oSet (LL 1 i)]{fullShare} f) ∗ ⌜OutOK (idsOf m d) (TA m d) (TB m d) (oSet (LL 1 i)) f⌝))
      ⊢ (iprop(∃ g : Buf (Elt F) (oLoc d), (oLoc d ↦{fullShare} g) ∗ ⌜OutOK (idsOf m d) (TA m d) (TB m d) Finset.univ g⌝) : sProp 𝕄) := by
  rw [← bigSep_univ_two (fun c : Fin 2 => bigSep Finset.univ fun i : Fin 16 => (iprop(∃ f : Buf (Elt F) (oLoc d),
            (oLoc d ↦[oSet (LL c i)]{fullShare} f) ∗ ⌜OutOK (idsOf m d) (TA m d) (TB m d) (oSet (LL c i)) f⌝) : sProp 𝕄)),
    ← bigSep_univ_prod (fun p : Fin 2 × Fin 16 => (iprop(∃ f : Buf (Elt F) (oLoc d),
            (oLoc d ↦[blk p]{fullShare} f) ∗ ⌜OutOK (idsOf m d) (TA m d) (TB m d) (blk p) f⌝) : sProp 𝕄))]
  refine (bigSep_exists_pi Finset.univ (fun (p : Fin 2 × Fin 16) (f : Buf (Elt F) (oLoc d)) =>
    (iprop((oLoc d ↦[blk p]{fullShare} f) ∗ ⌜OutOK (idsOf m d) (TA m d) (TB m d) (blk p) f⌝) : sProp 𝕄))).trans ?_
  iintro ⟨%fs, H⟩
  ihave H1 := (flip_all m d fs) $$ H
  ihave H2 := (bigSep_pure_sep Finset.univ (fun p : Fin 2 × Fin 16 => OutOK (idsOf m d) (TA m d) (TB m d) (blk p) (fs p))
      (fun p => (oLoc d ↦[blk p]{fullShare} fs p : sProp 𝕄))) $$ H1
  icases H2 with ⟨%hok, H3⟩
  ihave H4 := (pointsTo_biUnion_join Finset.univ blk fs (fs (0, 0)) blk_disjoint) $$ H3
  icases H4 with ⟨%g, %hg, Hg⟩
  rw [blk_cover]
  iexists g
  isplitl [Hg]; · iexact Hg
  ipureintro
  intro c j _
  have hx : ix2 c j ∈ (Finset.univ : Finset (Fin 2 × Fin 16)).biUnion blk := by rw [blk_cover]; exact Finset.mem_univ _
  obtain ⟨p, hp, hxp⟩ := Finset.mem_biUnion.mp hx
  rw [hg p hp _ hxp]
  exact hok p hp c j hxp

/-! ## The launch element: the handshakes' rounds; the transfer counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v3

abbrev opR1 : HloOp τ sig (Elt F) := StableHlo.reshape main_arg1 main_v0 rfl shapeCasts_S1000000x16_S125000x128
abbrev opR2 : HloOp τ sig (Elt F) := StableHlo.reshape main_arg2 main_v1 rfl shapeCasts_S1000000x16_S125000x128
abbrev opT : HloOp τ sig (Elt F) :=
  StableHlo.unary main_v2 main_v3 ((transpose S16384x16 [1, 0] · transposes_S16x16384_S16384x16_1_0) :
    (⟨S16x16384, .f32⟩ : BufTy).Contents (Elt F) → (⟨S16384x16, .f32⟩ : BufTy).Contents (Elt F))

/-- The TensorCore's arrays, all unscoped. -/
abbrev S7 : Finset (DevRef τ sig) := {a0', a1', a2', v0', v1', v2', v3'}

omit [FloatOps F] in
theorem held_S7 (d : Dev nD) (W : Valuation τ sig (Elt F)) :
    (held (T d) S7 W : sProp 𝕄) = iprop((idLoc d ↦{fullShare} W a0') ∗ (a1Loc d ↦{fullShare} W a1') ∗ (a2Loc d ↦{fullShare} W a2')
      ∗ (aLoc d ↦{fullShare} W v0') ∗ (bLoc d ↦{fullShare} W v1') ∗ (oLoc d ↦{fullShare} W v2') ∗ rLoc d ↦{fullShare} W v3') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((idLoc d ↦{fullShare} W main_arg0) ∗ (a1Loc d ↦{fullShare} W main_arg1) ∗ (a2Loc d ↦{fullShare} W main_arg2)
      ∗ (aLoc d ↦{fullShare} W main_v0) ∗ (bLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; after the two reshapes; after the call, the transposed result at `g`; after the transposition. -/
def V0 (d : Dev nD) : Valuation τ sig (Elt F) := fun b => m (d, b)
def V1 (d : Dev nD) : Valuation τ sig (Elt F) := (opR1 (F := F)).result (V0 m d)
def V2 (d : Dev nD) : Valuation τ sig (Elt F) := (opR2 (F := F)).result (V1 m d)
def V3 (d : Dev nD) (g : Buf (Elt F) (oLoc d)) : Valuation τ sig (Elt F) := Function.update (V2 m d) v2' g
def V4 (d : Dev nD) (g : Buf (Elt F) (oLoc d)) : Valuation τ sig (Elt F) := (opT (F := F)).result (V3 m d g)

theorem unscoped_held (d : Dev nD) : (unscopedBufs d (fun b => m ((SparseCore.T d).loc b)) : sProp 𝕄) = held (T d) S7 (V0 m d) := by
  rw [unscopedBufs_eq, held_S7]; rfl

theorem hR1 : (opR1 (F := F)).bufs ⊆ S7 := show ({a1', v0'} : Finset (DevRef τ sig)) ⊆ S7 by decide
theorem hR2 : (opR2 (F := F)).bufs ⊆ S7 := show ({a2', v1'} : Finset (DevRef τ sig)) ⊆ S7 by decide
theorem hT : (opT (F := F)).bufs ⊆ S7 := show ({v2', v3'} : Finset (DevRef τ sig)) ⊆ S7 by decide

theorem V1_of_ne (d : Dev nD) {b : DevRef τ sig} (h : b ∉ ({v0'} : Finset (DevRef τ sig))) : V1 m d b = V0 m d b :=
  (opR1 (F := F)).result_of_not_mem (V0 m d) h
theorem V2_of_ne (d : Dev nD) {b : DevRef τ sig} (h : b ∉ ({v1'} : Finset (DevRef τ sig))) : V2 m d b = V1 m d b :=
  (opR2 (F := F)).result_of_not_mem (V1 m d) h

theorem V2_a0 (d : Dev nD) : V2 m d a0' = m (idLoc d) := by rw [V2_of_ne m d (by decide), V1_of_ne m d (by decide)]; rfl
theorem V2_a1 (d : Dev nD) : V2 m d a1' = m (a1Loc d) := by rw [V2_of_ne m d (by decide), V1_of_ne m d (by decide)]; rfl
theorem V2_a2 (d : Dev nD) : V2 m d a2' = m (a2Loc d) := by rw [V2_of_ne m d (by decide), V1_of_ne m d (by decide)]; rfl
theorem V2_v2 (d : Dev nD) : V2 m d v2' = m (oLoc d) := by rw [V2_of_ne m d (by decide), V1_of_ne m d (by decide)]; rfl
theorem V2_v0 (d : Dev nD) : V2 m d v0' = TA m d := by
  rw [V2_of_ne m d (by decide)]
  exact (StableHlo.reshape_result main_arg1 main_v0 rfl shapeCasts_S1000000x16_S125000x128 ⟨by decide, rfl⟩ ⟨by decide, rfl⟩ (V0 m d)).trans rfl
theorem V2_v1 (d : Dev nD) : V2 m d v1' = TB m d := by
  refine (StableHlo.reshape_result main_arg2 main_v1 rfl shapeCasts_S1000000x16_S125000x128 ⟨by decide, rfl⟩ ⟨by decide, rfl⟩ (V1 m d)).trans ?_
  show (fun i => shapeCast S125000x128 (V1 m d a2') shapeCasts_S1000000x16_S125000x128 i) = _
  rw [V1_of_ne m d (by decide)]; rfl

theorem V3_of_ne (d : Dev nD) (g : Buf (Elt F) (oLoc d)) {b : DevRef τ sig} (h : b ≠ v2') : V3 m d g b = V2 m d b :=
  Function.update_of_ne h _ _
theorem V3_v2 (d : Dev nD) (g : Buf (Elt F) (oLoc d)) : V3 m d g v2' = g := Function.update_self _ _ _
theorem V4_of_ne (d : Dev nD) (g : Buf (Elt F) (oLoc d)) {b : DevRef τ sig} (h : b ∉ ({v3'} : Finset (DevRef τ sig))) :
    V4 m d g b = V3 m d g b :=
  (opT (F := F)).result_of_not_mem (V3 m d g) h
theorem V4_a0 (d : Dev nD) (g : Buf (Elt F) (oLoc d)) : V4 m d g a0' = m (idLoc d) := by
  rw [V4_of_ne m d g (by decide), V3_of_ne m d g (by decide), V2_a0]
theorem V4_a1 (d : Dev nD) (g : Buf (Elt F) (oLoc d)) : V4 m d g a1' = m (a1Loc d) := by
  rw [V4_of_ne m d g (by decide), V3_of_ne m d g (by decide), V2_a1]
theorem V4_a2 (d : Dev nD) (g : Buf (Elt F) (oLoc d)) : V4 m d g a2' = m (a2Loc d) := by
  rw [V4_of_ne m d g (by decide), V3_of_ne m d g (by decide), V2_a2]
theorem V4_v3 (d : Dev nD) (g : Buf (Elt F) (oLoc d)) :
    V4 m d g v3' = transpose S16384x16 [1, 0] g transposes_S16x16384_S16384x16_1_0 := by
  refine (StableHlo.unary_result main_v2 main_v3 _ ⟨by decide, rfl⟩ ⟨by decide, rfl⟩ (V3 m d g)).trans ?_
  show transpose S16384x16 [1, 0] (V3 m d g v2') transposes_S16x16384_S16384x16_1_0 = _
  rw [V3_v2]

theorem st0_eq (d : Dev nD) :
    (bigSep Finset.univ fun c : Fin ((K (F := F)).nCore 0) => (P m).st 0 d c) = iprop(stRes m d 0 ∗ stRes m d 1) := by
  show (bigSep (Finset.univ : Finset (Fin 2)) fun c => stRes m d (Fin.cast nCore_zero c)) = _
  rw [bigSep_univ_two]; rfl
theorem dn0_eq (d : Dev nD) :
    (bigSep Finset.univ fun c : Fin ((K (F := F)).nCore 0) => (P m).dn 0 d c) = iprop(dnRes m d 0 ∗ dnRes m d 1) := by
  show (bigSep (Finset.univ : Finset (Fin 2)) fun c => dnRes m d (Fin.cast nCore_zero c)) = _
  rw [bigSep_univ_two]; rfl

omit [FloatOps F] in
/-- An array the two SparseCores read whole: a read share each, the rest kept. -/
theorem share2_split {ℓ : Loc nD τ sig} (f : Buf (Elt F) ℓ) :
    (ℓ ↦{fullShare} f : sProp 𝕄) ⊢ iprop((ℓ ↦{shareDrop fullShare 2} f) ∗ (ℓ ↦{qC 0} f) ∗ (ℓ ↦{qC 1} f)) := by
  refine (pointsTo_toks_split fullShare 2).trans ?_
  rw [bigSep_univ_two]
omit [FloatOps F] in
theorem share2_join {ℓ : Loc nD τ sig} (f : Buf (Elt F) ℓ) :
    iprop((ℓ ↦{shareDrop fullShare 2} f) ∗ (ℓ ↦{qC 0} f) ∗ (ℓ ↦{qC 1} f)) ⊢ (ℓ ↦{fullShare} f : sProp 𝕄) := by
  refine BI.Entails.trans ?_ (pointsTo_toks_join fullShare 2)
  rw [bigSep_univ_two]; exact .refl _

/-- What @main leaves the claim: the three arguments at their launch contents, and the result the transposition of
    an array that holds the looked-up sums everywhere. -/
def FIN (d : Dev nD) : sProp 𝕄 :=
  iprop((idLoc d ↦{fullShare} m (idLoc d)) ∗ (a1Loc d ↦{fullShare} m (a1Loc d)) ∗ (a2Loc d ↦{fullShare} m (a2Loc d))
    ∗ ∃ g : Buf (Elt F) (oLoc d), ⌜OutOK (idsOf m d) (TA m d) (TB m d) Finset.univ g⌝
        ∗ rLoc d ↦{fullShare} (transpose S16384x16 [1, 0] g transposes_S16x16384_S16384x16_1_0))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR1) (S := S7) hR1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR2) (S := S7) hR2 (V := V1 m d)) $$ [Hb Hheld]
  · isplitl [Hb]; · iexact Hb
    iexact Hheld
  iintro ⟨Hb, Hheld⟩
  rw [wp_ret]; imodintro
  rw [show (opR2 (F := F)).result (V1 m d) = V2 m d from rfl]
  ihave Hh := (Entails.of_eq (held_S7 (F := F) d (V2 m d))) $$ Hheld
  rw [V2_a0, V2_a1, V2_a2, V2_v0, V2_v1, V2_v2]
  icases Hh with ⟨Ha0, Ha1, Ha2, Hv0, Hv1, Hv2, Hv3⟩
  ihave Ha0' := (share2_split (F := F) (ℓ := idLoc d) (m (idLoc d))) $$ Ha0
  icases Ha0' with ⟨Ha0r, Ha00, Ha01⟩
  ihave Hv0' := (share2_split (F := F) (ℓ := aLoc d) (TA m d)) $$ Hv0
  icases Hv0' with ⟨Hv0r, Hv00, Hv01⟩
  ihave Hv1' := (share2_split (F := F) (ℓ := bLoc d) (TB m d)) $$ Hv1
  icases Hv1' with ⟨Hv1r, Hv10, Hv11⟩
  ihave Hv2' := (Entails.of_eq (oPts_blocks (F := F) d (m (oLoc d)))) $$ Hv2
  icases Hv2' with ⟨Hv20, Hv21⟩
  -- the call: each SparseCore its read shares and its sixteen blocks
  iapply ((K (F := F)).wp_run (D (F := F)) 𝒱 (EH := EH) (P := P m) κ d 0) $$ [Hst Hb Ha1 Ha2 Hv3 Ha0r Ha00 Ha01 Hv0r Hv00 Hv01 Hv1r Hv10 Hv11 Hv20 Hv21]
  isplitr; · iexact Hctx
  isplitl [Hst]; · iexact Hst
  isplitl [Ha00 Ha01 Hv00 Hv01 Hv10 Hv11 Hv20 Hv21]
  · rw [st0_eq]; unfold stRes
    isplitl [Ha00 Hv00 Hv10 Hv20]
    · isplitl [Ha00]; · iexact Ha00
      isplitl [Hv00]; · iexact Hv00
      isplitl [Hv10]; · iexact Hv10
      iexact Hv20
    · isplitl [Ha01]; · iexact Ha01
      isplitl [Hv01]; · iexact Hv01
      isplitl [Hv11]; · iexact Hv11
      iexact Hv21
  iintro ⟨Hst, Hdn⟩
  ihave Hdn' := (Entails.of_eq (dn0_eq m d)) $$ Hdn
  unfold dnRes
  icases Hdn' with ⟨⟨Ha00, Hv00, Hv10, Ho0⟩, ⟨Ha01, Hv01, Hv11, Ho1⟩⟩
  ihave Ha0 := (share2_join (F := F) (ℓ := idLoc d) (m (idLoc d))) $$ [Ha0r Ha00 Ha01]
  · isplitl [Ha0r]; · iexact Ha0r
    isplitl [Ha00]; · iexact Ha00
    iexact Ha01
  ihave Hv0 := (share2_join (F := F) (ℓ := aLoc d) (TA m d)) $$ [Hv0r Hv00 Hv01]
  · isplitl [Hv0r]; · iexact Hv0r
    isplitl [Hv00]; · iexact Hv00
    iexact Hv01
  ihave Hv1 := (share2_join (F := F) (ℓ := bLoc d) (TB m d)) $$ [Hv1r Hv10 Hv11]
  · isplitl [Hv1r]; · iexact Hv1r
    isplitl [Hv10]; · iexact Hv10
    iexact Hv11
  ihave Ho := (oBlocks_join m d) $$ [Ho0 Ho1]
  · isplitl [Ho0]; · iexact Ho0
    iexact Ho1
  icases Ho with ⟨%g, Hg, %hok⟩
  -- the transposition
  iapply (wp_hlo_within 𝒱 (SparseCore.T d) none Set.univ (op := opT) (S := S7) hT (V := V3 m d g)) $$ [Hb Ha0 Ha1 Ha2 Hv0 Hv1 Hg Hv3]
  · isplitl [Hb]; · iexact Hb
    rw [held_S7, V3_v2, V3_of_ne m d g (b := a0') (by decide), V3_of_ne m d g (b := a1') (by decide), V3_of_ne m d g (b := a2') (by decide),
      V3_of_ne m d g (b := v0') (by decide), V3_of_ne m d g (b := v1') (by decide), V3_of_ne m d g (b := v3') (by decide),
      V2_a0, V2_a1, V2_a2, V2_v0, V2_v1]
    isplitl [Ha0]; · iexact Ha0
    isplitl [Ha1]; · iexact Ha1
    isplitl [Ha2]; · iexact Ha2
    isplitl [Hv0]; · iexact Hv0
    isplitl [Hv1]; · iexact Hv1
    isplitl [Hg]; · iexact Hg
    iexact Hv3
  iintro ⟨Hb, Hheld⟩
  rw [show (opT (F := F)).result (V3 m d g) = V4 m d g from rfl]
  ihave Hh := (Entails.of_eq (held_S7 (F := F) d (V4 m d g))) $$ Hheld
  rw [V4_a0, V4_a1, V4_a2, V4_v3]
  icases Hh with ⟨Ha0, Ha1, Ha2, -, -, -, Hr⟩
  rw [wp_ret]; imodintro; imodintro
  isplitl [Hst]; · iexact Hst
  unfold FIN
  isplitl [Ha0]; · iexact Ha0
  isplitl [Ha1]; · iexact Ha1
  isplitl [Ha2]; · iexact Ha2
  iexists g
  isplitr
  · ipureintro; exact hok
  · iexact Hr

/-! ## The claim, read off the final memory -/

/-- The transposition of an array that holds the looked-up sums everywhere is the looked-up sum of the original
    tables: a row of a reshaped table holds eight consecutive rows of the original. -/
theorem value_eq (d : Dev nD) (g : Buf (Elt F) (oLoc d)) (hok : OutOK (idsOf m d) (TA m d) (TB m d) Finset.univ g) :
    transpose S16384x16 [1, 0] g transposes_S16x16384_S16384x16_1_0
      = Cert.Spec.lookupSum (m (idLoc d)) (m (a1Loc d)) (m (a2Loc d)) :=
  Cert.HostValue.result_eq (m (idLoc d)) (m (a1Loc d)) (m (a2Loc d)) shapeCasts_S1000000x16_S125000x128
    transposes_S16x16384_S16384x16_1_0 g (fun c j => hok c j (Finset.mem_univ _))

def fq (d : Dev nD) (s' : Phys nD τ sig (Elt F)) : Prop :=
  s'.mem.mem (rLoc d) = Cert.Spec.lookupSum (m (idLoc d)) (m (a1Loc d)) (m (a2Loc d))
    ∧ s'.mem.mem (idLoc d) = m (idLoc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  unfold FIN
  iintro ⟨⟨Ha0, Ha1, Ha2, %g, %hok, Hr⟩, HSI⟩
  ihave H := (persistent_entails_right (SI_pointsTo_agree (st := s') (ℓ := idLoc d) (I := Finset.univ) (q := fullShare) (f := m (idLoc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (SI_pointsTo_agree (st := s') (ℓ := rLoc d) (I := Finset.univ) (q := fullShare)
      (f := transpose S16384x16 [1, 0] g transposes_S16x16384_S16384x16_1_0)) $$ [HSI Hr]
  · isplitl [HSI] <;> iassumption
  icases H with %h3
  ipureintro
  exact ⟨(funext fun i => h3 i (Finset.mem_univ i)).trans (value_eq m d g hok), funext fun i => h0 i (Finset.mem_univ i),
    funext fun i => h1 i (Finset.mem_univ i), funext fun i => h2 i (Finset.mem_univ i)⟩

/-! ## The program's run -/

/-- On every device: the result is the looked-up sum of the three arguments, which are unchanged. -/
def QC : PUnit × MemSt nD τ sig (Elt F) → Prop := fun r => ∀ c : Dev nD,
  r.2.mem (rLoc c) = Cert.Spec.lookupSum (m (idLoc c)) (m (a1Loc c)) (m (a2Loc c))
    ∧ r.2.mem (idLoc c) = m (idLoc c) ∧ r.2.mem (a1Loc c) = m (a1Loc c) ∧ r.2.mem (a2Loc c) = m (a2Loc c)

theorem run_main [∀ e, Nonempty (Elt F e)] (hb : ∀ d, TileRun (idsOf m d) (TA m d) (TB m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The same, in the claim's own spelling of the locations. -/
theorem run_main' [∀ e, Nonempty (Elt F e)] (hb : ∀ d, TileRun (idsOf m d) (TA m d) (TB m d)) :
    θ_run (Cert.Kernel.defs (F := F)) (Cert.Kernel.threads (F := F)) ⟨m, fun _ => 0, ρ⟩
      (fun r => ∀ c : Dev nD,
        r.2.mem ((c.tc : Thread nD τ).loc main_v3)
            = Cert.Spec.lookupSum (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  run_main m ρ hb

end Cert.Proof.KernelRun

end
-- ==== Proof.BodyIfaceK.lean ====
/-
  The statement of one vector subcore's task over its resources spelt out: the three read shares, its block of the
  transposed result, its six scratch buffers, its four copy semaphores at zero, and what its thread owes.  It returns
  the shares, the block holding the looked-up sums, the scratch at some contents and the semaphores at zero again.
-/
import proofs.«209984_g46995532152932_cont_8to1c4_465_20_alg».proof.Proof.IfaceK

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The four copy semaphores of a subcore: the two of the gathers (the scratch pair), the identifiers' copy's, the
    write-out's. -/
abbrev semA (d : Dev nD) (L : grid0.Coords) : GSem nD τ sig := (V d (cV L) (jV L), SemLoc.dma ⟨0, by decide⟩)
abbrev semB (d : Dev nD) (L : grid0.Coords) : GSem nD τ sig := (V d (cV L) (jV L), SemLoc.dma ⟨1, by decide⟩)
abbrev sem0 (d : Dev nD) (L : grid0.Coords) : GSem nD τ sig := (V d (cV L) (jV L), SemLoc.dma cc0_scoped0.sem)
abbrev sem1 (d : Dev nD) (L : grid0.Coords) : GSem nD τ sig := (V d (cV L) (jV L), SemLoc.dma cc0_scoped1.sem)

def BodyCore [FloatOps F] (ids : IVec S16384 32) (TA TB : FVec F S125000x128 .f32) : Prop :=
  ∀ (d : Dev nD) (L : grid0.Coords) (q : PosShare TreeShare) (fO : Buf (Elt F) (oLoc d))
    (O : CellTallies nD τ sig (HIx 1)) (W : Waits sig (HIx 1))
    (s0 : Buf (Elt F) ((V d (cV L) (jV L)).loc cc0_scratch0)) (s1 : Buf (Elt F) ((V d (cV L) (jV L)).loc cc0_scratch1))
    (s2 : Buf (Elt F) ((V d (cV L) (jV L)).loc cc0_scratch2)) (s3 : Buf (Elt F) ((V d (cV L) (jV L)).loc cc0_scratch3))
    (s4 : Buf (Elt F) ((V d (cV L) (jV L)).loc cc0_scratch4)) (s5 : Buf (Elt F) ((V d (cV L) (jV L)).loc cc0_scratch5)),
    (iprop(Transfers.MayWaits (V d (cV L) (jV L)) (none : HIx 1) O
        ∗ (idLoc d ↦{q} ids) ∗ (aLoc d ↦{q} TA) ∗ (bLoc d ↦{q} TB) ∗ (oLoc d ↦[oSet L]{fullShare} fO)
        ∗ ((V d (cV L) (jV L)).loc cc0_scratch0 ↦{fullShare} s0)
        ∗ ((V d (cV L) (jV L)).loc cc0_scratch1 ↦{fullShare} s1)
        ∗ ((V d (cV L) (jV L)).loc cc0_scratch2 ↦{fullShare} s2)
        ∗ ((V d (cV L) (jV L)).loc cc0_scratch3 ↦{fullShare} s3)
        ∗ ((V d (cV L) (jV L)).loc cc0_scratch4 ↦{fullShare} s4)
        ∗ ((V d (cV L) (jV L)).loc cc0_scratch5 ↦{fullShare} s5)
        ∗ semVal (sem0 d L) 0 ∗ semVal (sem1 d L) 0 ∗ semVal (semA d L) 0 ∗ semVal (semB d L) 0
        ∗ owes (V d (cV L) (jV L)) O W) : sProp 𝕄)
      ⊢ wp frame (wpE (defs₀ (F := F)) 𝒱₀ (V d (cV L) (jV L)) none) Set.univ
          (cc0__tile_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1)
          fun _ => iprop((idLoc d ↦{q} ids) ∗ (aLoc d ↦{q} TA) ∗ (bLoc d ↦{q} TB)
            ∗ (∃ f : Buf (Elt F) (oLoc d), (oLoc d ↦[oSet L]{fullShare} f) ∗ ⌜OutOK ids TA TB (oSet L) f⌝)
            ∗ (∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f)
            ∗ (∃ f, (V d (cV L) (jV L)).loc cc0_scratch5 ↦{fullShare} f)
            ∗ semVal (sem0 d L) 0 ∗ semVal (sem1 d L) 0 ∗ semVal (semA d L) 0 ∗ semVal (semB d L) 0
            ∗ ∃ W', ⌜∀ p ∈ W', p ∈ W ∨ p.2 = none⌝ ∗ owes (V d (cV L) (jV L)) O W')

end Cert.Proof.KernelRun

end
-- ==== Proof.TileWrapK.lean ====
/-
  One vector subcore's task, from the launch's view of it to its resources spelt out.

  The launch hands a subcore its scoped storage as two products: over its own buffers (each whole at some contents)
  and over its own scoped semaphores (each at zero).  The task's six scratch buffers are among the former and its four
  copy semaphores among the latter, so each product is those factors and a rest the task never touches; and a thread
  that owes the launch nothing at the level of its own copies may wait on them.  The task proved over the factors is
  therefore the task the launch asks for: the rests are carried around it unchanged.
-/
import proofs.«209984_g46995532152932_cont_8to1c4_465_20_alg».proof.Proof.BodyIfaceK

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile

variable (d : Dev nD) (L : grid0.Coords)

/-- The four copy semaphores are among the subcore's own scoped cells: they are them, at zero, and the rest. -/
theorem ownSems0_V :
    (ownSems0 (V d (cV L) (jV L)) : sProp 𝕄)
      = iprop(semVal (sem0 d L) 0 ∗ semVal (sem1 d L) 0 ∗ semVal (semA d L) 0 ∗ semVal (semB d L) 0
          ∗ bigSep (((((ownCells (V d (cV L) (jV L))).erase (sem0 d L)).erase (sem1 d L)).erase (semA d L)).erase (semB d L)) fun g => semVal g 0) := by
  unfold SparseCore.Cfg.ownSems0
  rw [SparseCore.bigSep_erase' ((mem_ownCells (g := sem0 d L)).mpr ⟨rfl, by show ((SemLoc.dma cc0_scoped0.sem : SemLoc sig)).isScoped .scVector = true; decide⟩),
    SparseCore.bigSep_erase' (Finset.mem_erase.mpr ⟨(fun e => absurd (congrArg Prod.snd e) (show ((SemLoc.dma cc0_scoped1.sem : SemLoc sig)) ≠ (SemLoc.dma cc0_scoped0.sem) by decide)), (mem_ownCells (g := sem1 d L)).mpr ⟨rfl, by show ((SemLoc.dma cc0_scoped1.sem : SemLoc sig)).isScoped .scVector = true; decide⟩⟩),
    SparseCore.bigSep_erase' (Finset.mem_erase.mpr ⟨(fun e => absurd (congrArg Prod.snd e) (show ((SemLoc.dma ⟨0, by decide⟩ : SemLoc sig)) ≠ (SemLoc.dma cc0_scoped1.sem) by decide)), Finset.mem_erase.mpr ⟨(fun e => absurd (congrArg Prod.snd e) (show ((SemLoc.dma ⟨0, by decide⟩ : SemLoc sig)) ≠ (SemLoc.dma cc0_scoped0.sem) by decide)), (mem_ownCells (g := semA d L)).mpr ⟨rfl, by show ((SemLoc.dma ⟨0, by decide⟩ : SemLoc sig)).isScoped .scVector = true; decide⟩⟩⟩),
    SparseCore.bigSep_erase' (Finset.mem_erase.mpr ⟨(fun e => absurd (congrArg Prod.snd e) (show ((SemLoc.dma ⟨1, by decide⟩ : SemLoc sig)) ≠ (SemLoc.dma ⟨0, by decide⟩) by decide)), Finset.mem_erase.mpr ⟨(fun e => absurd (congrArg Prod.snd e) (show ((SemLoc.dma ⟨1, by decide⟩ : SemLoc sig)) ≠ (SemLoc.dma cc0_scoped1.sem) by decide)), Finset.mem_erase.mpr ⟨(fun e => absurd (congrArg Prod.snd e) (show ((SemLoc.dma ⟨1, by decide⟩ : SemLoc sig)) ≠ (SemLoc.dma cc0_scoped0.sem) by decide)), (mem_ownCells (g := semB d L)).mpr ⟨rfl, by show ((SemLoc.dma ⟨1, by decide⟩ : SemLoc sig)).isScoped .scVector = true; decide⟩⟩⟩⟩)]

/-- The six scratch buffers are among the subcore's own: they are them, at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := (Proc.scVector (cV L) (jV L))) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := (Proc.scVector (cV L) (jV L))) (b := (Proc.scVector (cV L) (jV L)).devRef cc0_scratch5) rfl⟩⟩⟩⟩⟩)]

end Tile

/-- The task over its resources spelt out is the task the launch asks of every subcore. -/
theorem tile_run [FloatOps F] (ids : IVec S16384 32) (TA TB : FVec F S125000x128 .f32) (hb : BodyCore ids TA TB) :
    TileRun ids TA TB := by
  intro d L q fO O W hO
  unfold goRes tdRes
  rw [(K (F := F)).scopedBufs_V facts d (cV L) (jV L), SparseCore.Cfg.scopedSems0_V (Val := Elt F) d (cV L) (jV L),
    ownSems0_V, ownBufs_V]
  iintro ⟨Hlv, -, ⟨Hid, Ha, Hb, Ho⟩, ⟨⟨%s0, Hs0⟩, ⟨%s1, Hs1⟩, ⟨%s2, Hs2⟩, ⟨%s3, Hs3⟩, ⟨%s4, Hs4⟩, ⟨%s5, Hs5⟩, Hbufs⟩,
    ⟨Hsem0, Hsem1, HsemA, HsemB, Hsems⟩, HO⟩
  ihave Hmw := ((K (F := F)).mayWaits_none (thr := (V d (cV L) (jV L))) hO) $$ Hlv
  iapply (wp_wand_r Idealize.ShloMosaic.frame (wpE (defs₀ (F := F)) 𝒱₀ (V d (cV L) (jV L)) none) Set.univ)
  isplitl [Hmw Hid Ha Hb Ho Hs0 Hs1 Hs2 Hs3 Hs4 Hs5 Hsem0 Hsem1 HsemA HsemB HO]
  · iapply (hb d L q fO O W s0 s1 s2 s3 s4 s5)
    isplitl [Hmw]; · iexact Hmw
    isplitl [Hid]; · iexact Hid
    isplitl [Ha]; · iexact Ha
    isplitl [Hb]; · iexact Hb
    isplitl [Ho]; · iexact Ho
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hsem0]; · iexact Hsem0
    isplitl [Hsem1]; · iexact Hsem1
    isplitl [HsemA]; · iexact HsemA
    isplitl [HsemB]; · iexact HsemB
    iexact HO
  · iintro %_ ⟨Hid, Ha, Hb, Ho, Hs0, Hs1, Hs2, Hs3, Hs4, Hs5, Hsem0, Hsem1, HsemA, HsemB, HO⟩
    isplitl [Hid Ha Hb Ho]
    · isplitl [Hid]; · iexact Hid
      isplitl [Ha]; · iexact Ha
      isplitl [Hb]; · iexact Hb
      iexact Ho
    isplitl [Hs0 Hs1 Hs2 Hs3 Hs4 Hs5 Hbufs]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hbufs
    isplitl [Hsem0 Hsem1 HsemA HsemB Hsems]
    · isplitl [Hsem0]; · iexact Hsem0
      isplitl [Hsem1]; · iexact Hsem1
      isplitl [HsemA]; · iexact HsemA
      isplitl [HsemB]; · iexact HsemB
      iexact Hsems
    iexact HO

end Cert.Proof.KernelRun

end
-- ==== Proof.StepIfaceK.lean ====
/-
  One trip of the two loops that pick the sixteen coordinates out of the gathered blocks.  Trip k of the loop over
  the first 256 positions (offset 0) and of the loop over the last 256 (offset 256) handles the sixteen positions
  off + 16k … off + 16k + 15 of the subcore's 512: for position jj it reads, in row jj − off of each gathered block,
  the lane (id jj mod 8)·16 + c for every coordinate c, adds the two, and stores the sum at (c, jj) of the result
  scratch; every other entry of the scratch is kept.
-/
import proofs.«209984_g46995532152932_cont_8to1c4_465_20_alg».proof.Proof.BodyIfaceK

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The lane numbers 0 … 15. -/
abbrev lanes : IVec S16 32 := iota .scVector S16 32 [0] iota_S16_d0_w32_scVector

/-- What a trip at offset `off`, number `k`, makes of the result scratch `o`: the sixteen positions of the trip hold
    the sums picked out of the gathered blocks `a`, `b` at the lanes the identifiers `SID` name; the rest is kept. -/
def StepOK [FloatOps F] (off k : Nat) (SID : IVec S512 32) (a b : FVec F S256x128 .f32) (o o' : FVec F S16x512 .f32) : Prop :=
  ∀ (c : Fin 16) (jj : Fin 512),
    ((off + 16 * k ≤ jj.val ∧ jj.val < off + 16 * k + 16) →
      o' (ix2 c jj) = FloatOps.addf
        (a (ix2 (⟨(jj.val - off) % 256, Nat.mod_lt _ (by decide)⟩ : Fin 256)
          (⟨((SID (ix1 jj)).toNat % 8) * 16 + c.val, by have := c.isLt; omega⟩ : Fin 128)))
        (b (ix2 (⟨(jj.val - off) % 256, Nat.mod_lt _ (by decide)⟩ : Fin 256)
          (⟨((SID (ix1 jj)).toNat % 8) * 16 + c.val, by have := c.isLt; omega⟩ : Fin 128))))
    ∧ (¬ (off + 16 * k ≤ jj.val ∧ jj.val < off + 16 * k + 16) → o' (ix2 c jj) = o (ix2 c jj))

/-- A trip of the loop over the first 256 positions. -/
def T2Step [FloatOps F] : Prop :=
  ∀ (d : Dev nD) (L : grid0.Coords) (k : Fin k0_t2_loop.trips)
    (SID : Buf (Elt F) ((V d (cV L) (jV L)).loc cc0_scratch0)) (a : Buf (Elt F) ((V d (cV L) (jV L)).loc cc0_scratch3))
    (b : Buf (Elt F) ((V d (cV L) (jV L)).loc cc0_scratch4)) (o : Buf (Elt F) ((V d (cV L) (jV L)).loc cc0_scratch5)),
    (iprop(((sId).view.loc (V d (cV L) (jV L)) ↦{fullShare} SID) ∗ ((sA).view.loc (V d (cV L) (jV L)) ↦{fullShare} a)
        ∗ ((sB).view.loc (V d (cV L) (jV L)) ↦{fullShare} b) ∗ ((sO).view.loc (V d (cV L) (jV L)) ↦{fullShare} o)) : sProp 𝕄)
      ⊢ wp frame (wpE (defs₀ (F := F)) 𝒱₀ (V d (cV L) (jV L)) none) Set.univ
          (k0_t2_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1 lanes k ())
          fun _ => iprop(((sId).view.loc (V d (cV L) (jV L)) ↦{fullShare} SID) ∗ ((sA).view.loc (V d (cV L) (jV L)) ↦{fullShare} a)
            ∗ ((sB).view.loc (V d (cV L) (jV L)) ↦{fullShare} b)
            ∗ ∃ o' : Buf (Elt F) ((V d (cV L) (jV L)).loc cc0_scratch5),
                ((sO).view.loc (V d (cV L) (jV L)) ↦{fullShare} o') ∗ ⌜StepOK 0 k.val SID a b o o'⌝)

/-- A trip of the loop over the last 256 positions. -/
def T3Step [FloatOps F] : Prop :=
  ∀ (d : Dev nD) (L : grid0.Coords) (k : Fin k0_t3_loop.trips)
    (SID : Buf (Elt F) ((V d (cV L) (jV L)).loc cc0_scratch0)) (a : Buf (Elt F) ((V d (cV L) (jV L)).loc cc0_scratch3))
    (b : Buf (Elt F) ((V d (cV L) (jV L)).loc cc0_scratch4)) (o : Buf (Elt F) ((V d (cV L) (jV L)).loc cc0_scratch5)),
    (iprop(((sId).view.loc (V d (cV L) (jV L)) ↦{fullShare} SID) ∗ ((sA).view.loc (V d (cV L) (jV L)) ↦{fullShare} a)
        ∗ ((sB).view.loc (V d (cV L) (jV L)) ↦{fullShare} b) ∗ ((sO).view.loc (V d (cV L) (jV L)) ↦{fullShare} o)) : sProp 𝕄)
      ⊢ wp frame (wpE (defs₀ (F := F)) 𝒱₀ (V d (cV L) (jV L)) none) Set.univ
          (k0_t3_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1 lanes k ())
          fun _ => iprop(((sId).view.loc (V d (cV L) (jV L)) ↦{fullShare} SID) ∗ ((sA).view.loc (V d (cV L) (jV L)) ↦{fullShare} a)
            ∗ ((sB).view.loc (V d (cV L) (jV L)) ↦{fullShare} b)
            ∗ ∃ o' : Buf (Elt F) ((V d (cV L) (jV L)).loc cc0_scratch5),
                ((sO).view.loc (V d (cV L) (jV L)) ↦{fullShare} o') ∗ ⌜StepOK 256 k.val SID a b o o'⌝)

end Cert.Proof.KernelRun

end
-- ==== Proof.Step1IfaceK.lean ====
/-
  One trip of the loop that fills the two row lists: trip k reads the sixteen identifiers 16k … 16k+15 of each half of
  the subcore's 512, shifts each right by three (eight table rows share a reshaped row) and stores them at the same
  positions of the half's row list; the other entries are kept.  And the facts the gathers need of what the lists,
  the identifier scratch and the gathered blocks hold.
-/
import proofs.«209984_g46995532152932_cont_8to1c4_465_20_alg».proof.Proof.StepIfaceK

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- What a trip makes of a row list `r` (the half starting at `off` of the identifiers `SID`). -/
def RowOK (off k : Nat) (SID : IVec S512 32) (r r' : IVec S256 32) : Prop :=
  ∀ j : Fin 256,
    ((16 * k ≤ j.val ∧ j.val < 16 * k + 16) →
      r' (ix1 j) = IntOp.shrsi .vector (SID (ix1 (⟨(off + j.val) % 512, Nat.mod_lt _ (by decide)⟩ : Fin 512))) 3#32)
    ∧ (¬ (16 * k ≤ j.val ∧ j.val < 16 * k + 16) → r' (ix1 j) = r (ix1 j))

def T1Step [FloatOps F] : Prop :=
  ∀ (d : Dev nD) (L : grid0.Coords) (k : Fin k0_t1_loop.trips)
    (SID : Buf (Elt F) ((V d (cV L) (jV L)).loc cc0_scratch0)) (r0 : Buf (Elt F) ((V d (cV L) (jV L)).loc cc0_scratch1))
    (r1 : Buf (Elt F) ((V d (cV L) (jV L)).loc cc0_scratch2)),
    (iprop(((sId).view.loc (V d (cV L) (jV L)) ↦{fullShare} SID) ∗ ((sR0).view.loc (V d (cV L) (jV L)) ↦{fullShare} r0)
        ∗ ((sR1).view.loc (V d (cV L) (jV L)) ↦{fullShare} r1)) : sProp 𝕄)
      ⊢ wp frame (wpE (defs₀ (F := F)) 𝒱₀ (V d (cV L) (jV L)) none) Set.univ
          (k0_t1_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1 k ())
          fun _ => iprop(((sId).view.loc (V d (cV L) (jV L)) ↦{fullShare} SID)
            ∗ (∃ r0' : Buf (Elt F) ((V d (cV L) (jV L)).loc cc0_scratch1),
                ((sR0).view.loc (V d (cV L) (jV L)) ↦{fullShare} r0') ∗ ⌜RowOK 0 k.val SID r0 r0'⌝)
            ∗ (∃ r1' : Buf (Elt F) ((V d (cV L) (jV L)).loc cc0_scratch2),
                ((sR1).view.loc (V d (cV L) (jV L)) ↦{fullShare} r1') ∗ ⌜RowOK 256 k.val SID r1 r1'⌝))

/-- The first batch position of subcore `L`. -/
def base (L : grid0.Coords) : Nat := 1024 * (L 1).val + 512 * (L 0).val

end Cert.Proof.KernelRun

end
-- ==== Proof.Step1K.lean ====
/-
  One trip of the loop that fills the two row lists.

  Trip k reads sixteen identifiers of each half of the subcore's 512 (positions 16k … 16k+15 of the half), shifts each
  right by three and writes the sixteen words at positions 16k … 16k+15 of the half's row list.  A single write through
  a rectangle, read at an index: inside the rectangle it is the payload at the index's place in the rectangle, outside
  it is what was there.  The payload's entry x is the shift of the identifier at the load's offset plus x, and both
  offsets are 16k (plus 256 for the second half), so entry j of the new list is the shifted identifier off + j for j in
  the trip's sixteen positions and the old entry elsewhere.
-/
import proofs.«209984_g46995532152932_cont_8to1c4_465_20_alg».proof.Proof.Step1IfaceK
import proofs.«209984_g46995532152932_cont_8to1c4_465_20_alg».proof.Proof.PreDecode

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem t1_trips_eq : k0_t1_loop.trips = 16 := rfl

/-- A row list after one write of sixteen words at position `16k`, when the words are the shifted identifiers
    `off + 16k … off + 16k + 15`: what a trip makes of it. -/
theorem rowOK_of_piece {κ : Kind} {sp : Space} (v : View sig κ sp S256 .i32) (f : v.ty.Contents (Elt F))
    (off k : Nat) (hk : k < 16) (SID : IVec S512 32)
    (o : Fin 1 → Nat) (ho : o = ![16 * k]) (inb : ∀ a, o a + S16.size a ≤ S256.size a)
    (w : (Rect.unit (s := S256) o S16.size inb).shape.Idx → Elt F .i32)
    (hw : ∀ x : Fin 16, w (ix1 x)
      = IntOp.shrsi .vector (SID (ix1 (⟨(off + (16 * k + x.val)) % 512, Nat.mod_lt _ (by decide)⟩ : Fin 512))) 3#32) :
    RowOK off k SID (v.read (Elt F) f)
      (v.read (Elt F) (v.writes (Elt F) f [⟨Rect.unit (s := S256) o S16.size inb, w⟩])) := by
  subst ho
  intro j
  constructor
  · rintro ⟨h1, h2⟩
    have hj : ix1 j = (Rect.unit (s := S256) ![16 * k] S16.size inb).emb (ix1 (⟨j.val - 16 * k, by omega⟩ : Fin 16)) := by
      funext a; refine Fin.ext ?_
      match a with
      | ⟨0, _⟩ => show j.val = 16 * k + 1 * (j.val - 16 * k); omega
    have e : (⟨(off + (16 * k + (j.val - 16 * k))) % 512, Nat.mod_lt _ (by decide)⟩ : Fin 512)
        = ⟨(off + j.val) % 512, Nat.mod_lt _ (by decide)⟩ :=
      Fin.ext (by show (off + (16 * k + (j.val - 16 * k))) % 512 = (off + j.val) % 512; congr 1; omega)
    rw [hj, View.read_writes_cons_emb, hw, e]
  · intro hn
    refine View.read_writes_apply_of_forall_not_mem v f (ix1 j) _ (fun p hp hmem => ?_)
    rw [List.mem_singleton] at hp; subst hp
    have hmem' : ix1 j ∈ (Rect.unit (s := S256) ![16 * k] S16.size inb).set := hmem
    have h0 := (Rect.mem_set_unit.mp hmem') 0
    exact hn ⟨h0.1, h0.2⟩

/-- The first half's list after a trip, as the trip's run leaves it. -/
theorem row0_ok (k : Fin k0_t1_loop.trips) (SID : IVec S512 32) (r : IVec S256 32)
    (h3 : ∀ a, (k0_off3 k) a + S16.size a ≤ S256.size a) (h2 : ∀ a, (k0_off2 k 0#32) a + S16.size a ≤ S512.size a) :
    RowOK 0 k.val SID r ((sR0 : Memref sig .scVector .vmem S256 .i32).view.writes (Elt F) r
      [⟨Rect.unit (s := S256) (k0_off3 k) S16.size h3,
        k0_pay94 (F := F) (View.readAt (Elt F) (sId : Memref sig .scVector .vmem S512 .i32).view
          (Rect.unit (s := S512) (k0_off2 k 0#32) S16.size h2).toLoadRect SID)⟩]) := by
  have hk : k.val < 16 := k.isLt
  refine rowOK_of_piece (F := F) (sR0 : Memref sig .scVector .vmem S256 .i32).view r 0 k.val hk SID (k0_off3 k) (k0_off3_eq k) h3 _
    (fun x => ?_)
  have e' : (k0_off2 k 0#32) 0 = 256 * 0 + 16 * k.val := congrFun (k0_off2_eq k ⟨0, by decide⟩) 0
  have hidx : (Rect.unit (s := S512) (k0_off2 k 0#32) S16.size h2).toLoadRect.idx (ix1 x)
      = ix1 (⟨(0 + (16 * k.val + x.val)) % 512, Nat.mod_lt _ (by decide)⟩ : Fin 512) := by
    funext a; refine Fin.ext ?_
    match a with
    | ⟨0, _⟩ =>
      show (k0_off2 k 0#32) 0 + 1 * x.val = (0 + (16 * k.val + x.val)) % 512
      have := x.isLt
      omega
  show IntOp.shrsi .vector (SID ((Rect.unit (s := S512) (k0_off2 k 0#32) S16.size h2).toLoadRect.idx (ix1 x))) 3#32 = _
  rw [hidx]

/-- The second half's list after a trip. -/
theorem row1_ok (k : Fin k0_t1_loop.trips) (SID : IVec S512 32) (r : IVec S256 32)
    (h3 : ∀ a, (k0_off3 k) a + S16.size a ≤ S256.size a) (h2 : ∀ a, (k0_off2 k 256#32) a + S16.size a ≤ S512.size a) :
    RowOK 256 k.val SID r ((sR1 : Memref sig .scVector .vmem S256 .i32).view.writes (Elt F) r
      [⟨Rect.unit (s := S256) (k0_off3 k) S16.size h3,
        k0_pay95 (F := F) (View.readAt (Elt F) (sId : Memref sig .scVector .vmem S512 .i32).view
          (Rect.unit (s := S512) (k0_off2 k 256#32) S16.size h2).toLoadRect SID)⟩]) := by
  have hk : k.val < 16 := k.isLt
  refine rowOK_of_piece (F := F) (sR1 : Memref sig .scVector .vmem S256 .i32).view r 256 k.val hk SID (k0_off3 k) (k0_off3_eq k) h3 _
    (fun x => ?_)
  have e' : (k0_off2 k 256#32) 0 = 256 * 1 + 16 * k.val := congrFun (k0_off2_eq k ⟨1, by decide⟩) 0
  have hidx : (Rect.unit (s := S512) (k0_off2 k 256#32) S16.size h2).toLoadRect.idx (ix1 x)
      = ix1 (⟨(256 + (16 * k.val + x.val)) % 512, Nat.mod_lt _ (by decide)⟩ : Fin 512) := by
    funext a; refine Fin.ext ?_
    match a with
    | ⟨0, _⟩ =>
      show (k0_off2 k 256#32) 0 + 1 * x.val = (256 + (16 * k.val + x.val)) % 512
      have := x.isLt
      omega
  show IntOp.shrsi .vector (SID ((Rect.unit (s := S512) (k0_off2 k 256#32) S16.size h2).toLoadRect.idx (ix1 x))) 3#32 = _
  rw [hidx]

/-- One trip of the loop that fills the row lists. -/
theorem t1_step [FloatOps F] : T1Step (F := F) := by
  intro d L k SID r0 r1
  iintro ⟨Hs0, Hs1, Hs2⟩
  sl_exec
  sl_step
  isplitl [Hs0]; · iexact Hs0
  isplitl [Hs1]
  · iexists _; isplitl [Hs1]; · iexact Hs1
    ipureintro
    exact row0_ok k SID r0 _ _
  · iexists _; isplitl [Hs2]; · iexact Hs2
    ipureintro
    exact row1_ok k SID r1 _ _

end Cert.Proof.KernelRun

end
-- ==== Proof.StepLemK.lean ====
/-
  The arithmetic behind one trip of the loops that pick the sixteen coordinates out of the gathered blocks.

  A trip at offset `base` (0 or 256), number `k`, makes sixteen stores into the 16 × 512 result scratch, one per
  coordinate `c`: the store of coordinate `c` covers row `c`, columns `base + 16k … base + 16k + 15`, and holds at
  column `base + 16k + l` the sum of the two gathered blocks read at row `16k + l`, lane `(id mod 8)·16 + c`, where
  `id` is the identifier at position `base + 16k + l`.  Here: the side facts of the index vectors (rows below 256,
  lanes below 128), what one such store covers and holds, and that sixteen of them, one per row, give the trip's
  statement whatever order they come in and whatever the scratch held before.
-/
import proofs.«209984_g46995532152932_cont_8to1c4_465_20_alg».proof.Proof.StepIfaceK
import proofs.«209984_g46995532152932_cont_8to1c4_465_20_alg».proof.Proof.PreDecode
import Idealize.ShloMosaic.Lib.Writes

noncomputable section

namespace Cert.Proof.KernelRun

open Cert.Kernel Cert.Kernel.Gen

open Idealize.ShloMosaic Idealize.ShloMosaic.ValueIdx

variable {F : FTy → Type}

/-! ## Side facts of the index vectors -/

/-- The row vector of trip `k` of the first loop: lane `l` names row `16 k + l`. -/
theorem row2_toNat : ∀ (k : Fin k0_t2_loop.trips) (x : S16.Idx),
    ((k0_pay9 lanes 0#32 1#32 k) x).toNat = 16 * k.val + (x 0).val := by decide +kernel

/-- The same of the second loop. -/
theorem row3_toNat : ∀ (k : Fin k0_t3_loop.trips) (x : S16.Idx),
    ((k0_pay52 lanes 0#32 1#32 k) x).toNat = 16 * k.val + (x 0).val := by decide +kernel

theorem trips2 : k0_t2_loop.trips = 16 := by decide
theorem trips3 : k0_t3_loop.trips = 16 := by decide

theorem row2_lt (k : Fin k0_t2_loop.trips) (x : S16.Idx) : ((k0_pay9 lanes 0#32 1#32 k) x).toNat < 256 := by
  rw [row2_toNat]
  have h1 : k.val < 16 := lt_of_lt_of_eq k.isLt trips2
  have h2 : (x 0).val < 16 := (x 0).isLt
  omega

theorem row3_lt (k : Fin k0_t3_loop.trips) (x : S16.Idx) : ((k0_pay52 lanes 0#32 1#32 k) x).toNat < 256 := by
  rw [row3_toNat]
  have h1 : k.val < 16 := lt_of_lt_of_eq k.isLt trips3
  have h2 : (x 0).val < 16 := (x 0).isLt
  omega

/-- The lane vector of coordinate `c`: `(id &&& 7) * 16 + c` at every lane. -/
abbrev laneV (rd : IVec S16 32) (c : Nat) : IVec S16 32 :=
  addi (muli (andi rd (broadcast S16 7#32)) (broadcast S16 16#32)) (broadcast S16 (BitVec.ofNat 32 c))

/-- The two index vectors of an indexed load of a gathered block name a row below 256 and a lane below 128. -/
theorem chk_ok (v41 rd : IVec S16 32) (c : Nat) (hc : c < 16) (h1 : ∀ x, (v41 x).toNat < 256) :
    ∀ a x, ((![v41, addi (muli (andi rd (broadcast S16 7#32)) (broadcast S16 16#32)) (broadcast S16 (BitVec.ofNat 32 c))]
      : Fin 2 → IVec S16 32) a x).toNat < S256x128.size a := by
  intro a x
  fin_cases a
  · exact h1 x
  · exact Cert.PreDecode.lane_apply_lt rd x c hc

/-- A 16-lane vector recast as one row of sixteen: lane `l` is column `l`. -/
theorem recast_lane : ∀ x : S1x16.Idx, ((Shape.reshapeEquiv shapeCasts_S16_S1x16 x) 0).val = (x 1).val := by decide +kernel

/-- The element of a 256 × 128 block that lane `l` of two index vectors names, by its coordinates. -/
theorem idxAt_eq_ix2 (v w : IVec S16 32) (h : ∀ a x, ((![v, w] : Fin 2 → IVec S16 32) a x).toNat < S256x128.size a)
    (l : S16.Idx) (r : Fin 256) (q : Fin 128) (hr : (v l).toNat = r.val) (hq : (w l).toNat = q.val) :
    idxAt (s := S256x128) ![v, w] h l = ix2 r q := by
  funext i
  fin_cases i
  · exact Fin.ext hr
  · exact Fin.ext hq

/-! ## What a trip leaves at one entry, and one store of it -/

/-- The sum a trip at offset `off` leaves at coordinate `c`, position `jj`. -/
def cell [FloatOps F] (off : Nat) (SID : IVec S512 32) (a b : FVec F S256x128 .f32) (c : Fin 16) (jj : Fin 512) : F .f32 :=
  FloatOps.addf
    (a (ix2 (⟨(jj.val - off) % 256, Nat.mod_lt _ (by decide)⟩ : Fin 256)
      (⟨((SID (ix1 jj)).toNat % 8) * 16 + c.val, by have := c.isLt; omega⟩ : Fin 128)))
    (b (ix2 (⟨(jj.val - off) % 256, Nat.mod_lt _ (by decide)⟩ : Fin 256)
      (⟨((SID (ix1 jj)).toNat % 8) * 16 + c.val, by have := c.isLt; omega⟩ : Fin 128)))

/-- A store that covers exactly row `c`, the trip's sixteen columns, and holds the trip's sums there. -/
def PieceOK [FloatOps F] (base k : Nat) (SID : IVec S512 32) (a b : FVec F S256x128 .f32) (c : Nat)
    (p : View.Piece (Elt F) S16x512 .f32) : Prop :=
  (∀ y : S16x512.Idx, y ∈ p.1.set ↔ ((y 0).val = c ∧ base + 16 * k ≤ (y 1).val ∧ (y 1).val < base + 16 * k + 16))
  ∧ (∀ x : p.1.shape.Idx, p.2 x = cell base SID a b (p.1.emb x 0) (p.1.emb x 1))

/-- One lane of the store of coordinate `c`: the lane reads the two blocks at the row and lane its index vectors
    name, and these are the coordinates the trip's sum at `(cc, jj)` is read at. -/
theorem lane_val [FloatOps F] (base k : Nat) (hk : k < 16) (c : Nat) (hc : c < 16)
    (SID : IVec S512 32) (A B : FVec F S256x128 .f32)
    (v41 : IVec S16 32) (h41 : ∀ x, (v41 x).toNat = 16 * k + (x 0).val) (rd : IVec S16 32)
    (hiA : ∀ i x, ((![v41, laneV rd c] : Fin 2 → IVec S16 32) i x).toNat < S256x128.size i)
    (hiB : ∀ i x, ((![v41, laneV rd c] : Fin 2 → IVec S16 32) i x).toNat < S256x128.size i)
    (l : S16.Idx) (cc : Fin 16) (jj : Fin 512) (hcc : cc.val = c) (hjj : jj.val = base + (16 * k + (l 0).val))
    (hrd : rd l = SID (ix1 jj)) :
    FloatOps.addf (A (idxAt (s := S256x128) ![v41, laneV rd c] hiA l)) (B (idxAt (s := S256x128) ![v41, laneV rd c] hiB l))
      = cell base SID A B cc jj := by
  have hq : ∀ hh, idxAt (s := S256x128) ![v41, laneV rd c] hh l
      = ix2 (⟨(jj.val - base) % 256, Nat.mod_lt _ (by decide)⟩ : Fin 256)
          (⟨((SID (ix1 jj)).toNat % 8) * 16 + cc.val, by have := cc.isLt; omega⟩ : Fin 128) := by
    intro hh
    apply idxAt_eq_ix2
    · show (v41 l).toNat = (jj.val - base) % 256
      have h2 : (l 0).val < 16 := (l 0).isLt
      rw [h41, hjj]; omega
    · show (laneV rd c l).toNat = ((SID (ix1 jj)).toNat % 8) * 16 + cc.val
      rw [Cert.PreDecode.lane_apply_toNat _ _ c hc, hrd, hcc]
  rw [hq hiA]
  rfl

/-- The store of coordinate `c` in a trip: the sums of the two blocks' indexed loads, recast as a row, through the
    one-row rectangle at `(c, base + 16 k)`. -/
theorem piece_ok [FloatOps F] (base k : Nat) (hk : k < 16) (hb : base + 256 ≤ 512) (c : Nat) (hc : c < 16)
    (SID : IVec S512 32) (a b : FVec F S256x128 .f32)
    (off1 : Fin 1 → Nat) (inb1 : ∀ i, off1 i + S16.size i ≤ S512.size i) (h1 : off1 0 = base + 16 * k)
    (off : Fin 2 → Nat) (inb : ∀ i, off i + S1x16.size i ≤ S16x512.size i) (ho0 : off 0 = c) (ho1 : off 1 = base + 16 * k)
    (v41 : IVec S16 32) (h41 : ∀ x, (v41 x).toNat = 16 * k + (x 0).val)
    (A B : FVec F S256x128 .f32) (hA : A = a) (hB : B = b)
    (vA vB : IVec S16 32)
    (hvA : vA = laneV ((sId).view.readAt (Elt F) (Rect.unit (s := S512) off1 S16.size inb1).toLoadRect SID) c)
    (hvB : vB = laneV ((sId).view.readAt (Elt F) (Rect.unit (s := S512) off1 S16.size inb1).toLoadRect SID) c)
    (hiA : ∀ i x, ((![v41, vA] : Fin 2 → IVec S16 32) i x).toNat < S256x128.size i)
    (hiB : ∀ i x, ((![v41, vB] : Fin 2 → IVec S16 32) i x).toNat < S256x128.size i) :
    PieceOK base k SID a b c
      ⟨Rect.unit (s := S16x512) off S1x16.size inb,
        shapeCast S1x16 (addf (loadIdx (F := F) (s := S256x128) (t := S16) (e := .f32) A ![v41, vA] hiA)
          (loadIdx (F := F) (s := S256x128) (t := S16) (e := .f32) B ![v41, vB] hiB)) shapeCasts_S16_S1x16⟩ := by
  subst hA hB hvA hvB
  refine ⟨fun y => ?_, fun x => ?_⟩
  · show y ∈ (Rect.unit (s := S16x512) off S1x16.size inb).set ↔ _
    rw [Rect.mem_set_unit, Fin.forall_fin_two]
    have s0 : S1x16.size 0 = 1 := rfl
    have s1 : S1x16.size 1 = 16 := rfl
    rw [s0, s1, ho0, ho1]
    omega
  · -- the lane of the 16-vector under column `x 1` of the row
    have hx0 : (x 0).val < 1 := (x 0).isLt
    have hx1 : (x 1).val < 16 := (x 1).isLt
    have hl := recast_lane x
    have e0 : ((Rect.unit (s := S16x512) off S1x16.size inb).emb x 0 : Nat) = c := by
      rw [Rect.emb_apply]; show off 0 + 1 * (x 0).val = c; omega
    have e1 : ((Rect.unit (s := S16x512) off S1x16.size inb).emb x 1 : Nat) = base + 16 * k + (x 1).val := by
      rw [Rect.emb_apply]; show off 1 + 1 * (x 1).val = _; omega
    -- the identifier the lane reads
    have erd : (sId).view.readAt (Elt F) (Rect.unit (s := S512) off1 S16.size inb1).toLoadRect SID (Shape.reshapeEquiv shapeCasts_S16_S1x16 x)
        = SID (ix1 ((Rect.unit (s := S16x512) off S1x16.size inb).emb x 1)) := by
      show SID _ = SID _
      congr 1
      funext i
      fin_cases i
      apply Fin.ext
      show off1 0 + 1 * ((Shape.reshapeEquiv shapeCasts_S16_S1x16 x) 0).val = ((Rect.unit (s := S16x512) off S1x16.size inb).emb x 1 : Nat)
      rw [e1]; omega
    exact lane_val base k hk c hc SID A B v41 h41 _ hiA hiB (Shape.reshapeEquiv shapeCasts_S16_S1x16 x)
      ((Rect.unit (s := S16x512) off S1x16.size inb).emb x 0) ((Rect.unit (s := S16x512) off S1x16.size inb).emb x 1)
      e0 (by rw [e1, hl]; omega) erd

/-- Where a trip of the first loop reads its sixteen identifiers. -/
theorem off4_at (k : Fin k0_t2_loop.trips) : k0_off4 k 0 = 0 + 16 * k.val := by
  rw [k0_off4_eq]; exact (Nat.zero_add _).symm

/-- Where a trip of the second loop reads its sixteen identifiers. -/
theorem off21_at (k : Fin k0_t3_loop.trips) : k0_off21 k 0 = 256 + 16 * k.val := by
  rw [k0_off21_eq]; exact Nat.add_comm _ _

/-! ## Sixteen stores, one per row -/

/-- Sixteen stores, the one of row `c` covering the trip's columns of that row and holding its sums there, leave the
    trip's statement: its sixteen positions hold the sums at every coordinate, the rest is kept. -/
theorem stepOK_of_pieces [FloatOps F] (base k : Nat) (SID : IVec S512 32) (a b : FVec F S256x128 .f32) (o : FVec F S16x512 .f32)
    (p0 p1 p2 p3 p4 p5 p6 p7 p8 p9 p10 p11 p12 p13 p14 p15 : View.Piece (Elt F) S16x512 .f32)
    (h0 : PieceOK base k SID a b 0 p0) (h1 : PieceOK base k SID a b 1 p1) (h2 : PieceOK base k SID a b 2 p2)
    (h3 : PieceOK base k SID a b 3 p3) (h4 : PieceOK base k SID a b 4 p4) (h5 : PieceOK base k SID a b 5 p5)
    (h6 : PieceOK base k SID a b 6 p6) (h7 : PieceOK base k SID a b 7 p7) (h8 : PieceOK base k SID a b 8 p8)
    (h9 : PieceOK base k SID a b 9 p9) (h10 : PieceOK base k SID a b 10 p10) (h11 : PieceOK base k SID a b 11 p11)
    (h12 : PieceOK base k SID a b 12 p12) (h13 : PieceOK base k SID a b 13 p13) (h14 : PieceOK base k SID a b 14 p14)
    (h15 : PieceOK base k SID a b 15 p15) :
    StepOK base k SID a b o
      ((sO).view.writes (Elt F) o [p15, p14, p13, p12, p11, p10, p9, p8, p7, p6, p5, p4, p3, p2, p1, p0]) := by
  -- every store of the list is the store of some row
  have hall : ∀ p ∈ [p15, p14, p13, p12, p11, p10, p9, p8, p7, p6, p5, p4, p3, p2, p1, p0],
      ∃ c', PieceOK base k SID a b c' p := by
    intro p hp
    simp only [List.mem_cons, List.not_mem_nil, or_false] at hp
    rcases hp with rfl | rfl | rfl | rfl | rfl | rfl | rfl | rfl | rfl | rfl | rfl | rfl | rfl | rfl | rfl | rfl
    exacts [⟨_, h15⟩, ⟨_, h14⟩, ⟨_, h13⟩, ⟨_, h12⟩, ⟨_, h11⟩, ⟨_, h10⟩, ⟨_, h9⟩, ⟨_, h8⟩, ⟨_, h7⟩, ⟨_, h6⟩, ⟨_, h5⟩,
      ⟨_, h4⟩, ⟨_, h3⟩, ⟨_, h2⟩, ⟨_, h1⟩, ⟨_, h0⟩]
  -- and every row has its store in the list
  have hex : ∀ c : Fin 16, ∃ p ∈ [p15, p14, p13, p12, p11, p10, p9, p8, p7, p6, p5, p4, p3, p2, p1, p0],
      PieceOK base k SID a b c.val p := by
    intro c
    fin_cases c
    · exact ⟨p0, by simp, h0⟩
    · exact ⟨p1, by simp, h1⟩
    · exact ⟨p2, by simp, h2⟩
    · exact ⟨p3, by simp, h3⟩
    · exact ⟨p4, by simp, h4⟩
    · exact ⟨p5, by simp, h5⟩
    · exact ⟨p6, by simp, h6⟩
    · exact ⟨p7, by simp, h7⟩
    · exact ⟨p8, by simp, h8⟩
    · exact ⟨p9, by simp, h9⟩
    · exact ⟨p10, by simp, h10⟩
    · exact ⟨p11, by simp, h11⟩
    · exact ⟨p12, by simp, h12⟩
    · exact ⟨p13, by simp, h13⟩
    · exact ⟨p14, by simp, h14⟩
    · exact ⟨p15, by simp, h15⟩
  intro c jj
  refine ⟨fun hr => ?_, fun hr => ?_⟩
  · obtain ⟨p, hp, hpc⟩ := hex c
    have key := View.read_writes_apply_of_pieces (sO).view o
      (fun y : S16x512.Idx => (cell base SID a b (y 0) (y 1) : Elt F .f32))
      [p15, p14, p13, p12, p11, p10, p9, p8, p7, p6, p5, p4, p3, p2, p1, p0]
      (fun p' hp' x => by obtain ⟨c', h'⟩ := hall p' hp'; exact h'.2 x)
      (ix2 c jj) ⟨p, hp, (hpc.1 (ix2 c jj)).2 ⟨rfl, hr.1, hr.2⟩⟩
    exact key
  · have key := View.read_writes_apply_of_forall_not_mem (sO).view o (ix2 c jj)
      [p15, p14, p13, p12, p11, p10, p9, p8, p7, p6, p5, p4, p3, p2, p1, p0]
      (fun p' hp' hmem => by
        obtain ⟨c', h'⟩ := hall p' hp'
        have := (h'.1 (ix2 c jj)).1 hmem
        exact hr ⟨this.2.1, this.2.2⟩)
    exact key

end Cert.Proof.KernelRun

end
-- ==== Proof.StepK.lean ====
/-
  One trip of each of the two loops that pick the sixteen coordinates out of the gathered blocks, run.

  A trip loads its sixteen identifiers, and for each coordinate c = 0 … 15 makes two indexed loads — of the two
  gathered blocks, at rows 16k … 16k + 15 and lanes (id mod 8)·16 + c — and stores their sum in row c of the result
  scratch, at the trip's sixteen columns.  The index vectors' side conditions hold whatever the identifiers are
  (a row below 256, a lane below 128); the sixteen stores are read back through the arithmetic of the lemmas module.
-/
import proofs.«209984_g46995532152932_cont_8to1c4_465_20_alg».proof.Proof.StepLemK

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A gathered block held as a whole, spelt as an indexed load reads it -/

section Tile
variable (d : Dev nD) (L : grid0.Coords)

theorem pts_sA_acc (f : Buf (Elt F) ((V d (cV L) (jV L)).loc cc0_scratch3)) :
    (((sA : Memref sig .scVector .vmem S256x128 .f32).access (.whole S256x128)).loc (V d (cV L) (jV L)) ↦{fullShare} f : sProp 𝕄)
      = ((sA).view.loc (V d (cV L) (jV L)) ↦{fullShare} f) := rfl
theorem pts_sB_acc (f : Buf (Elt F) ((V d (cV L) (jV L)).loc cc0_scratch4)) :
    (((sB : Memref sig .scVector .vmem S256x128 .f32).access (.whole S256x128)).loc (V d (cV L) (jV L)) ↦{fullShare} f : sProp 𝕄)
      = ((sB).view.loc (V d (cV L) (jV L)) ↦{fullShare} f) := rfl
end Tile

/-! ## The steps of one coordinate: the two indexed loads, then on to the next coordinate's first -/

set_option hygiene false in
local macro "load_A" : tactic => `(tactic| (
  ihave Hs3' := (Entails.of_eq (pts_sA_acc (F := F) d L _).symm) $$ Hs3
  iapply (SparseCore.wp_vectorLoadIdx 𝒱₀ (V d (cV L) (jV L)) none Set.univ (base := (sA : Memref sig .scVector .vmem S256x128 .f32)) (S := Finset.univ) (q := fullShare) (Finset.subset_univ _)) $$ Hs3'
  iintro Hs3'
  ihave Hs3 := (Entails.of_eq (pts_sA_acc (F := F) d L _)) $$ Hs3'))
set_option hygiene false in
local macro "load_B" : tactic => `(tactic| (
  ihave Hs4' := (Entails.of_eq (pts_sB_acc (F := F) d L _).symm) $$ Hs4
  iapply (SparseCore.wp_vectorLoadIdx 𝒱₀ (V d (cV L) (jV L)) none Set.univ (base := (sB : Memref sig .scVector .vmem S256x128 .f32)) (S := Finset.univ) (q := fullShare) (Finset.subset_univ _)) $$ Hs4'
  iintro Hs4'
  ihave Hs4 := (Entails.of_eq (pts_sB_acc (F := F) d L _)) $$ Hs4'))
set_option hygiene false in
local macro "col2" : tactic => `(tactic| (
  load_A
  sl_exec (disch := exact chk_ok _ _ _ (by decide) (row2_lt k))
  load_B
  sl_exec (disch := exact chk_ok _ _ _ (by decide) (row2_lt k))))
set_option hygiene false in
local macro "col3" : tactic => `(tactic| (
  load_A
  sl_exec (disch := exact chk_ok _ _ _ (by decide) (row3_lt k))
  load_B
  sl_exec (disch := exact chk_ok _ _ _ (by decide) (row3_lt k))))
set_option hygiene false in
local macro "give_back" : tactic => `(tactic| (
  sl_step
  isplitl [Hs0]
  · iexact Hs0
  isplitl [Hs3]
  · iexact Hs3
  isplitl [Hs4]
  · iexact Hs4
  iexists _
  isplitl [Hs5]
  · iexact Hs5
  ipureintro))

/-- A trip of the loop over the first 256 positions. -/
theorem t2_step [FloatOps F] : T2Step (F := F) := by
  intro d L k SID a b o
  have hk : k.val < 16 := lt_of_lt_of_eq k.isLt trips2
  iintro ⟨Hs0, Hs3, Hs4, Hs5⟩
  sl_exec (disch := exact chk_ok _ _ _ (by decide) (row2_lt k))
  col2; col2; col2; col2; col2; col2; col2; col2
  col2; col2; col2; col2; col2; col2; col2; col2
  give_back
  refine stepOK_of_pieces 0 k.val SID a b o _ _ _ _ _ _ _ _ _ _ _ _ _ _ _ _
    ?_ ?_ ?_ ?_ ?_ ?_ ?_ ?_ ?_ ?_ ?_ ?_ ?_ ?_ ?_ ?_
  · exact piece_ok 0 k.val hk (by decide) 0 (by decide) SID a b (k0_off4 k) _ (off4_at k) (k0_off5 k) _
      (by rw [k0_off5_eq]; rfl) (by rw [k0_off5_eq]; exact (Nat.zero_add _).symm) _ (row2_toNat k) _ _
      (Memref.read_access_whole _ _ _) (Memref.read_access_whole _ _ _) _ _ rfl rfl _ _
  · exact piece_ok 0 k.val hk (by decide) 1 (by decide) SID a b (k0_off4 k) _ (off4_at k) (k0_off6 k) _
      (by rw [k0_off6_eq]; rfl) (by rw [k0_off6_eq]; exact (Nat.zero_add _).symm) _ (row2_toNat k) _ _
      (Memref.read_access_whole _ _ _) (Memref.read_access_whole _ _ _) _ _ rfl rfl _ _
  · exact piece_ok 0 k.val hk (by decide) 2 (by decide) SID a b (k0_off4 k) _ (off4_at k) (k0_off7 k) _
      (by rw [k0_off7_eq]; rfl) (by rw [k0_off7_eq]; exact (Nat.zero_add _).symm) _ (row2_toNat k) _ _
      (Memref.read_access_whole _ _ _) (Memref.read_access_whole _ _ _) _ _ rfl rfl _ _
  · exact piece_ok 0 k.val hk (by decide) 3 (by decide) SID a b (k0_off4 k) _ (off4_at k) (k0_off8 k) _
      (by rw [k0_off8_eq]; rfl) (by rw [k0_off8_eq]; exact (Nat.zero_add _).symm) _ (row2_toNat k) _ _
      (Memref.read_access_whole _ _ _) (Memref.read_access_whole _ _ _) _ _ rfl rfl _ _
  · exact piece_ok 0 k.val hk (by decide) 4 (by decide) SID a b (k0_off4 k) _ (off4_at k) (k0_off9 k) _
      (by rw [k0_off9_eq]; rfl) (by rw [k0_off9_eq]; exact (Nat.zero_add _).symm) _ (row2_toNat k) _ _
      (Memref.read_access_whole _ _ _) (Memref.read_access_whole _ _ _) _ _ rfl rfl _ _
  · exact piece_ok 0 k.val hk (by decide) 5 (by decide) SID a b (k0_off4 k) _ (off4_at k) (k0_off10 k) _
      (by rw [k0_off10_eq]; rfl) (by rw [k0_off10_eq]; exact (Nat.zero_add _).symm) _ (row2_toNat k) _ _
      (Memref.read_access_whole _ _ _) (Memref.read_access_whole _ _ _) _ _ rfl rfl _ _
  · exact piece_ok 0 k.val hk (by decide) 6 (by decide) SID a b (k0_off4 k) _ (off4_at k) (k0_off11 k) _
      (by rw [k0_off11_eq]; rfl) (by rw [k0_off11_eq]; exact (Nat.zero_add _).symm) _ (row2_toNat k) _ _
      (Memref.read_access_whole _ _ _) (Memref.read_access_whole _ _ _) _ _ rfl rfl _ _
  · exact piece_ok 0 k.val hk (by decide) 7 (by decide) SID a b (k0_off4 k) _ (off4_at k) (k0_off12 k) _
      (by rw [k0_off12_eq]; rfl) (by rw [k0_off12_eq]; exact (Nat.zero_add _).symm) _ (row2_toNat k) _ _
      (Memref.read_access_whole _ _ _) (Memref.read_access_whole _ _ _) _ _ rfl rfl _ _
  · exact piece_ok 0 k.val hk (by decide) 8 (by decide) SID a b (k0_off4 k) _ (off4_at k) (k0_off13 k) _
      (by rw [k0_off13_eq]; rfl) (by rw [k0_off13_eq]; exact (Nat.zero_add _).symm) _ (row2_toNat k) _ _
      (Memref.read_access_whole _ _ _) (Memref.read_access_whole _ _ _) _ _ rfl rfl _ _
  · exact piece_ok 0 k.val hk (by decide) 9 (by decide) SID a b (k0_off4 k) _ (off4_at k) (k0_off14 k) _
      (by rw [k0_off14_eq]; rfl) (by rw [k0_off14_eq]; exact (Nat.zero_add _).symm) _ (row2_toNat k) _ _
      (Memref.read_access_whole _ _ _) (Memref.read_access_whole _ _ _) _ _ rfl rfl _ _
  · exact piece_ok 0 k.val hk (by decide) 10 (by decide) SID a b (k0_off4 k) _ (off4_at k) (k0_off15 k) _
      (by rw [k0_off15_eq]; rfl) (by rw [k0_off15_eq]; exact (Nat.zero_add _).symm) _ (row2_toNat k) _ _
      (Memref.read_access_whole _ _ _) (Memref.read_access_whole _ _ _) _ _ rfl rfl _ _
  · exact piece_ok 0 k.val hk (by decide) 11 (by decide) SID a b (k0_off4 k) _ (off4_at k) (k0_off16 k) _
      (by rw [k0_off16_eq]; rfl) (by rw [k0_off16_eq]; exact (Nat.zero_add _).symm) _ (row2_toNat k) _ _
      (Memref.read_access_whole _ _ _) (Memref.read_access_whole _ _ _) _ _ rfl rfl _ _
  · exact piece_ok 0 k.val hk (by decide) 12 (by decide) SID a b (k0_off4 k) _ (off4_at k) (k0_off17 k) _
      (by rw [k0_off17_eq]; rfl) (by rw [k0_off17_eq]; exact (Nat.zero_add _).symm) _ (row2_toNat k) _ _
      (Memref.read_access_whole _ _ _) (Memref.read_access_whole _ _ _) _ _ rfl rfl _ _
  · exact piece_ok 0 k.val hk (by decide) 13 (by decide) SID a b (k0_off4 k) _ (off4_at k) (k0_off18 k) _
      (by rw [k0_off18_eq]; rfl) (by rw [k0_off18_eq]; exact (Nat.zero_add _).symm) _ (row2_toNat k) _ _
      (Memref.read_access_whole _ _ _) (Memref.read_access_whole _ _ _) _ _ rfl rfl _ _
  · exact piece_ok 0 k.val hk (by decide) 14 (by decide) SID a b (k0_off4 k) _ (off4_at k) (k0_off19 k) _
      (by rw [k0_off19_eq]; rfl) (by rw [k0_off19_eq]; exact (Nat.zero_add _).symm) _ (row2_toNat k) _ _
      (Memref.read_access_whole _ _ _) (Memref.read_access_whole _ _ _) _ _ rfl rfl _ _
  · exact piece_ok 0 k.val hk (by decide) 15 (by decide) SID a b (k0_off4 k) _ (off4_at k) (k0_off20 k) _
      (by rw [k0_off20_eq]; rfl) (by rw [k0_off20_eq]; exact (Nat.zero_add _).symm) _ (row2_toNat k) _ _
      (Memref.read_access_whole _ _ _) (Memref.read_access_whole _ _ _) _ _ rfl rfl _ _

/-- A trip of the loop over the last 256 positions. -/
theorem t3_step [FloatOps F] : T3Step (F := F) := by
  intro d L k SID a b o
  have hk : k.val < 16 := lt_of_lt_of_eq k.isLt trips3
  iintro ⟨Hs0, Hs3, Hs4, Hs5⟩
  sl_exec (disch := exact chk_ok _ _ _ (by decide) (row3_lt k))
  col3; col3; col3; col3; col3; col3; col3; col3
  col3; col3; col3; col3; col3; col3; col3; col3
  give_back
  refine stepOK_of_pieces 256 k.val SID a b o _ _ _ _ _ _ _ _ _ _ _ _ _ _ _ _
    ?_ ?_ ?_ ?_ ?_ ?_ ?_ ?_ ?_ ?_ ?_ ?_ ?_ ?_ ?_ ?_
  · exact piece_ok 256 k.val hk (by decide) 0 (by decide) SID a b (k0_off21 k) _ (off21_at k) (k0_off22 k) _
      (by rw [k0_off22_eq]; rfl) (by rw [k0_off22_eq]; exact Nat.add_comm _ _) _ (row3_toNat k) _ _
      (Memref.read_access_whole _ _ _) (Memref.read_access_whole _ _ _) _ _ rfl rfl _ _
  · exact piece_ok 256 k.val hk (by decide) 1 (by decide) SID a b (k0_off21 k) _ (off21_at k) (k0_off23 k) _
      (by rw [k0_off23_eq]; rfl) (by rw [k0_off23_eq]; exact Nat.add_comm _ _) _ (row3_toNat k) _ _
      (Memref.read_access_whole _ _ _) (Memref.read_access_whole _ _ _) _ _ rfl rfl _ _
  · exact piece_ok 256 k.val hk (by decide) 2 (by decide) SID a b (k0_off21 k) _ (off21_at k) (k0_off24 k) _
      (by rw [k0_off24_eq]; rfl) (by rw [k0_off24_eq]; exact Nat.add_comm _ _) _ (row3_toNat k) _ _
      (Memref.read_access_whole _ _ _) (Memref.read_access_whole _ _ _) _ _ rfl rfl _ _
  · exact piece_ok 256 k.val hk (by decide) 3 (by decide) SID a b (k0_off21 k) _ (off21_at k) (k0_off25 k) _
      (by rw [k0_off25_eq]; rfl) (by rw [k0_off25_eq]; exact Nat.add_comm _ _) _ (row3_toNat k) _ _
      (Memref.read_access_whole _ _ _) (Memref.read_access_whole _ _ _) _ _ rfl rfl _ _
  · exact piece_ok 256 k.val hk (by decide) 4 (by decide) SID a b (k0_off21 k) _ (off21_at k) (k0_off26 k) _
      (by rw [k0_off26_eq]; rfl) (by rw [k0_off26_eq]; exact Nat.add_comm _ _) _ (row3_toNat k) _ _
      (Memref.read_access_whole _ _ _) (Memref.read_access_whole _ _ _) _ _ rfl rfl _ _
  · exact piece_ok 256 k.val hk (by decide) 5 (by decide) SID a b (k0_off21 k) _ (off21_at k) (k0_off27 k) _
      (by rw [k0_off27_eq]; rfl) (by rw [k0_off27_eq]; exact Nat.add_comm _ _) _ (row3_toNat k) _ _
      (Memref.read_access_whole _ _ _) (Memref.read_access_whole _ _ _) _ _ rfl rfl _ _
  · exact piece_ok 256 k.val hk (by decide) 6 (by decide) SID a b (k0_off21 k) _ (off21_at k) (k0_off28 k) _
      (by rw [k0_off28_eq]; rfl) (by rw [k0_off28_eq]; exact Nat.add_comm _ _) _ (row3_toNat k) _ _
      (Memref.read_access_whole _ _ _) (Memref.read_access_whole _ _ _) _ _ rfl rfl _ _
  · exact piece_ok 256 k.val hk (by decide) 7 (by decide) SID a b (k0_off21 k) _ (off21_at k) (k0_off29 k) _
      (by rw [k0_off29_eq]; rfl) (by rw [k0_off29_eq]; exact Nat.add_comm _ _) _ (row3_toNat k) _ _
      (Memref.read_access_whole _ _ _) (Memref.read_access_whole _ _ _) _ _ rfl rfl _ _
  · exact piece_ok 256 k.val hk (by decide) 8 (by decide) SID a b (k0_off21 k) _ (off21_at k) (k0_off30 k) _
      (by rw [k0_off30_eq]; rfl) (by rw [k0_off30_eq]; exact Nat.add_comm _ _) _ (row3_toNat k) _ _
      (Memref.read_access_whole _ _ _) (Memref.read_access_whole _ _ _) _ _ rfl rfl _ _
  · exact piece_ok 256 k.val hk (by decide) 9 (by decide) SID a b (k0_off21 k) _ (off21_at k) (k0_off31 k) _
      (by rw [k0_off31_eq]; rfl) (by rw [k0_off31_eq]; exact Nat.add_comm _ _) _ (row3_toNat k) _ _
      (Memref.read_access_whole _ _ _) (Memref.read_access_whole _ _ _) _ _ rfl rfl _ _
  · exact piece_ok 256 k.val hk (by decide) 10 (by decide) SID a b (k0_off21 k) _ (off21_at k) (k0_off32 k) _
      (by rw [k0_off32_eq]; rfl) (by rw [k0_off32_eq]; exact Nat.add_comm _ _) _ (row3_toNat k) _ _
      (Memref.read_access_whole _ _ _) (Memref.read_access_whole _ _ _) _ _ rfl rfl _ _
  · exact piece_ok 256 k.val hk (by decide) 11 (by decide) SID a b (k0_off21 k) _ (off21_at k) (k0_off33 k) _
      (by rw [k0_off33_eq]; rfl) (by rw [k0_off33_eq]; exact Nat.add_comm _ _) _ (row3_toNat k) _ _
      (Memref.read_access_whole _ _ _) (Memref.read_access_whole _ _ _) _ _ rfl rfl _ _
  · exact piece_ok 256 k.val hk (by decide) 12 (by decide) SID a b (k0_off21 k) _ (off21_at k) (k0_off34 k) _
      (by rw [k0_off34_eq]; rfl) (by rw [k0_off34_eq]; exact Nat.add_comm _ _) _ (row3_toNat k) _ _
      (Memref.read_access_whole _ _ _) (Memref.read_access_whole _ _ _) _ _ rfl rfl _ _
  · exact piece_ok 256 k.val hk (by decide) 13 (by decide) SID a b (k0_off21 k) _ (off21_at k) (k0_off35 k) _
      (by rw [k0_off35_eq]; rfl) (by rw [k0_off35_eq]; exact Nat.add_comm _ _) _ (row3_toNat k) _ _
      (Memref.read_access_whole _ _ _) (Memref.read_access_whole _ _ _) _ _ rfl rfl _ _
  · exact piece_ok 256 k.val hk (by decide) 14 (by decide) SID a b (k0_off21 k) _ (off21_at k) (k0_off36 k) _
      (by rw [k0_off36_eq]; rfl) (by rw [k0_off36_eq]; exact Nat.add_comm _ _) _ (row3_toNat k) _ _
      (Memref.read_access_whole _ _ _) (Memref.read_access_whole _ _ _) _ _ rfl rfl _ _
  · exact piece_ok 256 k.val hk (by decide) 15 (by decide) SID a b (k0_off21 k) _ (off21_at k) (k0_off37 k) _
      (by rw [k0_off37_eq]; rfl) (by rw [k0_off37_eq]; exact Nat.add_comm _ _) _ (row3_toNat k) _ _
      (Memref.read_access_whole _ _ _) (Memref.read_access_whole _ _ _) _ _ rfl rfl _ _

end Cert.Proof.KernelRun

end
-- ==== Proof.BodyMathK.lean ====
/-
  The arithmetic of one subcore's task, apart from the run.

  Subcore L handles the 512 batch positions from base L.  Its identifier scratch holds identifiers base L … base L + 511;
  a row list holds those identifiers shifted right by three, which for an identifier in range is the row of the
  reshaped table that holds its row (eight table rows to a reshaped row); a gathered block therefore holds, in row jj,
  the reshaped-table row of identifier off + jj; a trip of the picking loop turns that row into the sixteen
  coordinates at the lanes (id mod 8)·16 + c, which are exactly the looked-up sums; and the block written out whole
  is the result array on the subcore's columns.
-/
import proofs.«209984_g46995532152932_cont_8to1c4_465_20_alg».proof.Proof.Step1IfaceK
import proofs.«209984_g46995532152932_cont_8to1c4_465_20_alg».proof.Proof.PreDecode

noncomputable section

namespace Cert.Proof.KernelRun

open Cert.Kernel Cert.Kernel.Gen

open Idealize.ShloMosaic Idealize.ShloMosaic.ValueIdx
open Idealize.ShloMosaic.SparseCore (S V T)
open Idealize.SL Idealize.SL.RA Idealize.SL.BI

variable {F : FTy → Type}

section Facts
variable (L : grid0.Coords) (ids : IVec S16384 32) (TA TB : FVec F S125000x128 .f32)

/-- The identifier scratch holds the subcore's 512 identifiers. -/
def SIDok (SID : IVec S512 32) : Prop :=
  ∀ j : Fin 512, SID (ix1 j) = ids (ix1 (⟨(base L + j.val) % 16384, Nat.mod_lt _ (by decide)⟩ : Fin 16384))

/-- A row list holds, up to position 16k, the identifiers of its half shifted right by three. -/
def RowsUpTo (off k : Nat) (SID : IVec S512 32) (r : IVec S256 32) : Prop :=
  ∀ j : Fin 256, j.val < 16 * k →
    r (ix1 j) = IntOp.shrsi .vector (SID (ix1 (⟨(off + j.val) % 512, Nat.mod_lt _ (by decide)⟩ : Fin 512))) 3#32

/-- A gathered block holds, in row jj, the reshaped table's row that identifier off + jj of the subcore names. -/
def BlkOK (off : Nat) (T : FVec F S125000x128 .f32) (a : FVec F S256x128 .f32) : Prop :=
  ∀ (jj : Fin 256) (l : Fin 128),
    a (ix2 jj l) = T (ix2 (⟨(Cert.Spec.row ids (⟨(base L + off + jj.val) % 16384, Nat.mod_lt _ (by decide)⟩ : Fin 16384)).val / 8,
      by have := (Cert.Spec.row ids (⟨(base L + off + jj.val) % 16384, Nat.mod_lt _ (by decide)⟩ : Fin 16384)).isLt; omega⟩ : Fin 125000) l)

/-- The result scratch holds the looked-up sums at the positions below `hi`. -/
def OutDone [FloatOps F] (hi : Nat) (o : FVec F S16x512 .f32) : Prop :=
  ∀ (c : Fin 16) (jj : Fin 512), jj.val < hi →
    o (ix2 c jj) = outAt ids TA TB c (⟨(base L + jj.val) % 16384, Nat.mod_lt _ (by decide)⟩ : Fin 16384)

theorem trips_t1 : Scf.trips k0_t1_loop.lb k0_t1_loop.ub k0_t1_loop.st = 16 := by decide
theorem trips_t2 : Scf.trips k0_t2_loop.lb k0_t2_loop.ub k0_t2_loop.st = 16 := by decide
theorem trips_t3 : Scf.trips k0_t3_loop.lb k0_t3_loop.ub k0_t3_loop.st = 16 := by decide

theorem base_le : base L + 512 ≤ 16384 := by
  have h0 : (L 0).val < 2 := (L 0).isLt
  have h1 : (L 1).val < 16 := (L 1).isLt
  unfold base; omega

theorem rows_step {off k : Nat} {SID : IVec S512 32} {r r' : IVec S256 32}
    (h : RowsUpTo off k SID r) (h' : RowOK off k SID r r') : RowsUpTo off (k + 1) SID r' := by
  intro j hj
  by_cases hc : 16 * k ≤ j.val ∧ j.val < 16 * k + 16
  · exact (h' j).1 hc
  · rw [(h' j).2 hc]; exact h j (by omega)

theorem rows_zero {off : Nat} {SID : IVec S512 32} {r : IVec S256 32} : RowsUpTo off 0 SID r := by
  intro j hj; omega

/-- A table read at equal coordinates. -/
theorem bm_T_congr {n0 n1 : Nat} {α : Type} (T : (⟨2, ![n0, n1]⟩ : Shape).Idx → α) {r1 r2 : Fin n0} {l1 l2 : Fin n1}
    (hr : r1.val = r2.val) (hl : l1.val = l2.val) : T (ix2 r1 l1) = T (ix2 r2 l2) := by
  rw [Fin.ext hr, Fin.ext hl]

theorem sidok_init (s0 : IVec S512 32) :
    SIDok L ids ((sId).view.write (Elt F) s0 (ReadAs.same.apply (View.read (Elt F) (idSl L).view ids)) Finset.univ) := by
  intro j
  have hbl := base_le L
  have hj := j.isLt
  have hw : (sId).view.write (Elt F) s0 (ReadAs.same.apply (View.read (Elt F) (idSl L).view ids)) Finset.univ
      = ReadAs.same.apply (View.read (Elt F) (idSl L).view ids) := by
    show View.write (Elt F) (View.whole cc0_scratch0) s0 (ReadAs.same.apply (View.read (Elt F) (idSl L).view ids)) Finset.univ = _
    exact View.write_whole_univ cc0_scratch0 _ _
  rw [hw]
  show ids ((Rect.unit (s := S16384) (k0_off1 L) S512.size (k0_off1_inb L)).emb (ix1 j)) = _
  congr 1
  funext a; refine Fin.ext ?_
  match a with
  | ⟨0, _⟩ =>
    have e : (k0_off1 L) 0 = 1024 * (L 1).val + 512 * (L 0).val := congrFun (k0_off1_eq L) 0
    show (k0_off1 L) 0 + 1 * j.val = (base L + j.val) % 16384
    unfold base at hbl ⊢
    rw [Nat.mod_eq_of_lt (by omega)]; omega

theorem rows_lt (hpre : Cert.Spec.InRange ids) {off : Nat} (hoff : off + 256 ≤ 512) {SID : IVec S512 32} {r : IVec S256 32}
    (hS : SIDok L ids SID) (hr : RowsUpTo off 16 SID r) (j : Fin 256) :
    (r (ix1 j)).toNat = (Cert.Spec.row ids (⟨(base L + off + j.val) % 16384, Nat.mod_lt _ (by decide)⟩ : Fin 16384)).val / 8
      ∧ (r (ix1 j)).toNat < 125000 := by
  have hj := j.isLt
  have hb := base_le L
  -- the identifier the entry was made from
  have hidx : (⟨(base L + (⟨(off + j.val) % 512, Nat.mod_lt _ (by decide)⟩ : Fin 512).val) % 16384, Nat.mod_lt _ (by decide)⟩ : Fin 16384)
      = (⟨(base L + off + j.val) % 16384, Nat.mod_lt _ (by decide)⟩ : Fin 16384) := by
    refine Fin.ext ?_
    show (base L + (off + j.val) % 512) % 16384 = (base L + off + j.val) % 16384
    rw [Nat.mod_eq_of_lt (by omega : off + j.val < 512), Nat.add_assoc]
  have hx := Cert.PreDecode.toNat_le_of_inRange hpre (⟨(base L + off + j.val) % 16384, Nat.mod_lt _ (by decide)⟩ : Fin 16384)
  rw [hr j (by omega), hS, hidx]
  refine ⟨?_, Cert.PreDecode.shrsi_three_lt .vector _ hx⟩
  rw [Cert.PreDecode.shrsi_three_toNat .vector _ hx, Cert.Spec.row_val_of_inRange hpre]

theorem hin_sR0 (r : IVec S256 32) (h : ∀ j : Fin 256, (r (ix1 j)).toNat < 125000) :
    ∀ x, ((sR0).view.read (Elt F) r x).toNat < S125000x128.size gathers_S125000x128_S256x128.axis := by
  intro x
  rw [eq_ix1 x]
  exact h (x 0)
theorem hin_sR1 (r : IVec S256 32) (h : ∀ j : Fin 256, (r (ix1 j)).toNat < 125000) :
    ∀ x, ((sR1).view.read (Elt F) r x).toNat < S125000x128.size gathers_S125000x128_S256x128.axis := by
  intro x
  rw [eq_ix1 x]
  exact h (x 0)

/-- The gather's payload at row `jj`, lane `l` of the block: the source at the row entry `jj` of the list names, same lane. -/
theorem bm_payload_read (hg : S125000x128.Gathers 0 S256x128) (g : S125000x128.Idx → Elt F .f32)
    (idx : S256.Idx → Elt F .i32) (hn : S256.numel = S256x128.size hg.axis')
    (hin : ∀ x, (idx x).toNat < S125000x128.size hg.axis) (jj : Fin 256) (l : Fin 128) :
    SparseCore.gatherPayload hg g (SparseCore.rows idx hn hin) (ix2 jj l)
      = g (ix2 (⟨(idx (ix1 jj)).toNat, hin (ix1 jj)⟩ : Fin 125000) l) := by
  unfold SparseCore.gatherPayload
  congr 1
  funext b; refine Fin.ext ?_
  match b with
  | ⟨0, _⟩ =>
    have h := Shape.Gathers.idx_axis hg (SparseCore.rows idx hn hin) (ix2 jj l)
    show ((hg.idx (SparseCore.rows idx hn hin) (ix2 jj l)) hg.axis).val = (idx (ix1 jj)).toNat
    rw [h]
    show (idx (S256.rowMajor.symm ((((ix2 jj l : S256x128.Idx) hg.axis').cast hn.symm)))).toNat = _
    congr 2
    rw [Equiv.symm_apply_eq]
    refine Fin.ext ?_
    rw [Shape.rowMajor_val_one]
    rfl
  | ⟨1, _⟩ =>
    exact Shape.Gathers.idx_of_ne hg (SparseCore.rows idx hn hin) (ix2 jj l) ⟨1, by decide⟩ (by decide)

/-- Placing an index through the rectangle that is the whole table gives the index back. -/
theorem bm_whole_rect_emb (hs : ∀ a, (![0, 0] : Fin 2 → Nat) a + S125000x128.size a ≤ S125000x128.size a)
    (x : S125000x128.Idx) : (Rect.unit (s := S125000x128) ![0, 0] S125000x128.size hs).emb x = x := by
  funext a; refine Fin.ext ?_
  match a with
  | ⟨0, _⟩ => show 0 + 1 * (x 0).val = (x 0).val; omega
  | ⟨1, _⟩ => show 0 + 1 * (x 1).val = (x 1).val; omega

/-- A block whose row `jj` is the table's row that entry `jj` of a completed row list names holds, in row `jj`, the
    reshaped-table row of identifier `off + jj`. -/
theorem blk_of_payload (off : Nat) (hoff : off + 256 ≤ 512) (T : FVec F S125000x128 .f32) (hpre : Cert.Spec.InRange ids)
    {SID : IVec S512 32} {r : IVec S256 32} (hS : SIDok L ids SID) (hr : RowsUpTo off 16 SID r) (a : FVec F S256x128 .f32)
    (hlt : ∀ jj : Fin 256, (r (ix1 jj)).toNat < 125000)
    (ha : ∀ (jj : Fin 256) (l : Fin 128), a (ix2 jj l) = T (ix2 (⟨(r (ix1 jj)).toNat, hlt jj⟩ : Fin 125000) l)) :
    BlkOK L ids off T a := by
  intro jj l
  rw [ha jj l]
  exact bm_T_congr T (rows_lt L ids hpre hoff hS hr jj).1 rfl

/-- A scratch block written whole holds what was written (first block scratch). -/
theorem bm_written_A (f0 : (sA).view.ty.Contents (Elt F)) (w : S256x128.Idx → Elt F .f32) :
    (sA).view.writes (Elt F) f0 [⟨Rect.whole S256x128, w⟩] = w :=
  (View.read_whole cc0_scratch3 _).symm.trans (View.read_writes_whole (sA).view f0 w)
/-- The same for the second block scratch. -/
theorem bm_written_B (f0 : (sB).view.ty.Contents (Elt F)) (w : S256x128.Idx → Elt F .f32) :
    (sB).view.writes (Elt F) f0 [⟨Rect.whole S256x128, w⟩] = w :=
  (View.read_whole cc0_scratch4 _).symm.trans (View.read_writes_whole (sB).view f0 w)

section Blocks
variable (T : FVec F S125000x128 .f32) (hpre : Cert.Spec.InRange ids) {SID : IVec S512 32} {r : IVec S256 32} (hS : SIDok L ids SID)
  (hsl : ∀ a, (Rect.unit (s := S125000x128) ![0, 0] S125000x128.size inb_S125000x128_S125000x128_0_0).stride a = 1)
  (hn : S256.numel = S256x128.size gathers_S125000x128_S256x128.axis')
include hpre hS

/-- The first table gathered through the first row list, over any prior contents `f0` of the scratch. -/
theorem blk_A0 (hr : RowsUpTo 0 16 SID r) (f0 : (sA).view.ty.Contents (Elt F))
    (hin : ∀ x, ((sR0).view.read (Elt F) r x).toNat < S125000x128.size gathers_S125000x128_S256x128.axis) :
    BlkOK L ids 0 T ((sA).view.writes (Elt F) f0 [⟨Rect.whole S256x128,
      SparseCore.gatherPayload gathers_S125000x128_S256x128
        (View.read (Elt F) ((aV).slice (Rect.unit (s := S125000x128) ![0, 0] S125000x128.size inb_S125000x128_S125000x128_0_0) hsl).view T)
        (SparseCore.rows (View.read (Elt F) (sR0).view r) hn hin)⟩]) := by
  rw [bm_written_A]
  refine blk_of_payload L ids 0 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

/-- The second table gathered through the first row list. -/
theorem blk_B0 (hr : RowsUpTo 0 16 SID r) (f0 : (sB).view.ty.Contents (Elt F))
    (hin : ∀ x, ((sR0).view.read (Elt F) r x).toNat < S125000x128.size gathers_S125000x128_S256x128.axis) :
    BlkOK L ids 0 T ((sB).view.writes (Elt F) f0 [⟨Rect.whole S256x128,
      SparseCore.gatherPayload gathers_S125000x128_S256x128
        (View.read (Elt F) ((bV).slice (Rect.unit (s := S125000x128) ![0, 0] S125000x128.size inb_S125000x128_S125000x128_0_0) hsl).view T)
        (SparseCore.rows (View.read (Elt F) (sR0).view r) hn hin)⟩]) := by
  rw [bm_written_B]
  refine blk_of_payload L ids 0 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

/-- The first table gathered through the second row list. -/
theorem blk_A1 (hr : RowsUpTo 256 16 SID r) (f0 : (sA).view.ty.Contents (Elt F))
    (hin : ∀ x, ((sR1).view.read (Elt F) r x).toNat < S125000x128.size gathers_S125000x128_S256x128.axis) :
    BlkOK L ids 256 T ((sA).view.writes (Elt F) f0 [⟨Rect.whole S256x128,
      SparseCore.gatherPayload gathers_S125000x128_S256x128
        (View.read (Elt F) ((aV).slice (Rect.unit (s := S125000x128) ![0, 0] S125000x128.size inb_S125000x128_S125000x128_0_0) hsl).view T)
        (SparseCore.rows (View.read (Elt F) (sR1).view r) hn hin)⟩]) := by
  rw [bm_written_A]
  refine blk_of_payload L ids 256 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

/-- The second table gathered through the second row list. -/
theorem blk_B1 (hr : RowsUpTo 256 16 SID r) (f0 : (sB).view.ty.Contents (Elt F))
    (hin : ∀ x, ((sR1).view.read (Elt F) r x).toNat < S125000x128.size gathers_S125000x128_S256x128.axis) :
    BlkOK L ids 256 T ((sB).view.writes (Elt F) f0 [⟨Rect.whole S256x128,
      SparseCore.gatherPayload gathers_S125000x128_S256x128
        (View.read (Elt F) ((bV).slice (Rect.unit (s := S125000x128) ![0, 0] S125000x128.size inb_S125000x128_S125000x128_0_0) hsl).view T)
        (SparseCore.rows (View.read (Elt F) (sR1).view r) hn hin)⟩]) := by
  rw [bm_written_B]
  refine blk_of_payload L ids 256 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

end Blocks

theorem out_step [FloatOps F] {off k : Nat} (hoff : off = 0 ∨ off = 256) (hk : k < 16) {SID : IVec S512 32} {a b : FVec F S256x128 .f32}
    {o o' : FVec F S16x512 .f32} (hpre : Cert.Spec.InRange ids)
    (hS : SIDok L ids SID) (ha : BlkOK L ids off TA a) (hb : BlkOK L ids off TB b)
    (ho : OutDone L ids TA TB (off + 16 * k) o) (h : StepOK off k SID a b o o') :
    OutDone L ids TA TB (off + 16 * (k + 1)) o' := by
  intro c jj hjj
  have hbl := base_le L
  have hjj' := jj.isLt
  by_cases hc : off + 16 * k ≤ jj.val ∧ jj.val < off + 16 * k + 16
  · -- a position of this trip: the sum picked out of the two gathered blocks
    have hJ : (⟨(base L + off + (jj.val - off) % 256) % 16384, Nat.mod_lt _ (by decide)⟩ : Fin 16384)
        = (⟨(base L + jj.val) % 16384, Nat.mod_lt _ (by decide)⟩ : Fin 16384) := by
      refine Fin.ext ?_
      show (base L + off + (jj.val - off) % 256) % 16384 = (base L + jj.val) % 16384
      have : base L + off + (jj.val - off) % 256 = base L + jj.val := by omega
      rw [this]
    have hrow : (SID (ix1 jj)).toNat
        = (Cert.Spec.row ids (⟨(base L + jj.val) % 16384, Nat.mod_lt _ (by decide)⟩ : Fin 16384)).val := by
      rw [hS jj, Cert.Spec.row_val_of_inRange hpre]
    have h1 : (Cert.Spec.row ids (⟨(base L + off + (jj.val - off) % 256) % 16384, Nat.mod_lt _ (by decide)⟩ : Fin 16384)).val / 8
        = (Cert.Spec.row ids (⟨(base L + jj.val) % 16384, Nat.mod_lt _ (by decide)⟩ : Fin 16384)).val / 8 := by rw [hJ]
    have h2 : ((SID (ix1 jj)).toNat % 8) * 16 + c.val
        = ((Cert.Spec.row ids (⟨(base L + jj.val) % 16384, Nat.mod_lt _ (by decide)⟩ : Fin 16384)).val % 8) * 16 + c.val := by rw [hrow]
    rw [(h c jj).1 hc, ha, hb]
    unfold outAt
    exact congrArg₂ FloatOps.addf (bm_T_congr TA h1 h2) (bm_T_congr TB h1 h2)
  · -- an earlier position: kept
    rw [(h c jj).2 hc]
    exact ho c jj (by omega)

theorem out_final [FloatOps F] (fO : FVec F S16x16384 .f32) (o : FVec F S16x512 .f32) (ho : OutDone L ids TA TB 512 o) :
    OutOK ids TA TB (oSet L)
      ((oSl L).view.writes (Elt F) fO [⟨Rect.whole S16x512, ReadAs.same.apply (View.read (Elt F) (sO).view o)⟩]) := by
  intro c j hmem
  have hbl := base_le L
  -- the element is one the block's view names: its inner index
  obtain ⟨y, -, hy⟩ := Finset.mem_map.mp hmem
  have hread := congrFun (View.read_writes_whole (oSl L).view fO (ReadAs.same.apply (View.read (Elt F) (sO).view o))) y
  rw [View.read_apply, hy] at hread
  have hwo : ReadAs.same.apply (View.read (Elt F) (sO).view o) y = o y := rfl
  rw [hwo] at hread
  generalize (oSl L).view.writes (Elt F) fO [⟨Rect.whole S16x512, ReadAs.same.apply (View.read (Elt F) (sO).view o)⟩] (ix2 c j) = X at hread ⊢
  have hw : X = o y := hread
  -- its coordinates: the row, and the column less the block's first
  have e0 : (k0_off38 L) 0 = 0 := congrFun (k0_off38_eq L) 0
  have e1 : (k0_off38 L) 1 = 1024 * (L 1).val + 512 * (L 0).val := congrFun (k0_off38_eq L) 1
  have h0 : (k0_off38 L) 0 + 1 * (y 0).val = c.val := congrArg (fun i : S16x16384.Idx => (i 0).val) hy
  have h1 : (k0_off38 L) 1 + 1 * (y 1).val = j.val := congrArg (fun i : S16x16384.Idx => (i 1).val) hy
  have hy1 := idx2_lt1 y
  have ec : (y 0 : Fin 16) = c := Fin.ext (by omega)
  have ej : (⟨(base L + (y 1).val) % 16384, Nat.mod_lt _ (by decide)⟩ : Fin 16384) = j := by
    refine Fin.ext ?_
    show (base L + (y 1).val) % 16384 = j.val
    unfold base at hbl ⊢
    rw [Nat.mod_eq_of_lt (by omega)]; omega
  have hfin : outAt ids TA TB (y 0) (⟨(base L + (y 1).val) % 16384, Nat.mod_lt _ (by decide)⟩ : Fin 16384)
      = outAt ids TA TB c j := congrArg₂ (outAt ids TA TB) ec ej
  exact hw.trans ((congrArg o (eq_ix2 y)).trans ((ho (y 0) (y 1) hy1).trans hfin))

end Facts

end Cert.Proof.KernelRun

end
-- ==== Proof.BodyK.lean ====
/-
  One vector subcore's task, run from its resources to what it gives back.
  The task copies its 512 identifiers into scratch; fills two row lists with the identifiers shifted right by three
  (a 128-lane row of a reshaped table holds eight consecutive 16-wide rows, so identifier n lives in row n / 8 at lanes
  (n mod 8)·16 … +15); for each half of 256 it gathers the 256 named rows of both reshaped tables into two scratch
  blocks and, sixteen positions at a time, picks the sixteen coordinates out of both blocks, adds them and stores the
  sums into the result scratch; finally it copies the result scratch into its block of the transposed result.
  Each loop is taken through by an invariant: the row lists are right up to position 16k; the result scratch holds
  the looked-up sums below position 16k (then 256 + 16k).  The two gathers of a half share one row list, so each
  holds half of the list's points-to while in flight.
-/
import proofs.«209984_g46995532152932_cont_8to1c4_465_20_alg».proof.Proof.BodyMathK

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Tile
variable (d : Dev nD) (L : grid0.Coords)

omit [FloatOps F] in
theorem pts_id (q : PosShare TreeShare) (f : Buf (Elt F) (idLoc d)) :
    ((idV).view.loc (V d (cV L) (jV L)) ↦{q} f : sProp 𝕄) = idLoc d ↦{q} f := by
  simp only [Memref.view_whole, View.set_whole]
omit [FloatOps F] in
theorem pts_a (q : PosShare TreeShare) (f : Buf (Elt F) (aLoc d)) :
    ((aV).view.loc (V d (cV L) (jV L)) ↦{q} f : sProp 𝕄) = aLoc d ↦{q} f := by
  simp only [Memref.view_whole, View.set_whole]
omit [FloatOps F] in
theorem pts_b (q : PosShare TreeShare) (f : Buf (Elt F) (bLoc d)) :
    ((bV).view.loc (V d (cV L) (jV L)) ↦{q} f : sProp 𝕄) = bLoc d ↦{q} f := by
  simp only [Memref.view_whole, View.set_whole]
omit [FloatOps F] in
theorem pts_o (f : Buf (Elt F) (oLoc d)) :
    ((oSl L).view.loc (V d (cV L) (jV L)) ↦[(oSl L).view.set]{fullShare} f : sProp 𝕄) = oLoc d ↦[oSet L]{fullShare} f := rfl
omit [FloatOps F] in
theorem pts_sId (f : Buf (Elt F) ((V d (cV L) (jV L)).loc cc0_scratch0)) :
    ((sId).view.loc (V d (cV L) (jV L)) ↦{fullShare} f : sProp 𝕄) = (V d (cV L) (jV L)).loc cc0_scratch0 ↦{fullShare} f := rfl
omit [FloatOps F] in
theorem pts_sR0 (f : Buf (Elt F) ((V d (cV L) (jV L)).loc cc0_scratch1)) :
    ((sR0).view.loc (V d (cV L) (jV L)) ↦{fullShare} f : sProp 𝕄) = (V d (cV L) (jV L)).loc cc0_scratch1 ↦{fullShare} f := rfl
omit [FloatOps F] in
theorem pts_sR1 (f : Buf (Elt F) ((V d (cV L) (jV L)).loc cc0_scratch2)) :
    ((sR1).view.loc (V d (cV L) (jV L)) ↦{fullShare} f : sProp 𝕄) = (V d (cV L) (jV L)).loc cc0_scratch2 ↦{fullShare} f := rfl
omit [FloatOps F] in
theorem pts_sA (f : Buf (Elt F) ((V d (cV L) (jV L)).loc cc0_scratch3)) :
    ((sA).view.loc (V d (cV L) (jV L)) ↦{fullShare} f : sProp 𝕄) = (V d (cV L) (jV L)).loc cc0_scratch3 ↦{fullShare} f := rfl
omit [FloatOps F] in
theorem pts_sB (f : Buf (Elt F) ((V d (cV L) (jV L)).loc cc0_scratch4)) :
    ((sB).view.loc (V d (cV L) (jV L)) ↦{fullShare} f : sProp 𝕄) = (V d (cV L) (jV L)).loc cc0_scratch4 ↦{fullShare} f := rfl
omit [FloatOps F] in
theorem pts_sO (f : Buf (Elt F) ((V d (cV L) (jV L)).loc cc0_scratch5)) :
    ((sO).view.loc (V d (cV L) (jV L)) ↦{fullShare} f : sProp 𝕄) = (V d (cV L) (jV L)).loc cc0_scratch5 ↦{fullShare} f := rfl

variable (ids : IVec S16384 32) (TA TB : FVec F S125000x128 .f32)

def inv1 (k : Nat) (_ : PUnit) : sProp 𝕄 :=
  iprop(∃ SID, ((sId).view.loc (V d (cV L) (jV L)) ↦{fullShare} SID) ∗ ⌜SIDok L ids SID⌝
    ∗ (∃ r0, ((sR0).view.loc (V d (cV L) (jV L)) ↦{fullShare} r0) ∗ ⌜RowsUpTo 0 k SID r0⌝)
    ∗ (∃ r1, ((sR1).view.loc (V d (cV L) (jV L)) ↦{fullShare} r1) ∗ ⌜RowsUpTo 256 k SID r1⌝))

def inv2 [FloatOps F] (off : Nat) (k : Nat) (_ : PUnit) : sProp 𝕄 :=
  iprop(∃ SID a b, ((sId).view.loc (V d (cV L) (jV L)) ↦{fullShare} SID)
    ∗ ((sA).view.loc (V d (cV L) (jV L)) ↦{fullShare} a) ∗ ((sB).view.loc (V d (cV L) (jV L)) ↦{fullShare} b)
    ∗ ⌜SIDok L ids SID ∧ BlkOK L ids off TA a ∧ BlkOK L ids off TB b⌝
    ∗ ∃ o, ((sO).view.loc (V d (cV L) (jV L)) ↦{fullShare} o) ∗ ⌜OutDone L ids TA TB (off + 16 * k) o⌝)

end Tile

theorem body_core (ids : IVec S16384 32) (TA TB : FVec F S125000x128 .f32)
    (hpre : Cert.Spec.InRange ids) (h1 : T1Step (F := F)) (h2 : T2Step (F := F)) (h3 : T3Step (F := F)) :
    BodyCore ids TA TB := by
  intro d L q fO O W s0 s1 s2 s3 s4 s5
  iintro ⟨#Hmw, HI, HA, HB, HOut, Hs0, Hs1, Hs2, Hs3, Hs4, Hs5, Hsem0, Hsem1, HsemA, HsemB, HO⟩
  ihave HI' := (Entails.of_eq (pts_id (F := F) d L _ _).symm) $$ HI
  ihave HA' := (Entails.of_eq (pts_a (F := F) d L _ _).symm) $$ HA
  ihave HB' := (Entails.of_eq (pts_b (F := F) d L _ _).symm) $$ HB
  ihave HOut' := (Entails.of_eq (pts_o (F := F) d L _).symm) $$ HOut
  ihave Hs0' := (Entails.of_eq (pts_sId (F := F) d L _).symm) $$ Hs0
  ihave Hs1' := (Entails.of_eq (pts_sR0 (F := F) d L _).symm) $$ Hs1
  ihave Hs2' := (Entails.of_eq (pts_sR1 (F := F) d L _).symm) $$ Hs2
  ihave Hs3' := (Entails.of_eq (pts_sA (F := F) d L _).symm) $$ Hs3
  ihave Hs4' := (Entails.of_eq (pts_sB (F := F) d L _).symm) $$ Hs4
  ihave Hs5' := (Entails.of_eq (pts_sO (F := F) d L _).symm) $$ Hs5
  sl_unfold [cc0__tile_body]
  sl_exec
  -- the identifiers are in the scratch; the loop that fills the two row lists
  sl_for (inv1 (F := F) d L ids) $$ [Hs0' Hs1' Hs2']
  case region =>
    intro k _
    unfold inv1
    iintro ⟨%SID, Hs0, %hS, ⟨%r0, Hs1, %hr0⟩, ⟨%r1, Hs2, %hr1⟩⟩
    iapply (wp_wand_r Idealize.ShloMosaic.frame (wpE (defs₀ (F := F)) 𝒱₀ (V d (cV L) (jV L)) none) Set.univ)
    isplitl [Hs0 Hs1 Hs2]
    · iapply (h1 d L k SID r0 r1)
      isplitl [Hs0]; · iexact Hs0
      isplitl [Hs1]; · iexact Hs1
      iexact Hs2
    · iintro %_ ⟨Hs0, ⟨%r0', Hs1, %hr0'⟩, ⟨%r1', Hs2, %hr1'⟩⟩
      iexists SID
      isplitl [Hs0]; · iexact Hs0
      isplitr; · ipureintro; exact hS
      isplitl [Hs1]
      · iexists r0'; isplitl [Hs1]; · iexact Hs1
        ipureintro; exact rows_step hr0 hr0'
      · iexists r1'; isplitl [Hs2]; · iexact Hs2
        ipureintro; exact rows_step hr1 hr1'
  · unfold inv1
    iexists _
    isplitl [Hs0']; · iexact Hs0'
    isplitr; · ipureintro; exact sidok_init (F := F) L ids s0
    isplitl [Hs1']
    · iexists _; isplitl [Hs1']; · iexact Hs1'
      ipureintro; exact rows_zero
    · iexists _; isplitl [Hs2']; · iexact Hs2'
      ipureintro; exact rows_zero
  iintro %_ HI1
  unfold inv1
  icases HI1 with ⟨%SID, Hs0, %hS, ⟨%r0, Hs1, %hr0⟩, ⟨%r1, Hs2, %hr1⟩⟩
  rw [trips_t1] at hr0 hr1
  have hin0 := hin_sR0 (F := F) r0 (fun j => (rows_lt L ids hpre (by decide) hS hr0 j).2)
  have hin1 := hin_sR1 (F := F) r1 (fun j => (rows_lt L ids hpre (by decide) hS hr1 j).2)
  ihave Hs1s := (pointsTo_share (PosShare.mem_left_op_right fullShare)).1 $$ Hs1
  icases Hs1s with ⟨Hs1a, Hs1b⟩
  ihave Hs2s := (pointsTo_share (PosShare.mem_left_op_right fullShare)).1 $$ Hs2
  icases Hs2s with ⟨Hs2a, Hs2b⟩
  -- the first 256 rows of the two tables gathered; the loop that picks the coordinates out of them
  sl_exec
  sl_for (inv2 (F := F) d L ids TA TB 0) $$ [Hs0 Hs3' Hs4' Hs5']
  case region =>
    intro k _
    unfold inv2
    iintro ⟨%SID', %a, %b, Hs0, Hs3, Hs4, %hab, %o, Hs5, %ho⟩
    iapply (wp_wand_r Idealize.ShloMosaic.frame (wpE (defs₀ (F := F)) 𝒱₀ (V d (cV L) (jV L)) none) Set.univ)
    isplitl [Hs0 Hs3 Hs4 Hs5]
    · iapply (h2 d L k SID' a b o)
      isplitl [Hs0]; · iexact Hs0
      isplitl [Hs3]; · iexact Hs3
      isplitl [Hs4]; · iexact Hs4
      iexact Hs5
    · iintro %_ ⟨Hs0, Hs3, Hs4, %o', Hs5, %ho'⟩
      iexists SID', a, b
      isplitl [Hs0]; · iexact Hs0
      isplitl [Hs3]; · iexact Hs3
      isplitl [Hs4]; · iexact Hs4
      isplitr; · ipureintro; exact hab
      iexists o'; isplitl [Hs5]; · iexact Hs5
      ipureintro
      exact out_step L ids TA TB (.inl rfl) (lt_of_lt_of_eq k.isLt trips_t2) hpre hab.1 hab.2.1 hab.2.2 ho ho'
  · unfold inv2
    iexists _, _, _
    isplitl [Hs0]; · iexact Hs0
    isplitl [Hs3']; · iexact Hs3'
    isplitl [Hs4']; · iexact Hs4'
    isplitr
    · ipureintro
      exact ⟨hS, blk_A0 L ids TA hpre hS _ _ hr0 _ hin0, blk_B0 L ids TB hpre hS _ _ hr0 _ hin0⟩
    iexists _; isplitl [Hs5']; · iexact Hs5'
    ipureintro; intro c jj hj; omega
  iintro %_ HI2
  unfold inv2
  icases HI2 with ⟨%SID2, %a2, %b2, Hs0, Hs3, Hs4, %hab2, %o2, Hs5, %ho2⟩
  rw [trips_t2] at ho2
  -- the last 256 rows gathered; the second loop
  sl_exec
  sl_for (inv2 (F := F) d L ids TA TB 256) $$ [Hs0 Hs3 Hs4 Hs5]
  case region =>
    intro k _
    unfold inv2
    iintro ⟨%SID', %a, %b, Hs0, Hs3, Hs4, %hab, %o, Hs5, %ho⟩
    iapply (wp_wand_r Idealize.ShloMosaic.frame (wpE (defs₀ (F := F)) 𝒱₀ (V d (cV L) (jV L)) none) Set.univ)
    isplitl [Hs0 Hs3 Hs4 Hs5]
    · iapply (h3 d L k SID' a b o)
      isplitl [Hs0]; · iexact Hs0
      isplitl [Hs3]; · iexact Hs3
      isplitl [Hs4]; · iexact Hs4
      iexact Hs5
    · iintro %_ ⟨Hs0, Hs3, Hs4, %o', Hs5, %ho'⟩
      iexists SID', a, b
      isplitl [Hs0]; · iexact Hs0
      isplitl [Hs3]; · iexact Hs3
      isplitl [Hs4]; · iexact Hs4
      isplitr; · ipureintro; exact hab
      iexists o'; isplitl [Hs5]; · iexact Hs5
      ipureintro
      exact out_step L ids TA TB (.inr rfl) (lt_of_lt_of_eq k.isLt trips_t3) hpre hab.1 hab.2.1 hab.2.2 ho ho'
  · unfold inv2
    iexists _, _, _
    isplitl [Hs0]; · iexact Hs0
    isplitl [Hs3]; · iexact Hs3
    isplitl [Hs4]; · iexact Hs4
    isplitr
    · ipureintro
      exact ⟨hab2.1, blk_A1 L ids TA hpre hS _ _ hr1 _ hin1, blk_B1 L ids TB hpre hS _ _ hr1 _ hin1⟩
    iexists _; isplitl [Hs5]; · iexact Hs5
    ipureintro; exact ho2
  iintro %_ HI3
  unfold inv2
  icases HI3 with ⟨%SID3, %a3, %b3, Hs0, Hs3, Hs4, %hab3, %o3, Hs5, %ho3⟩
  rw [trips_t3] at ho3
  -- the block written out
  sl_exec
  sl_step
  isplitl [HI']; · iapply (Entails.of_eq (pts_id (F := F) d L _ _)); iexact HI'
  isplitl [HA']; · iapply (Entails.of_eq (pts_a (F := F) d L _ _)); iexact HA'
  isplitl [HB']; · iapply (Entails.of_eq (pts_b (F := F) d L _ _)); iexact HB'
  isplitl [HOut']
  · iexists _
    isplitl [HOut']; · iapply (Entails.of_eq (pts_o (F := F) d L _)); iexact HOut'
    ipureintro
    exact out_final L ids TA TB fO o3 ho3
  isplitl [Hs0]; · iexists _; iapply (Entails.of_eq (pts_sId (F := F) d L _)); iexact Hs0
  isplitl [Hs1a Hs1b]
  · iexists r0; iapply (Entails.of_eq (pts_sR0 (F := F) d L _))
    iapply (pointsTo_share (PosShare.mem_left_op_right fullShare)).2
    isplitl [Hs1a]; · iexact Hs1a
    iexact Hs1b
  isplitl [Hs2a Hs2b]
  · iexists r1; iapply (Entails.of_eq (pts_sR1 (F := F) d L _))
    iapply (pointsTo_share (PosShare.mem_left_op_right fullShare)).2
    isplitl [Hs2a]; · iexact Hs2a
    iexact Hs2b
  isplitl [Hs3]; · iexists _; iapply (Entails.of_eq (pts_sA (F := F) d L _)); iexact Hs3
  isplitl [Hs4]; · iexists _; iapply (Entails.of_eq (pts_sB (F := F) d L _)); iexact Hs4
  isplitl [Hs5]; · iexists _; iapply (Entails.of_eq (pts_sO (F := F) d L _)); iexact Hs5
  isplitl [Hsem0]; · iexact Hsem0
  isplitl [Hsem1]; · iexact Hsem1
  isplitl [HsemA]; · iexact HsemA
  isplitl [HsemB]; · iexact HsemB
  iexists _; isplitr
  rotate_left
  · iexact HO
  · ipureintro; intro p hp
    repeat (rcases Finset.mem_insert.mp hp with rfl | hp; · exact .inr rfl)
    exact .inl hp

end Cert.Proof.KernelRun

end
-- ==== Proof.AssemblyK.lean ====
/-
  The kernel's run, assembled.

  Every vector subcore's task, proved over its resources spelt out from the three loop trips, is the task the launch
  asks of it; the launch theorem then gives the whole program's run: every weakly fair execution of all the device's
  threads terminates, nothing faulting, with the result at the looked-up sum of the two tables and the arguments
  unchanged — for identifiers that name table rows.
-/
import proofs.«209984_g46995532152932_cont_8to1c4_465_20_alg».proof.Proof.LaunchMainK
import proofs.«209984_g46995532152932_cont_8to1c4_465_20_alg».proof.Proof.TileWrapK
import proofs.«209984_g46995532152932_cont_8to1c4_465_20_alg».proof.Proof.Step1K
import proofs.«209984_g46995532152932_cont_8to1c4_465_20_alg».proof.Proof.StepK
import proofs.«209984_g46995532152932_cont_8to1c4_465_20_alg».proof.Proof.BodyK

noncomputable section

namespace Cert.Proof.KernelRun

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The program's run: the result is the specification's sum, the arguments are unchanged. -/
theorem kernel_run [FloatOps F] [∀ e, Nonempty (Elt F e)] (m : (ℓ : Loc nD τ sig) → Buf (Elt F) ℓ) (ρ : Dev nD → PrngReg)
    (hpre : ∀ d : Dev nD, Cert.Spec.InRange (m (idLoc d))) :
    θ_run (Cert.Kernel.defs (F := F)) (Cert.Kernel.threads (F := F)) ⟨m, fun _ => 0, ρ⟩
      (fun r => ∀ c : Dev nD,
        r.2.mem ((c.tc : Thread nD τ).loc main_v3)
            = Cert.Spec.lookupSum (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  run_main' m ρ (fun d => tile_run _ _ _ (body_core _ _ _ (hpre d) t1_step t2_step t3_step))

end Cert.Proof.KernelRun

end
-- ==== Proof.CommonI.lean ====
/-
  Names shared by the proof of the lookup kernel's run: the program as the launch theorem reads it, the ghost
  state (the launch handshakes' rounds beside the transfer counters), the arrays as the TensorCore and as a
  vector subcore address them, and the slices a subcore copies: its 512 identifiers and its 16 × 512 block of the
  transposed result.
-/
import proofs.«209984_g46995532152932_cont_8to1c4_465_20_alg».proof.KernelIdeal
import proofs.«209984_g46995532152932_cont_8to1c4_465_20_alg».proof.Proof.Gen.KernelIdeal
import proofs.«209984_g46995532152932_cont_8to1c4_465_20_alg».proof.Proof.Gen.KernelIdeal.Skeleton
import proofs.«209984_g46995532152932_cont_8to1c4_465_20_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The identifiers, the two reshaped tables, the transposed result and the result, as locations of device `d`. -/
abbrev idLoc (d : Dev nD) : Loc nD τ sig := (SparseCore.T d).loc main_arg0
abbrev aLoc (d : Dev nD) : Loc nD τ sig := (SparseCore.T d).loc main_v0
abbrev bLoc (d : Dev nD) : Loc nD τ sig := (SparseCore.T d).loc main_v1
abbrev oLoc (d : Dev nD) : Loc nD τ sig := (SparseCore.T d).loc main_v2

/-- The same arrays as a vector subcore's memrefs. -/
abbrev idV : Memref sig .scVector .hbm S16384 .i32 := Memref.whole main_arg0_scv
abbrev aV : Memref sig .scVector .hbm S125000x128 .f32 := Memref.whole main_v0_scv
abbrev bV : Memref sig .scVector .hbm S125000x128 .f32 := Memref.whole main_v1_scv
abbrev oV : Memref sig .scVector .hbm S16x16384 .f32 := Memref.whole main_v2_scv
/-- A subcore's scratch: its identifiers, the two row lists, the two gathered blocks, its block of the result. -/
abbrev sId : Memref sig .scVector .vmem S512 .i32 := Memref.whole cc0_scratch0
abbrev sR0 : Memref sig .scVector .vmem S256 .i32 := Memref.whole cc0_scratch1
abbrev sR1 : Memref sig .scVector .vmem S256 .i32 := Memref.whole cc0_scratch2
abbrev sA : Memref sig .scVector .vmem S256x128 .f32 := Memref.whole cc0_scratch3
abbrev sB : Memref sig .scVector .vmem S256x128 .f32 := Memref.whole cc0_scratch4
abbrev sO : Memref sig .scVector .vmem S16x512 .f32 := Memref.whole cc0_scratch5

abbrev cV (L : grid0.Coords) : Fin τ.nSC := (L 0).castLE hcore0
abbrev jV (L : grid0.Coords) : Fin τ.nSub := (L 1).castLE hsub0

/-- The subcore's 512 identifiers and its block of the transposed result, as the kernel slices them. -/
abbrev idSl (L : grid0.Coords) : Memref sig .scVector .hbm S512 .i32 :=
  (idV).slice (Rect.unit (s := S16384) (k0_off1 L) S512.size (k0_off1_inb L)) (fun _ => rfl)
abbrev oSl (L : grid0.Coords) : Memref sig .scVector .hbm S16x512 .f32 :=
  (oV).slice (Rect.unit (s := S16x16384) (k0_off38 L) S16x512.size (k0_off38_inb L)) (fun _ => rfl)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KernelIdealRun

end
-- ==== Proof.IfaceI.lean ====
/-
  What one vector subcore's task takes and gives back, and the statement of its run.
  Subcore (c, s) works on the 512 batch positions starting at 1024·s + 512·c.  It reads the identifiers and the two
  reshaped tables (a read share of each) and owns its 16 × 512 block of the transposed result, which it leaves at
  `TA[id j / 8, (id j mod 8)·16 + c] + TB[same]` for every coordinate c and batch position j of the block — row id j of
  each original table, since a 128-wide row of a reshaped table holds eight consecutive 16-wide rows.
-/
import proofs.«209984_g46995532152932_cont_8to1c4_465_20_alg».proof.Proof.CommonI

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The entry of the transposed result at coordinate `c`, batch position `j`: the two reshaped tables read at the
    row and lane identifier `j` names, added. -/
def outAt [FloatOps F] (ids : IVec S16384 32) (TA TB : FVec F S125000x128 .f32) (c : Fin 16) (j : Fin 16384) : F .f32 :=
  FloatOps.addf
    (TA (ix2 (⟨(Cert.Spec.row ids j).val / 8, by have := (Cert.Spec.row ids j).isLt; omega⟩ : Fin 125000)
      (⟨((Cert.Spec.row ids j).val % 8) * 16 + c.val, by have := c.isLt; omega⟩ : Fin 128)))
    (TB (ix2 (⟨(Cert.Spec.row ids j).val / 8, by have := (Cert.Spec.row ids j).isLt; omega⟩ : Fin 125000)
      (⟨((Cert.Spec.row ids j).val % 8) * 16 + c.val, by have := c.isLt; omega⟩ : Fin 128)))

/-- The transposed result holds the looked-up sums on the entries of `S`. -/
def OutOK [FloatOps F] (ids : IVec S16384 32) (TA TB : FVec F S125000x128 .f32) (S : Finset S16x16384.Idx)
    (f : FVec F S16x16384 .f32) : Prop :=
  ∀ (c : Fin 16) (j : Fin 16384), ix2 c j ∈ S → f (ix2 c j) = outAt ids TA TB c j

/-- The entries of the transposed result subcore `L` writes: its block, as the kernel slices it. -/
abbrev oSet (L : grid0.Coords) : Finset S16x16384.Idx := (oSl L).view.set

variable (ids : IVec S16384 32) (TA TB : FVec F S125000x128 .f32)

/-- What the task on subcore `L` of device `d` takes: a read share `q` of the identifiers and of the two reshaped
    tables, and its block of the transposed result at the contents `fO`. -/
def goRes (d : Dev nD) (L : grid0.Coords) (q : PosShare TreeShare) (fO : Buf (Elt F) (oLoc d)) : sProp 𝕄 :=
  iprop((idLoc d ↦{q} ids) ∗ (aLoc d ↦{q} TA) ∗ (bLoc d ↦{q} TB) ∗ (oLoc d ↦[oSet L]{fullShare} fO))

/-- What it gives back: the shares, and its block holding the looked-up sums. -/
def tdRes [FloatOps F] (d : Dev nD) (L : grid0.Coords) (q : PosShare TreeShare) : sProp 𝕄 :=
  iprop((idLoc d ↦{q} ids) ∗ (aLoc d ↦{q} TA) ∗ (bLoc d ↦{q} TB)
    ∗ ∃ f : Buf (Elt F) (oLoc d), (oLoc d ↦[oSet L]{fullShare} f) ∗ ⌜OutOK ids TA TB (oSet L) f⌝)

/-- The task's run, at every subcore of the grid: from what it takes, its scoped storage and what its thread owes
    the launch, to what it gives back, waiting only on its own copies. -/
def TileRun [FloatOps F] : Prop :=
  ∀ (d : Dev nD) (L : grid0.Coords) (q : PosShare TreeShare) (fO : Buf (Elt F) (oLoc d))
    (O : CellTallies nD τ sig (HIx 1)) (W : Waits sig (HIx 1)), (∀ g, O g none = 0) →
    iprop(levAts (K (F := F)).L (K (F := F)).lev ∗ emp ∗ goRes ids TA TB d L q fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__tile_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1)
          fun _ => iprop(tdRes ids TA TB d L q ∗ scopedBufs (V d (cV L) (jV L)) ∗ scopedSems0 (V d (cV L) (jV L))
            ∗ ∃ W', ⌜∀ p ∈ W', p ∈ W ∨ p.2 = none⌝ ∗ owes (V d (cV L) (jV L)) O W')

end Cert.Proof.KernelIdealRun

end
-- ==== Proof.LaunchPayI.lean ====
/-
  What the launch handshakes carry for the lookup kernel, one subcore's task as the launch theorem asks for it, and
  how a SparseCore's operands are dealt to its sixteen subcores and gathered back.

  The identifiers and the two reshaped tables are only read: the TensorCore deals each SparseCore a read share of
  each, and the SparseCore's sequencer deals each of its subcores a share of that.  The transposed result is
  written: subcore (c, i) owns its own 16 × 512 block of it, and hands it back holding the looked-up sums.
-/
import proofs.«209984_g46995532152932_cont_8to1c4_465_20_alg».proof.Proof.IfaceI
import proofs.«209984_g46995532152932_cont_8to1c4_465_20_alg».proof.Proof.HostValue
import proofs.«209984_g46995532152932_cont_8to1c4_465_20_alg».proof.Proof.PreDecode

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ)

/-! ## The launch contents: the identifiers, and the two tables as the kernel reads them (reshaped) -/

theorem bound_zero : grid0.bound 0 = 2 := rfl
theorem bound_one : grid0.bound 1 = 16 := rfl

/-- Subcore `i` of SparseCore `c`, as a point of the kernel's grid. -/
abbrev LL (c : Fin 2) (i : Fin 16) : grid0.Coords := coordsV (Fin.cast bound_zero.symm c) (Fin.cast bound_one.symm i)

abbrev idsOf (d : Dev nD) : IVec S16384 32 := m (idLoc d)
abbrev TA (d : Dev nD) : FVec F S125000x128 .f32 :=
  shapeCast S125000x128 (m ((SparseCore.T d).loc main_arg1)) shapeCasts_S1000000x16_S125000x128
abbrev TB (d : Dev nD) : FVec F S125000x128 .f32 :=
  shapeCast S125000x128 (m ((SparseCore.T d).loc main_arg2)) shapeCasts_S1000000x16_S125000x128

/-- SparseCore `c`'s read share of an array the two SparseCores read whole. -/
abbrev qC (c : Fin 2) : PosShare TreeShare := shareTok fullShare 2 c

variable [FloatOps F]

/-! ## What the handshakes carry -/

/-- What SparseCore `c` is started with: its read shares, and its sixteen blocks of the transposed result. -/
def stRes (d : Dev nD) (c : Fin 2) : sProp 𝕄 :=
  iprop((idLoc d ↦{qC c} idsOf m d) ∗ (aLoc d ↦{qC c} TA m d) ∗ (bLoc d ↦{qC c} TB m d)
    ∗ bigSep Finset.univ fun i : Fin 16 => oLoc d ↦[oSet (LL c i)]{fullShare} m (oLoc d))

/-- What it hands back: the shares, and each block holding the looked-up sums. -/
def dnRes (d : Dev nD) (c : Fin 2) : sProp 𝕄 :=
  iprop((idLoc d ↦{qC c} idsOf m d) ∗ (aLoc d ↦{qC c} TA m d) ∗ (bLoc d ↦{qC c} TB m d)
    ∗ bigSep Finset.univ fun i : Fin 16 => iprop(∃ f : Buf (Elt F) (oLoc d),
        (oLoc d ↦[oSet (LL c i)]{fullShare} f) ∗ ⌜OutOK (idsOf m d) (TA m d) (TB m d) (oSet (LL c i)) f⌝))

/-- What subcore `i` of SparseCore `c` is handed, and hands back. -/
def goT (d : Dev nD) (c : Fin 2) (i : Fin 16) : sProp 𝕄 :=
  goRes (idsOf m d) (TA m d) (TB m d) d (LL c i) (shareTok (qC c) 16 i) (m (oLoc d))
def tdT (d : Dev nD) (c : Fin 2) (i : Fin 16) : sProp 𝕄 :=
  tdRes (idsOf m d) (TA m d) (TB m d) d (LL c i) (shareTok (qC c) 16 i)

instance stRes_storable (d : Dev nD) (c : Fin 2) : BI.Storable (upEmb : UEmb _ 𝕄) (stRes m d c) := by
  unfold stRes; infer_instance
instance dnRes_storable (d : Dev nD) (c : Fin 2) : BI.Storable (upEmb : UEmb _ 𝕄) (dnRes m d c) := by
  unfold dnRes; infer_instance
instance goT_storable (d : Dev nD) (c : Fin 2) (i : Fin 16) : BI.Storable (upEmb : UEmb _ 𝕄) (goT m d c i) := by
  unfold goT goRes; infer_instance
instance tdT_storable (d : Dev nD) (c : Fin 2) (i : Fin 16) : BI.Storable (upEmb : UEmb _ 𝕄) (tdT m d c i) := by
  unfold tdT tdRes; infer_instance

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => (inferInstance : BI.Storable (upEmb : UEmb _ 𝕄) (stRes m d (Fin.cast nCore_zero c)))
  dn q d c := match q with | 0 => (inferInstance : BI.Storable (upEmb : UEmb _ 𝕄) (dnRes m d (Fin.cast nCore_zero c)))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

theorem P_st (d : Dev nD) (c : Fin ((K (F := F)).nCore 0)) : (P m).st 0 d c = stRes m d (Fin.cast nCore_zero c) := rfl
theorem P_dn (d : Dev nD) (c : Fin ((K (F := F)).nCore 0)) : (P m).dn 0 d c = dnRes m d (Fin.cast nCore_zero c) := rfl
theorem P_go (d : Dev nD) (c : Fin ((K (F := F)).nCore 0)) (i : Fin ((K (F := F)).nSub 0)) :
    (P m).go 0 d c i = goT m d (Fin.cast nCore_zero c) (Fin.cast nSub_zero i) := rfl
theorem P_td (d : Dev nD) (c : Fin ((K (F := F)).nCore 0)) (i : Fin ((K (F := F)).nSub 0)) :
    (P m).td 0 d c i = tdT m d (Fin.cast nCore_zero c) (Fin.cast nSub_zero i) := rfl
theorem P_x (q : Fin 1) (thr : Thread nD τ) : (P m).x q thr = iprop(emp) := rfl

/-! ## One subcore's task, as the launch theorem asks for it -/

theorem defs₀_vector (c : Fin τ.nSC) (s : Fin τ.nSub) :
    defs₀ (F := F) (.scVector c s) 0 ()
      = SparseCore.onTile hcore0 hsub0 (fun c s => cc0__tile_body (coordsV c s)
          idV (Memref.isWhole_whole _) aV (Memref.isWhole_whole _) bV (Memref.isWhole_whole _) oV (Memref.isWhole_whole _)
          sId (Memref.isWhole_whole _) sR0 (Memref.isWhole_whole _) sR1 (Memref.isWhole_whole _) sA (Memref.isWhole_whole _)
          sB (Memref.isWhole_whole _) sO (Memref.isWhole_whole _) cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hb : ∀ d, TileRun (idsOf m d) (TA m d) (TB m d)) :
    (K (F := F)).TileObl (D (F := F)) 𝒱 (P m) v₀ 0 := by
  intro d c i O W hO _ _
  simp only [show (P m).ox = fun _ _ => 0 from rfl, add_zero]
  rw [P_go, P_td, P_x]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  exact (hb d d (coordsV ⟨_, hc.1⟩ ⟨_, hc.2⟩) (shareTok (qC (Fin.cast nCore_zero c)) 16 (Fin.cast nSub_zero i)) (m (oLoc d)) O W hO).trans
    (wp_mono frame _ _ fun _ => obl_post)

/-! ## A SparseCore's operands dealt to its subcores, and gathered back -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stRes m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnRes m d (Fin.cast nCore_zero c)))
  generalize Fin.cast nCore_zero c = c'
  rw [bigSep_tasks (F := F) (fun i => goT m d c' i), bigSep_tasks (F := F) (fun i => tdT m d c' i)]
  unfold goT tdT goRes tdRes stRes dnRes
  rw [bigSep_sep', bigSep_sep', bigSep_sep', bigSep_sep', bigSep_sep', bigSep_sep']
  iintro ⟨Hi, Ha, Hb, Ho⟩
  ihave Hi' := (pointsTo_toks_split (qC c') 16) $$ Hi
  icases Hi' with ⟨Hir, Hit⟩
  ihave Ha' := (pointsTo_toks_split (qC c') 16) $$ Ha
  icases Ha' with ⟨Har, Hat⟩
  ihave Hb' := (pointsTo_toks_split (qC c') 16) $$ Hb
  icases Hb' with ⟨Hbr, Hbt⟩
  imodintro
  isplitl [Hit Hat Hbt Ho]
  · isplitl [Hit]; · iexact Hit
    isplitl [Hat]; · iexact Hat
    isplitl [Hbt]; · iexact Hbt
    iexact Ho
  iintro ⟨Hit, Hat, Hbt, Ho⟩
  isplitl [Hir Hit]
  · iapply (pointsTo_toks_join (qC c') 16); isplitl [Hir]; · iexact Hir
    iexact Hit
  isplitl [Har Hat]
  · iapply (pointsTo_toks_join (qC c') 16); isplitl [Har]; · iexact Har
    iexact Hat
  isplitl [Hbr Hbt]
  · iapply (pointsTo_toks_join (qC c') 16); isplitl [Hbr]; · iexact Hbr
    iexact Hbt
  iexact Ho

end Cert.Proof.KernelIdealRun

end
-- ==== Proof.LaunchMainI.lean ====
/-
  The lookup kernel's run: @main on the TensorCore around the one SparseCore call, and the claim read off the final
  memory.

  The transposed result is 16 rows of 16384 columns; subcore (c, i) owns the 512 columns from 1024·i + 512·c.  These
  32 column ranges are pairwise disjoint and cover every column, so the whole array is the 32 blocks, and 32 blocks
  each holding the looked-up sums are the whole array holding them.
-/
import proofs.«209984_g46995532152932_cont_8to1c4_465_20_alg».proof.Proof.LaunchPayI
import proofs.«209984_g46995532152932_cont_8to1c4_465_20_alg».proof.Proof.HostValue
import proofs.«209984_g46995532152932_cont_8to1c4_465_20_alg».proof.Proof.PreDecode

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

/-! ## The 32 blocks of the transposed result -/

theorem oSet_eq (L : grid0.Coords) :
    oSet L = (Rect.unit (s := S16x16384) (k0_off38 L) S16x512.size (k0_off38_inb L)).set := by
  show ((View.whole (main_v2_scv : Ref sig .scVector)).slice _).set = _
  rw [View.set_slice]; exact Finset.map_refl

/-- Block `L` is the columns `1024·L₁ + 512·L₀ ≤ j < … + 512`, every row. -/
theorem mem_oSet (L : grid0.Coords) (x : S16x16384.Idx) :
    x ∈ oSet L ↔ 1024 * (L 1).val + 512 * (L 0).val ≤ (x 1).val ∧ (x 1).val < 1024 * (L 1).val + 512 * (L 0).val + 512 := by
  rw [oSet_eq, Rect.mem_set_unit, k0_off38_eq]
  constructor
  · intro h; exact h 1
  · intro h a
    match a with
    | ⟨0, _⟩ => exact ⟨Nat.zero_le _, by have := idx2_lt0 x; show (x 0).val < 0 + 16; omega⟩
    | ⟨1, _⟩ => exact h

theorem LL_zero (c : Fin 2) (i : Fin 16) : ((LL c i) 0).val = c.val := rfl
theorem LL_one (c : Fin 2) (i : Fin 16) : ((LL c i) 1).val = i.val := rfl

abbrev blk (p : Fin 2 × Fin 16) : Finset S16x16384.Idx := oSet (LL p.1 p.2)

theorem blk_disjoint : ∀ p ∈ (Finset.univ : Finset (Fin 2 × Fin 16)), ∀ p' ∈ (Finset.univ : Finset (Fin 2 × Fin 16)),
    p ≠ p' → Disjoint (blk p) (blk p') := by
  intro p _ p' _ hne
  rw [Finset.disjoint_left]
  intro x hx hx'
  rw [mem_oSet, LL_zero, LL_one] at hx hx'
  apply hne
  have h1 := p.1.isLt; have h2 := p'.1.isLt; have h3 := p.2.isLt; have h4 := p'.2.isLt
  have : p.1.val = p'.1.val ∧ p.2.val = p'.2.val := by omega
  exact Prod.ext (Fin.ext this.1) (Fin.ext this.2)

theorem blk_cover : (Finset.univ : Finset (Fin 2 × Fin 16)).biUnion blk = Finset.univ := by
  ext x
  simp only [Finset.mem_biUnion, Finset.mem_univ, true_and, iff_true]
  have hj := idx2_lt1 x
  refine ⟨(⟨((x 1).val / 512) % 2, by omega⟩, ⟨(x 1).val / 1024, by omega⟩), ?_⟩
  rw [mem_oSet, LL_zero, LL_one]
  show 1024 * ((x 1).val / 1024) + 512 * (((x 1).val / 512) % 2) ≤ (x 1).val
    ∧ (x 1).val < 1024 * ((x 1).val / 1024) + 512 * (((x 1).val / 512) % 2) + 512
  omega

/-- The whole transposed result is its 32 blocks, SparseCore by SparseCore. -/
theorem oPts_blocks (d : Dev nD) (f : Buf (Elt F) (oLoc d)) :
    (oLoc d ↦{fullShare} f : sProp 𝕄)
      = iprop((bigSep Finset.univ fun i : Fin 16 => oLoc d ↦[oSet (LL 0 i)]{fullShare} f)
          ∗ bigSep Finset.univ fun i : Fin 16 => oLoc d ↦[oSet (LL 1 i)]{fullShare} f) := by
  rw [← bigSep_univ_two (fun c : Fin 2 => bigSep Finset.univ fun i : Fin 16 => (oLoc d ↦[oSet (LL c i)]{fullShare} f : sProp 𝕄)),
    ← bigSep_univ_prod (fun p : Fin 2 × Fin 16 => (oLoc d ↦[blk p]{fullShare} f : sProp 𝕄)),
    ← pointsTo_biUnion Finset.univ (ℓ := oLoc d) blk blk_disjoint, blk_cover]
  try rfl

omit m in
theorem flip_pure {φ : Prop} {A : sProp 𝕄} : iprop(A ∗ ⌜φ⌝) ⊢ (iprop(⌜φ⌝ ∗ A) : sProp 𝕄) := by
  iintro ⟨H, %h⟩
  isplitr
  · ipureintro; exact h
  · iexact H

variable [FloatOps F]

theorem flip_all (d : Dev nD) (fs : Fin 2 × Fin 16 → Buf (Elt F) (oLoc d)) :
    (bigSep Finset.univ fun p : Fin 2 × Fin 16 =>
        (iprop((oLoc d ↦[blk p]{fullShare} fs p) ∗ ⌜OutOK (idsOf m d) (TA m d) (TB m d) (blk p) (fs p)⌝) : sProp 𝕄))
      ⊢ bigSep Finset.univ fun p : Fin 2 × Fin 16 =>
        (iprop(⌜OutOK (idsOf m d) (TA m d) (TB m d) (blk p) (fs p)⌝ ∗ (oLoc d ↦[blk p]{fullShare} fs p)) : sProp 𝕄) :=
  bigSep_mono fun p _ => flip_pure

/-- Blocks that each hold the looked-up sums are the whole array holding them. -/
theorem oBlocks_join (d : Dev nD) :
    iprop((bigSep Finset.univ fun i : Fin 16 => iprop(∃ f : Buf (Elt F) (oLoc d),
            (oLoc d ↦[oSet (LL 0 i)]{fullShare} f) ∗ ⌜OutOK (idsOf m d) (TA m d) (TB m d) (oSet (LL 0 i)) f⌝))
        ∗ bigSep Finset.univ fun i : Fin 16 => iprop(∃ f : Buf (Elt F) (oLoc d),
            (oLoc d ↦[oSet (LL 1 i)]{fullShare} f) ∗ ⌜OutOK (idsOf m d) (TA m d) (TB m d) (oSet (LL 1 i)) f⌝))
      ⊢ (iprop(∃ g : Buf (Elt F) (oLoc d), (oLoc d ↦{fullShare} g) ∗ ⌜OutOK (idsOf m d) (TA m d) (TB m d) Finset.univ g⌝) : sProp 𝕄) := by
  rw [← bigSep_univ_two (fun c : Fin 2 => bigSep Finset.univ fun i : Fin 16 => (iprop(∃ f : Buf (Elt F) (oLoc d),
            (oLoc d ↦[oSet (LL c i)]{fullShare} f) ∗ ⌜OutOK (idsOf m d) (TA m d) (TB m d) (oSet (LL c i)) f⌝) : sProp 𝕄)),
    ← bigSep_univ_prod (fun p : Fin 2 × Fin 16 => (iprop(∃ f : Buf (Elt F) (oLoc d),
            (oLoc d ↦[blk p]{fullShare} f) ∗ ⌜OutOK (idsOf m d) (TA m d) (TB m d) (blk p) f⌝) : sProp 𝕄))]
  refine (bigSep_exists_pi Finset.univ (fun (p : Fin 2 × Fin 16) (f : Buf (Elt F) (oLoc d)) =>
    (iprop((oLoc d ↦[blk p]{fullShare} f) ∗ ⌜OutOK (idsOf m d) (TA m d) (TB m d) (blk p) f⌝) : sProp 𝕄))).trans ?_
  iintro ⟨%fs, H⟩
  ihave H1 := (flip_all m d fs) $$ H
  ihave H2 := (bigSep_pure_sep Finset.univ (fun p : Fin 2 × Fin 16 => OutOK (idsOf m d) (TA m d) (TB m d) (blk p) (fs p))
      (fun p => (oLoc d ↦[blk p]{fullShare} fs p : sProp 𝕄))) $$ H1
  icases H2 with ⟨%hok, H3⟩
  ihave H4 := (pointsTo_biUnion_join Finset.univ blk fs (fs (0, 0)) blk_disjoint) $$ H3
  icases H4 with ⟨%g, %hg, Hg⟩
  rw [blk_cover]
  iexists g
  isplitl [Hg]; · iexact Hg
  ipureintro
  intro c j _
  have hx : ix2 c j ∈ (Finset.univ : Finset (Fin 2 × Fin 16)).biUnion blk := by rw [blk_cover]; exact Finset.mem_univ _
  obtain ⟨p, hp, hxp⟩ := Finset.mem_biUnion.mp hx
  rw [hg p hp _ hxp]
  exact hok p hp c j hxp

/-! ## The launch element: the handshakes' rounds; the transfer counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v3

abbrev opR1 : HloOp τ sig (Elt F) := StableHlo.reshape main_arg1 main_v0 rfl shapeCasts_S1000000x16_S125000x128
abbrev opR2 : HloOp τ sig (Elt F) := StableHlo.reshape main_arg2 main_v1 rfl shapeCasts_S1000000x16_S125000x128
abbrev opT : HloOp τ sig (Elt F) :=
  StableHlo.unary main_v2 main_v3 ((transpose S16384x16 [1, 0] · transposes_S16x16384_S16384x16_1_0) :
    (⟨S16x16384, .f32⟩ : BufTy).Contents (Elt F) → (⟨S16384x16, .f32⟩ : BufTy).Contents (Elt F))

/-- The TensorCore's arrays, all unscoped. -/
abbrev S7 : Finset (DevRef τ sig) := {a0', a1', a2', v0', v1', v2', v3'}

omit [FloatOps F] in
theorem held_S7 (d : Dev nD) (W : Valuation τ sig (Elt F)) :
    (held (T d) S7 W : sProp 𝕄) = iprop((idLoc d ↦{fullShare} W a0') ∗ (a1Loc d ↦{fullShare} W a1') ∗ (a2Loc d ↦{fullShare} W a2')
      ∗ (aLoc d ↦{fullShare} W v0') ∗ (bLoc d ↦{fullShare} W v1') ∗ (oLoc d ↦{fullShare} W v2') ∗ rLoc d ↦{fullShare} W v3') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((idLoc d ↦{fullShare} W main_arg0) ∗ (a1Loc d ↦{fullShare} W main_arg1) ∗ (a2Loc d ↦{fullShare} W main_arg2)
      ∗ (aLoc d ↦{fullShare} W main_v0) ∗ (bLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; after the two reshapes; after the call, the transposed result at `g`; after the transposition. -/
def V0 (d : Dev nD) : Valuation τ sig (Elt F) := fun b => m (d, b)
def V1 (d : Dev nD) : Valuation τ sig (Elt F) := (opR1 (F := F)).result (V0 m d)
def V2 (d : Dev nD) : Valuation τ sig (Elt F) := (opR2 (F := F)).result (V1 m d)
def V3 (d : Dev nD) (g : Buf (Elt F) (oLoc d)) : Valuation τ sig (Elt F) := Function.update (V2 m d) v2' g
def V4 (d : Dev nD) (g : Buf (Elt F) (oLoc d)) : Valuation τ sig (Elt F) := (opT (F := F)).result (V3 m d g)

theorem unscoped_held (d : Dev nD) : (unscopedBufs d (fun b => m ((SparseCore.T d).loc b)) : sProp 𝕄) = held (T d) S7 (V0 m d) := by
  rw [unscopedBufs_eq, held_S7]; rfl

theorem hR1 : (opR1 (F := F)).bufs ⊆ S7 := show ({a1', v0'} : Finset (DevRef τ sig)) ⊆ S7 by decide
theorem hR2 : (opR2 (F := F)).bufs ⊆ S7 := show ({a2', v1'} : Finset (DevRef τ sig)) ⊆ S7 by decide
theorem hT : (opT (F := F)).bufs ⊆ S7 := show ({v2', v3'} : Finset (DevRef τ sig)) ⊆ S7 by decide

theorem V1_of_ne (d : Dev nD) {b : DevRef τ sig} (h : b ∉ ({v0'} : Finset (DevRef τ sig))) : V1 m d b = V0 m d b :=
  (opR1 (F := F)).result_of_not_mem (V0 m d) h
theorem V2_of_ne (d : Dev nD) {b : DevRef τ sig} (h : b ∉ ({v1'} : Finset (DevRef τ sig))) : V2 m d b = V1 m d b :=
  (opR2 (F := F)).result_of_not_mem (V1 m d) h

theorem V2_a0 (d : Dev nD) : V2 m d a0' = m (idLoc d) := by rw [V2_of_ne m d (by decide), V1_of_ne m d (by decide)]; rfl
theorem V2_a1 (d : Dev nD) : V2 m d a1' = m (a1Loc d) := by rw [V2_of_ne m d (by decide), V1_of_ne m d (by decide)]; rfl
theorem V2_a2 (d : Dev nD) : V2 m d a2' = m (a2Loc d) := by rw [V2_of_ne m d (by decide), V1_of_ne m d (by decide)]; rfl
theorem V2_v2 (d : Dev nD) : V2 m d v2' = m (oLoc d) := by rw [V2_of_ne m d (by decide), V1_of_ne m d (by decide)]; rfl
theorem V2_v0 (d : Dev nD) : V2 m d v0' = TA m d := by
  rw [V2_of_ne m d (by decide)]
  exact (StableHlo.reshape_result main_arg1 main_v0 rfl shapeCasts_S1000000x16_S125000x128 ⟨by decide, rfl⟩ ⟨by decide, rfl⟩ (V0 m d)).trans rfl
theorem V2_v1 (d : Dev nD) : V2 m d v1' = TB m d := by
  refine (StableHlo.reshape_result main_arg2 main_v1 rfl shapeCasts_S1000000x16_S125000x128 ⟨by decide, rfl⟩ ⟨by decide, rfl⟩ (V1 m d)).trans ?_
  show (fun i => shapeCast S125000x128 (V1 m d a2') shapeCasts_S1000000x16_S125000x128 i) = _
  rw [V1_of_ne m d (by decide)]; rfl

theorem V3_of_ne (d : Dev nD) (g : Buf (Elt F) (oLoc d)) {b : DevRef τ sig} (h : b ≠ v2') : V3 m d g b = V2 m d b :=
  Function.update_of_ne h _ _
theorem V3_v2 (d : Dev nD) (g : Buf (Elt F) (oLoc d)) : V3 m d g v2' = g := Function.update_self _ _ _
theorem V4_of_ne (d : Dev nD) (g : Buf (Elt F) (oLoc d)) {b : DevRef τ sig} (h : b ∉ ({v3'} : Finset (DevRef τ sig))) :
    V4 m d g b = V3 m d g b :=
  (opT (F := F)).result_of_not_mem (V3 m d g) h
theorem V4_a0 (d : Dev nD) (g : Buf (Elt F) (oLoc d)) : V4 m d g a0' = m (idLoc d) := by
  rw [V4_of_ne m d g (by decide), V3_of_ne m d g (by decide), V2_a0]
theorem V4_a1 (d : Dev nD) (g : Buf (Elt F) (oLoc d)) : V4 m d g a1' = m (a1Loc d) := by
  rw [V4_of_ne m d g (by decide), V3_of_ne m d g (by decide), V2_a1]
theorem V4_a2 (d : Dev nD) (g : Buf (Elt F) (oLoc d)) : V4 m d g a2' = m (a2Loc d) := by
  rw [V4_of_ne m d g (by decide), V3_of_ne m d g (by decide), V2_a2]
theorem V4_v3 (d : Dev nD) (g : Buf (Elt F) (oLoc d)) :
    V4 m d g v3' = transpose S16384x16 [1, 0] g transposes_S16x16384_S16384x16_1_0 := by
  refine (StableHlo.unary_result main_v2 main_v3 _ ⟨by decide, rfl⟩ ⟨by decide, rfl⟩ (V3 m d g)).trans ?_
  show transpose S16384x16 [1, 0] (V3 m d g v2') transposes_S16x16384_S16384x16_1_0 = _
  rw [V3_v2]

theorem st0_eq (d : Dev nD) :
    (bigSep Finset.univ fun c : Fin ((K (F := F)).nCore 0) => (P m).st 0 d c) = iprop(stRes m d 0 ∗ stRes m d 1) := by
  show (bigSep (Finset.univ : Finset (Fin 2)) fun c => stRes m d (Fin.cast nCore_zero c)) = _
  rw [bigSep_univ_two]; rfl
theorem dn0_eq (d : Dev nD) :
    (bigSep Finset.univ fun c : Fin ((K (F := F)).nCore 0) => (P m).dn 0 d c) = iprop(dnRes m d 0 ∗ dnRes m d 1) := by
  show (bigSep (Finset.univ : Finset (Fin 2)) fun c => dnRes m d (Fin.cast nCore_zero c)) = _
  rw [bigSep_univ_two]; rfl

omit [FloatOps F] in
/-- An array the two SparseCores read whole: a read share each, the rest kept. -/
theorem share2_split {ℓ : Loc nD τ sig} (f : Buf (Elt F) ℓ) :
    (ℓ ↦{fullShare} f : sProp 𝕄) ⊢ iprop((ℓ ↦{shareDrop fullShare 2} f) ∗ (ℓ ↦{qC 0} f) ∗ (ℓ ↦{qC 1} f)) := by
  refine (pointsTo_toks_split fullShare 2).trans ?_
  rw [bigSep_univ_two]
omit [FloatOps F] in
theorem share2_join {ℓ : Loc nD τ sig} (f : Buf (Elt F) ℓ) :
    iprop((ℓ ↦{shareDrop fullShare 2} f) ∗ (ℓ ↦{qC 0} f) ∗ (ℓ ↦{qC 1} f)) ⊢ (ℓ ↦{fullShare} f : sProp 𝕄) := by
  refine BI.Entails.trans ?_ (pointsTo_toks_join fullShare 2)
  rw [bigSep_univ_two]; exact .refl _

/-- What @main leaves the claim: the three arguments at their launch contents, and the result the transposition of
    an array that holds the looked-up sums everywhere. -/
def FIN (d : Dev nD) : sProp 𝕄 :=
  iprop((idLoc d ↦{fullShare} m (idLoc d)) ∗ (a1Loc d ↦{fullShare} m (a1Loc d)) ∗ (a2Loc d ↦{fullShare} m (a2Loc d))
    ∗ ∃ g : Buf (Elt F) (oLoc d), ⌜OutOK (idsOf m d) (TA m d) (TB m d) Finset.univ g⌝
        ∗ rLoc d ↦{fullShare} (transpose S16384x16 [1, 0] g transposes_S16x16384_S16384x16_1_0))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR1) (S := S7) hR1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR2) (S := S7) hR2 (V := V1 m d)) $$ [Hb Hheld]
  · isplitl [Hb]; · iexact Hb
    iexact Hheld
  iintro ⟨Hb, Hheld⟩
  rw [wp_ret]; imodintro
  rw [show (opR2 (F := F)).result (V1 m d) = V2 m d from rfl]
  ihave Hh := (Entails.of_eq (held_S7 (F := F) d (V2 m d))) $$ Hheld
  rw [V2_a0, V2_a1, V2_a2, V2_v0, V2_v1, V2_v2]
  icases Hh with ⟨Ha0, Ha1, Ha2, Hv0, Hv1, Hv2, Hv3⟩
  ihave Ha0' := (share2_split (F := F) (ℓ := idLoc d) (m (idLoc d))) $$ Ha0
  icases Ha0' with ⟨Ha0r, Ha00, Ha01⟩
  ihave Hv0' := (share2_split (F := F) (ℓ := aLoc d) (TA m d)) $$ Hv0
  icases Hv0' with ⟨Hv0r, Hv00, Hv01⟩
  ihave Hv1' := (share2_split (F := F) (ℓ := bLoc d) (TB m d)) $$ Hv1
  icases Hv1' with ⟨Hv1r, Hv10, Hv11⟩
  ihave Hv2' := (Entails.of_eq (oPts_blocks (F := F) d (m (oLoc d)))) $$ Hv2
  icases Hv2' with ⟨Hv20, Hv21⟩
  -- the call: each SparseCore its read shares and its sixteen blocks
  iapply ((K (F := F)).wp_run (D (F := F)) 𝒱 (EH := EH) (P := P m) κ d 0) $$ [Hst Hb Ha1 Ha2 Hv3 Ha0r Ha00 Ha01 Hv0r Hv00 Hv01 Hv1r Hv10 Hv11 Hv20 Hv21]
  isplitr; · iexact Hctx
  isplitl [Hst]; · iexact Hst
  isplitl [Ha00 Ha01 Hv00 Hv01 Hv10 Hv11 Hv20 Hv21]
  · rw [st0_eq]; unfold stRes
    isplitl [Ha00 Hv00 Hv10 Hv20]
    · isplitl [Ha00]; · iexact Ha00
      isplitl [Hv00]; · iexact Hv00
      isplitl [Hv10]; · iexact Hv10
      iexact Hv20
    · isplitl [Ha01]; · iexact Ha01
      isplitl [Hv01]; · iexact Hv01
      isplitl [Hv11]; · iexact Hv11
      iexact Hv21
  iintro ⟨Hst, Hdn⟩
  ihave Hdn' := (Entails.of_eq (dn0_eq m d)) $$ Hdn
  unfold dnRes
  icases Hdn' with ⟨⟨Ha00, Hv00, Hv10, Ho0⟩, ⟨Ha01, Hv01, Hv11, Ho1⟩⟩
  ihave Ha0 := (share2_join (F := F) (ℓ := idLoc d) (m (idLoc d))) $$ [Ha0r Ha00 Ha01]
  · isplitl [Ha0r]; · iexact Ha0r
    isplitl [Ha00]; · iexact Ha00
    iexact Ha01
  ihave Hv0 := (share2_join (F := F) (ℓ := aLoc d) (TA m d)) $$ [Hv0r Hv00 Hv01]
  · isplitl [Hv0r]; · iexact Hv0r
    isplitl [Hv00]; · iexact Hv00
    iexact Hv01
  ihave Hv1 := (share2_join (F := F) (ℓ := bLoc d) (TB m d)) $$ [Hv1r Hv10 Hv11]
  · isplitl [Hv1r]; · iexact Hv1r
    isplitl [Hv10]; · iexact Hv10
    iexact Hv11
  ihave Ho := (oBlocks_join m d) $$ [Ho0 Ho1]
  · isplitl [Ho0]; · iexact Ho0
    iexact Ho1
  icases Ho with ⟨%g, Hg, %hok⟩
  -- the transposition
  iapply (wp_hlo_within 𝒱 (SparseCore.T d) none Set.univ (op := opT) (S := S7) hT (V := V3 m d g)) $$ [Hb Ha0 Ha1 Ha2 Hv0 Hv1 Hg Hv3]
  · isplitl [Hb]; · iexact Hb
    rw [held_S7, V3_v2, V3_of_ne m d g (b := a0') (by decide), V3_of_ne m d g (b := a1') (by decide), V3_of_ne m d g (b := a2') (by decide),
      V3_of_ne m d g (b := v0') (by decide), V3_of_ne m d g (b := v1') (by decide), V3_of_ne m d g (b := v3') (by decide),
      V2_a0, V2_a1, V2_a2, V2_v0, V2_v1]
    isplitl [Ha0]; · iexact Ha0
    isplitl [Ha1]; · iexact Ha1
    isplitl [Ha2]; · iexact Ha2
    isplitl [Hv0]; · iexact Hv0
    isplitl [Hv1]; · iexact Hv1
    isplitl [Hg]; · iexact Hg
    iexact Hv3
  iintro ⟨Hb, Hheld⟩
  rw [show (opT (F := F)).result (V3 m d g) = V4 m d g from rfl]
  ihave Hh := (Entails.of_eq (held_S7 (F := F) d (V4 m d g))) $$ Hheld
  rw [V4_a0, V4_a1, V4_a2, V4_v3]
  icases Hh with ⟨Ha0, Ha1, Ha2, -, -, -, Hr⟩
  rw [wp_ret]; imodintro; imodintro
  isplitl [Hst]; · iexact Hst
  unfold FIN
  isplitl [Ha0]; · iexact Ha0
  isplitl [Ha1]; · iexact Ha1
  isplitl [Ha2]; · iexact Ha2
  iexists g
  isplitr
  · ipureintro; exact hok
  · iexact Hr

/-! ## The claim, read off the final memory -/

/-- The transposition of an array that holds the looked-up sums everywhere is the looked-up sum of the original
    tables: a row of a reshaped table holds eight consecutive rows of the original. -/
theorem value_eq (d : Dev nD) (g : Buf (Elt F) (oLoc d)) (hok : OutOK (idsOf m d) (TA m d) (TB m d) Finset.univ g) :
    transpose S16384x16 [1, 0] g transposes_S16x16384_S16384x16_1_0
      = Cert.Spec.lookupSum (m (idLoc d)) (m (a1Loc d)) (m (a2Loc d)) :=
  Cert.HostValue.result_eq (m (idLoc d)) (m (a1Loc d)) (m (a2Loc d)) shapeCasts_S1000000x16_S125000x128
    transposes_S16x16384_S16384x16_1_0 g (fun c j => hok c j (Finset.mem_univ _))

def fq (d : Dev nD) (s' : Phys nD τ sig (Elt F)) : Prop :=
  s'.mem.mem (rLoc d) = Cert.Spec.lookupSum (m (idLoc d)) (m (a1Loc d)) (m (a2Loc d))
    ∧ s'.mem.mem (idLoc d) = m (idLoc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  unfold FIN
  iintro ⟨⟨Ha0, Ha1, Ha2, %g, %hok, Hr⟩, HSI⟩
  ihave H := (persistent_entails_right (SI_pointsTo_agree (st := s') (ℓ := idLoc d) (I := Finset.univ) (q := fullShare) (f := m (idLoc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (SI_pointsTo_agree (st := s') (ℓ := rLoc d) (I := Finset.univ) (q := fullShare)
      (f := transpose S16384x16 [1, 0] g transposes_S16x16384_S16384x16_1_0)) $$ [HSI Hr]
  · isplitl [HSI] <;> iassumption
  icases H with %h3
  ipureintro
  exact ⟨(funext fun i => h3 i (Finset.mem_univ i)).trans (value_eq m d g hok), funext fun i => h0 i (Finset.mem_univ i),
    funext fun i => h1 i (Finset.mem_univ i), funext fun i => h2 i (Finset.mem_univ i)⟩

/-! ## The program's run -/

/-- On every device: the result is the looked-up sum of the three arguments, which are unchanged. -/
def QC : PUnit × MemSt nD τ sig (Elt F) → Prop := fun r => ∀ c : Dev nD,
  r.2.mem (rLoc c) = Cert.Spec.lookupSum (m (idLoc c)) (m (a1Loc c)) (m (a2Loc c))
    ∧ r.2.mem (idLoc c) = m (idLoc c) ∧ r.2.mem (a1Loc c) = m (a1Loc c) ∧ r.2.mem (a2Loc c) = m (a2Loc c)

theorem run_main [∀ e, Nonempty (Elt F e)] (hb : ∀ d, TileRun (idsOf m d) (TA m d) (TB m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hb)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-- The same, in the claim's own spelling of the locations. -/
theorem run_main' [∀ e, Nonempty (Elt F e)] (hb : ∀ d, TileRun (idsOf m d) (TA m d) (TB m d)) :
    θ_run (Cert.KernelIdeal.defs (F := F)) (Cert.KernelIdeal.threads (F := F)) ⟨m, fun _ => 0, ρ⟩
      (fun r => ∀ c : Dev nD,
        r.2.mem ((c.tc : Thread nD τ).loc main_v3)
            = Cert.Spec.lookupSum (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  run_main m ρ hb

end Cert.Proof.KernelIdealRun

end
-- ==== Proof.BodyIfaceI.lean ====
/-
  The statement of one vector subcore's task over its resources spelt out: the three read shares, its block of the
  transposed result, its six scratch buffers, its four copy semaphores at zero, and what its thread owes.  It returns
  the shares, the block holding the looked-up sums, the scratch at some contents and the semaphores at zero again.
-/
import proofs.«209984_g46995532152932_cont_8to1c4_465_20_alg».proof.Proof.IfaceI

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The four copy semaphores of a subcore: the two of the gathers (the scratch pair), the identifiers' copy's, the
    write-out's. -/
abbrev semA (d : Dev nD) (L : grid0.Coords) : GSem nD τ sig := (V d (cV L) (jV L), SemLoc.dma ⟨0, by decide⟩)
abbrev semB (d : Dev nD) (L : grid0.Coords) : GSem nD τ sig := (V d (cV L) (jV L), SemLoc.dma ⟨1, by decide⟩)
abbrev sem0 (d : Dev nD) (L : grid0.Coords) : GSem nD τ sig := (V d (cV L) (jV L), SemLoc.dma cc0_scoped0.sem)
abbrev sem1 (d : Dev nD) (L : grid0.Coords) : GSem nD τ sig := (V d (cV L) (jV L), SemLoc.dma cc0_scoped1.sem)

def BodyCore [FloatOps F] (ids : IVec S16384 32) (TA TB : FVec F S125000x128 .f32) : Prop :=
  ∀ (d : Dev nD) (L : grid0.Coords) (q : PosShare TreeShare) (fO : Buf (Elt F) (oLoc d))
    (O : CellTallies nD τ sig (HIx 1)) (W : Waits sig (HIx 1))
    (s0 : Buf (Elt F) ((V d (cV L) (jV L)).loc cc0_scratch0)) (s1 : Buf (Elt F) ((V d (cV L) (jV L)).loc cc0_scratch1))
    (s2 : Buf (Elt F) ((V d (cV L) (jV L)).loc cc0_scratch2)) (s3 : Buf (Elt F) ((V d (cV L) (jV L)).loc cc0_scratch3))
    (s4 : Buf (Elt F) ((V d (cV L) (jV L)).loc cc0_scratch4)) (s5 : Buf (Elt F) ((V d (cV L) (jV L)).loc cc0_scratch5)),
    (iprop(Transfers.MayWaits (V d (cV L) (jV L)) (none : HIx 1) O
        ∗ (idLoc d ↦{q} ids) ∗ (aLoc d ↦{q} TA) ∗ (bLoc d ↦{q} TB) ∗ (oLoc d ↦[oSet L]{fullShare} fO)
        ∗ ((V d (cV L) (jV L)).loc cc0_scratch0 ↦{fullShare} s0)
        ∗ ((V d (cV L) (jV L)).loc cc0_scratch1 ↦{fullShare} s1)
        ∗ ((V d (cV L) (jV L)).loc cc0_scratch2 ↦{fullShare} s2)
        ∗ ((V d (cV L) (jV L)).loc cc0_scratch3 ↦{fullShare} s3)
        ∗ ((V d (cV L) (jV L)).loc cc0_scratch4 ↦{fullShare} s4)
        ∗ ((V d (cV L) (jV L)).loc cc0_scratch5 ↦{fullShare} s5)
        ∗ semVal (sem0 d L) 0 ∗ semVal (sem1 d L) 0 ∗ semVal (semA d L) 0 ∗ semVal (semB d L) 0
        ∗ owes (V d (cV L) (jV L)) O W) : sProp 𝕄)
      ⊢ wp frame (wpE (defs₀ (F := F)) 𝒱₀ (V d (cV L) (jV L)) none) Set.univ
          (cc0__tile_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1)
          fun _ => iprop((idLoc d ↦{q} ids) ∗ (aLoc d ↦{q} TA) ∗ (bLoc d ↦{q} TB)
            ∗ (∃ f : Buf (Elt F) (oLoc d), (oLoc d ↦[oSet L]{fullShare} f) ∗ ⌜OutOK ids TA TB (oSet L) f⌝)
            ∗ (∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f)
            ∗ (∃ f, (V d (cV L) (jV L)).loc cc0_scratch5 ↦{fullShare} f)
            ∗ semVal (sem0 d L) 0 ∗ semVal (sem1 d L) 0 ∗ semVal (semA d L) 0 ∗ semVal (semB d L) 0
            ∗ ∃ W', ⌜∀ p ∈ W', p ∈ W ∨ p.2 = none⌝ ∗ owes (V d (cV L) (jV L)) O W')

end Cert.Proof.KernelIdealRun

end
-- ==== Proof.TileWrapI.lean ====
/-
  One vector subcore's task, from the launch's view of it to its resources spelt out.

  The launch hands a subcore its scoped storage as two products: over its own buffers (each whole at some contents)
  and over its own scoped semaphores (each at zero).  The task's six scratch buffers are among the former and its four
  copy semaphores among the latter, so each product is those factors and a rest the task never touches; and a thread
  that owes the launch nothing at the level of its own copies may wait on them.  The task proved over the factors is
  therefore the task the launch asks for: the rests are carried around it unchanged.
-/
import proofs.«209984_g46995532152932_cont_8to1c4_465_20_alg».proof.Proof.BodyIfaceI

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Tile

variable (d : Dev nD) (L : grid0.Coords)

/-- The four copy semaphores are among the subcore's own scoped cells: they are them, at zero, and the rest. -/
theorem ownSems0_V :
    (ownSems0 (V d (cV L) (jV L)) : sProp 𝕄)
      = iprop(semVal (sem0 d L) 0 ∗ semVal (sem1 d L) 0 ∗ semVal (semA d L) 0 ∗ semVal (semB d L) 0
          ∗ bigSep (((((ownCells (V d (cV L) (jV L))).erase (sem0 d L)).erase (sem1 d L)).erase (semA d L)).erase (semB d L)) fun g => semVal g 0) := by
  unfold SparseCore.Cfg.ownSems0
  rw [SparseCore.bigSep_erase' ((mem_ownCells (g := sem0 d L)).mpr ⟨rfl, by show ((SemLoc.dma cc0_scoped0.sem : SemLoc sig)).isScoped .scVector = true; decide⟩),
    SparseCore.bigSep_erase' (Finset.mem_erase.mpr ⟨(fun e => absurd (congrArg Prod.snd e) (show ((SemLoc.dma cc0_scoped1.sem : SemLoc sig)) ≠ (SemLoc.dma cc0_scoped0.sem) by decide)), (mem_ownCells (g := sem1 d L)).mpr ⟨rfl, by show ((SemLoc.dma cc0_scoped1.sem : SemLoc sig)).isScoped .scVector = true; decide⟩⟩),
    SparseCore.bigSep_erase' (Finset.mem_erase.mpr ⟨(fun e => absurd (congrArg Prod.snd e) (show ((SemLoc.dma ⟨0, by decide⟩ : SemLoc sig)) ≠ (SemLoc.dma cc0_scoped1.sem) by decide)), Finset.mem_erase.mpr ⟨(fun e => absurd (congrArg Prod.snd e) (show ((SemLoc.dma ⟨0, by decide⟩ : SemLoc sig)) ≠ (SemLoc.dma cc0_scoped0.sem) by decide)), (mem_ownCells (g := semA d L)).mpr ⟨rfl, by show ((SemLoc.dma ⟨0, by decide⟩ : SemLoc sig)).isScoped .scVector = true; decide⟩⟩⟩),
    SparseCore.bigSep_erase' (Finset.mem_erase.mpr ⟨(fun e => absurd (congrArg Prod.snd e) (show ((SemLoc.dma ⟨1, by decide⟩ : SemLoc sig)) ≠ (SemLoc.dma ⟨0, by decide⟩) by decide)), Finset.mem_erase.mpr ⟨(fun e => absurd (congrArg Prod.snd e) (show ((SemLoc.dma ⟨1, by decide⟩ : SemLoc sig)) ≠ (SemLoc.dma cc0_scoped1.sem) by decide)), Finset.mem_erase.mpr ⟨(fun e => absurd (congrArg Prod.snd e) (show ((SemLoc.dma ⟨1, by decide⟩ : SemLoc sig)) ≠ (SemLoc.dma cc0_scoped0.sem) by decide)), (mem_ownCells (g := semB d L)).mpr ⟨rfl, by show ((SemLoc.dma ⟨1, by decide⟩ : SemLoc sig)).isScoped .scVector = true; decide⟩⟩⟩⟩)]

/-- The six scratch buffers are among the subcore's own: they are them, at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ bigSep (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := (Proc.scVector (cV L) (jV L))) (b := (Proc.scVector (cV L) (jV L)).devRef cc0_scratch1) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := (Proc.scVector (cV L) (jV L))) (b := (Proc.scVector (cV L) (jV L)).devRef cc0_scratch4) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := (Proc.scVector (cV L) (jV L))) (b := (Proc.scVector (cV L) (jV L)).devRef cc0_scratch5) rfl⟩⟩⟩⟩⟩)]

end Tile

/-- The task over its resources spelt out is the task the launch asks of every subcore. -/
theorem tile_run [FloatOps F] (ids : IVec S16384 32) (TA TB : FVec F S125000x128 .f32) (hb : BodyCore ids TA TB) :
    TileRun ids TA TB := by
  intro d L q fO O W hO
  unfold goRes tdRes
  rw [(K (F := F)).scopedBufs_V facts d (cV L) (jV L), SparseCore.Cfg.scopedSems0_V (Val := Elt F) d (cV L) (jV L),
    ownSems0_V, ownBufs_V]
  iintro ⟨Hlv, -, ⟨Hid, Ha, Hb, Ho⟩, ⟨⟨%s0, Hs0⟩, ⟨%s1, Hs1⟩, ⟨%s2, Hs2⟩, ⟨%s3, Hs3⟩, ⟨%s4, Hs4⟩, ⟨%s5, Hs5⟩, Hbufs⟩,
    ⟨Hsem0, Hsem1, HsemA, HsemB, Hsems⟩, HO⟩
  ihave Hmw := ((K (F := F)).mayWaits_none (thr := (V d (cV L) (jV L))) hO) $$ Hlv
  iapply (wp_wand_r Idealize.ShloMosaic.frame (wpE (defs₀ (F := F)) 𝒱₀ (V d (cV L) (jV L)) none) Set.univ)
  isplitl [Hmw Hid Ha Hb Ho Hs0 Hs1 Hs2 Hs3 Hs4 Hs5 Hsem0 Hsem1 HsemA HsemB HO]
  · iapply (hb d L q fO O W s0 s1 s2 s3 s4 s5)
    isplitl [Hmw]; · iexact Hmw
    isplitl [Hid]; · iexact Hid
    isplitl [Ha]; · iexact Ha
    isplitl [Hb]; · iexact Hb
    isplitl [Ho]; · iexact Ho
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hsem0]; · iexact Hsem0
    isplitl [Hsem1]; · iexact Hsem1
    isplitl [HsemA]; · iexact HsemA
    isplitl [HsemB]; · iexact HsemB
    iexact HO
  · iintro %_ ⟨Hid, Ha, Hb, Ho, Hs0, Hs1, Hs2, Hs3, Hs4, Hs5, Hsem0, Hsem1, HsemA, HsemB, HO⟩
    isplitl [Hid Ha Hb Ho]
    · isplitl [Hid]; · iexact Hid
      isplitl [Ha]; · iexact Ha
      isplitl [Hb]; · iexact Hb
      iexact Ho
    isplitl [Hs0 Hs1 Hs2 Hs3 Hs4 Hs5 Hbufs]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hbufs
    isplitl [Hsem0 Hsem1 HsemA HsemB Hsems]
    · isplitl [Hsem0]; · iexact Hsem0
      isplitl [Hsem1]; · iexact Hsem1
      isplitl [HsemA]; · iexact HsemA
      isplitl [HsemB]; · iexact HsemB
      iexact Hsems
    iexact HO

end Cert.Proof.KernelIdealRun

end
-- ==== Proof.StepIfaceI.lean ====
/-
  One trip of the two loops that pick the sixteen coordinates out of the gathered blocks.  Trip k of the loop over
  the first 256 positions (offset 0) and of the loop over the last 256 (offset 256) handles the sixteen positions
  off + 16k … off + 16k + 15 of the subcore's 512: for position jj it reads, in row jj − off of each gathered block,
  the lane (id jj mod 8)·16 + c for every coordinate c, adds the two, and stores the sum at (c, jj) of the result
  scratch; every other entry of the scratch is kept.
-/
import proofs.«209984_g46995532152932_cont_8to1c4_465_20_alg».proof.Proof.BodyIfaceI

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The lane numbers 0 … 15. -/
abbrev lanes : IVec S16 32 := iota .scVector S16 32 [0] iota_S16_d0_w32_scVector

/-- What a trip at offset `off`, number `k`, makes of the result scratch `o`: the sixteen positions of the trip hold
    the sums picked out of the gathered blocks `a`, `b` at the lanes the identifiers `SID` name; the rest is kept. -/
def StepOK [FloatOps F] (off k : Nat) (SID : IVec S512 32) (a b : FVec F S256x128 .f32) (o o' : FVec F S16x512 .f32) : Prop :=
  ∀ (c : Fin 16) (jj : Fin 512),
    ((off + 16 * k ≤ jj.val ∧ jj.val < off + 16 * k + 16) →
      o' (ix2 c jj) = FloatOps.addf
        (a (ix2 (⟨(jj.val - off) % 256, Nat.mod_lt _ (by decide)⟩ : Fin 256)
          (⟨((SID (ix1 jj)).toNat % 8) * 16 + c.val, by have := c.isLt; omega⟩ : Fin 128)))
        (b (ix2 (⟨(jj.val - off) % 256, Nat.mod_lt _ (by decide)⟩ : Fin 256)
          (⟨((SID (ix1 jj)).toNat % 8) * 16 + c.val, by have := c.isLt; omega⟩ : Fin 128))))
    ∧ (¬ (off + 16 * k ≤ jj.val ∧ jj.val < off + 16 * k + 16) → o' (ix2 c jj) = o (ix2 c jj))

/-- A trip of the loop over the first 256 positions. -/
def T2Step [FloatOps F] : Prop :=
  ∀ (d : Dev nD) (L : grid0.Coords) (k : Fin k0_t2_loop.trips)
    (SID : Buf (Elt F) ((V d (cV L) (jV L)).loc cc0_scratch0)) (a : Buf (Elt F) ((V d (cV L) (jV L)).loc cc0_scratch3))
    (b : Buf (Elt F) ((V d (cV L) (jV L)).loc cc0_scratch4)) (o : Buf (Elt F) ((V d (cV L) (jV L)).loc cc0_scratch5)),
    (iprop(((sId).view.loc (V d (cV L) (jV L)) ↦{fullShare} SID) ∗ ((sA).view.loc (V d (cV L) (jV L)) ↦{fullShare} a)
        ∗ ((sB).view.loc (V d (cV L) (jV L)) ↦{fullShare} b) ∗ ((sO).view.loc (V d (cV L) (jV L)) ↦{fullShare} o)) : sProp 𝕄)
      ⊢ wp frame (wpE (defs₀ (F := F)) 𝒱₀ (V d (cV L) (jV L)) none) Set.univ
          (k0_t2_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1 lanes k ())
          fun _ => iprop(((sId).view.loc (V d (cV L) (jV L)) ↦{fullShare} SID) ∗ ((sA).view.loc (V d (cV L) (jV L)) ↦{fullShare} a)
            ∗ ((sB).view.loc (V d (cV L) (jV L)) ↦{fullShare} b)
            ∗ ∃ o' : Buf (Elt F) ((V d (cV L) (jV L)).loc cc0_scratch5),
                ((sO).view.loc (V d (cV L) (jV L)) ↦{fullShare} o') ∗ ⌜StepOK 0 k.val SID a b o o'⌝)

/-- A trip of the loop over the last 256 positions. -/
def T3Step [FloatOps F] : Prop :=
  ∀ (d : Dev nD) (L : grid0.Coords) (k : Fin k0_t3_loop.trips)
    (SID : Buf (Elt F) ((V d (cV L) (jV L)).loc cc0_scratch0)) (a : Buf (Elt F) ((V d (cV L) (jV L)).loc cc0_scratch3))
    (b : Buf (Elt F) ((V d (cV L) (jV L)).loc cc0_scratch4)) (o : Buf (Elt F) ((V d (cV L) (jV L)).loc cc0_scratch5)),
    (iprop(((sId).view.loc (V d (cV L) (jV L)) ↦{fullShare} SID) ∗ ((sA).view.loc (V d (cV L) (jV L)) ↦{fullShare} a)
        ∗ ((sB).view.loc (V d (cV L) (jV L)) ↦{fullShare} b) ∗ ((sO).view.loc (V d (cV L) (jV L)) ↦{fullShare} o)) : sProp 𝕄)
      ⊢ wp frame (wpE (defs₀ (F := F)) 𝒱₀ (V d (cV L) (jV L)) none) Set.univ
          (k0_t3_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1 lanes k ())
          fun _ => iprop(((sId).view.loc (V d (cV L) (jV L)) ↦{fullShare} SID) ∗ ((sA).view.loc (V d (cV L) (jV L)) ↦{fullShare} a)
            ∗ ((sB).view.loc (V d (cV L) (jV L)) ↦{fullShare} b)
            ∗ ∃ o' : Buf (Elt F) ((V d (cV L) (jV L)).loc cc0_scratch5),
                ((sO).view.loc (V d (cV L) (jV L)) ↦{fullShare} o') ∗ ⌜StepOK 256 k.val SID a b o o'⌝)

end Cert.Proof.KernelIdealRun

end
-- ==== Proof.Step1IfaceI.lean ====
/-
  One trip of the loop that fills the two row lists: trip k reads the sixteen identifiers 16k … 16k+15 of each half of
  the subcore's 512, shifts each right by three (eight table rows share a reshaped row) and stores them at the same
  positions of the half's row list; the other entries are kept.  And the facts the gathers need of what the lists,
  the identifier scratch and the gathered blocks hold.
-/
import proofs.«209984_g46995532152932_cont_8to1c4_465_20_alg».proof.Proof.StepIfaceI

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- What a trip makes of a row list `r` (the half starting at `off` of the identifiers `SID`). -/
def RowOK (off k : Nat) (SID : IVec S512 32) (r r' : IVec S256 32) : Prop :=
  ∀ j : Fin 256,
    ((16 * k ≤ j.val ∧ j.val < 16 * k + 16) →
      r' (ix1 j) = IntOp.shrsi .vector (SID (ix1 (⟨(off + j.val) % 512, Nat.mod_lt _ (by decide)⟩ : Fin 512))) 3#32)
    ∧ (¬ (16 * k ≤ j.val ∧ j.val < 16 * k + 16) → r' (ix1 j) = r (ix1 j))

def T1Step [FloatOps F] : Prop :=
  ∀ (d : Dev nD) (L : grid0.Coords) (k : Fin k0_t1_loop.trips)
    (SID : Buf (Elt F) ((V d (cV L) (jV L)).loc cc0_scratch0)) (r0 : Buf (Elt F) ((V d (cV L) (jV L)).loc cc0_scratch1))
    (r1 : Buf (Elt F) ((V d (cV L) (jV L)).loc cc0_scratch2)),
    (iprop(((sId).view.loc (V d (cV L) (jV L)) ↦{fullShare} SID) ∗ ((sR0).view.loc (V d (cV L) (jV L)) ↦{fullShare} r0)
        ∗ ((sR1).view.loc (V d (cV L) (jV L)) ↦{fullShare} r1)) : sProp 𝕄)
      ⊢ wp frame (wpE (defs₀ (F := F)) 𝒱₀ (V d (cV L) (jV L)) none) Set.univ
          (k0_t1_body L idV (Memref.isWhole_whole _) aV (Memref.isWhole_whole _) bV (Memref.isWhole_whole _) oV (Memref.isWhole_whole _)
            sId (Memref.isWhole_whole _) sR0 (Memref.isWhole_whole _) sR1 (Memref.isWhole_whole _) sA (Memref.isWhole_whole _) sB (Memref.isWhole_whole _)
            sO (Memref.isWhole_whole _) cc0_scratch6 cc0_scoped0 cc0_scoped1 k ())
          fun _ => iprop(((sId).view.loc (V d (cV L) (jV L)) ↦{fullShare} SID)
            ∗ (∃ r0' : Buf (Elt F) ((V d (cV L) (jV L)).loc cc0_scratch1),
                ((sR0).view.loc (V d (cV L) (jV L)) ↦{fullShare} r0') ∗ ⌜RowOK 0 k.val SID r0 r0'⌝)
            ∗ (∃ r1' : Buf (Elt F) ((V d (cV L) (jV L)).loc cc0_scratch2),
                ((sR1).view.loc (V d (cV L) (jV L)) ↦{fullShare} r1') ∗ ⌜RowOK 256 k.val SID r1 r1'⌝))

/-- The first batch position of subcore `L`. -/
def base (L : grid0.Coords) : Nat := 1024 * (L 1).val + 512 * (L 0).val

end Cert.Proof.KernelIdealRun

end
-- ==== Proof.Step1I.lean ====
/-
  One trip of the loop that fills the two row lists.

  Trip k reads sixteen identifiers of each half of the subcore's 512 (positions 16k … 16k+15 of the half), shifts each
  right by three and writes the sixteen words at positions 16k … 16k+15 of the half's row list.  A single write through
  a rectangle, read at an index: inside the rectangle it is the payload at the index's place in the rectangle, outside
  it is what was there.  The payload's entry x is the shift of the identifier at the load's offset plus x, and both
  offsets are 16k (plus 256 for the second half), so entry j of the new list is the shifted identifier off + j for j in
  the trip's sixteen positions and the old entry elsewhere.
-/
import proofs.«209984_g46995532152932_cont_8to1c4_465_20_alg».proof.Proof.Step1IfaceI
import proofs.«209984_g46995532152932_cont_8to1c4_465_20_alg».proof.Proof.PreDecode

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem t1_trips_eq : k0_t1_loop.trips = 16 := rfl

/-- A row list after one write of sixteen words at position `16k`, when the words are the shifted identifiers
    `off + 16k … off + 16k + 15`: what a trip makes of it. -/
theorem rowOK_of_piece {κ : Kind} {sp : Space} (v : View sig κ sp S256 .i32) (f : v.ty.Contents (Elt F))
    (off k : Nat) (hk : k < 16) (SID : IVec S512 32)
    (o : Fin 1 → Nat) (ho : o = ![16 * k]) (inb : ∀ a, o a + S16.size a ≤ S256.size a)
    (w : (Rect.unit (s := S256) o S16.size inb).shape.Idx → Elt F .i32)
    (hw : ∀ x : Fin 16, w (ix1 x)
      = IntOp.shrsi .vector (SID (ix1 (⟨(off + (16 * k + x.val)) % 512, Nat.mod_lt _ (by decide)⟩ : Fin 512))) 3#32) :
    RowOK off k SID (v.read (Elt F) f)
      (v.read (Elt F) (v.writes (Elt F) f [⟨Rect.unit (s := S256) o S16.size inb, w⟩])) := by
  subst ho
  intro j
  constructor
  · rintro ⟨h1, h2⟩
    have hj : ix1 j = (Rect.unit (s := S256) ![16 * k] S16.size inb).emb (ix1 (⟨j.val - 16 * k, by omega⟩ : Fin 16)) := by
      funext a; refine Fin.ext ?_
      match a with
      | ⟨0, _⟩ => show j.val = 16 * k + 1 * (j.val - 16 * k); omega
    have e : (⟨(off + (16 * k + (j.val - 16 * k))) % 512, Nat.mod_lt _ (by decide)⟩ : Fin 512)
        = ⟨(off + j.val) % 512, Nat.mod_lt _ (by decide)⟩ :=
      Fin.ext (by show (off + (16 * k + (j.val - 16 * k))) % 512 = (off + j.val) % 512; congr 1; omega)
    rw [hj, View.read_writes_cons_emb, hw, e]
  · intro hn
    refine View.read_writes_apply_of_forall_not_mem v f (ix1 j) _ (fun p hp hmem => ?_)
    rw [List.mem_singleton] at hp; subst hp
    have hmem' : ix1 j ∈ (Rect.unit (s := S256) ![16 * k] S16.size inb).set := hmem
    have h0 := (Rect.mem_set_unit.mp hmem') 0
    exact hn ⟨h0.1, h0.2⟩

/-- The first half's list after a trip, as the trip's run leaves it. -/
theorem row0_ok (k : Fin k0_t1_loop.trips) (SID : IVec S512 32) (r : IVec S256 32)
    (h3 : ∀ a, (k0_off3 k) a + S16.size a ≤ S256.size a) (h2 : ∀ a, (k0_off2 k 0#32) a + S16.size a ≤ S512.size a) :
    RowOK 0 k.val SID r ((sR0 : Memref sig .scVector .vmem S256 .i32).view.writes (Elt F) r
      [⟨Rect.unit (s := S256) (k0_off3 k) S16.size h3,
        k0_pay94 (F := F) (View.readAt (Elt F) (sId : Memref sig .scVector .vmem S512 .i32).view
          (Rect.unit (s := S512) (k0_off2 k 0#32) S16.size h2).toLoadRect SID)⟩]) := by
  have hk : k.val < 16 := k.isLt
  refine rowOK_of_piece (F := F) (sR0 : Memref sig .scVector .vmem S256 .i32).view r 0 k.val hk SID (k0_off3 k) (k0_off3_eq k) h3 _
    (fun x => ?_)
  have e' : (k0_off2 k 0#32) 0 = 256 * 0 + 16 * k.val := congrFun (k0_off2_eq k ⟨0, by decide⟩) 0
  have hidx : (Rect.unit (s := S512) (k0_off2 k 0#32) S16.size h2).toLoadRect.idx (ix1 x)
      = ix1 (⟨(0 + (16 * k.val + x.val)) % 512, Nat.mod_lt _ (by decide)⟩ : Fin 512) := by
    funext a; refine Fin.ext ?_
    match a with
    | ⟨0, _⟩ =>
      show (k0_off2 k 0#32) 0 + 1 * x.val = (0 + (16 * k.val + x.val)) % 512
      have := x.isLt
      omega
  show IntOp.shrsi .vector (SID ((Rect.unit (s := S512) (k0_off2 k 0#32) S16.size h2).toLoadRect.idx (ix1 x))) 3#32 = _
  rw [hidx]

/-- The second half's list after a trip. -/
theorem row1_ok (k : Fin k0_t1_loop.trips) (SID : IVec S512 32) (r : IVec S256 32)
    (h3 : ∀ a, (k0_off3 k) a + S16.size a ≤ S256.size a) (h2 : ∀ a, (k0_off2 k 256#32) a + S16.size a ≤ S512.size a) :
    RowOK 256 k.val SID r ((sR1 : Memref sig .scVector .vmem S256 .i32).view.writes (Elt F) r
      [⟨Rect.unit (s := S256) (k0_off3 k) S16.size h3,
        k0_pay95 (F := F) (View.readAt (Elt F) (sId : Memref sig .scVector .vmem S512 .i32).view
          (Rect.unit (s := S512) (k0_off2 k 256#32) S16.size h2).toLoadRect SID)⟩]) := by
  have hk : k.val < 16 := k.isLt
  refine rowOK_of_piece (F := F) (sR1 : Memref sig .scVector .vmem S256 .i32).view r 256 k.val hk SID (k0_off3 k) (k0_off3_eq k) h3 _
    (fun x => ?_)
  have e' : (k0_off2 k 256#32) 0 = 256 * 1 + 16 * k.val := congrFun (k0_off2_eq k ⟨1, by decide⟩) 0
  have hidx : (Rect.unit (s := S512) (k0_off2 k 256#32) S16.size h2).toLoadRect.idx (ix1 x)
      = ix1 (⟨(256 + (16 * k.val + x.val)) % 512, Nat.mod_lt _ (by decide)⟩ : Fin 512) := by
    funext a; refine Fin.ext ?_
    match a with
    | ⟨0, _⟩ =>
      show (k0_off2 k 256#32) 0 + 1 * x.val = (256 + (16 * k.val + x.val)) % 512
      have := x.isLt
      omega
  show IntOp.shrsi .vector (SID ((Rect.unit (s := S512) (k0_off2 k 256#32) S16.size h2).toLoadRect.idx (ix1 x))) 3#32 = _
  rw [hidx]

/-- One trip of the loop that fills the row lists. -/
theorem t1_step [FloatOps F] : T1Step (F := F) := by
  intro d L k SID r0 r1
  iintro ⟨Hs0, Hs1, Hs2⟩
  sl_exec
  sl_step
  isplitl [Hs0]; · iexact Hs0
  isplitl [Hs1]
  · iexists _; isplitl [Hs1]; · iexact Hs1
    ipureintro
    exact row0_ok k SID r0 _ _
  · iexists _; isplitl [Hs2]; · iexact Hs2
    ipureintro
    exact row1_ok k SID r1 _ _

end Cert.Proof.KernelIdealRun

end
-- ==== Proof.StepLemI.lean ====
/-
  The arithmetic behind one trip of the loops that pick the sixteen coordinates out of the gathered blocks.

  A trip at offset `base` (0 or 256), number `k`, makes sixteen stores into the 16 × 512 result scratch, one per
  coordinate `c`: the store of coordinate `c` covers row `c`, columns `base + 16k … base + 16k + 15`, and holds at
  column `base + 16k + l` the sum of the two gathered blocks read at row `16k + l`, lane `(id mod 8)·16 + c`, where
  `id` is the identifier at position `base + 16k + l`.  Here: the side facts of the index vectors (rows below 256,
  lanes below 128), what one such store covers and holds, and that sixteen of them, one per row, give the trip's
  statement whatever order they come in and whatever the scratch held before.
-/
import proofs.«209984_g46995532152932_cont_8to1c4_465_20_alg».proof.Proof.StepIfaceI
import proofs.«209984_g46995532152932_cont_8to1c4_465_20_alg».proof.Proof.PreDecode
import Idealize.ShloMosaic.Lib.Writes

noncomputable section

namespace Cert.Proof.KernelIdealRun

open Cert.KernelIdeal Cert.KernelIdeal.Gen

open Idealize.ShloMosaic Idealize.ShloMosaic.ValueIdx

variable {F : FTy → Type}

/-! ## Side facts of the index vectors -/

/-- The row vector of trip `k` of the first loop: lane `l` names row `16 k + l`. -/
theorem row2_toNat : ∀ (k : Fin k0_t2_loop.trips) (x : S16.Idx),
    ((k0_pay9 lanes 0#32 1#32 k) x).toNat = 16 * k.val + (x 0).val := by decide +kernel

/-- The same of the second loop. -/
theorem row3_toNat : ∀ (k : Fin k0_t3_loop.trips) (x : S16.Idx),
    ((k0_pay52 lanes 0#32 1#32 k) x).toNat = 16 * k.val + (x 0).val := by decide +kernel

theorem trips2 : k0_t2_loop.trips = 16 := by decide
theorem trips3 : k0_t3_loop.trips = 16 := by decide

theorem row2_lt (k : Fin k0_t2_loop.trips) (x : S16.Idx) : ((k0_pay9 lanes 0#32 1#32 k) x).toNat < 256 := by
  rw [row2_toNat]
  have h1 : k.val < 16 := lt_of_lt_of_eq k.isLt trips2
  have h2 : (x 0).val < 16 := (x 0).isLt
  omega

theorem row3_lt (k : Fin k0_t3_loop.trips) (x : S16.Idx) : ((k0_pay52 lanes 0#32 1#32 k) x).toNat < 256 := by
  rw [row3_toNat]
  have h1 : k.val < 16 := lt_of_lt_of_eq k.isLt trips3
  have h2 : (x 0).val < 16 := (x 0).isLt
  omega

/-- The lane vector of coordinate `c`: `(id &&& 7) * 16 + c` at every lane. -/
abbrev laneV (rd : IVec S16 32) (c : Nat) : IVec S16 32 :=
  addi (muli (andi rd (broadcast S16 7#32)) (broadcast S16 16#32)) (broadcast S16 (BitVec.ofNat 32 c))

/-- The two index vectors of an indexed load of a gathered block name a row below 256 and a lane below 128. -/
theorem chk_ok (v41 rd : IVec S16 32) (c : Nat) (hc : c < 16) (h1 : ∀ x, (v41 x).toNat < 256) :
    ∀ a x, ((![v41, addi (muli (andi rd (broadcast S16 7#32)) (broadcast S16 16#32)) (broadcast S16 (BitVec.ofNat 32 c))]
      : Fin 2 → IVec S16 32) a x).toNat < S256x128.size a := by
  intro a x
  fin_cases a
  · exact h1 x
  · exact Cert.PreDecode.lane_apply_lt rd x c hc

/-- A 16-lane vector recast as one row of sixteen: lane `l` is column `l`. -/
theorem recast_lane : ∀ x : S1x16.Idx, ((Shape.reshapeEquiv shapeCasts_S16_S1x16 x) 0).val = (x 1).val := by decide +kernel

/-- The element of a 256 × 128 block that lane `l` of two index vectors names, by its coordinates. -/
theorem idxAt_eq_ix2 (v w : IVec S16 32) (h : ∀ a x, ((![v, w] : Fin 2 → IVec S16 32) a x).toNat < S256x128.size a)
    (l : S16.Idx) (r : Fin 256) (q : Fin 128) (hr : (v l).toNat = r.val) (hq : (w l).toNat = q.val) :
    idxAt (s := S256x128) ![v, w] h l = ix2 r q := by
  funext i
  fin_cases i
  · exact Fin.ext hr
  · exact Fin.ext hq

/-! ## What a trip leaves at one entry, and one store of it -/

/-- The sum a trip at offset `off` leaves at coordinate `c`, position `jj`. -/
def cell [FloatOps F] (off : Nat) (SID : IVec S512 32) (a b : FVec F S256x128 .f32) (c : Fin 16) (jj : Fin 512) : F .f32 :=
  FloatOps.addf
    (a (ix2 (⟨(jj.val - off) % 256, Nat.mod_lt _ (by decide)⟩ : Fin 256)
      (⟨((SID (ix1 jj)).toNat % 8) * 16 + c.val, by have := c.isLt; omega⟩ : Fin 128)))
    (b (ix2 (⟨(jj.val - off) % 256, Nat.mod_lt _ (by decide)⟩ : Fin 256)
      (⟨((SID (ix1 jj)).toNat % 8) * 16 + c.val, by have := c.isLt; omega⟩ : Fin 128)))

/-- A store that covers exactly row `c`, the trip's sixteen columns, and holds the trip's sums there. -/
def PieceOK [FloatOps F] (base k : Nat) (SID : IVec S512 32) (a b : FVec F S256x128 .f32) (c : Nat)
    (p : View.Piece (Elt F) S16x512 .f32) : Prop :=
  (∀ y : S16x512.Idx, y ∈ p.1.set ↔ ((y 0).val = c ∧ base + 16 * k ≤ (y 1).val ∧ (y 1).val < base + 16 * k + 16))
  ∧ (∀ x : p.1.shape.Idx, p.2 x = cell base SID a b (p.1.emb x 0) (p.1.emb x 1))

/-- One lane of the store of coordinate `c`: the lane reads the two blocks at the row and lane its index vectors
    name, and these are the coordinates the trip's sum at `(cc, jj)` is read at. -/
theorem lane_val [FloatOps F] (base k : Nat) (hk : k < 16) (c : Nat) (hc : c < 16)
    (SID : IVec S512 32) (A B : FVec F S256x128 .f32)
    (v41 : IVec S16 32) (h41 : ∀ x, (v41 x).toNat = 16 * k + (x 0).val) (rd : IVec S16 32)
    (hiA : ∀ i x, ((![v41, laneV rd c] : Fin 2 → IVec S16 32) i x).toNat < S256x128.size i)
    (hiB : ∀ i x, ((![v41, laneV rd c] : Fin 2 → IVec S16 32) i x).toNat < S256x128.size i)
    (l : S16.Idx) (cc : Fin 16) (jj : Fin 512) (hcc : cc.val = c) (hjj : jj.val = base + (16 * k + (l 0).val))
    (hrd : rd l = SID (ix1 jj)) :
    FloatOps.addf (A (idxAt (s := S256x128) ![v41, laneV rd c] hiA l)) (B (idxAt (s := S256x128) ![v41, laneV rd c] hiB l))
      = cell base SID A B cc jj := by
  have hq : ∀ hh, idxAt (s := S256x128) ![v41, laneV rd c] hh l
      = ix2 (⟨(jj.val - base) % 256, Nat.mod_lt _ (by decide)⟩ : Fin 256)
          (⟨((SID (ix1 jj)).toNat % 8) * 16 + cc.val, by have := cc.isLt; omega⟩ : Fin 128) := by
    intro hh
    apply idxAt_eq_ix2
    · show (v41 l).toNat = (jj.val - base) % 256
      have h2 : (l 0).val < 16 := (l 0).isLt
      rw [h41, hjj]; omega
    · show (laneV rd c l).toNat = ((SID (ix1 jj)).toNat % 8) * 16 + cc.val
      rw [Cert.PreDecode.lane_apply_toNat _ _ c hc, hrd, hcc]
  rw [hq hiA]
  rfl

/-- The store of coordinate `c` in a trip: the sums of the two blocks' indexed loads, recast as a row, through the
    one-row rectangle at `(c, base + 16 k)`. -/
theorem piece_ok [FloatOps F] (base k : Nat) (hk : k < 16) (hb : base + 256 ≤ 512) (c : Nat) (hc : c < 16)
    (SID : IVec S512 32) (a b : FVec F S256x128 .f32)
    (off1 : Fin 1 → Nat) (inb1 : ∀ i, off1 i + S16.size i ≤ S512.size i) (h1 : off1 0 = base + 16 * k)
    (off : Fin 2 → Nat) (inb : ∀ i, off i + S1x16.size i ≤ S16x512.size i) (ho0 : off 0 = c) (ho1 : off 1 = base + 16 * k)
    (v41 : IVec S16 32) (h41 : ∀ x, (v41 x).toNat = 16 * k + (x 0).val)
    (A B : FVec F S256x128 .f32) (hA : A = a) (hB : B = b)
    (vA vB : IVec S16 32)
    (hvA : vA = laneV ((sId).view.readAt (Elt F) (Rect.unit (s := S512) off1 S16.size inb1).toLoadRect SID) c)
    (hvB : vB = laneV ((sId).view.readAt (Elt F) (Rect.unit (s := S512) off1 S16.size inb1).toLoadRect SID) c)
    (hiA : ∀ i x, ((![v41, vA] : Fin 2 → IVec S16 32) i x).toNat < S256x128.size i)
    (hiB : ∀ i x, ((![v41, vB] : Fin 2 → IVec S16 32) i x).toNat < S256x128.size i) :
    PieceOK base k SID a b c
      ⟨Rect.unit (s := S16x512) off S1x16.size inb,
        shapeCast S1x16 (addf (loadIdx (F := F) (s := S256x128) (t := S16) (e := .f32) A ![v41, vA] hiA)
          (loadIdx (F := F) (s := S256x128) (t := S16) (e := .f32) B ![v41, vB] hiB)) shapeCasts_S16_S1x16⟩ := by
  subst hA hB hvA hvB
  refine ⟨fun y => ?_, fun x => ?_⟩
  · show y ∈ (Rect.unit (s := S16x512) off S1x16.size inb).set ↔ _
    rw [Rect.mem_set_unit, Fin.forall_fin_two]
    have s0 : S1x16.size 0 = 1 := rfl
    have s1 : S1x16.size 1 = 16 := rfl
    rw [s0, s1, ho0, ho1]
    omega
  · -- the lane of the 16-vector under column `x 1` of the row
    have hx0 : (x 0).val < 1 := (x 0).isLt
    have hx1 : (x 1).val < 16 := (x 1).isLt
    have hl := recast_lane x
    have e0 : ((Rect.unit (s := S16x512) off S1x16.size inb).emb x 0 : Nat) = c := by
      rw [Rect.emb_apply]; show off 0 + 1 * (x 0).val = c; omega
    have e1 : ((Rect.unit (s := S16x512) off S1x16.size inb).emb x 1 : Nat) = base + 16 * k + (x 1).val := by
      rw [Rect.emb_apply]; show off 1 + 1 * (x 1).val = _; omega
    -- the identifier the lane reads
    have erd : (sId).view.readAt (Elt F) (Rect.unit (s := S512) off1 S16.size inb1).toLoadRect SID (Shape.reshapeEquiv shapeCasts_S16_S1x16 x)
        = SID (ix1 ((Rect.unit (s := S16x512) off S1x16.size inb).emb x 1)) := by
      show SID _ = SID _
      congr 1
      funext i
      fin_cases i
      apply Fin.ext
      show off1 0 + 1 * ((Shape.reshapeEquiv shapeCasts_S16_S1x16 x) 0).val = ((Rect.unit (s := S16x512) off S1x16.size inb).emb x 1 : Nat)
      rw [e1]; omega
    exact lane_val base k hk c hc SID A B v41 h41 _ hiA hiB (Shape.reshapeEquiv shapeCasts_S16_S1x16 x)
      ((Rect.unit (s := S16x512) off S1x16.size inb).emb x 0) ((Rect.unit (s := S16x512) off S1x16.size inb).emb x 1)
      e0 (by rw [e1, hl]; omega) erd

/-- Where a trip of the first loop reads its sixteen identifiers. -/
theorem off4_at (k : Fin k0_t2_loop.trips) : k0_off4 k 0 = 0 + 16 * k.val := by
  rw [k0_off4_eq]; exact (Nat.zero_add _).symm

/-- Where a trip of the second loop reads its sixteen identifiers. -/
theorem off21_at (k : Fin k0_t3_loop.trips) : k0_off21 k 0 = 256 + 16 * k.val := by
  rw [k0_off21_eq]; exact Nat.add_comm _ _

/-! ## Sixteen stores, one per row -/

/-- Sixteen stores, the one of row `c` covering the trip's columns of that row and holding its sums there, leave the
    trip's statement: its sixteen positions hold the sums at every coordinate, the rest is kept. -/
theorem stepOK_of_pieces [FloatOps F] (base k : Nat) (SID : IVec S512 32) (a b : FVec F S256x128 .f32) (o : FVec F S16x512 .f32)
    (p0 p1 p2 p3 p4 p5 p6 p7 p8 p9 p10 p11 p12 p13 p14 p15 : View.Piece (Elt F) S16x512 .f32)
    (h0 : PieceOK base k SID a b 0 p0) (h1 : PieceOK base k SID a b 1 p1) (h2 : PieceOK base k SID a b 2 p2)
    (h3 : PieceOK base k SID a b 3 p3) (h4 : PieceOK base k SID a b 4 p4) (h5 : PieceOK base k SID a b 5 p5)
    (h6 : PieceOK base k SID a b 6 p6) (h7 : PieceOK base k SID a b 7 p7) (h8 : PieceOK base k SID a b 8 p8)
    (h9 : PieceOK base k SID a b 9 p9) (h10 : PieceOK base k SID a b 10 p10) (h11 : PieceOK base k SID a b 11 p11)
    (h12 : PieceOK base k SID a b 12 p12) (h13 : PieceOK base k SID a b 13 p13) (h14 : PieceOK base k SID a b 14 p14)
    (h15 : PieceOK base k SID a b 15 p15) :
    StepOK base k SID a b o
      ((sO).view.writes (Elt F) o [p15, p14, p13, p12, p11, p10, p9, p8, p7, p6, p5, p4, p3, p2, p1, p0]) := by
  -- every store of the list is the store of some row
  have hall : ∀ p ∈ [p15, p14, p13, p12, p11, p10, p9, p8, p7, p6, p5, p4, p3, p2, p1, p0],
      ∃ c', PieceOK base k SID a b c' p := by
    intro p hp
    simp only [List.mem_cons, List.not_mem_nil, or_false] at hp
    rcases hp with rfl | rfl | rfl | rfl | rfl | rfl | rfl | rfl | rfl | rfl | rfl | rfl | rfl | rfl | rfl | rfl
    exacts [⟨_, h15⟩, ⟨_, h14⟩, ⟨_, h13⟩, ⟨_, h12⟩, ⟨_, h11⟩, ⟨_, h10⟩, ⟨_, h9⟩, ⟨_, h8⟩, ⟨_, h7⟩, ⟨_, h6⟩, ⟨_, h5⟩,
      ⟨_, h4⟩, ⟨_, h3⟩, ⟨_, h2⟩, ⟨_, h1⟩, ⟨_, h0⟩]
  -- and every row has its store in the list
  have hex : ∀ c : Fin 16, ∃ p ∈ [p15, p14, p13, p12, p11, p10, p9, p8, p7, p6, p5, p4, p3, p2, p1, p0],
      PieceOK base k SID a b c.val p := by
    intro c
    fin_cases c
    · exact ⟨p0, by simp, h0⟩
    · exact ⟨p1, by simp, h1⟩
    · exact ⟨p2, by simp, h2⟩
    · exact ⟨p3, by simp, h3⟩
    · exact ⟨p4, by simp, h4⟩
    · exact ⟨p5, by simp, h5⟩
    · exact ⟨p6, by simp, h6⟩
    · exact ⟨p7, by simp, h7⟩
    · exact ⟨p8, by simp, h8⟩
    · exact ⟨p9, by simp, h9⟩
    · exact ⟨p10, by simp, h10⟩
    · exact ⟨p11, by simp, h11⟩
    · exact ⟨p12, by simp, h12⟩
    · exact ⟨p13, by simp, h13⟩
    · exact ⟨p14, by simp, h14⟩
    · exact ⟨p15, by simp, h15⟩
  intro c jj
  refine ⟨fun hr => ?_, fun hr => ?_⟩
  · obtain ⟨p, hp, hpc⟩ := hex c
    have key := View.read_writes_apply_of_pieces (sO).view o
      (fun y : S16x512.Idx => (cell base SID a b (y 0) (y 1) : Elt F .f32))
      [p15, p14, p13, p12, p11, p10, p9, p8, p7, p6, p5, p4, p3, p2, p1, p0]
      (fun p' hp' x => by obtain ⟨c', h'⟩ := hall p' hp'; exact h'.2 x)
      (ix2 c jj) ⟨p, hp, (hpc.1 (ix2 c jj)).2 ⟨rfl, hr.1, hr.2⟩⟩
    exact key
  · have key := View.read_writes_apply_of_forall_not_mem (sO).view o (ix2 c jj)
      [p15, p14, p13, p12, p11, p10, p9, p8, p7, p6, p5, p4, p3, p2, p1, p0]
      (fun p' hp' hmem => by
        obtain ⟨c', h'⟩ := hall p' hp'
        have := (h'.1 (ix2 c jj)).1 hmem
        exact hr ⟨this.2.1, this.2.2⟩)
    exact key

end Cert.Proof.KernelIdealRun

end
-- ==== Proof.StepI.lean ====
/-
  One trip of each of the two loops that pick the sixteen coordinates out of the gathered blocks, run.

  A trip loads its sixteen identifiers, and for each coordinate c = 0 … 15 makes two indexed loads — of the two
  gathered blocks, at rows 16k … 16k + 15 and lanes (id mod 8)·16 + c — and stores their sum in row c of the result
  scratch, at the trip's sixteen columns.  The index vectors' side conditions hold whatever the identifiers are
  (a row below 256, a lane below 128); the sixteen stores are read back through the arithmetic of the lemmas module.
-/
import proofs.«209984_g46995532152932_cont_8to1c4_465_20_alg».proof.Proof.StepLemI

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A gathered block held as a whole, spelt as an indexed load reads it -/

section Tile
variable (d : Dev nD) (L : grid0.Coords)

theorem pts_sA_acc (f : Buf (Elt F) ((V d (cV L) (jV L)).loc cc0_scratch3)) :
    (((sA : Memref sig .scVector .vmem S256x128 .f32).access (.whole S256x128)).loc (V d (cV L) (jV L)) ↦{fullShare} f : sProp 𝕄)
      = ((sA).view.loc (V d (cV L) (jV L)) ↦{fullShare} f) := rfl
theorem pts_sB_acc (f : Buf (Elt F) ((V d (cV L) (jV L)).loc cc0_scratch4)) :
    (((sB : Memref sig .scVector .vmem S256x128 .f32).access (.whole S256x128)).loc (V d (cV L) (jV L)) ↦{fullShare} f : sProp 𝕄)
      = ((sB).view.loc (V d (cV L) (jV L)) ↦{fullShare} f) := rfl
end Tile

/-! ## The steps of one coordinate: the two indexed loads, then on to the next coordinate's first -/

set_option hygiene false in
local macro "load_A" : tactic => `(tactic| (
  ihave Hs3' := (Entails.of_eq (pts_sA_acc (F := F) d L _).symm) $$ Hs3
  iapply (SparseCore.wp_vectorLoadIdx 𝒱₀ (V d (cV L) (jV L)) none Set.univ (base := (sA : Memref sig .scVector .vmem S256x128 .f32)) (S := Finset.univ) (q := fullShare) (Finset.subset_univ _)) $$ Hs3'
  iintro Hs3'
  ihave Hs3 := (Entails.of_eq (pts_sA_acc (F := F) d L _)) $$ Hs3'))
set_option hygiene false in
local macro "load_B" : tactic => `(tactic| (
  ihave Hs4' := (Entails.of_eq (pts_sB_acc (F := F) d L _).symm) $$ Hs4
  iapply (SparseCore.wp_vectorLoadIdx 𝒱₀ (V d (cV L) (jV L)) none Set.univ (base := (sB : Memref sig .scVector .vmem S256x128 .f32)) (S := Finset.univ) (q := fullShare) (Finset.subset_univ _)) $$ Hs4'
  iintro Hs4'
  ihave Hs4 := (Entails.of_eq (pts_sB_acc (F := F) d L _)) $$ Hs4'))
set_option hygiene false in
local macro "col2" : tactic => `(tactic| (
  load_A
  sl_exec (disch := exact chk_ok _ _ _ (by decide) (row2_lt k))
  load_B
  sl_exec (disch := exact chk_ok _ _ _ (by decide) (row2_lt k))))
set_option hygiene false in
local macro "col3" : tactic => `(tactic| (
  load_A
  sl_exec (disch := exact chk_ok _ _ _ (by decide) (row3_lt k))
  load_B
  sl_exec (disch := exact chk_ok _ _ _ (by decide) (row3_lt k))))
set_option hygiene false in
local macro "give_back" : tactic => `(tactic| (
  sl_step
  isplitl [Hs0]
  · iexact Hs0
  isplitl [Hs3]
  · iexact Hs3
  isplitl [Hs4]
  · iexact Hs4
  iexists _
  isplitl [Hs5]
  · iexact Hs5
  ipureintro))

/-- A trip of the loop over the first 256 positions. -/
theorem t2_step [FloatOps F] : T2Step (F := F) := by
  intro d L k SID a b o
  have hk : k.val < 16 := lt_of_lt_of_eq k.isLt trips2
  iintro ⟨Hs0, Hs3, Hs4, Hs5⟩
  sl_exec (disch := exact chk_ok _ _ _ (by decide) (row2_lt k))
  col2; col2; col2; col2; col2; col2; col2; col2
  col2; col2; col2; col2; col2; col2; col2; col2
  give_back
  refine stepOK_of_pieces 0 k.val SID a b o _ _ _ _ _ _ _ _ _ _ _ _ _ _ _ _
    ?_ ?_ ?_ ?_ ?_ ?_ ?_ ?_ ?_ ?_ ?_ ?_ ?_ ?_ ?_ ?_
  · exact piece_ok 0 k.val hk (by decide) 0 (by decide) SID a b (k0_off4 k) _ (off4_at k) (k0_off5 k) _
      (by rw [k0_off5_eq]; rfl) (by rw [k0_off5_eq]; exact (Nat.zero_add _).symm) _ (row2_toNat k) _ _
      (Memref.read_access_whole _ _ _) (Memref.read_access_whole _ _ _) _ _ rfl rfl _ _
  · exact piece_ok 0 k.val hk (by decide) 1 (by decide) SID a b (k0_off4 k) _ (off4_at k) (k0_off6 k) _
      (by rw [k0_off6_eq]; rfl) (by rw [k0_off6_eq]; exact (Nat.zero_add _).symm) _ (row2_toNat k) _ _
      (Memref.read_access_whole _ _ _) (Memref.read_access_whole _ _ _) _ _ rfl rfl _ _
  · exact piece_ok 0 k.val hk (by decide) 2 (by decide) SID a b (k0_off4 k) _ (off4_at k) (k0_off7 k) _
      (by rw [k0_off7_eq]; rfl) (by rw [k0_off7_eq]; exact (Nat.zero_add _).symm) _ (row2_toNat k) _ _
      (Memref.read_access_whole _ _ _) (Memref.read_access_whole _ _ _) _ _ rfl rfl _ _
  · exact piece_ok 0 k.val hk (by decide) 3 (by decide) SID a b (k0_off4 k) _ (off4_at k) (k0_off8 k) _
      (by rw [k0_off8_eq]; rfl) (by rw [k0_off8_eq]; exact (Nat.zero_add _).symm) _ (row2_toNat k) _ _
      (Memref.read_access_whole _ _ _) (Memref.read_access_whole _ _ _) _ _ rfl rfl _ _
  · exact piece_ok 0 k.val hk (by decide) 4 (by decide) SID a b (k0_off4 k) _ (off4_at k) (k0_off9 k) _
      (by rw [k0_off9_eq]; rfl) (by rw [k0_off9_eq]; exact (Nat.zero_add _).symm) _ (row2_toNat k) _ _
      (Memref.read_access_whole _ _ _) (Memref.read_access_whole _ _ _) _ _ rfl rfl _ _
  · exact piece_ok 0 k.val hk (by decide) 5 (by decide) SID a b (k0_off4 k) _ (off4_at k) (k0_off10 k) _
      (by rw [k0_off10_eq]; rfl) (by rw [k0_off10_eq]; exact (Nat.zero_add _).symm) _ (row2_toNat k) _ _
      (Memref.read_access_whole _ _ _) (Memref.read_access_whole _ _ _) _ _ rfl rfl _ _
  · exact piece_ok 0 k.val hk (by decide) 6 (by decide) SID a b (k0_off4 k) _ (off4_at k) (k0_off11 k) _
      (by rw [k0_off11_eq]; rfl) (by rw [k0_off11_eq]; exact (Nat.zero_add _).symm) _ (row2_toNat k) _ _
      (Memref.read_access_whole _ _ _) (Memref.read_access_whole _ _ _) _ _ rfl rfl _ _
  · exact piece_ok 0 k.val hk (by decide) 7 (by decide) SID a b (k0_off4 k) _ (off4_at k) (k0_off12 k) _
      (by rw [k0_off12_eq]; rfl) (by rw [k0_off12_eq]; exact (Nat.zero_add _).symm) _ (row2_toNat k) _ _
      (Memref.read_access_whole _ _ _) (Memref.read_access_whole _ _ _) _ _ rfl rfl _ _
  · exact piece_ok 0 k.val hk (by decide) 8 (by decide) SID a b (k0_off4 k) _ (off4_at k) (k0_off13 k) _
      (by rw [k0_off13_eq]; rfl) (by rw [k0_off13_eq]; exact (Nat.zero_add _).symm) _ (row2_toNat k) _ _
      (Memref.read_access_whole _ _ _) (Memref.read_access_whole _ _ _) _ _ rfl rfl _ _
  · exact piece_ok 0 k.val hk (by decide) 9 (by decide) SID a b (k0_off4 k) _ (off4_at k) (k0_off14 k) _
      (by rw [k0_off14_eq]; rfl) (by rw [k0_off14_eq]; exact (Nat.zero_add _).symm) _ (row2_toNat k) _ _
      (Memref.read_access_whole _ _ _) (Memref.read_access_whole _ _ _) _ _ rfl rfl _ _
  · exact piece_ok 0 k.val hk (by decide) 10 (by decide) SID a b (k0_off4 k) _ (off4_at k) (k0_off15 k) _
      (by rw [k0_off15_eq]; rfl) (by rw [k0_off15_eq]; exact (Nat.zero_add _).symm) _ (row2_toNat k) _ _
      (Memref.read_access_whole _ _ _) (Memref.read_access_whole _ _ _) _ _ rfl rfl _ _
  · exact piece_ok 0 k.val hk (by decide) 11 (by decide) SID a b (k0_off4 k) _ (off4_at k) (k0_off16 k) _
      (by rw [k0_off16_eq]; rfl) (by rw [k0_off16_eq]; exact (Nat.zero_add _).symm) _ (row2_toNat k) _ _
      (Memref.read_access_whole _ _ _) (Memref.read_access_whole _ _ _) _ _ rfl rfl _ _
  · exact piece_ok 0 k.val hk (by decide) 12 (by decide) SID a b (k0_off4 k) _ (off4_at k) (k0_off17 k) _
      (by rw [k0_off17_eq]; rfl) (by rw [k0_off17_eq]; exact (Nat.zero_add _).symm) _ (row2_toNat k) _ _
      (Memref.read_access_whole _ _ _) (Memref.read_access_whole _ _ _) _ _ rfl rfl _ _
  · exact piece_ok 0 k.val hk (by decide) 13 (by decide) SID a b (k0_off4 k) _ (off4_at k) (k0_off18 k) _
      (by rw [k0_off18_eq]; rfl) (by rw [k0_off18_eq]; exact (Nat.zero_add _).symm) _ (row2_toNat k) _ _
      (Memref.read_access_whole _ _ _) (Memref.read_access_whole _ _ _) _ _ rfl rfl _ _
  · exact piece_ok 0 k.val hk (by decide) 14 (by decide) SID a b (k0_off4 k) _ (off4_at k) (k0_off19 k) _
      (by rw [k0_off19_eq]; rfl) (by rw [k0_off19_eq]; exact (Nat.zero_add _).symm) _ (row2_toNat k) _ _
      (Memref.read_access_whole _ _ _) (Memref.read_access_whole _ _ _) _ _ rfl rfl _ _
  · exact piece_ok 0 k.val hk (by decide) 15 (by decide) SID a b (k0_off4 k) _ (off4_at k) (k0_off20 k) _
      (by rw [k0_off20_eq]; rfl) (by rw [k0_off20_eq]; exact (Nat.zero_add _).symm) _ (row2_toNat k) _ _
      (Memref.read_access_whole _ _ _) (Memref.read_access_whole _ _ _) _ _ rfl rfl _ _

/-- A trip of the loop over the last 256 positions. -/
theorem t3_step [FloatOps F] : T3Step (F := F) := by
  intro d L k SID a b o
  have hk : k.val < 16 := lt_of_lt_of_eq k.isLt trips3
  iintro ⟨Hs0, Hs3, Hs4, Hs5⟩
  sl_exec (disch := exact chk_ok _ _ _ (by decide) (row3_lt k))
  col3; col3; col3; col3; col3; col3; col3; col3
  col3; col3; col3; col3; col3; col3; col3; col3
  give_back
  refine stepOK_of_pieces 256 k.val SID a b o _ _ _ _ _ _ _ _ _ _ _ _ _ _ _ _
    ?_ ?_ ?_ ?_ ?_ ?_ ?_ ?_ ?_ ?_ ?_ ?_ ?_ ?_ ?_ ?_
  · exact piece_ok 256 k.val hk (by decide) 0 (by decide) SID a b (k0_off21 k) _ (off21_at k) (k0_off22 k) _
      (by rw [k0_off22_eq]; rfl) (by rw [k0_off22_eq]; exact Nat.add_comm _ _) _ (row3_toNat k) _ _
      (Memref.read_access_whole _ _ _) (Memref.read_access_whole _ _ _) _ _ rfl rfl _ _
  · exact piece_ok 256 k.val hk (by decide) 1 (by decide) SID a b (k0_off21 k) _ (off21_at k) (k0_off23 k) _
      (by rw [k0_off23_eq]; rfl) (by rw [k0_off23_eq]; exact Nat.add_comm _ _) _ (row3_toNat k) _ _
      (Memref.read_access_whole _ _ _) (Memref.read_access_whole _ _ _) _ _ rfl rfl _ _
  · exact piece_ok 256 k.val hk (by decide) 2 (by decide) SID a b (k0_off21 k) _ (off21_at k) (k0_off24 k) _
      (by rw [k0_off24_eq]; rfl) (by rw [k0_off24_eq]; exact Nat.add_comm _ _) _ (row3_toNat k) _ _
      (Memref.read_access_whole _ _ _) (Memref.read_access_whole _ _ _) _ _ rfl rfl _ _
  · exact piece_ok 256 k.val hk (by decide) 3 (by decide) SID a b (k0_off21 k) _ (off21_at k) (k0_off25 k) _
      (by rw [k0_off25_eq]; rfl) (by rw [k0_off25_eq]; exact Nat.add_comm _ _) _ (row3_toNat k) _ _
      (Memref.read_access_whole _ _ _) (Memref.read_access_whole _ _ _) _ _ rfl rfl _ _
  · exact piece_ok 256 k.val hk (by decide) 4 (by decide) SID a b (k0_off21 k) _ (off21_at k) (k0_off26 k) _
      (by rw [k0_off26_eq]; rfl) (by rw [k0_off26_eq]; exact Nat.add_comm _ _) _ (row3_toNat k) _ _
      (Memref.read_access_whole _ _ _) (Memref.read_access_whole _ _ _) _ _ rfl rfl _ _
  · exact piece_ok 256 k.val hk (by decide) 5 (by decide) SID a b (k0_off21 k) _ (off21_at k) (k0_off27 k) _
      (by rw [k0_off27_eq]; rfl) (by rw [k0_off27_eq]; exact Nat.add_comm _ _) _ (row3_toNat k) _ _
      (Memref.read_access_whole _ _ _) (Memref.read_access_whole _ _ _) _ _ rfl rfl _ _
  · exact piece_ok 256 k.val hk (by decide) 6 (by decide) SID a b (k0_off21 k) _ (off21_at k) (k0_off28 k) _
      (by rw [k0_off28_eq]; rfl) (by rw [k0_off28_eq]; exact Nat.add_comm _ _) _ (row3_toNat k) _ _
      (Memref.read_access_whole _ _ _) (Memref.read_access_whole _ _ _) _ _ rfl rfl _ _
  · exact piece_ok 256 k.val hk (by decide) 7 (by decide) SID a b (k0_off21 k) _ (off21_at k) (k0_off29 k) _
      (by rw [k0_off29_eq]; rfl) (by rw [k0_off29_eq]; exact Nat.add_comm _ _) _ (row3_toNat k) _ _
      (Memref.read_access_whole _ _ _) (Memref.read_access_whole _ _ _) _ _ rfl rfl _ _
  · exact piece_ok 256 k.val hk (by decide) 8 (by decide) SID a b (k0_off21 k) _ (off21_at k) (k0_off30 k) _
      (by rw [k0_off30_eq]; rfl) (by rw [k0_off30_eq]; exact Nat.add_comm _ _) _ (row3_toNat k) _ _
      (Memref.read_access_whole _ _ _) (Memref.read_access_whole _ _ _) _ _ rfl rfl _ _
  · exact piece_ok 256 k.val hk (by decide) 9 (by decide) SID a b (k0_off21 k) _ (off21_at k) (k0_off31 k) _
      (by rw [k0_off31_eq]; rfl) (by rw [k0_off31_eq]; exact Nat.add_comm _ _) _ (row3_toNat k) _ _
      (Memref.read_access_whole _ _ _) (Memref.read_access_whole _ _ _) _ _ rfl rfl _ _
  · exact piece_ok 256 k.val hk (by decide) 10 (by decide) SID a b (k0_off21 k) _ (off21_at k) (k0_off32 k) _
      (by rw [k0_off32_eq]; rfl) (by rw [k0_off32_eq]; exact Nat.add_comm _ _) _ (row3_toNat k) _ _
      (Memref.read_access_whole _ _ _) (Memref.read_access_whole _ _ _) _ _ rfl rfl _ _
  · exact piece_ok 256 k.val hk (by decide) 11 (by decide) SID a b (k0_off21 k) _ (off21_at k) (k0_off33 k) _
      (by rw [k0_off33_eq]; rfl) (by rw [k0_off33_eq]; exact Nat.add_comm _ _) _ (row3_toNat k) _ _
      (Memref.read_access_whole _ _ _) (Memref.read_access_whole _ _ _) _ _ rfl rfl _ _
  · exact piece_ok 256 k.val hk (by decide) 12 (by decide) SID a b (k0_off21 k) _ (off21_at k) (k0_off34 k) _
      (by rw [k0_off34_eq]; rfl) (by rw [k0_off34_eq]; exact Nat.add_comm _ _) _ (row3_toNat k) _ _
      (Memref.read_access_whole _ _ _) (Memref.read_access_whole _ _ _) _ _ rfl rfl _ _
  · exact piece_ok 256 k.val hk (by decide) 13 (by decide) SID a b (k0_off21 k) _ (off21_at k) (k0_off35 k) _
      (by rw [k0_off35_eq]; rfl) (by rw [k0_off35_eq]; exact Nat.add_comm _ _) _ (row3_toNat k) _ _
      (Memref.read_access_whole _ _ _) (Memref.read_access_whole _ _ _) _ _ rfl rfl _ _
  · exact piece_ok 256 k.val hk (by decide) 14 (by decide) SID a b (k0_off21 k) _ (off21_at k) (k0_off36 k) _
      (by rw [k0_off36_eq]; rfl) (by rw [k0_off36_eq]; exact Nat.add_comm _ _) _ (row3_toNat k) _ _
      (Memref.read_access_whole _ _ _) (Memref.read_access_whole _ _ _) _ _ rfl rfl _ _
  · exact piece_ok 256 k.val hk (by decide) 15 (by decide) SID a b (k0_off21 k) _ (off21_at k) (k0_off37 k) _
      (by rw [k0_off37_eq]; rfl) (by rw [k0_off37_eq]; exact Nat.add_comm _ _) _ (row3_toNat k) _ _
      (Memref.read_access_whole _ _ _) (Memref.read_access_whole _ _ _) _ _ rfl rfl _ _

end Cert.Proof.KernelIdealRun

end
-- ==== Proof.BodyMathI.lean ====
/-
  The arithmetic of one subcore's task, apart from the run.

  Subcore L handles the 512 batch positions from base L.  Its identifier scratch holds identifiers base L … base L + 511;
  a row list holds those identifiers shifted right by three, which for an identifier in range is the row of the
  reshaped table that holds its row (eight table rows to a reshaped row); a gathered block therefore holds, in row jj,
  the reshaped-table row of identifier off + jj; a trip of the picking loop turns that row into the sixteen
  coordinates at the lanes (id mod 8)·16 + c, which are exactly the looked-up sums; and the block written out whole
  is the result array on the subcore's columns.
-/
import proofs.«209984_g46995532152932_cont_8to1c4_465_20_alg».proof.Proof.Step1IfaceI
import proofs.«209984_g46995532152932_cont_8to1c4_465_20_alg».proof.Proof.PreDecode

noncomputable section

namespace Cert.Proof.KernelIdealRun

open Cert.KernelIdeal Cert.KernelIdeal.Gen

open Idealize.ShloMosaic Idealize.ShloMosaic.ValueIdx
open Idealize.ShloMosaic.SparseCore (S V T)
open Idealize.SL Idealize.SL.RA Idealize.SL.BI

variable {F : FTy → Type}

section Facts
variable (L : grid0.Coords) (ids : IVec S16384 32) (TA TB : FVec F S125000x128 .f32)

/-- The identifier scratch holds the subcore's 512 identifiers. -/
def SIDok (SID : IVec S512 32) : Prop :=
  ∀ j : Fin 512, SID (ix1 j) = ids (ix1 (⟨(base L + j.val) % 16384, Nat.mod_lt _ (by decide)⟩ : Fin 16384))

/-- A row list holds, up to position 16k, the identifiers of its half shifted right by three. -/
def RowsUpTo (off k : Nat) (SID : IVec S512 32) (r : IVec S256 32) : Prop :=
  ∀ j : Fin 256, j.val < 16 * k →
    r (ix1 j) = IntOp.shrsi .vector (SID (ix1 (⟨(off + j.val) % 512, Nat.mod_lt _ (by decide)⟩ : Fin 512))) 3#32

/-- A gathered block holds, in row jj, the reshaped table's row that identifier off + jj of the subcore names. -/
def BlkOK (off : Nat) (T : FVec F S125000x128 .f32) (a : FVec F S256x128 .f32) : Prop :=
  ∀ (jj : Fin 256) (l : Fin 128),
    a (ix2 jj l) = T (ix2 (⟨(Cert.Spec.row ids (⟨(base L + off + jj.val) % 16384, Nat.mod_lt _ (by decide)⟩ : Fin 16384)).val / 8,
      by have := (Cert.Spec.row ids (⟨(base L + off + jj.val) % 16384, Nat.mod_lt _ (by decide)⟩ : Fin 16384)).isLt; omega⟩ : Fin 125000) l)

/-- The result scratch holds the looked-up sums at the positions below `hi`. -/
def OutDone [FloatOps F] (hi : Nat) (o : FVec F S16x512 .f32) : Prop :=
  ∀ (c : Fin 16) (jj : Fin 512), jj.val < hi →
    o (ix2 c jj) = outAt ids TA TB c (⟨(base L + jj.val) % 16384, Nat.mod_lt _ (by decide)⟩ : Fin 16384)

theorem trips_t1 : Scf.trips k0_t1_loop.lb k0_t1_loop.ub k0_t1_loop.st = 16 := by decide
theorem trips_t2 : Scf.trips k0_t2_loop.lb k0_t2_loop.ub k0_t2_loop.st = 16 := by decide
theorem trips_t3 : Scf.trips k0_t3_loop.lb k0_t3_loop.ub k0_t3_loop.st = 16 := by decide

theorem base_le : base L + 512 ≤ 16384 := by
  have h0 : (L 0).val < 2 := (L 0).isLt
  have h1 : (L 1).val < 16 := (L 1).isLt
  unfold base; omega

theorem rows_step {off k : Nat} {SID : IVec S512 32} {r r' : IVec S256 32}
    (h : RowsUpTo off k SID r) (h' : RowOK off k SID r r') : RowsUpTo off (k + 1) SID r' := by
  intro j hj
  by_cases hc : 16 * k ≤ j.val ∧ j.val < 16 * k + 16
  · exact (h' j).1 hc
  · rw [(h' j).2 hc]; exact h j (by omega)

theorem rows_zero {off : Nat} {SID : IVec S512 32} {r : IVec S256 32} : RowsUpTo off 0 SID r := by
  intro j hj; omega

/-- A table read at equal coordinates. -/
theorem bm_T_congr {n0 n1 : Nat} {α : Type} (T : (⟨2, ![n0, n1]⟩ : Shape).Idx → α) {r1 r2 : Fin n0} {l1 l2 : Fin n1}
    (hr : r1.val = r2.val) (hl : l1.val = l2.val) : T (ix2 r1 l1) = T (ix2 r2 l2) := by
  rw [Fin.ext hr, Fin.ext hl]

theorem sidok_init (s0 : IVec S512 32) :
    SIDok L ids ((sId).view.write (Elt F) s0 (ReadAs.same.apply (View.read (Elt F) (idSl L).view ids)) Finset.univ) := by
  intro j
  have hbl := base_le L
  have hj := j.isLt
  have hw : (sId).view.write (Elt F) s0 (ReadAs.same.apply (View.read (Elt F) (idSl L).view ids)) Finset.univ
      = ReadAs.same.apply (View.read (Elt F) (idSl L).view ids) := by
    show View.write (Elt F) (View.whole cc0_scratch0) s0 (ReadAs.same.apply (View.read (Elt F) (idSl L).view ids)) Finset.univ = _
    exact View.write_whole_univ cc0_scratch0 _ _
  rw [hw]
  show ids ((Rect.unit (s := S16384) (k0_off1 L) S512.size (k0_off1_inb L)).emb (ix1 j)) = _
  congr 1
  funext a; refine Fin.ext ?_
  match a with
  | ⟨0, _⟩ =>
    have e : (k0_off1 L) 0 = 1024 * (L 1).val + 512 * (L 0).val := congrFun (k0_off1_eq L) 0
    show (k0_off1 L) 0 + 1 * j.val = (base L + j.val) % 16384
    unfold base at hbl ⊢
    rw [Nat.mod_eq_of_lt (by omega)]; omega

theorem rows_lt (hpre : Cert.Spec.InRange ids) {off : Nat} (hoff : off + 256 ≤ 512) {SID : IVec S512 32} {r : IVec S256 32}
    (hS : SIDok L ids SID) (hr : RowsUpTo off 16 SID r) (j : Fin 256) :
    (r (ix1 j)).toNat = (Cert.Spec.row ids (⟨(base L + off + j.val) % 16384, Nat.mod_lt _ (by decide)⟩ : Fin 16384)).val / 8
      ∧ (r (ix1 j)).toNat < 125000 := by
  have hj := j.isLt
  have hb := base_le L
  -- the identifier the entry was made from
  have hidx : (⟨(base L + (⟨(off + j.val) % 512, Nat.mod_lt _ (by decide)⟩ : Fin 512).val) % 16384, Nat.mod_lt _ (by decide)⟩ : Fin 16384)
      = (⟨(base L + off + j.val) % 16384, Nat.mod_lt _ (by decide)⟩ : Fin 16384) := by
    refine Fin.ext ?_
    show (base L + (off + j.val) % 512) % 16384 = (base L + off + j.val) % 16384
    rw [Nat.mod_eq_of_lt (by omega : off + j.val < 512), Nat.add_assoc]
  have hx := Cert.PreDecode.toNat_le_of_inRange hpre (⟨(base L + off + j.val) % 16384, Nat.mod_lt _ (by decide)⟩ : Fin 16384)
  rw [hr j (by omega), hS, hidx]
  refine ⟨?_, Cert.PreDecode.shrsi_three_lt .vector _ hx⟩
  rw [Cert.PreDecode.shrsi_three_toNat .vector _ hx, Cert.Spec.row_val_of_inRange hpre]

theorem hin_sR0 (r : IVec S256 32) (h : ∀ j : Fin 256, (r (ix1 j)).toNat < 125000) :
    ∀ x, ((sR0).view.read (Elt F) r x).toNat < S125000x128.size gathers_S125000x128_S256x128.axis := by
  intro x
  rw [eq_ix1 x]
  exact h (x 0)
theorem hin_sR1 (r : IVec S256 32) (h : ∀ j : Fin 256, (r (ix1 j)).toNat < 125000) :
    ∀ x, ((sR1).view.read (Elt F) r x).toNat < S125000x128.size gathers_S125000x128_S256x128.axis := by
  intro x
  rw [eq_ix1 x]
  exact h (x 0)

/-- The gather's payload at row `jj`, lane `l` of the block: the source at the row entry `jj` of the list names, same lane. -/
theorem bm_payload_read (hg : S125000x128.Gathers 0 S256x128) (g : S125000x128.Idx → Elt F .f32)
    (idx : S256.Idx → Elt F .i32) (hn : S256.numel = S256x128.size hg.axis')
    (hin : ∀ x, (idx x).toNat < S125000x128.size hg.axis) (jj : Fin 256) (l : Fin 128) :
    SparseCore.gatherPayload hg g (SparseCore.rows idx hn hin) (ix2 jj l)
      = g (ix2 (⟨(idx (ix1 jj)).toNat, hin (ix1 jj)⟩ : Fin 125000) l) := by
  unfold SparseCore.gatherPayload
  congr 1
  funext b; refine Fin.ext ?_
  match b with
  | ⟨0, _⟩ =>
    have h := Shape.Gathers.idx_axis hg (SparseCore.rows idx hn hin) (ix2 jj l)
    show ((hg.idx (SparseCore.rows idx hn hin) (ix2 jj l)) hg.axis).val = (idx (ix1 jj)).toNat
    rw [h]
    show (idx (S256.rowMajor.symm ((((ix2 jj l : S256x128.Idx) hg.axis').cast hn.symm)))).toNat = _
    congr 2
    rw [Equiv.symm_apply_eq]
    refine Fin.ext ?_
    rw [Shape.rowMajor_val_one]
    rfl
  | ⟨1, _⟩ =>
    exact Shape.Gathers.idx_of_ne hg (SparseCore.rows idx hn hin) (ix2 jj l) ⟨1, by decide⟩ (by decide)

/-- Placing an index through the rectangle that is the whole table gives the index back. -/
theorem bm_whole_rect_emb (hs : ∀ a, (![0, 0] : Fin 2 → Nat) a + S125000x128.size a ≤ S125000x128.size a)
    (x : S125000x128.Idx) : (Rect.unit (s := S125000x128) ![0, 0] S125000x128.size hs).emb x = x := by
  funext a; refine Fin.ext ?_
  match a with
  | ⟨0, _⟩ => show 0 + 1 * (x 0).val = (x 0).val; omega
  | ⟨1, _⟩ => show 0 + 1 * (x 1).val = (x 1).val; omega

/-- A block whose row `jj` is the table's row that entry `jj` of a completed row list names holds, in row `jj`, the
    reshaped-table row of identifier `off + jj`. -/
theorem blk_of_payload (off : Nat) (hoff : off + 256 ≤ 512) (T : FVec F S125000x128 .f32) (hpre : Cert.Spec.InRange ids)
    {SID : IVec S512 32} {r : IVec S256 32} (hS : SIDok L ids SID) (hr : RowsUpTo off 16 SID r) (a : FVec F S256x128 .f32)
    (hlt : ∀ jj : Fin 256, (r (ix1 jj)).toNat < 125000)
    (ha : ∀ (jj : Fin 256) (l : Fin 128), a (ix2 jj l) = T (ix2 (⟨(r (ix1 jj)).toNat, hlt jj⟩ : Fin 125000) l)) :
    BlkOK L ids off T a := by
  intro jj l
  rw [ha jj l]
  exact bm_T_congr T (rows_lt L ids hpre hoff hS hr jj).1 rfl

/-- A scratch block written whole holds what was written (first block scratch). -/
theorem bm_written_A (f0 : (sA).view.ty.Contents (Elt F)) (w : S256x128.Idx → Elt F .f32) :
    (sA).view.writes (Elt F) f0 [⟨Rect.whole S256x128, w⟩] = w :=
  (View.read_whole cc0_scratch3 _).symm.trans (View.read_writes_whole (sA).view f0 w)
/-- The same for the second block scratch. -/
theorem bm_written_B (f0 : (sB).view.ty.Contents (Elt F)) (w : S256x128.Idx → Elt F .f32) :
    (sB).view.writes (Elt F) f0 [⟨Rect.whole S256x128, w⟩] = w :=
  (View.read_whole cc0_scratch4 _).symm.trans (View.read_writes_whole (sB).view f0 w)

section Blocks
variable (T : FVec F S125000x128 .f32) (hpre : Cert.Spec.InRange ids) {SID : IVec S512 32} {r : IVec S256 32} (hS : SIDok L ids SID)
  (hsl : ∀ a, (Rect.unit (s := S125000x128) ![0, 0] S125000x128.size inb_S125000x128_S125000x128_0_0).stride a = 1)
  (hn : S256.numel = S256x128.size gathers_S125000x128_S256x128.axis')
include hpre hS

/-- The first table gathered through the first row list, over any prior contents `f0` of the scratch. -/
theorem blk_A0 (hr : RowsUpTo 0 16 SID r) (f0 : (sA).view.ty.Contents (Elt F))
    (hin : ∀ x, ((sR0).view.read (Elt F) r x).toNat < S125000x128.size gathers_S125000x128_S256x128.axis) :
    BlkOK L ids 0 T ((sA).view.writes (Elt F) f0 [⟨Rect.whole S256x128,
      SparseCore.gatherPayload gathers_S125000x128_S256x128
        (View.read (Elt F) ((aV).slice (Rect.unit (s := S125000x128) ![0, 0] S125000x128.size inb_S125000x128_S125000x128_0_0) hsl).view T)
        (SparseCore.rows (View.read (Elt F) (sR0).view r) hn hin)⟩]) := by
  rw [bm_written_A]
  refine blk_of_payload L ids 0 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

/-- The second table gathered through the first row list. -/
theorem blk_B0 (hr : RowsUpTo 0 16 SID r) (f0 : (sB).view.ty.Contents (Elt F))
    (hin : ∀ x, ((sR0).view.read (Elt F) r x).toNat < S125000x128.size gathers_S125000x128_S256x128.axis) :
    BlkOK L ids 0 T ((sB).view.writes (Elt F) f0 [⟨Rect.whole S256x128,
      SparseCore.gatherPayload gathers_S125000x128_S256x128
        (View.read (Elt F) ((bV).slice (Rect.unit (s := S125000x128) ![0, 0] S125000x128.size inb_S125000x128_S125000x128_0_0) hsl).view T)
        (SparseCore.rows (View.read (Elt F) (sR0).view r) hn hin)⟩]) := by
  rw [bm_written_B]
  refine blk_of_payload L ids 0 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

/-- The first table gathered through the second row list. -/
theorem blk_A1 (hr : RowsUpTo 256 16 SID r) (f0 : (sA).view.ty.Contents (Elt F))
    (hin : ∀ x, ((sR1).view.read (Elt F) r x).toNat < S125000x128.size gathers_S125000x128_S256x128.axis) :
    BlkOK L ids 256 T ((sA).view.writes (Elt F) f0 [⟨Rect.whole S256x128,
      SparseCore.gatherPayload gathers_S125000x128_S256x128
        (View.read (Elt F) ((aV).slice (Rect.unit (s := S125000x128) ![0, 0] S125000x128.size inb_S125000x128_S125000x128_0_0) hsl).view T)
        (SparseCore.rows (View.read (Elt F) (sR1).view r) hn hin)⟩]) := by
  rw [bm_written_A]
  refine blk_of_payload L ids 256 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

/-- The second table gathered through the second row list. -/
theorem blk_B1 (hr : RowsUpTo 256 16 SID r) (f0 : (sB).view.ty.Contents (Elt F))
    (hin : ∀ x, ((sR1).view.read (Elt F) r x).toNat < S125000x128.size gathers_S125000x128_S256x128.axis) :
    BlkOK L ids 256 T ((sB).view.writes (Elt F) f0 [⟨Rect.whole S256x128,
      SparseCore.gatherPayload gathers_S125000x128_S256x128
        (View.read (Elt F) ((bV).slice (Rect.unit (s := S125000x128) ![0, 0] S125000x128.size inb_S125000x128_S125000x128_0_0) hsl).view T)
        (SparseCore.rows (View.read (Elt F) (sR1).view r) hn hin)⟩]) := by
  rw [bm_written_B]
  refine blk_of_payload L ids 256 (by omega) T hpre hS hr _ (fun jj => hin (ix1 jj)) fun jj l => ?_
  rw [bm_payload_read]
  show T ((Rect.unit (s := S125000x128) ![0, 0] S125000x128.size inb_S125000x128_S125000x128_0_0).emb
    (ix2 (⟨(r (ix1 jj)).toNat, hin (ix1 jj)⟩ : Fin 125000) l)) = _
  rw [bm_whole_rect_emb]

end Blocks

theorem out_step [FloatOps F] {off k : Nat} (hoff : off = 0 ∨ off = 256) (hk : k < 16) {SID : IVec S512 32} {a b : FVec F S256x128 .f32}
    {o o' : FVec F S16x512 .f32} (hpre : Cert.Spec.InRange ids)
    (hS : SIDok L ids SID) (ha : BlkOK L ids off TA a) (hb : BlkOK L ids off TB b)
    (ho : OutDone L ids TA TB (off + 16 * k) o) (h : StepOK off k SID a b o o') :
    OutDone L ids TA TB (off + 16 * (k + 1)) o' := by
  intro c jj hjj
  have hbl := base_le L
  have hjj' := jj.isLt
  by_cases hc : off + 16 * k ≤ jj.val ∧ jj.val < off + 16 * k + 16
  · -- a position of this trip: the sum picked out of the two gathered blocks
    have hJ : (⟨(base L + off + (jj.val - off) % 256) % 16384, Nat.mod_lt _ (by decide)⟩ : Fin 16384)
        = (⟨(base L + jj.val) % 16384, Nat.mod_lt _ (by decide)⟩ : Fin 16384) := by
      refine Fin.ext ?_
      show (base L + off + (jj.val - off) % 256) % 16384 = (base L + jj.val) % 16384
      have : base L + off + (jj.val - off) % 256 = base L + jj.val := by omega
      rw [this]
    have hrow : (SID (ix1 jj)).toNat
        = (Cert.Spec.row ids (⟨(base L + jj.val) % 16384, Nat.mod_lt _ (by decide)⟩ : Fin 16384)).val := by
      rw [hS jj, Cert.Spec.row_val_of_inRange hpre]
    have h1 : (Cert.Spec.row ids (⟨(base L + off + (jj.val - off) % 256) % 16384, Nat.mod_lt _ (by decide)⟩ : Fin 16384)).val / 8
        = (Cert.Spec.row ids (⟨(base L + jj.val) % 16384, Nat.mod_lt _ (by decide)⟩ : Fin 16384)).val / 8 := by rw [hJ]
    have h2 : ((SID (ix1 jj)).toNat % 8) * 16 + c.val
        = ((Cert.Spec.row ids (⟨(base L + jj.val) % 16384, Nat.mod_lt _ (by decide)⟩ : Fin 16384)).val % 8) * 16 + c.val := by rw [hrow]
    rw [(h c jj).1 hc, ha, hb]
    unfold outAt
    exact congrArg₂ FloatOps.addf (bm_T_congr TA h1 h2) (bm_T_congr TB h1 h2)
  · -- an earlier position: kept
    rw [(h c jj).2 hc]
    exact ho c jj (by omega)

theorem out_final [FloatOps F] (fO : FVec F S16x16384 .f32) (o : FVec F S16x512 .f32) (ho : OutDone L ids TA TB 512 o) :
    OutOK ids TA TB (oSet L)
      ((oSl L).view.writes (Elt F) fO [⟨Rect.whole S16x512, ReadAs.same.apply (View.read (Elt F) (sO).view o)⟩]) := by
  intro c j hmem
  have hbl := base_le L
  -- the element is one the block's view names: its inner index
  obtain ⟨y, -, hy⟩ := Finset.mem_map.mp hmem
  have hread := congrFun (View.read_writes_whole (oSl L).view fO (ReadAs.same.apply (View.read (Elt F) (sO).view o))) y
  rw [View.read_apply, hy] at hread
  have hwo : ReadAs.same.apply (View.read (Elt F) (sO).view o) y = o y := rfl
  rw [hwo] at hread
  generalize (oSl L).view.writes (Elt F) fO [⟨Rect.whole S16x512, ReadAs.same.apply (View.read (Elt F) (sO).view o)⟩] (ix2 c j) = X at hread ⊢
  have hw : X = o y := hread
  -- its coordinates: the row, and the column less the block's first
  have e0 : (k0_off38 L) 0 = 0 := congrFun (k0_off38_eq L) 0
  have e1 : (k0_off38 L) 1 = 1024 * (L 1).val + 512 * (L 0).val := congrFun (k0_off38_eq L) 1
  have h0 : (k0_off38 L) 0 + 1 * (y 0).val = c.val := congrArg (fun i : S16x16384.Idx => (i 0).val) hy
  have h1 : (k0_off38 L) 1 + 1 * (y 1).val = j.val := congrArg (fun i : S16x16384.Idx => (i 1).val) hy
  have hy1 := idx2_lt1 y
  have ec : (y 0 : Fin 16) = c := Fin.ext (by omega)
  have ej : (⟨(base L + (y 1).val) % 16384, Nat.mod_lt _ (by decide)⟩ : Fin 16384) = j := by
    refine Fin.ext ?_
    show (base L + (y 1).val) % 16384 = j.val
    unfold base at hbl ⊢
    rw [Nat.mod_eq_of_lt (by omega)]; omega
  have hfin : outAt ids TA TB (y 0) (⟨(base L + (y 1).val) % 16384, Nat.mod_lt _ (by decide)⟩ : Fin 16384)
      = outAt ids TA TB c j := congrArg₂ (outAt ids TA TB) ec ej
  exact hw.trans ((congrArg o (eq_ix2 y)).trans ((ho (y 0) (y 1) hy1).trans hfin))

end Facts

end Cert.Proof.KernelIdealRun

end
-- ==== Proof.BodyI.lean ====
/-
  One vector subcore's task, run from its resources to what it gives back.
  The task copies its 512 identifiers into scratch; fills two row lists with the identifiers shifted right by three
  (a 128-lane row of a reshaped table holds eight consecutive 16-wide rows, so identifier n lives in row n / 8 at lanes
  (n mod 8)·16 … +15); for each half of 256 it gathers the 256 named rows of both reshaped tables into two scratch
  blocks and, sixteen positions at a time, picks the sixteen coordinates out of both blocks, adds them and stores the
  sums into the result scratch; finally it copies the result scratch into its block of the transposed result.
  Each loop is taken through by an invariant: the row lists are right up to position 16k; the result scratch holds
  the looked-up sums below position 16k (then 256 + 16k).  The two gathers of a half share one row list, so each
  holds half of the list's points-to while in flight.
-/
import proofs.«209984_g46995532152932_cont_8to1c4_465_20_alg».proof.Proof.BodyMathI

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

section Tile
variable (d : Dev nD) (L : grid0.Coords)

omit [FloatOps F] in
theorem pts_id (q : PosShare TreeShare) (f : Buf (Elt F) (idLoc d)) :
    ((idV).view.loc (V d (cV L) (jV L)) ↦{q} f : sProp 𝕄) = idLoc d ↦{q} f := by
  simp only [Memref.view_whole, View.set_whole]
omit [FloatOps F] in
theorem pts_a (q : PosShare TreeShare) (f : Buf (Elt F) (aLoc d)) :
    ((aV).view.loc (V d (cV L) (jV L)) ↦{q} f : sProp 𝕄) = aLoc d ↦{q} f := by
  simp only [Memref.view_whole, View.set_whole]
omit [FloatOps F] in
theorem pts_b (q : PosShare TreeShare) (f : Buf (Elt F) (bLoc d)) :
    ((bV).view.loc (V d (cV L) (jV L)) ↦{q} f : sProp 𝕄) = bLoc d ↦{q} f := by
  simp only [Memref.view_whole, View.set_whole]
omit [FloatOps F] in
theorem pts_o (f : Buf (Elt F) (oLoc d)) :
    ((oSl L).view.loc (V d (cV L) (jV L)) ↦[(oSl L).view.set]{fullShare} f : sProp 𝕄) = oLoc d ↦[oSet L]{fullShare} f := rfl
omit [FloatOps F] in
theorem pts_sId (f : Buf (Elt F) ((V d (cV L) (jV L)).loc cc0_scratch0)) :
    ((sId).view.loc (V d (cV L) (jV L)) ↦{fullShare} f : sProp 𝕄) = (V d (cV L) (jV L)).loc cc0_scratch0 ↦{fullShare} f := rfl
omit [FloatOps F] in
theorem pts_sR0 (f : Buf (Elt F) ((V d (cV L) (jV L)).loc cc0_scratch1)) :
    ((sR0).view.loc (V d (cV L) (jV L)) ↦{fullShare} f : sProp 𝕄) = (V d (cV L) (jV L)).loc cc0_scratch1 ↦{fullShare} f := rfl
omit [FloatOps F] in
theorem pts_sR1 (f : Buf (Elt F) ((V d (cV L) (jV L)).loc cc0_scratch2)) :
    ((sR1).view.loc (V d (cV L) (jV L)) ↦{fullShare} f : sProp 𝕄) = (V d (cV L) (jV L)).loc cc0_scratch2 ↦{fullShare} f := rfl
omit [FloatOps F] in
theorem pts_sA (f : Buf (Elt F) ((V d (cV L) (jV L)).loc cc0_scratch3)) :
    ((sA).view.loc (V d (cV L) (jV L)) ↦{fullShare} f : sProp 𝕄) = (V d (cV L) (jV L)).loc cc0_scratch3 ↦{fullShare} f := rfl
omit [FloatOps F] in
theorem pts_sB (f : Buf (Elt F) ((V d (cV L) (jV L)).loc cc0_scratch4)) :
    ((sB).view.loc (V d (cV L) (jV L)) ↦{fullShare} f : sProp 𝕄) = (V d (cV L) (jV L)).loc cc0_scratch4 ↦{fullShare} f := rfl
omit [FloatOps F] in
theorem pts_sO (f : Buf (Elt F) ((V d (cV L) (jV L)).loc cc0_scratch5)) :
    ((sO).view.loc (V d (cV L) (jV L)) ↦{fullShare} f : sProp 𝕄) = (V d (cV L) (jV L)).loc cc0_scratch5 ↦{fullShare} f := rfl

variable (ids : IVec S16384 32) (TA TB : FVec F S125000x128 .f32)

def inv1 (k : Nat) (_ : PUnit) : sProp 𝕄 :=
  iprop(∃ SID, ((sId).view.loc (V d (cV L) (jV L)) ↦{fullShare} SID) ∗ ⌜SIDok L ids SID⌝
    ∗ (∃ r0, ((sR0).view.loc (V d (cV L) (jV L)) ↦{fullShare} r0) ∗ ⌜RowsUpTo 0 k SID r0⌝)
    ∗ (∃ r1, ((sR1).view.loc (V d (cV L) (jV L)) ↦{fullShare} r1) ∗ ⌜RowsUpTo 256 k SID r1⌝))

def inv2 [FloatOps F] (off : Nat) (k : Nat) (_ : PUnit) : sProp 𝕄 :=
  iprop(∃ SID a b, ((sId).view.loc (V d (cV L) (jV L)) ↦{fullShare} SID)
    ∗ ((sA).view.loc (V d (cV L) (jV L)) ↦{fullShare} a) ∗ ((sB).view.loc (V d (cV L) (jV L)) ↦{fullShare} b)
    ∗ ⌜SIDok L ids SID ∧ BlkOK L ids off TA a ∧ BlkOK L ids off TB b⌝
    ∗ ∃ o, ((sO).view.loc (V d (cV L) (jV L)) ↦{fullShare} o) ∗ ⌜OutDone L ids TA TB (off + 16 * k) o⌝)

end Tile

theorem body_core (ids : IVec S16384 32) (TA TB : FVec F S125000x128 .f32)
    (hpre : Cert.Spec.InRange ids) (h1 : T1Step (F := F)) (h2 : T2Step (F := F)) (h3 : T3Step (F := F)) :
    BodyCore ids TA TB := by
  intro d L q fO O W s0 s1 s2 s3 s4 s5
  iintro ⟨#Hmw, HI, HA, HB, HOut, Hs0, Hs1, Hs2, Hs3, Hs4, Hs5, Hsem0, Hsem1, HsemA, HsemB, HO⟩
  ihave HI' := (Entails.of_eq (pts_id (F := F) d L _ _).symm) $$ HI
  ihave HA' := (Entails.of_eq (pts_a (F := F) d L _ _).symm) $$ HA
  ihave HB' := (Entails.of_eq (pts_b (F := F) d L _ _).symm) $$ HB
  ihave HOut' := (Entails.of_eq (pts_o (F := F) d L _).symm) $$ HOut
  ihave Hs0' := (Entails.of_eq (pts_sId (F := F) d L _).symm) $$ Hs0
  ihave Hs1' := (Entails.of_eq (pts_sR0 (F := F) d L _).symm) $$ Hs1
  ihave Hs2' := (Entails.of_eq (pts_sR1 (F := F) d L _).symm) $$ Hs2
  ihave Hs3' := (Entails.of_eq (pts_sA (F := F) d L _).symm) $$ Hs3
  ihave Hs4' := (Entails.of_eq (pts_sB (F := F) d L _).symm) $$ Hs4
  ihave Hs5' := (Entails.of_eq (pts_sO (F := F) d L _).symm) $$ Hs5
  sl_unfold [cc0__tile_body]
  sl_exec
  -- the identifiers are in the scratch; the loop that fills the two row lists
  sl_for (inv1 (F := F) d L ids) $$ [Hs0' Hs1' Hs2']
  case region =>
    intro k _
    unfold inv1
    iintro ⟨%SID, Hs0, %hS, ⟨%r0, Hs1, %hr0⟩, ⟨%r1, Hs2, %hr1⟩⟩
    iapply (wp_wand_r Idealize.ShloMosaic.frame (wpE (defs₀ (F := F)) 𝒱₀ (V d (cV L) (jV L)) none) Set.univ)
    isplitl [Hs0 Hs1 Hs2]
    · iapply (h1 d L k SID r0 r1)
      isplitl [Hs0]; · iexact Hs0
      isplitl [Hs1]; · iexact Hs1
      iexact Hs2
    · iintro %_ ⟨Hs0, ⟨%r0', Hs1, %hr0'⟩, ⟨%r1', Hs2, %hr1'⟩⟩
      iexists SID
      isplitl [Hs0]; · iexact Hs0
      isplitr; · ipureintro; exact hS
      isplitl [Hs1]
      · iexists r0'; isplitl [Hs1]; · iexact Hs1
        ipureintro; exact rows_step hr0 hr0'
      · iexists r1'; isplitl [Hs2]; · iexact Hs2
        ipureintro; exact rows_step hr1 hr1'
  · unfold inv1
    iexists _
    isplitl [Hs0']; · iexact Hs0'
    isplitr; · ipureintro; exact sidok_init (F := F) L ids s0
    isplitl [Hs1']
    · iexists _; isplitl [Hs1']; · iexact Hs1'
      ipureintro; exact rows_zero
    · iexists _; isplitl [Hs2']; · iexact Hs2'
      ipureintro; exact rows_zero
  iintro %_ HI1
  unfold inv1
  icases HI1 with ⟨%SID, Hs0, %hS, ⟨%r0, Hs1, %hr0⟩, ⟨%r1, Hs2, %hr1⟩⟩
  rw [trips_t1] at hr0 hr1
  have hin0 := hin_sR0 (F := F) r0 (fun j => (rows_lt L ids hpre (by decide) hS hr0 j).2)
  have hin1 := hin_sR1 (F := F) r1 (fun j => (rows_lt L ids hpre (by decide) hS hr1 j).2)
  ihave Hs1s := (pointsTo_share (PosShare.mem_left_op_right fullShare)).1 $$ Hs1
  icases Hs1s with ⟨Hs1a, Hs1b⟩
  ihave Hs2s := (pointsTo_share (PosShare.mem_left_op_right fullShare)).1 $$ Hs2
  icases Hs2s with ⟨Hs2a, Hs2b⟩
  -- the first 256 rows of the two tables gathered; the loop that picks the coordinates out of them
  sl_exec
  sl_for (inv2 (F := F) d L ids TA TB 0) $$ [Hs0 Hs3' Hs4' Hs5']
  case region =>
    intro k _
    unfold inv2
    iintro ⟨%SID', %a, %b, Hs0, Hs3, Hs4, %hab, %o, Hs5, %ho⟩
    iapply (wp_wand_r Idealize.ShloMosaic.frame (wpE (defs₀ (F := F)) 𝒱₀ (V d (cV L) (jV L)) none) Set.univ)
    isplitl [Hs0 Hs3 Hs4 Hs5]
    · iapply (h2 d L k SID' a b o)
      isplitl [Hs0]; · iexact Hs0
      isplitl [Hs3]; · iexact Hs3
      isplitl [Hs4]; · iexact Hs4
      iexact Hs5
    · iintro %_ ⟨Hs0, Hs3, Hs4, %o', Hs5, %ho'⟩
      iexists SID', a, b
      isplitl [Hs0]; · iexact Hs0
      isplitl [Hs3]; · iexact Hs3
      isplitl [Hs4]; · iexact Hs4
      isplitr; · ipureintro; exact hab
      iexists o'; isplitl [Hs5]; · iexact Hs5
      ipureintro
      exact out_step L ids TA TB (.inl rfl) (lt_of_lt_of_eq k.isLt trips_t2) hpre hab.1 hab.2.1 hab.2.2 ho ho'
  · unfold inv2
    iexists _, _, _
    isplitl [Hs0]; · iexact Hs0
    isplitl [Hs3']; · iexact Hs3'
    isplitl [Hs4']; · iexact Hs4'
    isplitr
    · ipureintro
      exact ⟨hS, blk_A0 L ids TA hpre hS _ _ hr0 _ hin0, blk_B0 L ids TB hpre hS _ _ hr0 _ hin0⟩
    iexists _; isplitl [Hs5']; · iexact Hs5'
    ipureintro; intro c jj hj; omega
  iintro %_ HI2
  unfold inv2
  icases HI2 with ⟨%SID2, %a2, %b2, Hs0, Hs3, Hs4, %hab2, %o2, Hs5, %ho2⟩
  rw [trips_t2] at ho2
  -- the last 256 rows gathered; the second loop
  sl_exec
  sl_for (inv2 (F := F) d L ids TA TB 256) $$ [Hs0 Hs3 Hs4 Hs5]
  case region =>
    intro k _
    unfold inv2
    iintro ⟨%SID', %a, %b, Hs0, Hs3, Hs4, %hab, %o, Hs5, %ho⟩
    iapply (wp_wand_r Idealize.ShloMosaic.frame (wpE (defs₀ (F := F)) 𝒱₀ (V d (cV L) (jV L)) none) Set.univ)
    isplitl [Hs0 Hs3 Hs4 Hs5]
    · iapply (h3 d L k SID' a b o)
      isplitl [Hs0]; · iexact Hs0
      isplitl [Hs3]; · iexact Hs3
      isplitl [Hs4]; · iexact Hs4
      iexact Hs5
    · iintro %_ ⟨Hs0, Hs3, Hs4, %o', Hs5, %ho'⟩
      iexists SID', a, b
      isplitl [Hs0]; · iexact Hs0
      isplitl [Hs3]; · iexact Hs3
      isplitl [Hs4]; · iexact Hs4
      isplitr; · ipureintro; exact hab
      iexists o'; isplitl [Hs5]; · iexact Hs5
      ipureintro
      exact out_step L ids TA TB (.inr rfl) (lt_of_lt_of_eq k.isLt trips_t3) hpre hab.1 hab.2.1 hab.2.2 ho ho'
  · unfold inv2
    iexists _, _, _
    isplitl [Hs0]; · iexact Hs0
    isplitl [Hs3]; · iexact Hs3
    isplitl [Hs4]; · iexact Hs4
    isplitr
    · ipureintro
      exact ⟨hab2.1, blk_A1 L ids TA hpre hS _ _ hr1 _ hin1, blk_B1 L ids TB hpre hS _ _ hr1 _ hin1⟩
    iexists _; isplitl [Hs5]; · iexact Hs5
    ipureintro; exact ho2
  iintro %_ HI3
  unfold inv2
  icases HI3 with ⟨%SID3, %a3, %b3, Hs0, Hs3, Hs4, %hab3, %o3, Hs5, %ho3⟩
  rw [trips_t3] at ho3
  -- the block written out
  sl_exec
  sl_step
  isplitl [HI']; · iapply (Entails.of_eq (pts_id (F := F) d L _ _)); iexact HI'
  isplitl [HA']; · iapply (Entails.of_eq (pts_a (F := F) d L _ _)); iexact HA'
  isplitl [HB']; · iapply (Entails.of_eq (pts_b (F := F) d L _ _)); iexact HB'
  isplitl [HOut']
  · iexists _
    isplitl [HOut']; · iapply (Entails.of_eq (pts_o (F := F) d L _)); iexact HOut'
    ipureintro
    exact out_final L ids TA TB fO o3 ho3
  isplitl [Hs0]; · iexists _; iapply (Entails.of_eq (pts_sId (F := F) d L _)); iexact Hs0
  isplitl [Hs1a Hs1b]
  · iexists r0; iapply (Entails.of_eq (pts_sR0 (F := F) d L _))
    iapply (pointsTo_share (PosShare.mem_left_op_right fullShare)).2
    isplitl [Hs1a]; · iexact Hs1a
    iexact Hs1b
  isplitl [Hs2a Hs2b]
  · iexists r1; iapply (Entails.of_eq (pts_sR1 (F := F) d L _))
    iapply (pointsTo_share (PosShare.mem_left_op_right fullShare)).2
    isplitl [Hs2a]; · iexact Hs2a
    iexact Hs2b
  isplitl [Hs3]; · iexists _; iapply (Entails.of_eq (pts_sA (F := F) d L _)); iexact Hs3
  isplitl [Hs4]; · iexists _; iapply (Entails.of_eq (pts_sB (F := F) d L _)); iexact Hs4
  isplitl [Hs5]; · iexists _; iapply (Entails.of_eq (pts_sO (F := F) d L _)); iexact Hs5
  isplitl [Hsem0]; · iexact Hsem0
  isplitl [Hsem1]; · iexact Hsem1
  isplitl [HsemA]; · iexact HsemA
  isplitl [HsemB]; · iexact HsemB
  iexists _; isplitr
  rotate_left
  · iexact HO
  · ipureintro; intro p hp
    repeat (rcases Finset.mem_insert.mp hp with rfl | hp; · exact .inr rfl)
    exact .inl hp

end Cert.Proof.KernelIdealRun

end
-- ==== Proof.AssemblyI.lean ====
/-
  The kernel's run, assembled.

  Every vector subcore's task, proved over its resources spelt out from the three loop trips, is the task the launch
  asks of it; the launch theorem then gives the whole program's run: every weakly fair execution of all the device's
  threads terminates, nothing faulting, with the result at the looked-up sum of the two tables and the arguments
  unchanged — for identifiers that name table rows.
-/
import proofs.«209984_g46995532152932_cont_8to1c4_465_20_alg».proof.Proof.LaunchMainI
import proofs.«209984_g46995532152932_cont_8to1c4_465_20_alg».proof.Proof.TileWrapI
import proofs.«209984_g46995532152932_cont_8to1c4_465_20_alg».proof.Proof.Step1I
import proofs.«209984_g46995532152932_cont_8to1c4_465_20_alg».proof.Proof.StepI
import proofs.«209984_g46995532152932_cont_8to1c4_465_20_alg».proof.Proof.BodyI

noncomputable section

namespace Cert.Proof.KernelIdealRun

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The program's run: the result is the specification's sum, the arguments are unchanged. -/
theorem kernel_run [FloatOps F] [∀ e, Nonempty (Elt F e)] (m : (ℓ : Loc nD τ sig) → Buf (Elt F) ℓ) (ρ : Dev nD → PrngReg)
    (hpre : ∀ d : Dev nD, Cert.Spec.InRange (m (idLoc d))) :
    θ_run (Cert.KernelIdeal.defs (F := F)) (Cert.KernelIdeal.threads (F := F)) ⟨m, fun _ => 0, ρ⟩
      (fun r => ∀ c : Dev nD,
        r.2.mem ((c.tc : Thread nD τ).loc main_v3)
            = Cert.Spec.lookupSum (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  run_main' m ρ (fun d => tile_run _ _ _ (body_core _ _ _ (hpre d) t1_step t2_step t3_step))

end Cert.Proof.KernelIdealRun

end
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.RefRun.lean ====
/-
  The reference as a straight line of operations.  @main is a straight line of host operations once its two calls of the
  row-lookup function (and that function's own call of the three-way select) are unfolded at their call sites: the
  lookup's twenty-three operations over the first call's buffers, the same twenty-three over the second call's, and
  the final addition.  Every weakly fair execution of it terminates, nothing faulting, with the result buffer at the
  composed pure term `refTerm` of the three argument arrays and the arguments unchanged.
-/
import proofs.«209984_g46995532152932_cont_8to1c4_465_20_alg».proof.Proof.Gen.ReferenceIdeal
import proofs.«209984_g46995532152932_cont_8to1c4_465_20_alg».proof.Proof.LibHostCalls
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The pure term -/

/-- The identifiers with the negative ones moved up by the table's height. -/
def wrapIds (ids : IVec S16384 32) : IVec S16384 32 :=
  select (cmpi .slt ids (broadcastInDim S16384 ![] bcast_S_S16384 (constantI S_ 32 0#32)))
    (addi ids (broadcastInDim S16384 ![] bcast_S_S16384 (constantI S_ 32 1000000#32))) ids

/-- The wrapped identifiers as a column of start indices. -/
def idCol (ids : IVec S16384 32) : IVec S16384x1 32 :=
  broadcastInDim S16384x1 ![0] bcast_S16384_S16384x1_0 (wrapIds ids)

/-- Per batch position: does the wrapped identifier name a row of the table. -/
def inBounds (ids : IVec S16384 32) : IVec S16384 1 :=
  Host.reduce IntOp.andi
    (andi (cmpi .sge (idCol ids) (broadcastInDim S16384x1 ![] bcast_S_S16384x1 (constantI S_ 32 0#32)))
      (cmpi .sle (idCol ids) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- One lookup: the gathered rows where the identifier is in bounds, the fill value elsewhere. -/
def takeTerm (ids : IVec S16384 32) (A : FVec F S1000000x16 .f32) : FVec F S16384x16 .f32 :=
  select (broadcastInDim S16384x16 ![0] bcast_S16384_S16384x16_0 (inBounds ids))
    (Host.gather gather_S1000000x16_S16384x1_S16384x16_1_0_n_n_0_1_116 A (idCol ids))
    (broadcastInDim S16384x16 ![] bcast_S_S16384x16 (constant S_ .f32 0x7FC00000#32))

/-- @main's result as a function of its three argument arrays: the two lookups, added. -/
def refTerm (ids : IVec S16384 32) (A B : FVec F S1000000x16 .f32) : FVec F S16384x16 .f32 :=
  addf (takeTerm ids A) (takeTerm ids B)

/-! ## The operations -/

/-- The first call's operations (the lookup in the first table), in order, the inner call unfolded. -/
abbrev ops0 : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x16_S16384x1_S16384x16_1_0_n_n_0_1_116 x i),
    TRef.unary main_call0.v12 main_call0.v14 (broadcastInDim S16384x16 ![0] bcast_S16384_S16384x16_0),
    TRef.nullary main_call0.cst (constant S_ .f32 0x7FC00000#32),
    TRef.unary main_call0.cst main_call0.v15 (broadcastInDim S16384x16 ![] bcast_S_S16384x16),
    TRef.ternary main_call0.v14 main_call0.v13 main_call0.v15 main_call0.v16 select ]

/-- The second call's operations (the lookup in the second table). -/
abbrev ops1 : List (HloOp τ sig (Elt F)) :=
  [ TRef.nullary main_call1.c (constantI S_ 32 0#32),
    TRef.unary main_call1.c main_call1.v0 (broadcastInDim S16384 ![] bcast_S_S16384),
    TRef.binary (.of main_arg0) main_call1.v0 main_call1.v1 (cmpi .slt),
    TRef.nullary main_call1.c_0 (constantI S_ 32 1000000#32),
    TRef.unary main_call1.c_0 main_call1.v2 (broadcastInDim S16384 ![] bcast_S_S16384),
    TRef.binary (.of main_arg0) main_call1.v2 main_call1.v3 addi,
    TRef.ternary main_call1.v1 main_call1.v3 (.of main_arg0) main_call1.call0.v0 select,
    TRef.unary main_call1.call0.v0 main_call1.v5 (broadcastInDim S16384x1 ![0] bcast_S16384_S16384x1_0),
    TRef.nullary main_call1.c_1 (constantI S1 32 999999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg2) main_call1.v5 main_call1.v13 (fun x i => Host.gather gather_S1000000x16_S16384x1_S16384x16_1_0_n_n_0_1_116 x i),
    TRef.unary main_call1.v12 main_call1.v14 (broadcastInDim S16384x16 ![0] bcast_S16384_S16384x16_0),
    TRef.nullary main_call1.cst (constant S_ .f32 0x7FC00000#32),
    TRef.unary main_call1.cst main_call1.v15 (broadcastInDim S16384x16 ![] bcast_S_S16384x16),
    TRef.ternary main_call1.v14 main_call1.v13 main_call1.v15 main_call1.v16 select ]

/-- The final addition. -/
abbrev opAdd : HloOp τ sig (Elt F) :=
  binary main_v0 main_v1 main_v2 (addf : (⟨S16384x16, .f32⟩ : BufTy).Contents (Elt F) → (⟨S16384x16, .f32⟩ : BufTy).Contents (Elt F) → (⟨S16384x16, .f32⟩ : BufTy).Contents (Elt F))

/-- @main's forty-seven operations. -/
abbrev ops : List (HloOp τ sig (Elt F)) := ops0 ++ (ops1 ++ [opAdd])

set_option maxRecDepth 2048 in
/-- @main is that straight line: the functions unfolded at their calls, sequencing reassociated. -/
theorem main_eq (c : Dev nD) : main (F := F) c = seq ops := by
  simp only [main, fn_take.body, fn_where.body, ops, ops0, ops1, opAdd, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem ops_sub : (ops : List (HloOp τ sig (Elt F))).Forall fun op => op.bufs ⊆ tcRefs τ sig := by
  rw [List.forall_iff_forall_mem]
  intro op hop
  rcases List.mem_append.mp hop with h | h
  · exact List.forall_iff_forall_mem.mp ops0_sub op h
  · rcases List.mem_append.mp h with h | h
    · exact List.forall_iff_forall_mem.mp ops1_sub op h
    · rw [List.mem_singleton] at h; subst h; exact binary_bufs_sub ..

end Cert.ReferenceIdeal.Hand

end
-- ==== Proof.RefRead.lean ====
/-
  What the reference's straight line leaves in its buffers, and its run.

  The line is read in three pieces (the first lookup, the second lookup, the addition): the contents after pieces run
  in a row are the later piece's from the earlier one's.  Each lookup leaves its result buffer at the lookup's pure
  term of the identifiers and its table, and leaves the argument arrays (and, for the second lookup, the first one's
  result) as they were; the addition then reads the two results.  The typed references' transports of contents to a
  buffer's own type and back are identities: the intermediate ones cancel in pairs, the ones at the literal argument
  and result buffers are casts along a reflexive equation.
-/
import proofs.«209984_g46995532152932_cont_8to1c4_465_20_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibHostCalls

variable {F : FTy → Type} [FloatOps F]

/-! ## The first lookup -/

theorem ops0_v0 (V : Valuation τ sig (Elt F)) :
    after ops0 V (main_v0 : DevRef τ sig) = takeTerm (V (main_arg0 : DevRef τ sig)) (V (main_arg1 : DevRef τ sig)) := by
  after_results_simp
  simp only [ofBuf_toBuf]
  simp only [TRef.ofBuf, TRef.toBuf, cast_eq]
  rfl

theorem ops0_arg0 (V : Valuation τ sig (Elt F)) : after ops0 V (main_arg0 : DevRef τ sig) = V (main_arg0 : DevRef τ sig) := by
  after_results_simp
theorem ops0_arg1 (V : Valuation τ sig (Elt F)) : after ops0 V (main_arg1 : DevRef τ sig) = V (main_arg1 : DevRef τ sig) := by
  after_results_simp
theorem ops0_arg2 (V : Valuation τ sig (Elt F)) : after ops0 V (main_arg2 : DevRef τ sig) = V (main_arg2 : DevRef τ sig) := by
  after_results_simp

/-! ## The second lookup -/

theorem ops1_v1 (V : Valuation τ sig (Elt F)) :
    after ops1 V (main_v1 : DevRef τ sig) = takeTerm (V (main_arg0 : DevRef τ sig)) (V (main_arg2 : DevRef τ sig)) := by
  after_results_simp
  simp only [ofBuf_toBuf]
  simp only [TRef.ofBuf, TRef.toBuf, cast_eq]
  rfl

theorem ops1_v0 (V : Valuation τ sig (Elt F)) : after ops1 V (main_v0 : DevRef τ sig) = V (main_v0 : DevRef τ sig) := by
  after_results_simp
theorem ops1_arg0 (V : Valuation τ sig (Elt F)) : after ops1 V (main_arg0 : DevRef τ sig) = V (main_arg0 : DevRef τ sig) := by
  after_results_simp
theorem ops1_arg1 (V : Valuation τ sig (Elt F)) : after ops1 V (main_arg1 : DevRef τ sig) = V (main_arg1 : DevRef τ sig) := by
  after_results_simp
theorem ops1_arg2 (V : Valuation τ sig (Elt F)) : after ops1 V (main_arg2 : DevRef τ sig) = V (main_arg2 : DevRef τ sig) := by
  after_results_simp

/-! ## The addition -/

theorem add_v2 (V : Valuation τ sig (Elt F)) :
    after [opAdd] V (main_v2 : DevRef τ sig) = addf (V (main_v0 : DevRef τ sig)) (V (main_v1 : DevRef τ sig)) := by
  after_results
theorem add_arg0 (V : Valuation τ sig (Elt F)) : after [opAdd] V (main_arg0 : DevRef τ sig) = V (main_arg0 : DevRef τ sig) := by
  after_results
theorem add_arg1 (V : Valuation τ sig (Elt F)) : after [opAdd] V (main_arg1 : DevRef τ sig) = V (main_arg1 : DevRef τ sig) := by
  after_results
theorem add_arg2 (V : Valuation τ sig (Elt F)) : after [opAdd] V (main_arg2 : DevRef τ sig) = V (main_arg2 : DevRef τ sig) := by
  after_results

/-! ## The whole line -/

theorem ops_v2 (V : Valuation τ sig (Elt F)) :
    after ops V (main_v2 : DevRef τ sig)
      = refTerm (V (main_arg0 : DevRef τ sig)) (V (main_arg1 : DevRef τ sig)) (V (main_arg2 : DevRef τ sig)) := by
  show after (ops0 ++ (ops1 ++ [opAdd])) V _ = _
  rw [after_append, after_append, add_v2, ops1_v1, ops1_v0, ops0_v0, ops0_arg0, ops0_arg2]
  rfl

theorem ops_arg0 (V : Valuation τ sig (Elt F)) : after ops V (main_arg0 : DevRef τ sig) = V (main_arg0 : DevRef τ sig) := by
  show after (ops0 ++ (ops1 ++ [opAdd])) V _ = _
  rw [after_append, after_append, add_arg0, ops1_arg0, ops0_arg0]
theorem ops_arg1 (V : Valuation τ sig (Elt F)) : after ops V (main_arg1 : DevRef τ sig) = V (main_arg1 : DevRef τ sig) := by
  show after (ops0 ++ (ops1 ++ [opAdd])) V _ = _
  rw [after_append, after_append, add_arg1, ops1_arg1, ops0_arg1]
theorem ops_arg2 (V : Valuation τ sig (Elt F)) : after ops V (main_arg2 : DevRef τ sig) = V (main_arg2 : DevRef τ sig) := by
  show after (ops0 ++ (ops1 ++ [opAdd])) V _ = _
  rw [after_append, after_append, add_arg2, ops1_arg2, ops0_arg2]

/-! ## The run -/

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op hop
  rcases List.mem_append.mp hop with h | h
  · exact ops0_fresh op h
  · rcases List.mem_append.mp h with h | h
    · exact ops1_fresh op h
    · rw [List.mem_singleton] at h; subst h; rfl

/-- On every device, for any float values, from any memory with zero counters: every weakly fair execution of @main
    terminates with the result at `refTerm` of the arguments' launch contents and the arguments unchanged. -/
theorem run (m : (ℓ : Loc nD τ sig) → Buf (Elt F) ℓ) (g : Dev nD → PrngReg) :
    θ_run (Cert.ReferenceIdeal.defs (F := F)) (onTc (τ := Cert.ReferenceIdeal.τ) (Cert.ReferenceIdeal.main (F := F))) ⟨m, fun _ => 0, g⟩
      (fun r => ∀ c : Dev Cert.ReferenceIdeal.nD,
        r.2.mem ((c.tc : Thread Cert.ReferenceIdeal.nD Cert.ReferenceIdeal.τ).loc Cert.ReferenceIdeal.main_v2)
          = refTerm (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c => ⟨(h c main_v2).trans (ops_v2 _), (h c main_arg0).trans (ops_arg0 _),
      (h c main_arg1).trans (ops_arg1 _), (h c main_arg2).trans (ops_arg2 _)⟩)
    (run_seq scopedRefs_eq scopedSems_eq defs main (fun _ => ops) main_eq (fun _ => ops_sub) m g (fun _ => ops_fresh))

end Cert.ReferenceIdeal.Hand

end
-- ==== Proof.RefFrame.lean ====
/-
  The reference's frame: its run with the result dropped.  Every weakly fair execution of @main terminates, nothing
  faulting, with the three argument arrays as they were; the run needs no hypothesis on the arguments, so the
  precondition is not used.
-/
import proofs.«209984_g46995532152932_cont_8to1c4_465_20_alg».proof.Proof.RefRead
import proofs.«209984_g46995532152932_cont_8to1c4_465_20_alg».proof.Proof.Gen.Pre_input_domain
import proofs.«209984_g46995532152932_cont_8to1c4_465_20_alg».proof.Defs

noncomputable section

namespace Cert.ReferenceIdeal.Hand

open Idealize.ShloMosaic Idealize.SL.Sem

theorem frame :
    Cert.frame_ReferenceIdeal (hReferenceIdeal := Cert.ReferenceIdeal.Gen.facts)
      (hPre_input_domain := Cert.Pre_input_domain.Gen.facts) :=
  fun m g _ => (θ_run (Cert.ReferenceIdeal.defs (F := Ideal)) _ _).mono (fun _ h c => (h c).2) (run (F := Ideal) m g)

end Cert.ReferenceIdeal.Hand

end
-- ==== Proof.RefValue.lean ====
/-
  The reference's term is the specification, on identifiers that name a row.

  Index by index.  For an identifier `x` with `0 ≤ x ≤ 999999` (signed): the test `x < 0` fails, so the wrap keeps
  `x`; both bounds tests `x ≥ 0` and `x ≤ 999999` hold, so their conjunction, reduced over the column's one entry from
  `true`, is `true` and the final select takes the gathered entry, never the fill value; and the gather, whose only start
  axis is the table's row axis (collapsed, slice height one) and whose only offset axis is the row's sixteen
  coordinates, reads the table at row `min x 999999` and the result's own coordinate — the specification's row.
-/
import proofs.«209984_g46995532152932_cont_8to1c4_465_20_alg».proof.Proof.RefRun
import proofs.«209984_g46995532152932_cont_8to1c4_465_20_alg».proof.Proof.Spec
import Idealize.ShloMosaic.Lib.ValueIdx
import Idealize.ShloMosaic.Lib.Affine

noncomputable section

namespace Cert.ReferenceIdeal.Hand

open Cert.ReferenceIdeal Cert.ReferenceIdeal.Gen Idealize.ShloMosaic Idealize.ShloMosaic.ValueIdx

variable {F : FTy → Type} [FloatOps F]

/-! ## The wrap -/

/-- On a non-negative identifier the wrap does nothing. -/
theorem wrapIds_apply_of_nonneg (ids : IVec S16384 32) (p : Fin 16384) (h : 0 ≤ (ids (ix1 p)).toInt) :
    wrapIds ids (ix1 p) = ids (ix1 p) := by
  have h0 : (0#32 : BitVec 32).toInt = 0 := by decide
  have hc : IntOp.cmpi .slt (ids (ix1 p)) 0#32 = 0#1 :=
    eq_zero_of_ne_one (fun e => by have := IntOp.cmpi_slt.1 e; omega)
  show Scalar.select (IntOp.cmpi .slt (ids (ix1 p)) 0#32) _ (ids (ix1 p)) = _
  rw [hc, select_zero]

/-- The column of start indices at `(p, 0)` is the wrapped identifier `p`. -/
theorem idCol_apply (ids : IVec S16384 32) (p : Fin 16384) (q : Fin 1) : idCol ids (ix2 p q) = wrapIds ids (ix1 p) := by
  show wrapIds ids _ = wrapIds ids _
  refine congrArg (wrapIds ids) (funext fun a => ?_)
  match a with
  | ⟨0, _⟩ => rfl

/-! ## The bounds test -/

/-- A left fold by `and` from `true` over words that are all `true` is `true`. -/
theorem foldl_andi_one {ι : Type} (x : ι → BitVec 1) (hx : ∀ i, x i = 1#1) (l : List ι) :
    l.foldl (fun r i => IntOp.andi r (x i)) 1#1 = 1#1 := by
  induction l with
  | nil => rfl
  | cons a l ih =>
    have h1 : IntOp.andi 1#1 (x a) = 1#1 := by rw [hx a]; rfl
    rw [List.foldl_cons]
    show l.foldl _ (IntOp.andi 1#1 (x a)) = 1#1
    rw [h1]; exact ih

/-- A reduction by `and` from `true` of an array that is `true` everywhere is `true` everywhere. -/
theorem reduce_andi_one {s t u : Shape} {axes : List (Fin s.rank)} (x : IVec s 1) (init : IVec u 1) (h : s.ReducesTo axes t)
    (hu : 0 < u.numel) (hx : ∀ i, x i = 1#1) (hinit : init (Shape.Idx.first hu) = 1#1) (j : t.Idx) :
    Host.reduce IntOp.andi x init h hu j = 1#1 := by
  unfold Host.reduce
  rw [hinit]
  exact foldl_andi_one (fun n => x (s.rowMajor.symm n)) (fun n => hx _) _

/-- Identifiers that name a row are all in bounds. -/
theorem inBounds_eq_one (ids : IVec S16384 32) (h : Cert.Spec.InRange ids) (j : S16384.Idx) : inBounds ids j = 1#1 := by
  have h0 : (0#32 : BitVec 32).toInt = 0 := by decide
  have hM : (999999#32 : BitVec 32).toInt = 999999 := by decide
  refine reduce_andi_one _ _ _ _ (fun i => ?_) rfl j
  obtain ⟨p, q, rfl⟩ : ∃ (p : Fin 16384) (q : Fin 1), i = ix2 p q := ⟨i 0, i 1, eq_ix2 i⟩
  have hp : 0 ≤ (ids (ix1 p)).toInt ∧ (ids (ix1 p)).toInt ≤ 999999 := h p
  show IntOp.andi (IntOp.cmpi .sge (idCol ids (ix2 p q)) 0#32) (IntOp.cmpi .sle (idCol ids (ix2 p q)) 999999#32) = 1#1
  rw [idCol_apply, wrapIds_apply_of_nonneg ids p hp.1]
  exact IntOp.andi_eq_one.2 ⟨IntOp.cmpi_sge.2 (by omega), IntOp.cmpi_sle.2 (by omega)⟩

/-! ## The gather -/

local notation "gd" => gather_S1000000x16_S16384x1_S16384x16_1_0_n_n_0_1_116

/-- The gather read at `(p, q)`: the table at the row the start index `(p, 0)` names, read signed and clamped into the
    table, and at coordinate `q`. -/
theorem gather_rows_apply {α : Type} (A : S1000000x16.Idx → α) (idx : IVec S16384x1 32) (p : Fin 16384) (q : Fin 16) :
    Host.gather gd A idx (ix2 p q)
      = A (ix2 (⟨min (idx (ix2 p 0)).toInt.toNat 999999, by omega⟩ : Fin 1000000) q) := by
  unfold Host.gather
  congr 1
  funext a
  refine Fin.ext ?_
  match a with
  | ⟨0, _⟩ =>
    show GatherDims.start gd (ix2 p q) idx 0 + GatherDims.batchCoord gd (ix2 p q) 0 + GatherDims.offCoord gd (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd).startIndexMap from List.mem_singleton.mpr rfl)]
    have hsi : GatherDims.siIdx gd (ix2 p q) ⟨List.idxOf (0 : Fin 2) (gd).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show GatherDims.start gd (ix2 p q) idx 1 + GatherDims.batchCoord gd (ix2 p q) 1 + GatherDims.offCoord gd (ix2 p q) 1 = q.val
    rw [GatherDims.batchCoord_eq_zero _ _ _ List.not_mem_nil]
    unfold GatherDims.start
    rw [dif_neg (show (1 : Fin 2) ∉ (gd).startIndexMap by decide)]
    unfold GatherDims.offCoord
    rw [dif_pos (show (1 : Fin 2) ∈ GatherDims.sKept gd by decide)]
    simp only [Nat.zero_add, Nat.add_zero]
    rfl

/-! ## The lookup, and the sum -/

/-- One lookup on identifiers that name a row is the specification's rows of the table. -/
theorem takeTerm_eq (ids : IVec S16384 32) (A : FVec F S1000000x16 .f32) (h : Cert.Spec.InRange ids) :
    takeTerm ids A = Cert.Spec.rows ids A := by
  funext i
  obtain ⟨p, q, rfl⟩ : ∃ (p : Fin 16384) (q : Fin 16), i = ix2 p q := ⟨i 0, i 1, eq_ix2 i⟩
  have hb : broadcastInDim S16384x16 ![0] bcast_S16384_S16384x16_0 (inBounds ids) (ix2 p q) = 1#1 := by
    show inBounds ids _ = 1#1
    exact inBounds_eq_one ids h _
  have he : idCol ids (ix2 p 0) = ids (ix1 p) := by
    rw [idCol_apply, wrapIds_apply_of_nonneg ids p (h p).1]
  unfold takeTerm
  rw [select_apply, hb, select_one, gather_rows_apply]
  show A (ix2 _ q) = A (ix2 (Cert.Spec.row ids p) q)
  refine congrArg A (congrArg (fun r => ix2 r q) (Fin.ext ?_))
  show min (idCol ids (ix2 p 0)).toInt.toNat 999999 = min (ids (ix1 p)).toInt.toNat 999999
  rw [he]

/-- The reference's term is the specification. -/
theorem refTerm_eq (ids : IVec S16384 32) (A B : FVec F S1000000x16 .f32) (h : Cert.Spec.InRange ids) :
    refTerm ids A B = Cert.Spec.lookupSum (F := F) ids A B := by
  unfold refTerm Cert.Spec.lookupSum
  rw [takeTerm_eq ids A h, takeTerm_eq ids B h]

end Cert.ReferenceIdeal.Hand

end
-- ==== Proof.lean ====
/-
  The lookup kernel and its reference compute the same array, and each of the three programs runs to its end with its
  arguments unchanged.

  What is computed.  From 16384 identifiers and two tables of 1000000 rows of 16 numbers, entry (j, c) of the result
  is A[id j, c] + B[id j, c]: row id j of each table, added coordinate by coordinate.

  The reference takes row id j of each table directly (a gather whose start index is the identifier, after a wrap of
  negative identifiers and under an in-bounds test that selects a fill value otherwise) and adds the two gathered
  arrays.  On identifiers in [0, 999999] the wrap keeps the identifier, the test holds, and the gather's clamp does
  nothing, so the reference's term is that sum.

  The kernel works on the tables reshaped to 125000 rows of 128 lanes, in which eight consecutive rows of a table share
  one row: entry (id, c) of a table is lane (id mod 8)·16 + c of row id / 8 of its reshaped table.  Each of the 32
  vector subcores takes 512 identifiers; it shifts each right by three to get the reshaped row, gathers those rows of
  both reshaped tables, and for every coordinate c reads lane (id mod 8)·16 + c of each gathered row, adds the two and
  stores the sum at (c, j) of its block of the transposed result; the host then transposes.  Row id / 8 is below
  125000 and the lane below 128 exactly because 0 ≤ id ≤ 999999, which is what the precondition states of the
  identifiers: it keeps every gathered row and every lane read in range, so no thread is left without a step.

  Both programs add the same two entries in the same order at every index, so the results are equal entry by entry:
  no algebraic law of the extended reals is used, and no finiteness of the tables' entries.

  The frames are the runs with the value dropped; the idealization changed no operation of the kernel, so there is
  nothing to preserve; the equivalence names the common result as the specification's sum of the kernel's arguments
  and reads the reference's run through the agreement of the two memories on the arguments.
-/
import proofs.«209984_g46995532152932_cont_8to1c4_465_20_alg».proof.Defs
import proofs.«209984_g46995532152932_cont_8to1c4_465_20_alg».proof.Proof.Gen.Kernel
import proofs.«209984_g46995532152932_cont_8to1c4_465_20_alg».proof.Proof.Gen.Kernel.Skeleton
import proofs.«209984_g46995532152932_cont_8to1c4_465_20_alg».proof.Proof.Gen.KernelIdeal
import proofs.«209984_g46995532152932_cont_8to1c4_465_20_alg».proof.Proof.Gen.KernelIdeal.Skeleton
import proofs.«209984_g46995532152932_cont_8to1c4_465_20_alg».proof.Proof.Gen.ReferenceIdeal
import proofs.«209984_g46995532152932_cont_8to1c4_465_20_alg».proof.Proof.Gen.Pre_input_domain
import proofs.«209984_g46995532152932_cont_8to1c4_465_20_alg».proof.Proof.AssemblyK
import proofs.«209984_g46995532152932_cont_8to1c4_465_20_alg».proof.Proof.AssemblyI
import proofs.«209984_g46995532152932_cont_8to1c4_465_20_alg».proof.Proof.RefFrame
import proofs.«209984_g46995532152932_cont_8to1c4_465_20_alg».proof.Proof.RefValue
import proofs.«209984_g46995532152932_cont_8to1c4_465_20_alg».proof.Proof.PreDecode
import Idealize.ShloMosaic.Adequacy
import Idealize.ShloMosaic.Init

noncomputable section

namespace Cert.Proof

open Idealize.ShloMosaic Idealize.SL.Sem

/-- The word-level kernel runs and leaves its arguments unchanged. -/
theorem frame_Kernel :
    Cert.frame_Kernel (hKernel := Cert.Kernel.Gen.facts) (hPre_input_domain := Cert.Pre_input_domain.Gen.facts) :=
  fun m g hpre => (θ_run (Cert.Kernel.defs (F := Bits)) _ _).mono (fun _ h c => (h c).2)
    (Cert.Proof.KernelRun.kernel_run (F := Bits) m g (fun d => Cert.PreDecode.inRange_of_pre _ _ _ (hpre d)))

/-- The idealized kernel runs and leaves its arguments unchanged. -/
theorem frame_KernelIdeal :
    Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2)
    (Cert.Proof.KernelIdealRun.kernel_run (F := Ideal) m g (fun d => Cert.PreDecode.inRange_of_pre _ _ _ (hpre d)))

/-- The idealized kernel and the idealized reference end with the same result: the looked-up sum of the arguments. -/
theorem algebraic :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  fun m g m' g' hpre hagree =>
    ⟨fun c => Cert.Spec.lookupSum (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.Proof.KernelIdealRun.kernel_run (F := Ideal) m g (fun d => Cert.PreDecode.inRange_of_pre _ _ _ (hpre d)),
      (θ_run (Cert.ReferenceIdeal.defs (F := Ideal)) _ _).mono
        (fun _ h c => ⟨by
            have hin : Cert.Spec.InRange (m' ((c.tc : Thread Cert.ReferenceIdeal.nD Cert.ReferenceIdeal.τ).loc Cert.ReferenceIdeal.main_arg0)) := by
              rw [(hagree c).1]; exact Cert.PreDecode.inRange_of_pre _ _ _ (hpre c)
            rw [(h c).1, Cert.ReferenceIdeal.Hand.refTerm_eq _ _ _ hin, (hagree c).1, (hagree c).2.1, (hagree c).2.2],
          (h c).2⟩)
        (Cert.ReferenceIdeal.Hand.run (F := Ideal) m' g')⟩

theorem claim : Cert.Claim :=
  ⟨Cert.Kernel.Gen.facts, Cert.KernelIdeal.Gen.facts, Cert.ReferenceIdeal.Gen.facts, Cert.Pre_input_domain.Gen.facts,
    frame_Kernel, frame_KernelIdeal, Cert.ReferenceIdeal.Hand.frame, trivial, algebraic⟩

end Cert.Proof

end
